-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v229)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v229) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S10000x32 : Shape := ⟨2, ![10000, 32]⟩
abbrev S32x64 : Shape := ⟨2, ![32, 64]⟩
abbrev S64 : Shape := ⟨1, ![64]⟩
abbrev S64x64 : Shape := ⟨2, ![64, 64]⟩
abbrev S128x2 : Shape := ⟨2, ![128, 2]⟩
abbrev S2 : Shape := ⟨1, ![2]⟩
abbrev S128x128 : Shape := ⟨2, ![128, 128]⟩
abbrev S128 : Shape := ⟨1, ![128]⟩
abbrev S128x64 : Shape := ⟨2, ![128, 64]⟩
abbrev S64x2 : Shape := ⟨2, ![64, 2]⟩
abbrev S1200000 : Shape := ⟨1, ![1200000]⟩
abbrev S160000 : Shape := ⟨1, ![160000]⟩
abbrev S200000 : Shape := ⟨1, ![200000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S10000x32 : S_.BroadcastsInDim S10000x32 (![] : Fin 0 → Fin S10000x32.rank)
  reducesTo_S10000x32_S_d0_1 : S10000x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x2 : S_.BroadcastsInDim S64x2 (![] : Fin 0 → Fin S64x2.rank)
  reducesTo_S64x2_S_d0_1 : S64x2.ReducesTo [0, 1] S_
  bcast_S_S1200000 : S_.BroadcastsInDim S1200000 (![] : Fin 0 → Fin S1200000.rank)
  reducesTo_S1200000_S_d0 : S1200000.ReducesTo [0] S_
  bcast_S_S160000 : S_.BroadcastsInDim S160000 (![] : Fin 0 → Fin S160000.rank)
  reducesTo_S160000_S_d0 : S160000.ReducesTo [0] S_

variable [Facts]

def fn_part4 {F : FTy → Type} [FloatOps F] (main_arg15 : IVec S1200000 32) (main_arg17 : IVec S160000 32) (main_v63 : IVec S_ 1) (main_v67 : IVec S_ 1) : IVec S_ 1 :=
  let main_v68 : IVec S_ 1 := andi main_v63 main_v67
  let main_c_26 : IVec S_ 32 := constantI S_ 32 0#32
  let main_v69 : IVec S1200000 32 := broadcastInDim S1200000 ![] bcast_S_S1200000 main_c_26
  let main_v70 : IVec S1200000 1 := cmpi .sge main_arg15 main_v69
  let main_c_27 : IVec S_ 1 := constantI S_ 1 1#1
  let main_v71 : IVec S_ 1 := (fun x v => Host.reduce IntOp.andi x v reducesTo_S1200000_S_d0 h_S_) main_v70 main_c_27
  let main_v72 : IVec S_ 1 := andi main_v68 main_v71
  let main_c_28 : IVec S_ 32 := constantI S_ 32 0#32
  let main_v73 : IVec S160000 32 := broadcastInDim S160000 ![] bcast_S_S160000 main_c_28
  let main_v74 : IVec S160000 1 := cmpi .sge main_arg17 main_v73
  let main_c_29 : IVec S_ 1 := constantI S_ 1 1#1
  let main_v75 : IVec S_ 1 := (fun x v => Host.reduce IntOp.andi x v reducesTo_S160000_S_d0 h_S_) main_v74 main_c_29
  let main_v76 : IVec S_ 1 := andi main_v72 main_v75
  main_v76

def fn_part3 {F : FTy → Type} [FloatOps F] (main_arg11 : FVec F S64 .f32) (main_arg12 : FVec F S64x2 .f32) (main_arg13 : FVec F S2 .f32) (main_arg15 : IVec S1200000 32) (main_arg17 : IVec S160000 32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x2 .f32 := Host.absf main_arg12
  let main_cst_22 : FVec F S_ .f32 := constant S_ .f32 0x7F800000#32
  let main_v60 : FVec F S64x2 .f32 := broadcastInDim S64x2 ![] bcast_S_S64x2 main_cst_22
  let main_v61 : IVec S64x2 1 := cmpf .olt main_v59 main_v60
  let main_c_23 : IVec S_ 1 := constantI S_ 1 1#1
  let main_v62 : IVec S_ 1 := (fun x v => Host.reduce IntOp.andi x v reducesTo_S64x2_S_d0_1 h_S_) main_v61 main_c_23
  let main_v63 : IVec S_ 1 := andi main_v58 main_v62
  let main_v64 : FVec F S2 .f32 := Host.absf main_arg13
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg15 main_arg17 main_v63 main_v67

def fn_part2 {F : FTy → Type} [FloatOps F] (main_arg7 : FVec F S2 .f32) (main_arg8 : FVec F S128x128 .f32) (main_arg9 : FVec F S128 .f32) (main_arg10 : FVec F S128x64 .f32) (main_arg11 : FVec F S64 .f32) (main_arg12 : FVec F S64x2 .f32) (main_arg13 : FVec F S2 .f32) (main_arg15 : IVec S1200000 32) (main_arg17 : IVec S160000 32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg15 main_arg17 main_v48 main_v49 main_v50

def fn_part1 {F : FTy → Type} [FloatOps F] (main_arg4 : FVec F S64x64 .f32) (main_arg5 : FVec F S64 .f32) (main_arg6 : FVec F S128x2 .f32) (main_arg7 : FVec F S2 .f32) (main_arg8 : FVec F S128x128 .f32) (main_arg9 : FVec F S128 .f32) (main_arg10 : FVec F S128x64 .f32) (main_arg11 : FVec F S64 .f32) (main_arg12 : FVec F S64x2 .f32) (main_arg13 : FVec F S2 .f32) (main_arg15 : IVec S1200000 32) (main_arg17 : IVec S160000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_arg8 main_arg9 main_arg10 main_arg11 main_arg12 main_arg13 main_arg15 main_arg17 main_v33

def fn {F : FTy → Type} [FloatOps F] (main_arg0 : FVec F S200000x64 .f32) (main_arg1 : FVec F S10000x32 .f32) (main_arg2 : FVec F S32x64 .f32) (main_arg3 : FVec F S64 .f32) (main_arg4 : FVec F S64x64 .f32) (main_arg5 : FVec F S64 .f32) (main_arg6 : FVec F S128x2 .f32) (main_arg7 : FVec F S2 .f32) (main_arg8 : FVec F S128x128 .f32) (main_arg9 : FVec F S128 .f32) (main_arg10 : FVec F S128x64 .f32) (main_arg11 : FVec F S64 .f32) (main_arg12 : FVec F S64x2 .f32) (main_arg13 : FVec F S2 .f32) (main_arg14 : IVec S1200000 32) (main_arg15 : IVec S1200000 32) (main_arg16 : IVec S160000 32) (main_arg17 : IVec S160000 32) (main_arg18 : IVec S200000 32) (main_arg19 : IVec S200000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S10000x32 .f32 := Host.absf main_arg1
  let main_cst_0 : FVec F S_ .f32 := constant S_ .f32 0x7F800000#32
  let main_v5 : FVec F S10000x32 .f32 := broadcastInDim S10000x32 ![] bcast_S_S10000x32 main_cst_0
  let main_v6 : IVec S10000x32 1 := cmpf .olt main_v4 main_v5
  let main_c_1 : IVec S_ 1 := constantI S_ 1 1#1
  let main_v7 : IVec S_ 1 := (fun x v => Host.reduce IntOp.andi x v reducesTo_S10000x32_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg15 main_arg17 main_v13 main_v16
-- ==== Kernel.lean ====
abbrev S200000x64 : Shape := ⟨2, ![200000, 64]⟩
abbrev S10000x32 : Shape := ⟨2, ![10000, 32]⟩
abbrev S32x64 : Shape := ⟨2, ![32, 64]⟩
abbrev S64 : Shape := ⟨1, ![64]⟩
abbrev S64x64 : Shape := ⟨2, ![64, 64]⟩
abbrev S128x2 : Shape := ⟨2, ![128, 2]⟩
abbrev S2 : Shape := ⟨1, ![2]⟩
abbrev S128x128 : Shape := ⟨2, ![128, 128]⟩
abbrev S128 : Shape := ⟨1, ![128]⟩
abbrev S128x64 : Shape := ⟨2, ![128, 64]⟩
abbrev S64x2 : Shape := ⟨2, ![64, 2]⟩
abbrev S1200000 : Shape := ⟨1, ![1200000]⟩
abbrev S160000 : Shape := ⟨1, ![160000]⟩
abbrev S200000 : Shape := ⟨1, ![200000]⟩
abbrev S10000x64 : Shape := ⟨2, ![10000, 64]⟩
abbrev S2000x32 : Shape := ⟨2, ![2000, 32]⟩
abbrev S2000x64 : Shape := ⟨2, ![2000, 64]⟩
abbrev S_ : Shape := ⟨0, ![]⟩
abbrev S10000 : Shape := ⟨1, ![10000]⟩
abbrev S160000x1 : Shape := ⟨2, ![160000, 1]⟩
abbrev S160000x64 : Shape := ⟨2, ![160000, 64]⟩
abbrev S10000x1 : Shape := ⟨2, ![10000, 1]⟩
abbrev S1x64 : Shape := ⟨2, ![1, 64]⟩
abbrev S2000x1 : Shape := ⟨2, ![2000, 1]⟩
abbrev S200000x1 : Shape := ⟨2, ![200000, 1]⟩
abbrev S1x2 : Shape := ⟨2, ![1, 2]⟩
abbrev S200000x128 : Shape := ⟨2, ![200000, 128]⟩
abbrev S5000x64 : Shape := ⟨2, ![5000, 64]⟩
abbrev S5000x128 : Shape := ⟨2, ![5000, 128]⟩
abbrev S5000x2 : Shape := ⟨2, ![5000, 2]⟩
abbrev S5000 : Shape := ⟨1, ![5000]⟩
abbrev S5000x1 : Shape := ⟨2, ![5000, 1]⟩
abbrev S1200000x1 : Shape := ⟨2, ![1200000, 1]⟩
abbrev S1200000x128 : Shape := ⟨2, ![1200000, 128]⟩
abbrev S1x128 : Shape := ⟨2, ![1, 128]⟩
abbrev S1200000x64 : Shape := ⟨2, ![1200000, 64]⟩
abbrev S200000x2 : Shape := ⟨2, ![200000, 2]⟩
abbrev S1200000x2 : Shape := ⟨2, ![1200000, 2]⟩

abbrev nBuf : Space → Nat
  | .hbm => 312
  | .vmem => 82
  | .smem => 0
  | _ => 0

abbrev hbmTy0_0 (i : Nat) : BufTy := match i % 128 with
  | 0 => ⟨S200000x64, .f32⟩
  | 1 => ⟨S10000x32, .f32⟩
  | 2 => ⟨S32x64, .f32⟩
  | 3 => ⟨S64, .f32⟩
  | 4 => ⟨S64x64, .f32⟩
  | 5 => ⟨S64, .f32⟩
  | 6 => ⟨S128x2, .f32⟩
  | 7 => ⟨S2, .f32⟩
  | 8 => ⟨S128x128, .f32⟩
  | 9 => ⟨S128, .f32⟩
  | 10 => ⟨S128x64, .f32⟩
  | 11 => ⟨S64, .f32⟩
  | 12 => ⟨S64x2, .f32⟩
  | 13 => ⟨S2, .f32⟩
  | 14 => ⟨S1200000, .i32⟩
  | 15 => ⟨S1200000, .i32⟩
  | 16 => ⟨S160000, .i32⟩
  | 17 => ⟨S160000, .i32⟩
  | 18 => ⟨S200000, .i32⟩
  | 19 => ⟨S200000, .i32⟩
  | 20 => ⟨S10000x64, .f32⟩
  | 21 => ⟨S_, .f32⟩
  | 22 => ⟨S160000, .f32⟩
  | 23 => ⟨S_, .f32⟩
  | 24 => ⟨S10000, .f32⟩
  | 25 => ⟨S160000x1, .i32⟩
  | 26 => ⟨S10000, .f32⟩
  | 27 => ⟨S_, .f32⟩
  | 28 => ⟨S10000, .f32⟩
  | 29 => ⟨S10000, .f32⟩
  | 30 => ⟨S10000, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000, .f32⟩
  | 49 => ⟨S160000, .f32⟩
  | 50 => ⟨S_, .i32⟩
  | 51 => ⟨S160000, .i32⟩
  | 52 => ⟨S160000, .i1⟩
  | 53 => ⟨S_, .i32⟩
  | 54 => ⟨S160000, .i32⟩
  | 55 => ⟨S160000, .i32⟩
  | 56 => ⟨S160000, .i32⟩
  | 57 => ⟨S160000x1, .i32⟩
  | 58 => ⟨S160000x64, .f32⟩
  | 59 => ⟨S160000x1, .f32⟩
  | 60 => ⟨S160000x64, .f32⟩
  | 61 => ⟨S160000x64, .f32⟩
  | 62 => ⟨S_, .f32⟩
  | 63 => ⟨S10000x64, .f32⟩
  | 64 => ⟨S160000x1, .i32⟩
  | 65 => ⟨S10000x64, .f32⟩
  | 66 => ⟨S_, .f32⟩
  | 67 => ⟨S10000, .f32⟩
  | 68 => ⟨S10000, .f32⟩
  | 69 => ⟨S10000x1, .f32⟩
  | 70 => ⟨S1x64, .f32⟩
  | 71 => ⟨S10000x64, .f32⟩
  | 72 => ⟨S10000x64, .f32⟩
  | 73 => ⟨S_, .f32⟩
  | 74 => ⟨S160000, .f32⟩
  | 75 => ⟨S_, .f32⟩
  | 76 => ⟨S10000, .f32⟩
  | 77 => ⟨S160000x1, .i32⟩
  | 78 => ⟨S10000, .f32⟩
  | 79 => ⟨S_, .f32⟩
  | 80 => ⟨S10000, .f32⟩
  | 81 => ⟨S10000, .f32⟩
  | 82 => ⟨S10000, .f32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S160000, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000, .f32⟩
  | 101 => ⟨S160000, .f32⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S160000x64, .f32⟩
  | 111 => ⟨S160000x1, .f32⟩
  | 112 => ⟨S160000x64, .f32⟩
  | 113 => ⟨S160000x64, .f32⟩
  | 114 => ⟨S_, .f32⟩
  | 115 => ⟨S10000x64, .f32⟩
  | 116 => ⟨S160000x1, .i32⟩
  | 117 => ⟨S10000x64, .f32⟩
  | 118 => ⟨S_, .f32⟩
  | 119 => ⟨S10000, .f32⟩
  | 120 => ⟨S10000, .f32⟩
  | 121 => ⟨S10000x1, .f32⟩
  | 122 => ⟨S1x64, .f32⟩
  | 123 => ⟨S10000x64, .f32⟩
  | 124 => ⟨S_, .i32⟩
  | 125 => ⟨S200000, .i32⟩
  | 126 => ⟨S200000, .i1⟩
  | 127 => ⟨S_, .i32⟩
  | _ => ⟨S200000x64, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x64, .f32⟩
  | 5 => ⟨S1x2, .f32⟩
  | 6 => ⟨S200000x128, .f32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x128, .f32⟩
  | 16 => ⟨S200000x128, .f32⟩
  | 17 => ⟨S_, .f32⟩
  | 18 => ⟨S1200000, .f32⟩
  | 19 => ⟨S_, .f32⟩
  | 20 => ⟨S200000, .f32⟩
  | 21 => ⟨S1200000x1, .i32⟩
  | 22 => ⟨S200000, .f32⟩
  | 23 => ⟨S_, .f32⟩
  | 24 => ⟨S200000, .f32⟩
  | 25 => ⟨S200000, .f32⟩
  | 26 => ⟨S200000, .f32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000, .f32⟩
  | 36 => ⟨S_, .i32⟩
  | 37 => ⟨S1200000, .i32⟩
  | 38 => ⟨S1200000, .i1⟩
  | 39 => ⟨S_, .i32⟩
  | 40 => ⟨S1200000, .i32⟩
  | 41 => ⟨S1200000, .i32⟩
  | 42 => ⟨S1200000, .i32⟩
  | 43 => ⟨S1200000x1, .i32⟩
  | 44 => ⟨S1200000, .f32⟩
  | 45 => ⟨S1200000, .f32⟩
  | 46 => ⟨S_, .i32⟩
  | 47 => ⟨S1200000, .i32⟩
  | 48 => ⟨S1200000, .i1⟩
  | 49 => ⟨S_, .i32⟩
  | 50 => ⟨S1200000, .i32⟩
  | 51 => ⟨S1200000, .i32⟩
  | 52 => ⟨S1200000, .i32⟩
  | 53 => ⟨S1200000x1, .i32⟩
  | 54 => ⟨S1200000x128, .f32⟩
  | 55 => ⟨S1200000x1, .f32⟩
  | 56 => ⟨S1200000x128, .f32⟩
  | 57 => ⟨S1200000x128, .f32⟩
  | 58 => ⟨S_, .f32⟩
  | 59 => ⟨S200000x128, .f32⟩
  | 60 => ⟨S1200000x1, .i32⟩
  | 61 => ⟨S200000x128, .f32⟩
  | 62 => ⟨S_, .f32⟩
  | 63 => ⟨S200000, .f32⟩
  | 64 => ⟨S200000, .f32⟩
  | 65 => ⟨S200000x1, .f32⟩
  | 66 => ⟨S1x128, .f32⟩
  | 67 => ⟨S200000x128, .f32⟩
  | 68 => ⟨S200000x64, .f32⟩
  | 69 => ⟨S_, .f32⟩
  | 70 => ⟨S1200000, .f32⟩
  | 71 => ⟨S_, .f32⟩
  | 72 => ⟨S200000, .f32⟩
  | 73 => ⟨S1200000x1, .i32⟩
  | 74 => ⟨S200000, .f32⟩
  | 75 => ⟨S_, .f32⟩
  | 76 => ⟨S200000, .f32⟩
  | 77 => ⟨S200000, .f32⟩
  | 78 => ⟨S200000, .f32⟩
  | 79 => ⟨S_, .i32⟩
  | 80 => ⟨S1200000, .i32⟩
  | 81 => ⟨S1200000, .i1⟩
  | 82 => ⟨S_, .i32⟩
  | 83 => ⟨S1200000, .i32⟩
  | 84 => ⟨S1200000, .i32⟩
  | 85 => ⟨S1200000, .i32⟩
  | 86 => ⟨S1200000x1, .i32⟩
  | 87 => ⟨S1200000, .f32⟩
  | 88 => ⟨S_, .i32⟩
  | 89 => ⟨S1200000, .i32⟩
  | 90 => ⟨S1200000, .i1⟩
  | 91 => ⟨S_, .i32⟩
  | 92 => ⟨S1200000, .i32⟩
  | 93 => ⟨S1200000, .i32⟩
  | 94 => ⟨S1200000, .i32⟩
  | 95 => ⟨S1200000x1, .i32⟩
  | 96 => ⟨S1200000, .f32⟩
  | 97 => ⟨S1200000, .f32⟩
  | 98 => ⟨S_, .i32⟩
  | 99 => ⟨S1200000, .i32⟩
  | 100 => ⟨S1200000, .i1⟩
  | 101 => ⟨S_, .i32⟩
  | 102 => ⟨S1200000, .i32⟩
  | 103 => ⟨S1200000, .i32⟩
  | 104 => ⟨S1200000, .i32⟩
  | 105 => ⟨S1200000x1, .i32⟩
  | 106 => ⟨S1200000x64, .f32⟩
  | 107 => ⟨S1200000x1, .f32⟩
  | 108 => ⟨S1200000x64, .f32⟩
  | 109 => ⟨S1200000x64, .f32⟩
  | 110 => ⟨S_, .f32⟩
  | 111 => ⟨S200000x64, .f32⟩
  | 112 => ⟨S1200000x1, .i32⟩
  | 113 => ⟨S200000x64, .f32⟩
  | 114 => ⟨S_, .f32⟩
  | 115 => ⟨S200000, .f32⟩
  | 116 => ⟨S200000, .f32⟩
  | 117 => ⟨S200000x1, .f32⟩
  | 118 => ⟨S1x64, .f32⟩
  | 119 => ⟨S200000x64, .f32⟩
  | 120 => ⟨S200000x2, .f32⟩
  | 121 => ⟨S_, .f32⟩
  | 122 => ⟨S1200000, .f32⟩
  | 123 => ⟨S_, .f32⟩
  | 124 => ⟨S200000, .f32⟩
  | 125 => ⟨S1200000x1, .i32⟩
  | 126 => ⟨S200000, .f32⟩
  | 127 => ⟨S_, .f32⟩
  | _ => ⟨S200000x64, .f32⟩

abbrev hbmTy0_2 (i : Nat) : BufTy := match i % 128 with
  | 0 => ⟨S200000, .f32⟩
  | 1 => ⟨S200000, .f32⟩
  | 2 => ⟨S200000, .f32⟩
  | 3 => ⟨S_, .i32⟩
  | 4 => ⟨S1200000, .i32⟩
  | 5 => ⟨S1200000, .i1⟩
  | 6 => ⟨S_, .i32⟩
  | 7 => ⟨S1200000, .i32⟩
  | 8 => ⟨S1200000, .i32⟩
  | 9 => ⟨S1200000, .i32⟩
  | 10 => ⟨S1200000x1, .i32⟩
  | 11 => ⟨S1200000, .f32⟩
  | 12 => ⟨S_, .i32⟩
  | 13 => ⟨S1200000, .i32⟩
  | 14 => ⟨S1200000, .i1⟩
  | 15 => ⟨S_, .i32⟩
  | 16 => ⟨S1200000, .i32⟩
  | 17 => ⟨S1200000, .i32⟩
  | 18 => ⟨S1200000, .i32⟩
  | 19 => ⟨S1200000x1, .i32⟩
  | 20 => ⟨S1200000, .f32⟩
  | 21 => ⟨S1200000, .f32⟩
  | 22 => ⟨S_, .i32⟩
  | 23 => ⟨S1200000, .i32⟩
  | 24 => ⟨S1200000, .i1⟩
  | 25 => ⟨S_, .i32⟩
  | 26 => ⟨S1200000, .i32⟩
  | 27 => ⟨S1200000, .i32⟩
  | 28 => ⟨S1200000, .i32⟩
  | 29 => ⟨S1200000x1, .i32⟩
  | 30 => ⟨S1200000x2, .f32⟩
  | 31 => ⟨S1200000x1, .f32⟩
  | 32 => ⟨S1200000x2, .f32⟩
  | 33 => ⟨S1200000x2, .f32⟩
  | 34 => ⟨S_, .f32⟩
  | 35 => ⟨S200000x2, .f32⟩
  | 36 => ⟨S1200000x1, .i32⟩
  | 37 => ⟨S200000x2, .f32⟩
  | 38 => ⟨S_, .f32⟩
  | 39 => ⟨S200000, .f32⟩
  | 40 => ⟨S200000, .f32⟩
  | 41 => ⟨S200000x1, .f32⟩
  | 42 => ⟨S1x2, .f32⟩
  | 43 => ⟨S200000x2, .f32⟩
  | 44 => ⟨S_, .f32⟩
  | 45 => ⟨S200000x2, .f32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S200000x2, .f32⟩
  | 55 => ⟨S200000x2, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S32x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S128x2, .f32⟩
  | .local _ .vmem, ⟨33, _⟩ => ⟨S1x2, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x1, .f32⟩
  | .local _ .vmem, ⟨60, _⟩ => ⟨S5000x1, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S64x2, .f32⟩
  | .local _ .vmem, ⟨67, _⟩ => ⟨S5000x2, .f32⟩
  | .local _ .vmem, ⟨68, _⟩ => ⟨S5000x2, .f32⟩
  | .local _ .vmem, ⟨69, _⟩ => ⟨S5000x2, .f32⟩
  | .local _ .vmem, ⟨70, _⟩ => ⟨S5000x2, .f32⟩
  | .local _ .vmem, ⟨71, _⟩ => ⟨S5000x2, .f32⟩
  | .local _ .vmem, ⟨72, _⟩ => ⟨S5000x2, .f32⟩
  | .local _ .vmem, ⟨73, _⟩ => ⟨S5000x1, .f32⟩
  | .local _ .vmem, ⟨74, _⟩ => ⟨S5000x1, .f32⟩
  | .local _ .vmem, ⟨75, _⟩ => ⟨S1x2, .f32⟩
  | .local _ .vmem, ⟨76, _⟩ => ⟨S5000x2, .f32⟩
  | .local _ .vmem, ⟨77, _⟩ => ⟨S5000x2, .f32⟩
  | .local _ .vmem, ⟨78, _⟩ => ⟨S5000x2, .f32⟩
  | .local _ .vmem, ⟨79, _⟩ => ⟨S5000x2, .f32⟩
  | .local _ .vmem, ⟨80, _⟩ => ⟨S5000x2, .f32⟩
  | .local _ .vmem, ⟨81, _⟩ => ⟨S5000x2, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_cst_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_11 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_12 : Ref sig .tc := ⟨.hbm, 83, rfl⟩
abbrev main_v49 : Ref sig .tc := ⟨.hbm, 84, rfl⟩
abbrev main_v50 : Ref sig .tc := ⟨.hbm, 85, rfl⟩
abbrev main_c_13 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_14 : Ref sig .tc := ⟨.hbm, 92, rfl⟩
abbrev main_v56 : Ref sig .tc := ⟨.hbm, 93, rfl⟩
abbrev main_v57 : Ref sig .tc := ⟨.hbm, 94, rfl⟩
abbrev main_c_15 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_c_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_18 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_19 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_20 : Ref sig .tc := ⟨.hbm, 124, rfl⟩
abbrev main_v82 : Ref sig .tc := ⟨.hbm, 125, rfl⟩
abbrev main_v83 : Ref sig .tc := ⟨.hbm, 126, rfl⟩
abbrev main_c_21 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_22 : Ref sig .tc := ⟨.hbm, 135, rfl⟩
abbrev main_v91 : Ref sig .tc := ⟨.hbm, 136, rfl⟩
abbrev main_v92 : Ref sig .tc := ⟨.hbm, 137, rfl⟩
abbrev main_c_23 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_24 : Ref sig .tc := ⟨.hbm, 145, rfl⟩
abbrev main_v99 : Ref sig .tc := ⟨.hbm, 146, rfl⟩
abbrev main_cst_25 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_26 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_27 : Ref sig .tc := ⟨.hbm, 155, rfl⟩
abbrev main_v106 : Ref sig .tc := ⟨.hbm, 156, rfl⟩
abbrev main_v107 : Ref sig .tc := ⟨.hbm, 157, rfl⟩
abbrev main_c_28 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_c_29 : Ref sig .tc := ⟨.hbm, 164, rfl⟩
abbrev main_v113 : Ref sig .tc := ⟨.hbm, 165, rfl⟩
abbrev main_v114 : Ref sig .tc := ⟨.hbm, 166, rfl⟩
abbrev main_c_30 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_c_31 : Ref sig .tc := ⟨.hbm, 174, rfl⟩
abbrev main_v121 : Ref sig .tc := ⟨.hbm, 175, rfl⟩
abbrev main_v122 : Ref sig .tc := ⟨.hbm, 176, rfl⟩
abbrev main_c_32 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_33 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_34 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_35 : Ref sig .tc := ⟨.hbm, 197, rfl⟩
abbrev main_v140 : Ref sig .tc := ⟨.hbm, 198, rfl⟩
abbrev main_cst_36 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_37 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_c_38 : Ref sig .tc := ⟨.hbm, 207, rfl⟩
abbrev main_v147 : Ref sig .tc := ⟨.hbm, 208, rfl⟩
abbrev main_v148 : Ref sig .tc := ⟨.hbm, 209, rfl⟩
abbrev main_c_39 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_c_40 : Ref sig .tc := ⟨.hbm, 216, rfl⟩
abbrev main_v154 : Ref sig .tc := ⟨.hbm, 217, rfl⟩
abbrev main_v155 : Ref sig .tc := ⟨.hbm, 218, rfl⟩
abbrev main_c_41 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_c_42 : Ref sig .tc := ⟨.hbm, 226, rfl⟩
abbrev main_v162 : Ref sig .tc := ⟨.hbm, 227, rfl⟩
abbrev main_v163 : Ref sig .tc := ⟨.hbm, 228, rfl⟩
abbrev main_c_43 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_cst_44 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_cst_45 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_cst_46 : Ref sig .tc := ⟨.hbm, 249, rfl⟩
abbrev main_v181 : Ref sig .tc := ⟨.hbm, 250, rfl⟩
abbrev main_cst_47 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_cst_48 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_c_49 : Ref sig .tc := ⟨.hbm, 259, rfl⟩
abbrev main_v188 : Ref sig .tc := ⟨.hbm, 260, rfl⟩
abbrev main_v189 : Ref sig .tc := ⟨.hbm, 261, rfl⟩
abbrev main_c_50 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_c_51 : Ref sig .tc := ⟨.hbm, 268, rfl⟩
abbrev main_v195 : Ref sig .tc := ⟨.hbm, 269, rfl⟩
abbrev main_v196 : Ref sig .tc := ⟨.hbm, 270, rfl⟩
abbrev main_c_52 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_c_53 : Ref sig .tc := ⟨.hbm, 278, rfl⟩
abbrev main_v203 : Ref sig .tc := ⟨.hbm, 279, rfl⟩
abbrev main_v204 : Ref sig .tc := ⟨.hbm, 280, rfl⟩
abbrev main_c_54 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_cst_55 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_cst_56 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_cst_57 : Ref sig .tc := ⟨.hbm, 300, rfl⟩
abbrev main_v221 : Ref sig .tc := ⟨.hbm, 301, rfl⟩
abbrev main_c_58 : Ref sig .tc := ⟨.hbm, 302, rfl⟩
abbrev main_v222 : Ref sig .tc := ⟨.hbm, 303, rfl⟩
abbrev main_v223 : Ref sig .tc := ⟨.hbm, 304, rfl⟩
abbrev main_c_59 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg4_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg2_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg2_1 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg4_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg2_1 : Ref sig .tc := ⟨.vmem, 68, rfl⟩
abbrev cc10_stg0_0 : Ref sig .tc := ⟨.vmem, 69, rfl⟩
abbrev cc10_stg0_1 : Ref sig .tc := ⟨.vmem, 70, rfl⟩
abbrev cc10_stg1_0 : Ref sig .tc := ⟨.vmem, 71, rfl⟩
abbrev cc10_stg1_1 : Ref sig .tc := ⟨.vmem, 72, rfl⟩
abbrev cc10_stg2_0 : Ref sig .tc := ⟨.vmem, 73, rfl⟩
abbrev cc10_stg2_1 : Ref sig .tc := ⟨.vmem, 74, rfl⟩
abbrev cc10_stg3_0 : Ref sig .tc := ⟨.vmem, 75, rfl⟩
abbrev cc10_stg4_0 : Ref sig .tc := ⟨.vmem, 76, rfl⟩
abbrev cc10_stg4_1 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg1_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem4_0 : DmaSem sig := 48
abbrev cc6_sem4_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem2_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc8_sem2_0 : DmaSem sig := 59
abbrev cc8_sem2_1 : DmaSem sig := 60
abbrev cc8_sem3_0 : DmaSem sig := 61
abbrev cc8_sem4_0 : DmaSem sig := 62
abbrev cc8_sem4_1 : DmaSem sig := 63
abbrev cc9_sem0_0 : DmaSem sig := 64
abbrev cc9_sem0_1 : DmaSem sig := 65
abbrev cc9_sem1_0 : DmaSem sig := 66
abbrev cc9_sem2_0 : DmaSem sig := 67
abbrev cc9_sem2_1 : DmaSem sig := 68
abbrev cc10_sem0_0 : DmaSem sig := 69
abbrev cc10_sem0_1 : DmaSem sig := 70
abbrev cc10_sem1_0 : DmaSem sig := 71
abbrev cc10_sem1_1 : DmaSem sig := 72
abbrev cc10_sem2_0 : DmaSem sig := 73
abbrev cc10_sem2_1 : DmaSem sig := 74
abbrev cc10_sem3_0 : DmaSem sig := 75
abbrev cc10_sem4_0 : DmaSem sig := 76
abbrev cc10_sem4_1 : DmaSem sig := 77
abbrev cc11_sem0_0 : DmaSem sig := 78
abbrev cc11_sem0_1 : DmaSem sig := 79
abbrev cc11_sem1_0 : DmaSem sig := 80
abbrev cc11_sem1_1 : DmaSem sig := 81

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x2 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![40], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x2 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x2 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x2 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![40], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x2 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x2 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

class Facts₀ : Prop where
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S2000x64_S2000x64_0_0 : ∀ a, (![0, 0] : Fin 2 → Nat) a + S2000x64.size a ≤ S2000x64.size a
  h_S2000x64 : 0 < S2000x64.numel
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S160000x1_S160000x64_0_1 : S160000x1.BroadcastsInDim S160000x64 (![0, 1] : Fin 2 → Fin S160000x64.rank)
  bcast_S_S10000x64 : S_.BroadcastsInDim S10000x64 (![] : Fin 0 → Fin S10000x64.rank)
  shapeCasts_S10000_S10000x1 : S10000.ShapeCasts S10000x1
  shapeCasts_S64_S1x64 : S64.ShapeCasts S1x64
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  bcast_S_S200000 : S_.BroadcastsInDim S200000 (![] : Fin 0 → Fin S200000.rank)
  bcast_S200000_S200000x1_0 : S200000.BroadcastsInDim S200000x1 (![0] : Fin 1 → Fin S200000x1.rank)
  shapeCasts_S2_S1x2 : S2.ShapeCasts S1x2
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  slices_S5000x2_o0_0_S5000x1 : S5000x2.Slices ![0, 0] S5000x1
  shapeCasts_S5000x1_S5000x1 : S5000x1.ShapeCasts S5000x1
  broadcasts_S5000x1_S5000x64 : S5000x1.Broadcasts S5000x64
  slices_S5000x2_o0_1_S5000x1 : S5000x2.Slices ![0, 1] S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x128_0_1 : S1200000x1.BroadcastsInDim S1200000x128 (![0, 1] : Fin 2 → Fin S1200000x128.rank)
  bcast_S_S200000x128 : S_.BroadcastsInDim S200000x128 (![] : Fin 0 → Fin S200000x128.rank)
  shapeCasts_S200000_S200000x1 : S200000.ShapeCasts S200000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S1200000x1_S1200000x64_0_1 : S1200000x1.BroadcastsInDim S1200000x64 (![0, 1] : Fin 2 → Fin S1200000x64.rank)
  bcast_S_S200000x64 : S_.BroadcastsInDim S200000x64 (![] : Fin 0 → Fin S200000x64.rank)
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1200000x1_S1200000x2_0_1 : S1200000x1.BroadcastsInDim S1200000x2 (![0, 1] : Fin 2 → Fin S1200000x2.rank)
  bcast_S_S200000x2 : S_.BroadcastsInDim S200000x2 (![] : Fin 0 → Fin S200000x2.rank)
  shapeCasts_S5000x2_S5000x2 : S5000x2.ShapeCasts S5000x2
  dot_S2000x32_S32x64_S2000x64_1_0_0_1_n_n_wf : DotDims.WF S2000x32 S32x64 S2000x64 [1] [0] [0] [1] [] []
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x64_S160000x1_S160000x64_1_0_n_n_0_1_164_wf : GatherDims.WF S10000x64 S160000x1 S160000x64 [1] [0] [] [0] [] 1 ![1, 64]
  scatter_S10000x64_S160000x1_S160000x64_1_0_0_1_wf : ScatterDims.WF S10000x64 S160000x1 S160000x64 [1] [0] [0] 1
  dot_S2000x64_S64x64_S2000x64_1_0_0_1_n_n_wf : DotDims.WF S2000x64 S64x64 S2000x64 [1] [0] [0] [1] [] []
  gather_S10000x64_S200000x1_S200000x64_1_0_n_n_0_1_164_wf : GatherDims.WF S10000x64 S200000x1 S200000x64 [1] [0] [] [0] [] 1 ![1, 64]
  dot_S5000x128_S128x2_S5000x2_1_0_0_1_n_n_wf : DotDims.WF S5000x128 S128x2 S5000x2 [1] [0] [0] [1] [] []
  gather_S200000x128_S200000x1_S200000x128_1_0_n_n_0_1_1128_wf : GatherDims.WF S200000x128 S200000x1 S200000x128 [1] [0] [] [0] [] 1 ![1, 128]
  dot_S5000x128_S128x128_S5000x128_1_0_0_1_n_n_wf : DotDims.WF S5000x128 S128x128 S5000x128 [1] [0] [0] [1] [] []
  scatter_S200000_S1200000x1_S1200000_n_0_0_1_wf : ScatterDims.WF S200000 S1200000x1 S1200000 [] [0] [0] 1
  gather_S200000_S1200000x1_S1200000_n_0_n_n_0_1_1_wf : GatherDims.WF S200000 S1200000x1 S1200000 [] [0] [] [0] [] 1 ![1]
  gather_S200000x128_S1200000x1_S1200000x128_1_0_n_n_0_1_1128_wf : GatherDims.WF S200000x128 S1200000x1 S1200000x128 [1] [0] [] [0] [] 1 ![1, 128]
  scatter_S200000x128_S1200000x1_S1200000x128_1_0_0_1_wf : ScatterDims.WF S200000x128 S1200000x1 S1200000x128 [1] [0] [0] 1
  dot_S5000x128_S128x64_S5000x64_1_0_0_1_n_n_wf : DotDims.WF S5000x128 S128x64 S5000x64 [1] [0] [0] [1] [] []
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S5000x64_S64x2_S5000x2_1_0_0_1_n_n_wf : DotDims.WF S5000x64 S64x2 S5000x2 [1] [0] [0] [1] [] []
  gather_S200000x2_S1200000x1_S1200000x2_1_0_n_n_0_1_12_wf : GatherDims.WF S200000x2 S1200000x1 S1200000x2 [1] [0] [] [0] [] 1 ![1, 2]
  scatter_S200000x2_S1200000x1_S1200000x2_1_0_0_1_wf : ScatterDims.WF S200000x2 S1200000x1 S1200000x2 [1] [0] [0] 1
  scatter_S200000x2_S200000x1_S200000x2_1_0_0_1_wf : ScatterDims.WF S200000x2 S200000x1 S200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S10000x32.size a
  hwx0_0 : ∀ i : grid0.Coords, EltTy.bits .f32 = 32 ∨ (Rect.block (s := S10000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S10000x64.size a
  hwx0_2 : ∀ i : grid0.Coords, EltTy.bits .f32 = 32 ∨ (Rect.block (s := S10000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S10000x64.size a
  hwx1_0 : ∀ i : grid1.Coords, EltTy.bits .f32 = 32 ∨ (Rect.block (s := S10000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S10000x64.size a
  hwx1_1 : ∀ i : grid1.Coords, EltTy.bits .f32 = 32 ∨ (Rect.block (s := S10000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S10000x1.size a
  hwx1_2 : ∀ i : grid1.Coords, EltTy.bits .f32 = 32 ∨ (Rect.block (s := S10000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S10000x64.size a
  hwx1_4 : ∀ i : grid1.Coords, EltTy.bits .f32 = 32 ∨ (Rect.block (s := S10000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S10000x64.size a
  hwx2_0 : ∀ i : grid2.Coords, EltTy.bits .f32 = 32 ∨ (Rect.block (s := S10000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S10000x64.size a
  hwx2_2 : ∀ i : grid2.Coords, EltTy.bits .f32 = 32 ∨ (Rect.block (s := S10000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S10000x64.size a
  hwx3_0 : ∀ i : grid3.Coords, EltTy.bits .f32 = 32 ∨ (Rect.block (s := S10000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S10000x64.size a
  hwx3_1 : ∀ i : grid3.Coords, EltTy.bits .f32 = 32 ∨ (Rect.block (s := S10000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S10000x1.size a
  hwx3_2 : ∀ i : grid3.Coords, EltTy.bits .f32 = 32 ∨ (Rect.block (s := S10000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S10000x64.size a
  hwx3_4 : ∀ i : grid3.Coords, EltTy.bits .f32 = 32 ∨ (Rect.block (s := S10000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S200000x64.size a
  hwx4_0 : ∀ i : grid4.Coords, EltTy.bits .f32 = 32 ∨ (Rect.block (s := S200000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S200000x64.size a
  hwx4_1 : ∀ i : grid4.Coords, EltTy.bits .f32 = 32 ∨ (Rect.block (s := S200000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x2.size a ≤ S128x2.size a
  hwx4_2 : ∀ i : grid4.Coords, EltTy.bits .f32 = 32 ∨ (Rect.block (s := S128x2) S128x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S200000x128.size a
  hwx4_4 : ∀ i : grid4.Coords, EltTy.bits .f32 = 32 ∨ (Rect.block (s := S200000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S200000x128.size a
  hwx5_0 : ∀ i : grid5.Coords, EltTy.bits .f32 = 32 ∨ (Rect.block (s := S200000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S200000x128.size a
  hwx5_2 : ∀ i : grid5.Coords, EltTy.bits .f32 = 32 ∨ (Rect.block (s := S200000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S200000x128.size a
  hwx6_0 : ∀ i : grid6.Coords, EltTy.bits .f32 = 32 ∨ (Rect.block (s := S200000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S200000x128.size a
  hwx6_1 : ∀ i : grid6.Coords, EltTy.bits .f32 = 32 ∨ (Rect.block (s := S200000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S200000x1.size a
  hwx6_2 : ∀ i : grid6.Coords, EltTy.bits .f32 = 32 ∨ (Rect.block (s := S200000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S200000x128.size a
  hwx6_4 : ∀ i : grid6.Coords, EltTy.bits .f32 = 32 ∨ (Rect.block (s := S200000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S200000x128.size a
  hwx7_0 : ∀ i : grid7.Coords, EltTy.bits .f32 = 32 ∨ (Rect.block (s := S200000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S200000x64.size a
  hwx7_2 : ∀ i : grid7.Coords, EltTy.bits .f32 = 32 ∨ (Rect.block (s := S200000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S200000x64.size a
  hwx8_0 : ∀ i : grid8.Coords, EltTy.bits .f32 = 32 ∨ (Rect.block (s := S200000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S200000x64.size a
  hwx8_1 : ∀ i : grid8.Coords, EltTy.bits .f32 = 32 ∨ (Rect.block (s := S200000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S200000x1.size a
  hwx8_2 : ∀ i : grid8.Coords, EltTy.bits .f32 = 32 ∨ (Rect.block (s := S200000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S200000x64.size a
  hwx8_4 : ∀ i : grid8.Coords, EltTy.bits .f32 = 32 ∨ (Rect.block (s := S200000x64) S5000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S200000x64.size a
  hwx9_0 : ∀ i : grid9.Coords, EltTy.bits .f32 = 32 ∨ (Rect.block (s := S200000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x2.size a ≤ S64x2.size a
  hwx9_1 : ∀ i : grid9.Coords, EltTy.bits .f32 = 32 ∨ (Rect.block (s := S64x2) S64x2.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x2.size a ≤ S200000x2.size a
  hwx9_2 : ∀ i : grid9.Coords, EltTy.bits .f32 = 32 ∨ (Rect.block (s := S200000x2) S5000x2.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x2.size a ≤ S200000x2.size a
  hwx10_0 : ∀ i : grid10.Coords, EltTy.bits .f32 = 32 ∨ (Rect.block (s := S200000x2) S5000x2.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x2.size a ≤ S200000x2.size a
  hwx10_1 : ∀ i : grid10.Coords, EltTy.bits .f32 = 32 ∨ (Rect.block (s := S200000x2) S5000x2.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S200000x1.size a
  hwx10_2 : ∀ i : grid10.Coords, EltTy.bits .f32 = 32 ∨ (Rect.block (s := S200000x1) S5000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x2.size a ≤ S1x2.size a
  hwx10_3 : ∀ i : grid10.Coords, EltTy.bits .f32 = 32 ∨ (Rect.block (s := S1x2) S1x2.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x2.size a ≤ S200000x2.size a
  hwx10_4 : ∀ i : grid10.Coords, EltTy.bits .f32 = 32 ∨ (Rect.block (s := S200000x2) S5000x2.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x2.size a ≤ S200000x2.size a
  hwx11_0 : ∀ i : grid11.Coords, EltTy.bits .f32 = 32 ∨ (Rect.block (s := S200000x2) S5000x2.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x2.size a ≤ S200000x2.size a
  hwx11_1 : ∀ i : grid11.Coords, EltTy.bits .f32 = 32 ∨ (Rect.block (s := S200000x2) S5000x2.size (cc11_transform_1 i) (hinb11_1 i)).WholeWords (EltTy.packing .f32)

variable [Facts₀]

def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x64_S160000x1_S160000x64_1_0_n_n_0_1_164 : GatherDims S10000x64 S160000x1 S160000x64 where
  offsetDims := [1]
  collapsedSliceDims := [0]
  operandBatchingDims := []
  startIndicesBatchingDims := []
  startIndexMap := [0]
  indexVectorDim := 1
  sliceSizes := ![1, 64]
  wf := gather_S10000x64_S160000x1_S160000x64_1_0_n_n_0_1_164_wf
def scatter_S10000x64_S160000x1_S160000x64_1_0_0_1 : ScatterDims S10000x64 S160000x1 S160000x64 where
  updateWindowDims := [1]
  insertedWindowDims := [0]
  scatterDimsToOperandDims := [0]
  indexVectorDim := 1
  wf := scatter_S10000x64_S160000x1_S160000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S10000x64_S200000x1_S200000x64_1_0_n_n_0_1_164 : GatherDims S10000x64 S200000x1 S200000x64 where
  offsetDims := [1]
  collapsedSliceDims := [0]
  operandBatchingDims := []
  startIndicesBatchingDims := []
  startIndexMap := [0]
  indexVectorDim := 1
  sliceSizes := ![1, 64]
  wf := gather_S10000x64_S200000x1_S200000x64_1_0_n_n_0_1_164_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def gather_S200000_S1200000x1_S1200000_n_0_n_n_0_1_1 : GatherDims S200000 S1200000x1 S1200000 where
  offsetDims := []
  collapsedSliceDims := [0]
  operandBatchingDims := []
  startIndicesBatchingDims := []
  startIndexMap := [0]
  indexVectorDim := 1
  sliceSizes := ![1]
  wf := gather_S200000_S1200000x1_S1200000_n_0_n_n_0_1_1_wf
def gather_S200000x128_S1200000x1_S1200000x128_1_0_n_n_0_1_1128 : GatherDims S200000x128 S1200000x1 S1200000x128 where
  offsetDims := [1]
  collapsedSliceDims := [0]
  operandBatchingDims := []
  startIndicesBatchingDims := []
  startIndexMap := [0]
  indexVectorDim := 1
  sliceSizes := ![1, 128]
  wf := gather_S200000x128_S1200000x1_S1200000x128_1_0_n_n_0_1_1128_wf
def scatter_S200000x128_S1200000x1_S1200000x128_1_0_0_1 : ScatterDims S200000x128 S1200000x1 S1200000x128 where
  updateWindowDims := [1]
  insertedWindowDims := [0]
  scatterDimsToOperandDims := [0]
  indexVectorDim := 1
  wf := scatter_S200000x128_S1200000x1_S1200000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S200000x2_S1200000x1_S1200000x2_1_0_n_n_0_1_12 : GatherDims S200000x2 S1200000x1 S1200000x2 where
  offsetDims := [1]
  collapsedSliceDims := [0]
  operandBatchingDims := []
  startIndicesBatchingDims := []
  startIndexMap := [0]
  indexVectorDim := 1
  sliceSizes := ![1, 2]
  wf := gather_S200000x2_S1200000x1_S1200000x2_1_0_n_n_0_1_12_wf
def scatter_S200000x2_S1200000x1_S1200000x2_1_0_0_1 : ScatterDims S200000x2 S1200000x1 S1200000x2 where
  updateWindowDims := [1]
  insertedWindowDims := [0]
  scatterDimsToOperandDims := [0]
  indexVectorDim := 1
  wf := scatter_S200000x2_S1200000x1_S1200000x2_1_0_0_1_wf
def scatter_S200000x2_S200000x1_S200000x2_1_0_0_1 : ScatterDims S200000x2 S200000x1 S200000x2 where
  updateWindowDims := [1]
  insertedWindowDims := [0]
  scatterDimsToOperandDims := [0]
  indexVectorDim := 1
  wf := scatter_S200000x2_S200000x1_S200000x2_1_0_0_1_wf

abbrev win0_0 : Pipeline.Window sig grid0 :=
  Pipeline.Window.ofSpec (Memref.whole main_arg1) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v97) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v133) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v136) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v137) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v138) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v138) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v139) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v174) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v139) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v177) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v178) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v179) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v179) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg12) S64x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v180) S5000x2.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v215) S5000x2.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v180) S5000x2.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v218) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v219) S1x2.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v220) S5000x2.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v228) S5000x2.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v229) S5000x2.size cc11_transform_1 reads11_1 true false 2 stage11_1 sem11_1
    hrank11 hreads11_1 hinb11_1 nbuf11_1 (Memref.isWhole_whole _) hwx11_1 hstage11_1

abbrev win11 : Fin 2 → Pipeline.Window sig grid11 := fun | 0 => win11_0 | 1 => win11_1 | ⟨_ + 2, h⟩ => absurd h (Nat.not_lt.2 (Nat.le_add_left _ _))
abbrev spec11 : Fin 2 → Pipeline.WinSpec sig grid11.rank := fun w => (win11 w).toWinSpec

class Facts : Prop extends Facts₀ where

variable [Facts]
-- ==== ReferenceIdeal.lean ====
abbrev S200000x64 : Shape := ⟨2, ![200000, 64]⟩
abbrev S10000x32 : Shape := ⟨2, ![10000, 32]⟩
abbrev S32x64 : Shape := ⟨2, ![32, 64]⟩
abbrev S64 : Shape := ⟨1, ![64]⟩
abbrev S64x64 : Shape := ⟨2, ![64, 64]⟩
abbrev S128x2 : Shape := ⟨2, ![128, 2]⟩
abbrev S2 : Shape := ⟨1, ![2]⟩
abbrev S128x128 : Shape := ⟨2, ![128, 128]⟩
abbrev S128 : Shape := ⟨1, ![128]⟩
abbrev S128x64 : Shape := ⟨2, ![128, 64]⟩
abbrev S64x2 : Shape := ⟨2, ![64, 2]⟩
abbrev S1200000 : Shape := ⟨1, ![1200000]⟩
abbrev S160000 : Shape := ⟨1, ![160000]⟩
abbrev S200000 : Shape := ⟨1, ![200000]⟩
abbrev S10000x64 : Shape := ⟨2, ![10000, 64]⟩
abbrev S_ : Shape := ⟨0, ![]⟩
abbrev S10000 : Shape := ⟨1, ![10000]⟩
abbrev S160000x1 : Shape := ⟨2, ![160000, 1]⟩
abbrev S160000x64 : Shape := ⟨2, ![160000, 64]⟩
abbrev S10000x1 : Shape := ⟨2, ![10000, 1]⟩
abbrev S1x64 : Shape := ⟨2, ![1, 64]⟩
abbrev S200000x1 : Shape := ⟨2, ![200000, 1]⟩
abbrev S200000x128 : Shape := ⟨2, ![200000, 128]⟩
abbrev S200000x2 : Shape := ⟨2, ![200000, 2]⟩
abbrev S1x2 : Shape := ⟨2, ![1, 2]⟩
abbrev S1200000x1 : Shape := ⟨2, ![1200000, 1]⟩
abbrev S1200000x128 : Shape := ⟨2, ![1200000, 128]⟩
abbrev S1x128 : Shape := ⟨2, ![1, 128]⟩
abbrev S1200000x64 : Shape := ⟨2, ![1200000, 64]⟩
abbrev S1200000x2 : Shape := ⟨2, ![1200000, 2]⟩

abbrev nBuf : Space → Nat
  | .hbm => 402
  | .vmem => 0
  | .smem => 0
  | _ => 0

abbrev hbmTy0_0 (i : Nat) : BufTy := match i % 128 with
  | 0 => ⟨S200000x64, .f32⟩
  | 1 => ⟨S10000x32, .f32⟩
  | 2 => ⟨S32x64, .f32⟩
  | 3 => ⟨S64, .f32⟩
  | 4 => ⟨S64x64, .f32⟩
  | 5 => ⟨S64, .f32⟩
  | 6 => ⟨S128x2, .f32⟩
  | 7 => ⟨S2, .f32⟩
  | 8 => ⟨S128x128, .f32⟩
  | 9 => ⟨S128, .f32⟩
  | 10 => ⟨S128x64, .f32⟩
  | 11 => ⟨S64, .f32⟩
  | 12 => ⟨S64x2, .f32⟩
  | 13 => ⟨S2, .f32⟩
  | 14 => ⟨S1200000, .i32⟩
  | 15 => ⟨S1200000, .i32⟩
  | 16 => ⟨S160000, .i32⟩
  | 17 => ⟨S160000, .i32⟩
  | 18 => ⟨S200000, .i32⟩
  | 19 => ⟨S200000, .i32⟩
  | 20 => ⟨S10000x64, .f32⟩
  | 21 => ⟨S_, .f32⟩
  | 22 => ⟨S10000, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S_, .f32⟩
  | 32 => ⟨S160000, .f32⟩
  | 33 => ⟨S10000, .f32⟩
  | 34 => ⟨S10000, .f32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S160000x64, .f32⟩
  | 44 => ⟨S_, .i32⟩
  | 45 => ⟨S160000, .i32⟩
  | 46 => ⟨S160000, .i1⟩
  | 47 => ⟨S_, .i32⟩
  | 48 => ⟨S160000, .i32⟩
  | 49 => ⟨S160000, .i32⟩
  | 50 => ⟨S160000, .i32⟩
  | 51 => ⟨S160000x1, .i32⟩
  | 52 => ⟨S160000, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000, .f32⟩
  | 62 => ⟨S160000, .f32⟩
  | 63 => ⟨S160000x1, .f32⟩
  | 64 => ⟨S160000x64, .f32⟩
  | 65 => ⟨S160000x64, .f32⟩
  | 66 => ⟨S_, .f32⟩
  | 67 => ⟨S10000x64, .f32⟩
  | 68 => ⟨S160000x1, .i32⟩
  | 69 => ⟨S10000x64, .f32⟩
  | 70 => ⟨S_, .f32⟩
  | 71 => ⟨S10000, .f32⟩
  | 72 => ⟨S10000, .f32⟩
  | 73 => ⟨S10000x1, .f32⟩
  | 74 => ⟨S10000x64, .f32⟩
  | 75 => ⟨S10000x64, .f32⟩
  | 76 => ⟨S10000x64, .f32⟩
  | 77 => ⟨S1x64, .f32⟩
  | 78 => ⟨S10000x64, .f32⟩
  | 79 => ⟨S10000x64, .f32⟩
  | 80 => ⟨S_, .f32⟩
  | 81 => ⟨S10000x64, .f32⟩
  | 82 => ⟨S10000x64, .f32⟩
  | 83 => ⟨S10000x64, .f32⟩
  | 84 => ⟨S_, .f32⟩
  | 85 => ⟨S10000, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S_, .f32⟩
  | 95 => ⟨S160000, .f32⟩
  | 96 => ⟨S10000, .f32⟩
  | 97 => ⟨S10000, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S160000x64, .f32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S160000, .f32⟩
  | 116 => ⟨S_, .i32⟩
  | 117 => ⟨S160000, .i32⟩
  | 118 => ⟨S160000, .i1⟩
  | 119 => ⟨S_, .i32⟩
  | 120 => ⟨S160000, .i32⟩
  | 121 => ⟨S160000, .i32⟩
  | 122 => ⟨S160000, .i32⟩
  | 123 => ⟨S160000x1, .i32⟩
  | 124 => ⟨S160000, .f32⟩
  | 125 => ⟨S160000, .f32⟩
  | 126 => ⟨S160000x1, .f32⟩
  | 127 => ⟨S160000x64, .f32⟩
  | _ => ⟨S200000x64, .f32⟩

abbrev hbmTy0_1 (i : Nat) : BufTy := match i % 128 with
  | 0 => ⟨S160000x64, .f32⟩
  | 1 => ⟨S_, .f32⟩
  | 2 => ⟨S10000x64, .f32⟩
  | 3 => ⟨S160000x1, .i32⟩
  | 4 => ⟨S10000x64, .f32⟩
  | 5 => ⟨S_, .f32⟩
  | 6 => ⟨S10000, .f32⟩
  | 7 => ⟨S10000, .f32⟩
  | 8 => ⟨S10000x1, .f32⟩
  | 9 => ⟨S10000x64, .f32⟩
  | 10 => ⟨S10000x64, .f32⟩
  | 11 => ⟨S10000x64, .f32⟩
  | 12 => ⟨S1x64, .f32⟩
  | 13 => ⟨S10000x64, .f32⟩
  | 14 => ⟨S10000x64, .f32⟩
  | 15 => ⟨S_, .f32⟩
  | 16 => ⟨S10000x64, .f32⟩
  | 17 => ⟨S10000x64, .f32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x64, .f32⟩
  | 27 => ⟨S200000x128, .f32⟩
  | 28 => ⟨S200000x2, .f32⟩
  | 29 => ⟨S1x2, .f32⟩
  | 30 => ⟨S200000x2, .f32⟩
  | 31 => ⟨S200000x2, .f32⟩
  | 32 => ⟨S_, .f32⟩
  | 33 => ⟨S200000, .f32⟩
  | 34 => ⟨S_, .f32⟩
  | 35 => ⟨S200000, .f32⟩
  | 36 => ⟨S200000, .f32⟩
  | 37 => ⟨S200000x1, .f32⟩
  | 38 => ⟨S200000x2, .f32⟩
  | 39 => ⟨S200000x2, .f32⟩
  | 40 => ⟨S200000x2, .f32⟩
  | 41 => ⟨S_, .f32⟩
  | 42 => ⟨S200000, .f32⟩
  | 43 => ⟨S200000x1, .f32⟩
  | 44 => ⟨S200000x2, .f32⟩
  | 45 => ⟨S200000x2, .f32⟩
  | 46 => ⟨S200000x1, .f32⟩
  | 47 => ⟨S200000x64, .f32⟩
  | 48 => ⟨S200000x64, .f32⟩
  | 49 => ⟨S200000x1, .f32⟩
  | 50 => ⟨S200000x64, .f32⟩
  | 51 => ⟨S200000x64, .f32⟩
  | 52 => ⟨S200000x128, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x128, .f32⟩
  | 62 => ⟨S200000x128, .f32⟩
  | 63 => ⟨S_, .f32⟩
  | 64 => ⟨S200000, .f32⟩
  | 65 => ⟨S_, .i32⟩
  | 66 => ⟨S1200000, .i32⟩
  | 67 => ⟨S1200000, .i1⟩
  | 68 => ⟨S_, .i32⟩
  | 69 => ⟨S1200000, .i32⟩
  | 70 => ⟨S1200000, .i32⟩
  | 71 => ⟨S1200000, .i32⟩
  | 72 => ⟨S1200000x1, .i32⟩
  | 73 => ⟨S_, .f32⟩
  | 74 => ⟨S1200000, .f32⟩
  | 75 => ⟨S200000, .f32⟩
  | 76 => ⟨S200000, .f32⟩
  | 77 => ⟨S_, .i32⟩
  | 78 => ⟨S1200000, .i32⟩
  | 79 => ⟨S1200000, .i1⟩
  | 80 => ⟨S_, .i32⟩
  | 81 => ⟨S1200000, .i32⟩
  | 82 => ⟨S1200000, .i32⟩
  | 83 => ⟨S1200000, .i32⟩
  | 84 => ⟨S1200000x1, .i32⟩
  | 85 => ⟨S1200000x128, .f32⟩
  | 86 => ⟨S_, .i32⟩
  | 87 => ⟨S1200000, .i32⟩
  | 88 => ⟨S1200000, .i1⟩
  | 89 => ⟨S_, .i32⟩
  | 90 => ⟨S1200000, .i32⟩
  | 91 => ⟨S1200000, .i32⟩
  | 92 => ⟨S1200000, .i32⟩
  | 93 => ⟨S1200000x1, .i32⟩
  | 94 => ⟨S1200000, .f32⟩
  | 95 => ⟨S_, .i32⟩
  | 96 => ⟨S1200000, .i32⟩
  | 97 => ⟨S1200000, .i1⟩
  | 98 => ⟨S_, .i32⟩
  | 99 => ⟨S1200000, .i32⟩
  | 100 => ⟨S1200000, .i32⟩
  | 101 => ⟨S1200000, .i32⟩
  | 102 => ⟨S1200000x1, .i32⟩
  | 103 => ⟨S1200000, .f32⟩
  | 104 => ⟨S1200000, .f32⟩
  | 105 => ⟨S1200000x1, .f32⟩
  | 106 => ⟨S1200000x128, .f32⟩
  | 107 => ⟨S1200000x128, .f32⟩
  | 108 => ⟨S_, .f32⟩
  | 109 => ⟨S200000x128, .f32⟩
  | 110 => ⟨S1200000x1, .i32⟩
  | 111 => ⟨S200000x128, .f32⟩
  | 112 => ⟨S_, .f32⟩
  | 113 => ⟨S200000, .f32⟩
  | 114 => ⟨S200000, .f32⟩
  | 115 => ⟨S200000x1, .f32⟩
  | 116 => ⟨S200000x128, .f32⟩
  | 117 => ⟨S200000x128, .f32⟩
  | 118 => ⟨S200000x128, .f32⟩
  | 119 => ⟨S1x128, .f32⟩
  | 120 => ⟨S200000x128, .f32⟩
  | 121 => ⟨S200000x128, .f32⟩
  | 122 => ⟨S_, .f32⟩
  | 123 => ⟨S200000x128, .f32⟩
  | 124 => ⟨S200000x128, .f32⟩
  | 125 => ⟨S200000x64, .f32⟩
  | 126 => ⟨S_, .f32⟩
  | 127 => ⟨S200000, .f32⟩
  | _ => ⟨S200000x64, .f32⟩

abbrev hbmTy0_2 (i : Nat) : BufTy := match i % 128 with
  | 0 => ⟨S_, .i32⟩
  | 1 => ⟨S1200000, .i32⟩
  | 2 => ⟨S1200000, .i1⟩
  | 3 => ⟨S_, .i32⟩
  | 4 => ⟨S1200000, .i32⟩
  | 5 => ⟨S1200000, .i32⟩
  | 6 => ⟨S1200000, .i32⟩
  | 7 => ⟨S1200000x1, .i32⟩
  | 8 => ⟨S_, .f32⟩
  | 9 => ⟨S1200000, .f32⟩
  | 10 => ⟨S200000, .f32⟩
  | 11 => ⟨S200000, .f32⟩
  | 12 => ⟨S_, .i32⟩
  | 13 => ⟨S1200000, .i32⟩
  | 14 => ⟨S1200000, .i1⟩
  | 15 => ⟨S_, .i32⟩
  | 16 => ⟨S1200000, .i32⟩
  | 17 => ⟨S1200000, .i32⟩
  | 18 => ⟨S1200000, .i32⟩
  | 19 => ⟨S1200000x1, .i32⟩
  | 20 => ⟨S1200000x64, .f32⟩
  | 21 => ⟨S_, .i32⟩
  | 22 => ⟨S1200000, .i32⟩
  | 23 => ⟨S1200000, .i1⟩
  | 24 => ⟨S_, .i32⟩
  | 25 => ⟨S1200000, .i32⟩
  | 26 => ⟨S1200000, .i32⟩
  | 27 => ⟨S1200000, .i32⟩
  | 28 => ⟨S1200000x1, .i32⟩
  | 29 => ⟨S1200000, .f32⟩
  | 30 => ⟨S_, .i32⟩
  | 31 => ⟨S1200000, .i32⟩
  | 32 => ⟨S1200000, .i1⟩
  | 33 => ⟨S_, .i32⟩
  | 34 => ⟨S1200000, .i32⟩
  | 35 => ⟨S1200000, .i32⟩
  | 36 => ⟨S1200000, .i32⟩
  | 37 => ⟨S1200000x1, .i32⟩
  | 38 => ⟨S1200000, .f32⟩
  | 39 => ⟨S1200000, .f32⟩
  | 40 => ⟨S1200000x1, .f32⟩
  | 41 => ⟨S1200000x64, .f32⟩
  | 42 => ⟨S1200000x64, .f32⟩
  | 43 => ⟨S_, .f32⟩
  | 44 => ⟨S200000x64, .f32⟩
  | 45 => ⟨S1200000x1, .i32⟩
  | 46 => ⟨S200000x64, .f32⟩
  | 47 => ⟨S_, .f32⟩
  | 48 => ⟨S200000, .f32⟩
  | 49 => ⟨S200000, .f32⟩
  | 50 => ⟨S200000x1, .f32⟩
  | 51 => ⟨S200000x64, .f32⟩
  | 52 => ⟨S200000x64, .f32⟩
  | 53 => ⟨S200000x64, .f32⟩
  | 54 => ⟨S1x64, .f32⟩
  | 55 => ⟨S200000x64, .f32⟩
  | 56 => ⟨S200000x64, .f32⟩
  | 57 => ⟨S_, .f32⟩
  | 58 => ⟨S200000x64, .f32⟩
  | 59 => ⟨S200000x64, .f32⟩
  | 60 => ⟨S200000x2, .f32⟩
  | 61 => ⟨S_, .f32⟩
  | 62 => ⟨S200000, .f32⟩
  | 63 => ⟨S_, .i32⟩
  | 64 => ⟨S1200000, .i32⟩
  | 65 => ⟨S1200000, .i1⟩
  | 66 => ⟨S_, .i32⟩
  | 67 => ⟨S1200000, .i32⟩
  | 68 => ⟨S1200000, .i32⟩
  | 69 => ⟨S1200000, .i32⟩
  | 70 => ⟨S1200000x1, .i32⟩
  | 71 => ⟨S_, .f32⟩
  | 72 => ⟨S1200000, .f32⟩
  | 73 => ⟨S200000, .f32⟩
  | 74 => ⟨S200000, .f32⟩
  | 75 => ⟨S_, .i32⟩
  | 76 => ⟨S1200000, .i32⟩
  | 77 => ⟨S1200000, .i1⟩
  | 78 => ⟨S_, .i32⟩
  | 79 => ⟨S1200000, .i32⟩
  | 80 => ⟨S1200000, .i32⟩
  | 81 => ⟨S1200000, .i32⟩
  | 82 => ⟨S1200000x1, .i32⟩
  | 83 => ⟨S1200000x2, .f32⟩
  | 84 => ⟨S_, .i32⟩
  | 85 => ⟨S1200000, .i32⟩
  | 86 => ⟨S1200000, .i1⟩
  | 87 => ⟨S_, .i32⟩
  | 88 => ⟨S1200000, .i32⟩
  | 89 => ⟨S1200000, .i32⟩
  | 90 => ⟨S1200000, .i32⟩
  | 91 => ⟨S1200000x1, .i32⟩
  | 92 => ⟨S1200000, .f32⟩
  | 93 => ⟨S_, .i32⟩
  | 94 => ⟨S1200000, .i32⟩
  | 95 => ⟨S1200000, .i1⟩
  | 96 => ⟨S_, .i32⟩
  | 97 => ⟨S1200000, .i32⟩
  | 98 => ⟨S1200000, .i32⟩
  | 99 => ⟨S1200000, .i32⟩
  | 100 => ⟨S1200000x1, .i32⟩
  | 101 => ⟨S1200000, .f32⟩
  | 102 => ⟨S1200000, .f32⟩
  | 103 => ⟨S1200000x1, .f32⟩
  | 104 => ⟨S1200000x2, .f32⟩
  | 105 => ⟨S1200000x2, .f32⟩
  | 106 => ⟨S_, .f32⟩
  | 107 => ⟨S200000x2, .f32⟩
  | 108 => ⟨S1200000x1, .i32⟩
  | 109 => ⟨S200000x2, .f32⟩
  | 110 => ⟨S_, .f32⟩
  | 111 => ⟨S200000, .f32⟩
  | 112 => ⟨S200000, .f32⟩
  | 113 => ⟨S200000x1, .f32⟩
  | 114 => ⟨S200000x2, .f32⟩
  | 115 => ⟨S200000x2, .f32⟩
  | 116 => ⟨S200000x2, .f32⟩
  | 117 => ⟨S1x2, .f32⟩
  | 118 => ⟨S200000x2, .f32⟩
  | 119 => ⟨S200000x2, .f32⟩
  | 120 => ⟨S_, .f32⟩
  | 121 => ⟨S200000x2, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S200000x64, .f32⟩

abbrev hbmTy0_3 (i : Nat) : BufTy := match i % 128 with
  | 0 => ⟨S200000, .i32⟩
  | 1 => ⟨S200000x1, .i32⟩
  | 2 => ⟨S200000x2, .f32⟩
  | 3 => ⟨S_, .f32⟩
  | 4 => ⟨S200000, .f32⟩
  | 5 => ⟨S_, .f32⟩
  | 6 => ⟨S200000, .f32⟩
  | 7 => ⟨S200000, .f32⟩
  | 8 => ⟨S200000x1, .f32⟩
  | 9 => ⟨S200000x2, .f32⟩
  | 10 => ⟨S200000x2, .f32⟩
  | 11 => ⟨S200000x2, .f32⟩
  | 12 => ⟨S_, .f32⟩
  | 13 => ⟨S200000, .f32⟩
  | 14 => ⟨S200000x1, .f32⟩
  | 15 => ⟨S200000x1, .f32⟩
  | 16 => ⟨S200000x2, .f32⟩
  | 17 => ⟨S200000x2, .f32⟩
  | _ => ⟨S200000x64, .f32⟩

abbrev hbmTy (i : Nat) : BufTy := match i / 128 with
  | 0 => hbmTy0_0 i
  | 1 => hbmTy0_1 i
  | 2 => hbmTy0_2 i
  | 3 => hbmTy0_3 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_2 : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_c_7 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call0_cst : Ref sig .tc := ⟨.hbm, 80, rfl⟩
abbrev main_call0_v0 : Ref sig .tc := ⟨.hbm, 81, rfl⟩
abbrev main_v48 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_c_11 : Ref sig .tc := ⟨.hbm, 86, rfl⟩
abbrev main_v51 : Ref sig .tc := ⟨.hbm, 87, rfl⟩
abbrev main_v52 : Ref sig .tc := ⟨.hbm, 88, rfl⟩
abbrev main_c_12 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_13 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_14 : Ref sig .tc := ⟨.hbm, 98, rfl⟩
abbrev main_v60 : Ref sig .tc := ⟨.hbm, 99, rfl⟩
abbrev main_v61 : Ref sig .tc := ⟨.hbm, 100, rfl⟩
abbrev main_c_15 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_16 : Ref sig .tc := ⟨.hbm, 107, rfl⟩
abbrev main_v67 : Ref sig .tc := ⟨.hbm, 108, rfl⟩
abbrev main_v68 : Ref sig .tc := ⟨.hbm, 109, rfl⟩
abbrev main_c_17 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_18 : Ref sig .tc := ⟨.hbm, 116, rfl⟩
abbrev main_v74 : Ref sig .tc := ⟨.hbm, 117, rfl⟩
abbrev main_v75 : Ref sig .tc := ⟨.hbm, 118, rfl⟩
abbrev main_c_19 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_21 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_call1_cst : Ref sig .tc := ⟨.hbm, 143, rfl⟩
abbrev main_call1_v0 : Ref sig .tc := ⟨.hbm, 144, rfl⟩
abbrev main_v97 : Ref sig .tc := ⟨.hbm, 145, rfl⟩
abbrev main_c_22 : Ref sig .tc := ⟨.hbm, 146, rfl⟩
abbrev main_v98 : Ref sig .tc := ⟨.hbm, 147, rfl⟩
abbrev main_v99 : Ref sig .tc := ⟨.hbm, 148, rfl⟩
abbrev main_c_23 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_24 : Ref sig .tc := ⟨.hbm, 160, rfl⟩
abbrev main_v110 : Ref sig .tc := ⟨.hbm, 161, rfl⟩
abbrev main_cst_25 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_26 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_c_27 : Ref sig .tc := ⟨.hbm, 181, rfl⟩
abbrev main_v128 : Ref sig .tc := ⟨.hbm, 182, rfl⟩
abbrev main_v129 : Ref sig .tc := ⟨.hbm, 183, rfl⟩
abbrev main_c_28 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_29 : Ref sig .tc := ⟨.hbm, 191, rfl⟩
abbrev main_v136 : Ref sig .tc := ⟨.hbm, 192, rfl⟩
abbrev main_c_30 : Ref sig .tc := ⟨.hbm, 193, rfl⟩
abbrev main_v137 : Ref sig .tc := ⟨.hbm, 194, rfl⟩
abbrev main_v138 : Ref sig .tc := ⟨.hbm, 195, rfl⟩
abbrev main_c_31 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_32 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_c_33 : Ref sig .tc := ⟨.hbm, 205, rfl⟩
abbrev main_v146 : Ref sig .tc := ⟨.hbm, 206, rfl⟩
abbrev main_v147 : Ref sig .tc := ⟨.hbm, 207, rfl⟩
abbrev main_c_34 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_c_35 : Ref sig .tc := ⟨.hbm, 214, rfl⟩
abbrev main_v153 : Ref sig .tc := ⟨.hbm, 215, rfl⟩
abbrev main_v154 : Ref sig .tc := ⟨.hbm, 216, rfl⟩
abbrev main_c_36 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_c_37 : Ref sig .tc := ⟨.hbm, 223, rfl⟩
abbrev main_v160 : Ref sig .tc := ⟨.hbm, 224, rfl⟩
abbrev main_v161 : Ref sig .tc := ⟨.hbm, 225, rfl⟩
abbrev main_c_38 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_cst_39 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_cst_40 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_call2_cst : Ref sig .tc := ⟨.hbm, 250, rfl⟩
abbrev main_call2_v0 : Ref sig .tc := ⟨.hbm, 251, rfl⟩
abbrev main_v183 : Ref sig .tc := ⟨.hbm, 252, rfl⟩
abbrev main_v184 : Ref sig .tc := ⟨.hbm, 253, rfl⟩
abbrev main_cst_41 : Ref sig .tc := ⟨.hbm, 254, rfl⟩
abbrev main_v185 : Ref sig .tc := ⟨.hbm, 255, rfl⟩
abbrev main_c_42 : Ref sig .tc := ⟨.hbm, 256, rfl⟩
abbrev main_v186 : Ref sig .tc := ⟨.hbm, 257, rfl⟩
abbrev main_v187 : Ref sig .tc := ⟨.hbm, 258, rfl⟩
abbrev main_c_43 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_cst_44 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_c_45 : Ref sig .tc := ⟨.hbm, 268, rfl⟩
abbrev main_v195 : Ref sig .tc := ⟨.hbm, 269, rfl⟩
abbrev main_v196 : Ref sig .tc := ⟨.hbm, 270, rfl⟩
abbrev main_c_46 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_c_47 : Ref sig .tc := ⟨.hbm, 277, rfl⟩
abbrev main_v202 : Ref sig .tc := ⟨.hbm, 278, rfl⟩
abbrev main_v203 : Ref sig .tc := ⟨.hbm, 279, rfl⟩
abbrev main_c_48 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_c_49 : Ref sig .tc := ⟨.hbm, 286, rfl⟩
abbrev main_v209 : Ref sig .tc := ⟨.hbm, 287, rfl⟩
abbrev main_v210 : Ref sig .tc := ⟨.hbm, 288, rfl⟩
abbrev main_c_50 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_cst_51 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_cst_52 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_call3_cst : Ref sig .tc := ⟨.hbm, 313, rfl⟩
abbrev main_call3_v0 : Ref sig .tc := ⟨.hbm, 314, rfl⟩
abbrev main_v232 : Ref sig .tc := ⟨.hbm, 315, rfl⟩
abbrev main_v233 : Ref sig .tc := ⟨.hbm, 316, rfl⟩
abbrev main_cst_53 : Ref sig .tc := ⟨.hbm, 317, rfl⟩
abbrev main_v234 : Ref sig .tc := ⟨.hbm, 318, rfl⟩
abbrev main_c_54 : Ref sig .tc := ⟨.hbm, 319, rfl⟩
abbrev main_v235 : Ref sig .tc := ⟨.hbm, 320, rfl⟩
abbrev main_v236 : Ref sig .tc := ⟨.hbm, 321, rfl⟩
abbrev main_c_55 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_cst_56 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_c_57 : Ref sig .tc := ⟨.hbm, 331, rfl⟩
abbrev main_v244 : Ref sig .tc := ⟨.hbm, 332, rfl⟩
abbrev main_v245 : Ref sig .tc := ⟨.hbm, 333, rfl⟩
abbrev main_c_58 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_c_59 : Ref sig .tc := ⟨.hbm, 340, rfl⟩
abbrev main_v251 : Ref sig .tc := ⟨.hbm, 341, rfl⟩
abbrev main_v252 : Ref sig .tc := ⟨.hbm, 342, rfl⟩
abbrev main_c_60 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_c_61 : Ref sig .tc := ⟨.hbm, 349, rfl⟩
abbrev main_v258 : Ref sig .tc := ⟨.hbm, 350, rfl⟩
abbrev main_v259 : Ref sig .tc := ⟨.hbm, 351, rfl⟩
abbrev main_c_62 : Ref sig .tc := ⟨.hbm, 352, rfl⟩
abbrev main_v260 : Ref sig .tc := ⟨.hbm, 353, rfl⟩
abbrev main_v261 : Ref sig .tc := ⟨.hbm, 354, rfl⟩
abbrev main_v262 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_cst_63 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_cst_64 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev main_v279 : Ref sig .tc := ⟨.hbm, 374, rfl⟩
abbrev main_v280 : Ref sig .tc := ⟨.hbm, 375, rfl⟩
abbrev main_cst_65 : Ref sig .tc := ⟨.hbm, 376, rfl⟩
abbrev main_v281 : Ref sig .tc := ⟨.hbm, 377, rfl⟩
abbrev main_c_66 : Ref sig .tc := ⟨.hbm, 378, rfl⟩
abbrev main_v282 : Ref sig .tc := ⟨.hbm, 379, rfl⟩
abbrev main_v283 : Ref sig .tc := ⟨.hbm, 380, rfl⟩
abbrev main_c_67 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_call4_cst : Ref sig .tc := ⟨.hbm, 387, rfl⟩
abbrev main_call4_v0 : Ref sig .tc := ⟨.hbm, 388, rfl⟩
abbrev main_call4_cst_0 : Ref sig .tc := ⟨.hbm, 389, rfl⟩
abbrev main_call4_v1 : Ref sig .tc := ⟨.hbm, 390, rfl⟩
abbrev main_call4_v2 : Ref sig .tc := ⟨.hbm, 391, rfl⟩
abbrev main_call4_v3 : Ref sig .tc := ⟨.hbm, 392, rfl⟩
abbrev main_call4_v4 : Ref sig .tc := ⟨.hbm, 393, rfl⟩
abbrev main_call4_v5 : Ref sig .tc := ⟨.hbm, 394, rfl⟩
abbrev main_call4_v6 : Ref sig .tc := ⟨.hbm, 395, rfl⟩
abbrev main_call4_cst_1 : Ref sig .tc := ⟨.hbm, 396, rfl⟩
abbrev main_call4_v7 : Ref sig .tc := ⟨.hbm, 397, rfl⟩
abbrev main_call4_v8 : Ref sig .tc := ⟨.hbm, 398, rfl⟩
abbrev main_call4_v9 : Ref sig .tc := ⟨.hbm, 399, rfl⟩
abbrev main_call4_v10 : Ref sig .tc := ⟨.hbm, 400, rfl⟩
abbrev main_v289 : Ref sig .tc := ⟨.hbm, 401, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x64_0_1 : S160000x1.BroadcastsInDim S160000x64 (![0, 1] : Fin 2 → Fin S160000x64.rank)
  bcast_S_S10000x64 : S_.BroadcastsInDim S10000x64 (![] : Fin 0 → Fin S10000x64.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000x1_S200000x2_0_1 : S200000x1.BroadcastsInDim S200000x2 (![0, 1] : Fin 2 → Fin S200000x2.rank)
  slices_S200000x2_S200000x1_0_0 : S200000x2.Slices ![0, 0] S200000x1
  bcast_S200000x1_S200000x64_0_1 : S200000x1.BroadcastsInDim S200000x64 (![0, 1] : Fin 2 → Fin S200000x64.rank)
  slices_S200000x2_S200000x1_0_1 : S200000x2.Slices ![0, 1] S200000x1
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x128_0_1 : S1200000x1.BroadcastsInDim S1200000x128 (![0, 1] : Fin 2 → Fin S1200000x128.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S1200000x1_S1200000x64_0_1 : S1200000x1.BroadcastsInDim S1200000x64 (![0, 1] : Fin 2 → Fin S1200000x64.rank)
  bcast_S_S200000x64 : S_.BroadcastsInDim S200000x64 (![] : Fin 0 → Fin S200000x64.rank)
  bcast_S1x64_S200000x64_0_1 : S1x64.BroadcastsInDim S200000x64 (![0, 1] : Fin 2 → Fin S200000x64.rank)
  bcast_S1200000x1_S1200000x2_0_1 : S1200000x1.BroadcastsInDim S1200000x2 (![0, 1] : Fin 2 → Fin S1200000x2.rank)
  bcast_S_S200000x2 : S_.BroadcastsInDim S200000x2 (![] : Fin 0 → Fin S200000x2.rank)
  dot_S10000x32_S32x64_S10000x64_1_0_0_1_n_n_wf : DotDims.WF S10000x32 S32x64 S10000x64 [1] [0] [0] [1] [] []
  scatter_S10000_S160000x1_S160000_n_0_0_1_wf : ScatterDims.WF S10000 S160000x1 S160000 [] [0] [0] 1
  gather_S10000x64_S160000x1_S160000x64_1_0_n_n_0_1_164_wf : GatherDims.WF S10000x64 S160000x1 S160000x64 [1] [0] [] [0] [] 1 ![1, 64]
  gather_S10000_S160000x1_S160000_n_0_n_n_0_1_1_wf : GatherDims.WF S10000 S160000x1 S160000 [] [0] [] [0] [] 1 ![1]
  scatter_S10000x64_S160000x1_S160000x64_1_0_0_1_wf : ScatterDims.WF S10000x64 S160000x1 S160000x64 [1] [0] [0] 1
  dot_S10000x64_S64x64_S10000x64_1_0_0_1_n_n_wf : DotDims.WF S10000x64 S64x64 S10000x64 [1] [0] [0] [1] [] []
  gather_S10000x64_S200000x1_S200000x64_1_0_n_n_0_1_164_wf : GatherDims.WF S10000x64 S200000x1 S200000x64 [1] [0] [] [0] [] 1 ![1, 64]
  dot_S200000x128_S128x2_S200000x2_1_0_0_1_n_n_wf : DotDims.WF S200000x128 S128x2 S200000x2 [1] [0] [0] [1] [] []
  gather_S200000x128_S200000x1_S200000x128_1_0_n_n_0_1_1128_wf : GatherDims.WF S200000x128 S200000x1 S200000x128 [1] [0] [] [0] [] 1 ![1, 128]
  dot_S200000x128_S128x128_S200000x128_1_0_0_1_n_n_wf : DotDims.WF S200000x128 S128x128 S200000x128 [1] [0] [0] [1] [] []
  scatter_S200000_S1200000x1_S1200000_n_0_0_1_wf : ScatterDims.WF S200000 S1200000x1 S1200000 [] [0] [0] 1
  gather_S200000x128_S1200000x1_S1200000x128_1_0_n_n_0_1_1128_wf : GatherDims.WF S200000x128 S1200000x1 S1200000x128 [1] [0] [] [0] [] 1 ![1, 128]
  gather_S200000_S1200000x1_S1200000_n_0_n_n_0_1_1_wf : GatherDims.WF S200000 S1200000x1 S1200000 [] [0] [] [0] [] 1 ![1]
  scatter_S200000x128_S1200000x1_S1200000x128_1_0_0_1_wf : ScatterDims.WF S200000x128 S1200000x1 S1200000x128 [1] [0] [0] 1
  dot_S200000x128_S128x64_S200000x64_1_0_0_1_n_n_wf : DotDims.WF S200000x128 S128x64 S200000x64 [1] [0] [0] [1] [] []
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S200000x64_S64x2_S200000x2_1_0_0_1_n_n_wf : DotDims.WF S200000x64 S64x2 S200000x2 [1] [0] [0] [1] [] []
  gather_S200000x2_S1200000x1_S1200000x2_1_0_n_n_0_1_12_wf : GatherDims.WF S200000x2 S1200000x1 S1200000x2 [1] [0] [] [0] [] 1 ![1, 2]
  scatter_S200000x2_S1200000x1_S1200000x2_1_0_0_1_wf : ScatterDims.WF S200000x2 S1200000x1 S1200000x2 [1] [0] [0] 1
  scatter_S200000x2_S200000x1_S200000x2_1_0_0_1_wf : ScatterDims.WF S200000x2 S200000x1 S200000x2 [1] [0] [0] 1

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x64_S160000x1_S160000x64_1_0_n_n_0_1_164 : GatherDims S10000x64 S160000x1 S160000x64 where
  offsetDims := [1]
  collapsedSliceDims := [0]
  operandBatchingDims := []
  startIndicesBatchingDims := []
  startIndexMap := [0]
  indexVectorDim := 1
  sliceSizes := ![1, 64]
  wf := gather_S10000x64_S160000x1_S160000x64_1_0_n_n_0_1_164_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def scatter_S10000x64_S160000x1_S160000x64_1_0_0_1 : ScatterDims S10000x64 S160000x1 S160000x64 where
  updateWindowDims := [1]
  insertedWindowDims := [0]
  scatterDimsToOperandDims := [0]
  indexVectorDim := 1
  wf := scatter_S10000x64_S160000x1_S160000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x64_S200000x1_S200000x64_1_0_n_n_0_1_164 : GatherDims S10000x64 S200000x1 S200000x64 where
  offsetDims := [1]
  collapsedSliceDims := [0]
  operandBatchingDims := []
  startIndicesBatchingDims := []
  startIndexMap := [0]
  indexVectorDim := 1
  sliceSizes := ![1, 64]
  wf := gather_S10000x64_S200000x1_S200000x64_1_0_n_n_0_1_164_wf
def dot_S200000x128_S128x2_S200000x2_1_0_0_1_n_n : DotDims S200000x128 S128x2 S200000x2 where
  lhsContracting := [1]
  rhsContracting := [0]
  lhsNonContracting := [0]
  rhsNonContracting := [1]
  lhsBatch := []
  rhsBatch := []
  wf := dot_S200000x128_S128x2_S200000x2_1_0_0_1_n_n_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def gather_S200000x128_S1200000x1_S1200000x128_1_0_n_n_0_1_1128 : GatherDims S200000x128 S1200000x1 S1200000x128 where
  offsetDims := [1]
  collapsedSliceDims := [0]
  operandBatchingDims := []
  startIndicesBatchingDims := []
  startIndexMap := [0]
  indexVectorDim := 1
  sliceSizes := ![1, 128]
  wf := gather_S200000x128_S1200000x1_S1200000x128_1_0_n_n_0_1_1128_wf
def gather_S200000_S1200000x1_S1200000_n_0_n_n_0_1_1 : GatherDims S200000 S1200000x1 S1200000 where
  offsetDims := []
  collapsedSliceDims := [0]
  operandBatchingDims := []
  startIndicesBatchingDims := []
  startIndexMap := [0]
  indexVectorDim := 1
  sliceSizes := ![1]
  wf := gather_S200000_S1200000x1_S1200000_n_0_n_n_0_1_1_wf
def scatter_S200000x128_S1200000x1_S1200000x128_1_0_0_1 : ScatterDims S200000x128 S1200000x1 S1200000x128 where
  updateWindowDims := [1]
  insertedWindowDims := [0]
  scatterDimsToOperandDims := [0]
  indexVectorDim := 1
  wf := scatter_S200000x128_S1200000x1_S1200000x128_1_0_0_1_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S200000x64_S64x2_S200000x2_1_0_0_1_n_n : DotDims S200000x64 S64x2 S200000x2 where
  lhsContracting := [1]
  rhsContracting := [0]
  lhsNonContracting := [0]
  rhsNonContracting := [1]
  lhsBatch := []
  rhsBatch := []
  wf := dot_S200000x64_S64x2_S200000x2_1_0_0_1_n_n_wf
def gather_S200000x2_S1200000x1_S1200000x2_1_0_n_n_0_1_12 : GatherDims S200000x2 S1200000x1 S1200000x2 where
  offsetDims := [1]
  collapsedSliceDims := [0]
  operandBatchingDims := []
  startIndicesBatchingDims := []
  startIndexMap := [0]
  indexVectorDim := 1
  sliceSizes := ![1, 2]
  wf := gather_S200000x2_S1200000x1_S1200000x2_1_0_n_n_0_1_12_wf
def scatter_S200000x2_S1200000x1_S1200000x2_1_0_0_1 : ScatterDims S200000x2 S1200000x1 S1200000x2 where
  updateWindowDims := [1]
  insertedWindowDims := [0]
  scatterDimsToOperandDims := [0]
  indexVectorDim := 1
  wf := scatter_S200000x2_S1200000x1_S1200000x2_1_0_0_1_wf
def scatter_S200000x2_S200000x1_S200000x2_1_0_0_1 : ScatterDims S200000x2 S200000x1 S200000x2 where
  updateWindowDims := [1]
  insertedWindowDims := [0]
  scatterDimsToOperandDims := [0]
  indexVectorDim := 1
  wf := scatter_S200000x2_S200000x1_S200000x2_1_0_0_1_wf

class Facts : Prop extends Facts₀ where

variable [Facts]
-- ==== Proof.KVal.lean ====
/-
  The idealized kernel's run with its result kept.  The program is twelve pipelined regions among stretches of host
  operations; the contents of every buffer at each boundary are a fold through the program from the launch memory
  (the generated frame's `W0 … W20`), and at the return every unscoped buffer holds `W20`'s contents.  The frame
  statement keeps, of that, only the argument arrays; here the result array is kept as well: it ends at
  `W20` read at the result's reference, and the arguments end as launched.
-/
import proofs.«114758_j41918880809423_1_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result array at the last
    boundary's contents and every argument array as launched: the launch over the program's segments, the last thread
    state read against the final state, the result at its own reference and each argument through the fold. -/
theorem run_result : θ_run defs (onTc (τ := τ) (main (F := F))) ⟨m, fun _ => 0, ρ⟩ (fun r => ∀ c : Dev nD,
      r.2.mem ((c.tc : Thread nD τ).loc main_v229) = W20 m ρ c (Proc.devRef .tc main_v229)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v229 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c)⟩)

end Cert.KernelIdeal.KVal

end
-- ==== Proof.RefRun.lean ====
/-
  The reference program's run.  The reference is a straight line of
  382 host operations in single-assignment form (`ops`; @main is their sequence: `main_eq`).  Its buffer contents after
  any prefix are a fold of the operations over the launch memory (`StableHlo.after`), and the fold over a concatenation
  is the fold over the second list from the fold over the first (`after_append`).

  No whole-program term is formed.  The list is cut into fifteen consecutive segments `Seg1 … Seg15` whose concatenation is
  `ops` (`ops_split`): per graph layer one segment from the product X · W to the aggregated messages and one for the
  node update; one for the row gather of the community embedding; one for the attention gate; one for the batch-order
  row gather; one for the scatter back to global order; one for the row log-softmax.  `U0 … U15` name the buffer
  contents at the cuts, each the fold of its segment over the contents before, so a value read at a cut is a short term
  over the contents at the cut before.  `run`: every weakly fair execution terminates with every buffer at `U15`.
-/
import proofs.«114758_j41918880809423_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main's 382 operations, in order (a called function's operations stand in its call's place, spelt `TRef.…`). -/
abbrev ops : List (HloOp τ sig (Elt F)) :=
  [ binary main_arg1 main_arg2 main_v0 ((fun l r => Host.dotGeneral dot_S10000x32_S32x64_S10000x64_1_0_0_1_n_n none l r) : (⟨S10000x32, .f32⟩ : BufTy).Contents (Elt F) → (⟨S32x64, .f32⟩ : BufTy).Contents (Elt F) → (⟨S10000x64, .f32⟩ : BufTy).Contents (Elt F)),
    nullary main_cst (constant S_ .f32 0x3F800000#32),
    unary main_cst main_v1 (broadcastInDim S10000 ![] bcast_S_S10000 : (⟨S_, .f32⟩ : BufTy).Contents (Elt F) → (⟨S10000, .f32⟩ : BufTy).Contents (Elt F)),
    nullary main_c (constantI S_ 32 0#32),
    unary main_c main_v2 (broadcastInDim S160000 ![] bcast_S_S160000 : (⟨S_, .i32⟩ : BufTy).Contents (Elt F) → (⟨S160000, .i32⟩ : BufTy).Contents (Elt F)),
    binary main_arg17 main_v2 main_v3 (cmpi .slt : (⟨S160000, .i32⟩ : BufTy).Contents (Elt F) → (⟨S160000, .i32⟩ : BufTy).Contents (Elt F) → (⟨S160000, .i1⟩ : BufTy).Contents (Elt F)),
    nullary main_c_0 (constantI S_ 32 10000#32),
    unary main_c_0 main_v4 (broadcastInDim S160000 ![] bcast_S_S160000 : (⟨S_, .i32⟩ : BufTy).Contents (Elt F) → (⟨S160000, .i32⟩ : BufTy).Contents (Elt F)),
    binary main_arg17 main_v4 main_v5 (addi : (⟨S160000, .i32⟩ : BufTy).Contents (Elt F) → (⟨S160000, .i32⟩ : BufTy).Contents (Elt F) → (⟨S160000, .i32⟩ : BufTy).Contents (Elt F)),
    ternary main_v3 main_v5 main_arg17 main_v6 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v6 main_v7 (broadcastInDim S160000x1 ![0] bcast_S160000_S160000x1_0 : (⟨S160000, .i32⟩ : BufTy).Contents (Elt F) → (⟨S160000x1, .i32⟩ : BufTy).Contents (Elt F)),
    nullary main_cst_1 (constant S_ .f32 0x3F800000#32),
    unary main_cst_1 main_v8 (broadcastInDim S160000 ![] bcast_S_S160000 : (⟨S_, .f32⟩ : BufTy).Contents (Elt F) → (⟨S160000, .f32⟩ : BufTy).Contents (Elt F)),
    ternary main_v1 main_v7 main_v8 main_v9 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    unary main_v9 main_v10 (Host.rsqrt : (⟨S10000, .f32⟩ : BufTy).Contents (Elt F) → (⟨S10000, .f32⟩ : BufTy).Contents (Elt F)),
    nullary main_c_2 (constantI S_ 32 0#32),
    unary main_c_2 main_v11 (broadcastInDim S160000 ![] bcast_S_S160000 : (⟨S_, .i32⟩ : BufTy).Contents (Elt F) → (⟨S160000, .i32⟩ : BufTy).Contents (Elt F)),
    binary main_arg16 main_v11 main_v12 (cmpi .slt : (⟨S160000, .i32⟩ : BufTy).Contents (Elt F) → (⟨S160000, .i32⟩ : BufTy).Contents (Elt F) → (⟨S160000, .i1⟩ : BufTy).Contents (Elt F)),
    nullary main_c_3 (constantI S_ 32 10000#32),
    unary main_c_3 main_v13 (broadcastInDim S160000 ![] bcast_S_S160000 : (⟨S_, .i32⟩ : BufTy).Contents (Elt F) → (⟨S160000, .i32⟩ : BufTy).Contents (Elt F)),
    binary main_arg16 main_v13 main_v14 (addi : (⟨S160000, .i32⟩ : BufTy).Contents (Elt F) → (⟨S160000, .i32⟩ : BufTy).Contents (Elt F) → (⟨S160000, .i32⟩ : BufTy).Contents (Elt F)),
    ternary main_v12 main_v14 main_arg16 main_v15 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v15 main_v16 (broadcastInDim S160000x1 ![0] bcast_S160000_S160000x1_0 : (⟨S160000, .i32⟩ : BufTy).Contents (Elt F) → (⟨S160000x1, .i32⟩ : BufTy).Contents (Elt F)),
    binary main_v0 main_v16 main_v17 ((fun x i => Host.gather gather_S10000x64_S160000x1_S160000x64_1_0_n_n_0_1_164 x i) : (⟨S10000x64, .f32⟩ : BufTy).Contents (Elt F) → (⟨S160000x1, .i32⟩ : BufTy).Contents (Elt F) → (⟨S160000x64, .f32⟩ : BufTy).Contents (Elt F)),
    nullary main_c_4 (constantI S_ 32 0#32),
    unary main_c_4 main_v18 (broadcastInDim S160000 ![] bcast_S_S160000 : (⟨S_, .i32⟩ : BufTy).Contents (Elt F) → (⟨S160000, .i32⟩ : BufTy).Contents (Elt F)),
    binary main_arg16 main_v18 main_v19 (cmpi .slt : (⟨S160000, .i32⟩ : BufTy).Contents (Elt F) → (⟨S160000, .i32⟩ : BufTy).Contents (Elt F) → (⟨S160000, .i1⟩ : BufTy).Contents (Elt F)),
    nullary main_c_5 (constantI S_ 32 10000#32),
    unary main_c_5 main_v20 (broadcastInDim S160000 ![] bcast_S_S160000 : (⟨S_, .i32⟩ : BufTy).Contents (Elt F) → (⟨S160000, .i32⟩ : BufTy).Contents (Elt F)),
    binary main_arg16 main_v20 main_v21 (addi : (⟨S160000, .i32⟩ : BufTy).Contents (Elt F) → (⟨S160000, .i32⟩ : BufTy).Contents (Elt F) → (⟨S160000, .i32⟩ : BufTy).Contents (Elt F)),
    ternary main_v19 main_v21 main_arg16 main_v22 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v22 main_v23 (broadcastInDim S160000x1 ![0] bcast_S160000_S160000x1_0 : (⟨S160000, .i32⟩ : BufTy).Contents (Elt F) → (⟨S160000x1, .i32⟩ : BufTy).Contents (Elt F)),
    binary main_v10 main_v23 main_v24 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    nullary main_c_6 (constantI S_ 32 0#32),
    unary main_c_6 main_v25 (broadcastInDim S160000 ![] bcast_S_S160000 : (⟨S_, .i32⟩ : BufTy).Contents (Elt F) → (⟨S160000, .i32⟩ : BufTy).Contents (Elt F)),
    binary main_arg17 main_v25 main_v26 (cmpi .slt : (⟨S160000, .i32⟩ : BufTy).Contents (Elt F) → (⟨S160000, .i32⟩ : BufTy).Contents (Elt F) → (⟨S160000, .i1⟩ : BufTy).Contents (Elt F)),
    nullary main_c_7 (constantI S_ 32 10000#32),
    unary main_c_7 main_v27 (broadcastInDim S160000 ![] bcast_S_S160000 : (⟨S_, .i32⟩ : BufTy).Contents (Elt F) → (⟨S160000, .i32⟩ : BufTy).Contents (Elt F)),
    binary main_arg17 main_v27 main_v28 (addi : (⟨S160000, .i32⟩ : BufTy).Contents (Elt F) → (⟨S160000, .i32⟩ : BufTy).Contents (Elt F) → (⟨S160000, .i32⟩ : BufTy).Contents (Elt F)),
    ternary main_v26 main_v28 main_arg17 main_v29 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v29 main_v30 (broadcastInDim S160000x1 ![0] bcast_S160000_S160000x1_0 : (⟨S160000, .i32⟩ : BufTy).Contents (Elt F) → (⟨S160000x1, .i32⟩ : BufTy).Contents (Elt F)),
    binary main_v10 main_v30 main_v31 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    binary main_v24 main_v31 main_v32 (mulf : (⟨S160000, .f32⟩ : BufTy).Contents (Elt F) → (⟨S160000, .f32⟩ : BufTy).Contents (Elt F) → (⟨S160000, .f32⟩ : BufTy).Contents (Elt F)),
    unary main_v32 main_v33 (broadcastInDim S160000x1 ![0] bcast_S160000_S160000x1_0 : (⟨S160000, .f32⟩ : BufTy).Contents (Elt F) → (⟨S160000x1, .f32⟩ : BufTy).Contents (Elt F)),
    unary main_v33 main_v34 (broadcastInDim S160000x64 ![0, 1] bcast_S160000x1_S160000x64_0_1 : (⟨S160000x1, .f32⟩ : BufTy).Contents (Elt F) → (⟨S160000x64, .f32⟩ : BufTy).Contents (Elt F)),
    binary main_v17 main_v34 main_v35 (mulf : (⟨S160000x64, .f32⟩ : BufTy).Contents (Elt F) → (⟨S160000x64, .f32⟩ : BufTy).Contents (Elt F) → (⟨S160000x64, .f32⟩ : BufTy).Contents (Elt F)),
    nullary main_cst_8 (constant S_ .f32 0x00000000#32),
    unary main_cst_8 main_v36 (broadcastInDim S10000x64 ![] bcast_S_S10000x64 : (⟨S_, .f32⟩ : BufTy).Contents (Elt F) → (⟨S10000x64, .f32⟩ : BufTy).Contents (Elt F)),
    unary main_arg17 main_v37 (broadcastInDim S160000x1 ![0] bcast_S160000_S160000x1_0 : (⟨S160000, .i32⟩ : BufTy).Contents (Elt F) → (⟨S160000x1, .i32⟩ : BufTy).Contents (Elt F)),
    ternary main_v36 main_v37 main_v35 main_v38 ((fun x i u => Host.scatterAdd scatter_S10000x64_S160000x1_S160000x64_1_0_0_1 x i u) : (⟨S10000x64, .f32⟩ : BufTy).Contents (Elt F) → (⟨S160000x1, .i32⟩ : BufTy).Contents (Elt F) → (⟨S160000x64, .f32⟩ : BufTy).Contents (Elt F) → (⟨S10000x64, .f32⟩ : BufTy).Contents (Elt F)),
    nullary main_cst_9 (constant S_ .f32 0x3F800000#32),
    unary main_cst_9 main_v39 (broadcastInDim S10000 ![] bcast_S_S10000 : (⟨S_, .f32⟩ : BufTy).Contents (Elt F) → (⟨S10000, .f32⟩ : BufTy).Contents (Elt F)),
    binary main_v39 main_v9 main_v40 (Host.divf : (⟨S10000, .f32⟩ : BufTy).Contents (Elt F) → (⟨S10000, .f32⟩ : BufTy).Contents (Elt F) → (⟨S10000, .f32⟩ : BufTy).Contents (Elt F)),
    unary main_v40 main_v41 (broadcastInDim S10000x1 ![0] bcast_S10000_S10000x1_0 : (⟨S10000, .f32⟩ : BufTy).Contents (Elt F) → (⟨S10000x1, .f32⟩ : BufTy).Contents (Elt F)),
    unary main_v41 main_v42 (broadcastInDim S10000x64 ![0, 1] bcast_S10000x1_S10000x64_0_1 : (⟨S10000x1, .f32⟩ : BufTy).Contents (Elt F) → (⟨S10000x64, .f32⟩ : BufTy).Contents (Elt F)),
    binary main_v0 main_v42 main_v43 (mulf : (⟨S10000x64, .f32⟩ : BufTy).Contents (Elt F) → (⟨S10000x64, .f32⟩ : BufTy).Contents (Elt F) → (⟨S10000x64, .f32⟩ : BufTy).Contents (Elt F)),
    binary main_v38 main_v43 main_v44 (addf : (⟨S10000x64, .f32⟩ : BufTy).Contents (Elt F) → (⟨S10000x64, .f32⟩ : BufTy).Contents (Elt F) → (⟨S10000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S10000x64 ![0, 1] bcast_S1x64_S10000x64_0_1 : (⟨S1x64, .f32⟩ : BufTy).Contents (Elt F) → (⟨S10000x64, .f32⟩ : BufTy).Contents (Elt F)),
    binary main_v44 main_v46 main_v47 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x64, .f32⟩) main_call0_v0) (broadcastInDim S10000x64 ![] bcast_S_S10000x64),
    TRef.binary (TRef.of (T := ⟨S10000x64, .f32⟩) main_v47) (TRef.of (T := ⟨S10000x64, .f32⟩) main_call0_v0) (TRef.of (T := ⟨S10000x64, .f32⟩) main_v48) maximumf,
    binary main_v48 main_arg4 main_v49 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    nullary main_cst_10 (constant S_ .f32 0x3F800000#32),
    unary main_cst_10 main_v50 (broadcastInDim S10000 ![] bcast_S_S10000 : (⟨S_, .f32⟩ : BufTy).Contents (Elt F) → (⟨S10000, .f32⟩ : BufTy).Contents (Elt F)),
    nullary main_c_11 (constantI S_ 32 0#32),
    unary main_c_11 main_v51 (broadcastInDim S160000 ![] bcast_S_S160000 : (⟨S_, .i32⟩ : BufTy).Contents (Elt F) → (⟨S160000, .i32⟩ : BufTy).Contents (Elt F)),
    binary main_arg17 main_v51 main_v52 (cmpi .slt : (⟨S160000, .i32⟩ : BufTy).Contents (Elt F) → (⟨S160000, .i32⟩ : BufTy).Contents (Elt F) → (⟨S160000, .i1⟩ : BufTy).Contents (Elt F)),
    nullary main_c_12 (constantI S_ 32 10000#32),
    unary main_c_12 main_v53 (broadcastInDim S160000 ![] bcast_S_S160000 : (⟨S_, .i32⟩ : BufTy).Contents (Elt F) → (⟨S160000, .i32⟩ : BufTy).Contents (Elt F)),
    binary main_arg17 main_v53 main_v54 (addi : (⟨S160000, .i32⟩ : BufTy).Contents (Elt F) → (⟨S160000, .i32⟩ : BufTy).Contents (Elt F) → (⟨S160000, .i32⟩ : BufTy).Contents (Elt F)),
    ternary main_v52 main_v54 main_arg17 main_v55 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v55 main_v56 (broadcastInDim S160000x1 ![0] bcast_S160000_S160000x1_0 : (⟨S160000, .i32⟩ : BufTy).Contents (Elt F) → (⟨S160000x1, .i32⟩ : BufTy).Contents (Elt F)),
    nullary main_cst_13 (constant S_ .f32 0x3F800000#32),
    unary main_cst_13 main_v57 (broadcastInDim S160000 ![] bcast_S_S160000 : (⟨S_, .f32⟩ : BufTy).Contents (Elt F) → (⟨S160000, .f32⟩ : BufTy).Contents (Elt F)),
    ternary main_v50 main_v56 main_v57 main_v58 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    unary main_v58 main_v59 (Host.rsqrt : (⟨S10000, .f32⟩ : BufTy).Contents (Elt F) → (⟨S10000, .f32⟩ : BufTy).Contents (Elt F)),
    nullary main_c_14 (constantI S_ 32 0#32),
    unary main_c_14 main_v60 (broadcastInDim S160000 ![] bcast_S_S160000 : (⟨S_, .i32⟩ : BufTy).Contents (Elt F) → (⟨S160000, .i32⟩ : BufTy).Contents (Elt F)),
    binary main_arg16 main_v60 main_v61 (cmpi .slt : (⟨S160000, .i32⟩ : BufTy).Contents (Elt F) → (⟨S160000, .i32⟩ : BufTy).Contents (Elt F) → (⟨S160000, .i1⟩ : BufTy).Contents (Elt F)),
    nullary main_c_15 (constantI S_ 32 10000#32),
    unary main_c_15 main_v62 (broadcastInDim S160000 ![] bcast_S_S160000 : (⟨S_, .i32⟩ : BufTy).Contents (Elt F) → (⟨S160000, .i32⟩ : BufTy).Contents (Elt F)),
    binary main_arg16 main_v62 main_v63 (addi : (⟨S160000, .i32⟩ : BufTy).Contents (Elt F) → (⟨S160000, .i32⟩ : BufTy).Contents (Elt F) → (⟨S160000, .i32⟩ : BufTy).Contents (Elt F)),
    ternary main_v61 main_v63 main_arg16 main_v64 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v64 main_v65 (broadcastInDim S160000x1 ![0] bcast_S160000_S160000x1_0 : (⟨S160000, .i32⟩ : BufTy).Contents (Elt F) → (⟨S160000x1, .i32⟩ : BufTy).Contents (Elt F)),
    binary main_v49 main_v65 main_v66 ((fun x i => Host.gather gather_S10000x64_S160000x1_S160000x64_1_0_n_n_0_1_164 x i) : (⟨S10000x64, .f32⟩ : BufTy).Contents (Elt F) → (⟨S160000x1, .i32⟩ : BufTy).Contents (Elt F) → (⟨S160000x64, .f32⟩ : BufTy).Contents (Elt F)),
    nullary main_c_16 (constantI S_ 32 0#32),
    unary main_c_16 main_v67 (broadcastInDim S160000 ![] bcast_S_S160000 : (⟨S_, .i32⟩ : BufTy).Contents (Elt F) → (⟨S160000, .i32⟩ : BufTy).Contents (Elt F)),
    binary main_arg16 main_v67 main_v68 (cmpi .slt : (⟨S160000, .i32⟩ : BufTy).Contents (Elt F) → (⟨S160000, .i32⟩ : BufTy).Contents (Elt F) → (⟨S160000, .i1⟩ : BufTy).Contents (Elt F)),
    nullary main_c_17 (constantI S_ 32 10000#32),
    unary main_c_17 main_v69 (broadcastInDim S160000 ![] bcast_S_S160000 : (⟨S_, .i32⟩ : BufTy).Contents (Elt F) → (⟨S160000, .i32⟩ : BufTy).Contents (Elt F)),
    binary main_arg16 main_v69 main_v70 (addi : (⟨S160000, .i32⟩ : BufTy).Contents (Elt F) → (⟨S160000, .i32⟩ : BufTy).Contents (Elt F) → (⟨S160000, .i32⟩ : BufTy).Contents (Elt F)),
    ternary main_v68 main_v70 main_arg16 main_v71 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v71 main_v72 (broadcastInDim S160000x1 ![0] bcast_S160000_S160000x1_0 : (⟨S160000, .i32⟩ : BufTy).Contents (Elt F) → (⟨S160000x1, .i32⟩ : BufTy).Contents (Elt F)),
    binary main_v59 main_v72 main_v73 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    nullary main_c_18 (constantI S_ 32 0#32),
    unary main_c_18 main_v74 (broadcastInDim S160000 ![] bcast_S_S160000 : (⟨S_, .i32⟩ : BufTy).Contents (Elt F) → (⟨S160000, .i32⟩ : BufTy).Contents (Elt F)),
    binary main_arg17 main_v74 main_v75 (cmpi .slt : (⟨S160000, .i32⟩ : BufTy).Contents (Elt F) → (⟨S160000, .i32⟩ : BufTy).Contents (Elt F) → (⟨S160000, .i1⟩ : BufTy).Contents (Elt F)),
    nullary main_c_19 (constantI S_ 32 10000#32),
    unary main_c_19 main_v76 (broadcastInDim S160000 ![] bcast_S_S160000 : (⟨S_, .i32⟩ : BufTy).Contents (Elt F) → (⟨S160000, .i32⟩ : BufTy).Contents (Elt F)),
    binary main_arg17 main_v76 main_v77 (addi : (⟨S160000, .i32⟩ : BufTy).Contents (Elt F) → (⟨S160000, .i32⟩ : BufTy).Contents (Elt F) → (⟨S160000, .i32⟩ : BufTy).Contents (Elt F)),
    ternary main_v75 main_v77 main_arg17 main_v78 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v78 main_v79 (broadcastInDim S160000x1 ![0] bcast_S160000_S160000x1_0 : (⟨S160000, .i32⟩ : BufTy).Contents (Elt F) → (⟨S160000x1, .i32⟩ : BufTy).Contents (Elt F)),
    binary main_v59 main_v79 main_v80 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    binary main_v73 main_v80 main_v81 (mulf : (⟨S160000, .f32⟩ : BufTy).Contents (Elt F) → (⟨S160000, .f32⟩ : BufTy).Contents (Elt F) → (⟨S160000, .f32⟩ : BufTy).Contents (Elt F)),
    unary main_v81 main_v82 (broadcastInDim S160000x1 ![0] bcast_S160000_S160000x1_0 : (⟨S160000, .f32⟩ : BufTy).Contents (Elt F) → (⟨S160000x1, .f32⟩ : BufTy).Contents (Elt F)),
    unary main_v82 main_v83 (broadcastInDim S160000x64 ![0, 1] bcast_S160000x1_S160000x64_0_1 : (⟨S160000x1, .f32⟩ : BufTy).Contents (Elt F) → (⟨S160000x64, .f32⟩ : BufTy).Contents (Elt F)),
    binary main_v66 main_v83 main_v84 (mulf : (⟨S160000x64, .f32⟩ : BufTy).Contents (Elt F) → (⟨S160000x64, .f32⟩ : BufTy).Contents (Elt F) → (⟨S160000x64, .f32⟩ : BufTy).Contents (Elt F)),
    nullary main_cst_20 (constant S_ .f32 0x00000000#32),
    unary main_cst_20 main_v85 (broadcastInDim S10000x64 ![] bcast_S_S10000x64 : (⟨S_, .f32⟩ : BufTy).Contents (Elt F) → (⟨S10000x64, .f32⟩ : BufTy).Contents (Elt F)),
    unary main_arg17 main_v86 (broadcastInDim S160000x1 ![0] bcast_S160000_S160000x1_0 : (⟨S160000, .i32⟩ : BufTy).Contents (Elt F) → (⟨S160000x1, .i32⟩ : BufTy).Contents (Elt F)),
    ternary main_v85 main_v86 main_v84 main_v87 ((fun x i u => Host.scatterAdd scatter_S10000x64_S160000x1_S160000x64_1_0_0_1 x i u) : (⟨S10000x64, .f32⟩ : BufTy).Contents (Elt F) → (⟨S160000x1, .i32⟩ : BufTy).Contents (Elt F) → (⟨S160000x64, .f32⟩ : BufTy).Contents (Elt F) → (⟨S10000x64, .f32⟩ : BufTy).Contents (Elt F)),
    nullary main_cst_21 (constant S_ .f32 0x3F800000#32),
    unary main_cst_21 main_v88 (broadcastInDim S10000 ![] bcast_S_S10000 : (⟨S_, .f32⟩ : BufTy).Contents (Elt F) → (⟨S10000, .f32⟩ : BufTy).Contents (Elt F)),
    binary main_v88 main_v58 main_v89 (Host.divf : (⟨S10000, .f32⟩ : BufTy).Contents (Elt F) → (⟨S10000, .f32⟩ : BufTy).Contents (Elt F) → (⟨S10000, .f32⟩ : BufTy).Contents (Elt F)),
    unary main_v89 main_v90 (broadcastInDim S10000x1 ![0] bcast_S10000_S10000x1_0 : (⟨S10000, .f32⟩ : BufTy).Contents (Elt F) → (⟨S10000x1, .f32⟩ : BufTy).Contents (Elt F)),
    unary main_v90 main_v91 (broadcastInDim S10000x64 ![0, 1] bcast_S10000x1_S10000x64_0_1 : (⟨S10000x1, .f32⟩ : BufTy).Contents (Elt F) → (⟨S10000x64, .f32⟩ : BufTy).Contents (Elt F)),
    binary main_v49 main_v91 main_v92 (mulf : (⟨S10000x64, .f32⟩ : BufTy).Contents (Elt F) → (⟨S10000x64, .f32⟩ : BufTy).Contents (Elt F) → (⟨S10000x64, .f32⟩ : BufTy).Contents (Elt F)),
    binary main_v87 main_v92 main_v93 (addf : (⟨S10000x64, .f32⟩ : BufTy).Contents (Elt F) → (⟨S10000x64, .f32⟩ : BufTy).Contents (Elt F) → (⟨S10000x64, .f32⟩ : BufTy).Contents (Elt F)),
    unary main_arg5 main_v94 (broadcastInDim S1x64 ![1] bcast_S64_S1x64_1 : (⟨S64, .f32⟩ : BufTy).Contents (Elt F) → (⟨S1x64, .f32⟩ : BufTy).Contents (Elt F)),
    unary main_v94 main_v95 (broadcastInDim S10000x64 ![0, 1] bcast_S1x64_S10000x64_0_1 : (⟨S1x64, .f32⟩ : BufTy).Contents (Elt F) → (⟨S10000x64, .f32⟩ : BufTy).Contents (Elt F)),
    binary main_v93 main_v95 main_v96 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x64, .f32⟩) main_call1_v0) (broadcastInDim S10000x64 ![] bcast_S_S10000x64),
    TRef.binary (TRef.of (T := ⟨S10000x64, .f32⟩) main_v96) (TRef.of (T := ⟨S10000x64, .f32⟩) main_call1_v0) (TRef.of (T := ⟨S10000x64, .f32⟩) main_v97) maximumf,
    nullary main_c_22 (constantI S_ 32 0#32),
    unary main_c_22 main_v98 (broadcastInDim S200000 ![] bcast_S_S200000 : (⟨S_, .i32⟩ : BufTy).Contents (Elt F) → (⟨S200000, .i32⟩ : BufTy).Contents (Elt F)),
    binary main_arg18 main_v98 main_v99 (cmpi .slt : (⟨S200000, .i32⟩ : BufTy).Contents (Elt F) → (⟨S200000, .i32⟩ : BufTy).Contents (Elt F) → (⟨S200000, .i1⟩ : BufTy).Contents (Elt F)),
    nullary main_c_23 (constantI S_ 32 10000#32),
    unary main_c_23 main_v100 (broadcastInDim S200000 ![] bcast_S_S200000 : (⟨S_, .i32⟩ : BufTy).Contents (Elt F) → (⟨S200000, .i32⟩ : BufTy).Contents (Elt F)),
    binary main_arg18 main_v100 main_v101 (addi : (⟨S200000, .i32⟩ : BufTy).Contents (Elt F) → (⟨S200000, .i32⟩ : BufTy).Contents (Elt F) → (⟨S200000, .i32⟩ : BufTy).Contents (Elt F)),
    ternary main_v99 main_v101 main_arg18 main_v102 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v102 main_v103 (broadcastInDim S200000x1 ![0] bcast_S200000_S200000x1_0 : (⟨S200000, .i32⟩ : BufTy).Contents (Elt F) → (⟨S200000x1, .i32⟩ : BufTy).Contents (Elt F)),
    binary main_v97 main_v103 main_v104 ((fun x i => Host.gather gather_S10000x64_S200000x1_S200000x64_1_0_n_n_0_1_164 x i) : (⟨S10000x64, .f32⟩ : BufTy).Contents (Elt F) → (⟨S200000x1, .i32⟩ : BufTy).Contents (Elt F) → (⟨S200000x64, .f32⟩ : BufTy).Contents (Elt F)),
    binary main_arg0 main_v104 main_v105 ((fun a b => concatenate S200000x128 1 [⟨S200000x64, a⟩, ⟨S200000x64, b⟩] concatenates_S200000x64_S200000x64_S200000x128_d1) : (⟨S200000x64, .f32⟩ : BufTy).Contents (Elt F) → (⟨S200000x64, .f32⟩ : BufTy).Contents (Elt F) → (⟨S200000x128, .f32⟩ : BufTy).Contents (Elt F)),
    binary main_v105 main_arg6 main_v106 ((fun l r => Host.dotGeneral dot_S200000x128_S128x2_S200000x2_1_0_0_1_n_n none l r) : (⟨S200000x128, .f32⟩ : BufTy).Contents (Elt F) → (⟨S128x2, .f32⟩ : BufTy).Contents (Elt F) → (⟨S200000x2, .f32⟩ : BufTy).Contents (Elt F)),
    unary main_arg7 main_v107 (broadcastInDim S1x2 ![1] bcast_S2_S1x2_1 : (⟨S2, .f32⟩ : BufTy).Contents (Elt F) → (⟨S1x2, .f32⟩ : BufTy).Contents (Elt F)),
    unary main_v107 main_v108 (broadcastInDim S200000x2 ![0, 1] bcast_S1x2_S200000x2_0_1 : (⟨S1x2, .f32⟩ : BufTy).Contents (Elt F) → (⟨S200000x2, .f32⟩ : BufTy).Contents (Elt F)),
    binary main_v106 main_v108 main_v109 (addf : (⟨S200000x2, .f32⟩ : BufTy).Contents (Elt F) → (⟨S200000x2, .f32⟩ : BufTy).Contents (Elt F) → (⟨S200000x2, .f32⟩ : BufTy).Contents (Elt F)),
    nullary main_cst_24 (constant S_ .f32 0xFF800000#32),
    binary main_v109 main_cst_24 main_v110 ((fun x v => Host.reduce FloatOps.maximumf x v reducesTo_S200000x2_S200000_d1 h_S_) : (⟨S200000x2, .f32⟩ : BufTy).Contents (Elt F) → (⟨S_, .f32⟩ : BufTy).Contents (Elt F) → (⟨S200000, .f32⟩ : BufTy).Contents (Elt F)),
    nullary main_cst_25 (constant S_ .f32 0xFF800000#32),
    unary main_cst_25 main_v111 (broadcastInDim S200000 ![] bcast_S_S200000 : (⟨S_, .f32⟩ : BufTy).Contents (Elt F) → (⟨S200000, .f32⟩ : BufTy).Contents (Elt F)),
    binary main_v111 main_v110 main_v112 (maximumf : (⟨S200000, .f32⟩ : BufTy).Contents (Elt F) → (⟨S200000, .f32⟩ : BufTy).Contents (Elt F) → (⟨S200000, .f32⟩ : BufTy).Contents (Elt F)),
    unary main_v112 main_v113 (broadcastInDim S200000x1 ![0] bcast_S200000_S200000x1_0 : (⟨S200000, .f32⟩ : BufTy).Contents (Elt F) → (⟨S200000x1, .f32⟩ : BufTy).Contents (Elt F)),
    unary main_v113 main_v114 (broadcastInDim S200000x2 ![0, 1] bcast_S200000x1_S200000x2_0_1 : (⟨S200000x1, .f32⟩ : BufTy).Contents (Elt F) → (⟨S200000x2, .f32⟩ : BufTy).Contents (Elt F)),
    binary main_v109 main_v114 main_v115 (subf : (⟨S200000x2, .f32⟩ : BufTy).Contents (Elt F) → (⟨S200000x2, .f32⟩ : BufTy).Contents (Elt F) → (⟨S200000x2, .f32⟩ : BufTy).Contents (Elt F)),
    unary main_v115 main_v116 (Host.exp : (⟨S200000x2, .f32⟩ : BufTy).Contents (Elt F) → (⟨S200000x2, .f32⟩ : BufTy).Contents (Elt F)),
    nullary main_cst_26 (constant S_ .f32 0x00000000#32),
    binary main_v116 main_cst_26 main_v117 ((fun x v => Host.reduceAdd x v reducesTo_S200000x2_S200000_d1 h_S_) : (⟨S200000x2, .f32⟩ : BufTy).Contents (Elt F) → (⟨S_, .f32⟩ : BufTy).Contents (Elt F) → (⟨S200000, .f32⟩ : BufTy).Contents (Elt F)),
    unary main_v117 main_v118 (broadcastInDim S200000x1 ![0] bcast_S200000_S200000x1_0 : (⟨S200000, .f32⟩ : BufTy).Contents (Elt F) → (⟨S200000x1, .f32⟩ : BufTy).Contents (Elt F)),
    unary main_v118 main_v119 (broadcastInDim S200000x2 ![0, 1] bcast_S200000x1_S200000x2_0_1 : (⟨S200000x1, .f32⟩ : BufTy).Contents (Elt F) → (⟨S200000x2, .f32⟩ : BufTy).Contents (Elt F)),
    binary main_v116 main_v119 main_v120 (Host.divf : (⟨S200000x2, .f32⟩ : BufTy).Contents (Elt F) → (⟨S200000x2, .f32⟩ : BufTy).Contents (Elt F) → (⟨S200000x2, .f32⟩ : BufTy).Contents (Elt F)),
    unary main_v120 main_v121 ((extractStridedSlice S200000x1 ![0, 0] · slices_S200000x2_S200000x1_0_0) : (⟨S200000x2, .f32⟩ : BufTy).Contents (Elt F) → (⟨S200000x1, .f32⟩ : BufTy).Contents (Elt F)),
    unary main_v121 main_v122 (broadcastInDim S200000x64 ![0, 1] bcast_S200000x1_S200000x64_0_1 : (⟨S200000x1, .f32⟩ : BufTy).Contents (Elt F) → (⟨S200000x64, .f32⟩ : BufTy).Contents (Elt F)),
    binary main_arg0 main_v122 main_v123 (mulf : (⟨S200000x64, .f32⟩ : BufTy).Contents (Elt F) → (⟨S200000x64, .f32⟩ : BufTy).Contents (Elt F) → (⟨S200000x64, .f32⟩ : BufTy).Contents (Elt F)),
    unary main_v120 main_v124 ((extractStridedSlice S200000x1 ![0, 1] · slices_S200000x2_S200000x1_0_1) : (⟨S200000x2, .f32⟩ : BufTy).Contents (Elt F) → (⟨S200000x1, .f32⟩ : BufTy).Contents (Elt F)),
    unary main_v124 main_v125 (broadcastInDim S200000x64 ![0, 1] bcast_S200000x1_S200000x64_0_1 : (⟨S200000x1, .f32⟩ : BufTy).Contents (Elt F) → (⟨S200000x64, .f32⟩ : BufTy).Contents (Elt F)),
    binary main_v104 main_v125 main_v126 (mulf : (⟨S200000x64, .f32⟩ : BufTy).Contents (Elt F) → (⟨S200000x64, .f32⟩ : BufTy).Contents (Elt F) → (⟨S200000x64, .f32⟩ : BufTy).Contents (Elt F)),
    binary main_v123 main_v126 main_v127 ((fun a b => concatenate S200000x128 1 [⟨S200000x64, a⟩, ⟨S200000x64, b⟩] concatenates_S200000x64_S200000x64_S200000x128_d1) : (⟨S200000x64, .f32⟩ : BufTy).Contents (Elt F) → (⟨S200000x64, .f32⟩ : BufTy).Contents (Elt F) → (⟨S200000x128, .f32⟩ : BufTy).Contents (Elt F)),
    nullary main_c_27 (constantI S_ 32 0#32),
    unary main_c_27 main_v128 (broadcastInDim S200000 ![] bcast_S_S200000 : (⟨S_, .i32⟩ : BufTy).Contents (Elt F) → (⟨S200000, .i32⟩ : BufTy).Contents (Elt F)),
    binary main_arg19 main_v128 main_v129 (cmpi .slt : (⟨S200000, .i32⟩ : BufTy).Contents (Elt F) → (⟨S200000, .i32⟩ : BufTy).Contents (Elt F) → (⟨S200000, .i1⟩ : BufTy).Contents (Elt F)),
    nullary main_c_28 (constantI S_ 32 200000#32),
    unary main_c_28 main_v130 (broadcastInDim S200000 ![] bcast_S_S200000 : (⟨S_, .i32⟩ : BufTy).Contents (Elt F) → (⟨S200000, .i32⟩ : BufTy).Contents (Elt F)),
    binary main_arg19 main_v130 main_v131 (addi : (⟨S200000, .i32⟩ : BufTy).Contents (Elt F) → (⟨S200000, .i32⟩ : BufTy).Contents (Elt F) → (⟨S200000, .i32⟩ : BufTy).Contents (Elt F)),
    ternary main_v129 main_v131 main_arg19 main_v132 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v132 main_v133 (broadcastInDim S200000x1 ![0] bcast_S200000_S200000x1_0 : (⟨S200000, .i32⟩ : BufTy).Contents (Elt F) → (⟨S200000x1, .i32⟩ : BufTy).Contents (Elt F)),
    binary main_v127 main_v133 main_v134 ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)),
    binary main_v134 main_arg8 main_v135 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    nullary main_cst_29 (constant S_ .f32 0x3F800000#32),
    unary main_cst_29 main_v136 (broadcastInDim S200000 ![] bcast_S_S200000 : (⟨S_, .f32⟩ : BufTy).Contents (Elt F) → (⟨S200000, .f32⟩ : BufTy).Contents (Elt F)),
    nullary main_c_30 (constantI S_ 32 0#32),
    unary main_c_30 main_v137 (broadcastInDim S1200000 ![] bcast_S_S1200000 : (⟨S_, .i32⟩ : BufTy).Contents (Elt F) → (⟨S1200000, .i32⟩ : BufTy).Contents (Elt F)),
    binary main_arg15 main_v137 main_v138 (cmpi .slt : (⟨S1200000, .i32⟩ : BufTy).Contents (Elt F) → (⟨S1200000, .i32⟩ : BufTy).Contents (Elt F) → (⟨S1200000, .i1⟩ : BufTy).Contents (Elt F)),
    nullary main_c_31 (constantI S_ 32 200000#32),
    unary main_c_31 main_v139 (broadcastInDim S1200000 ![] bcast_S_S1200000 : (⟨S_, .i32⟩ : BufTy).Contents (Elt F) → (⟨S1200000, .i32⟩ : BufTy).Contents (Elt F)),
    binary main_arg15 main_v139 main_v140 (addi : (⟨S1200000, .i32⟩ : BufTy).Contents (Elt F) → (⟨S1200000, .i32⟩ : BufTy).Contents (Elt F) → (⟨S1200000, .i32⟩ : BufTy).Contents (Elt F)),
    ternary main_v138 main_v140 main_arg15 main_v141 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v141 main_v142 (broadcastInDim S1200000x1 ![0] bcast_S1200000_S1200000x1_0 : (⟨S1200000, .i32⟩ : BufTy).Contents (Elt F) → (⟨S1200000x1, .i32⟩ : BufTy).Contents (Elt F)),
    nullary main_cst_32 (constant S_ .f32 0x3F800000#32),
    unary main_cst_32 main_v143 (broadcastInDim S1200000 ![] bcast_S_S1200000 : (⟨S_, .f32⟩ : BufTy).Contents (Elt F) → (⟨S1200000, .f32⟩ : BufTy).Contents (Elt F)),
    ternary main_v136 main_v142 main_v143 main_v144 ((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)),
    unary main_v144 main_v145 (Host.rsqrt : (⟨S200000, .f32⟩ : BufTy).Contents (Elt F) → (⟨S200000, .f32⟩ : BufTy).Contents (Elt F)),
    nullary main_c_33 (constantI S_ 32 0#32),
    unary main_c_33 main_v146 (broadcastInDim S1200000 ![] bcast_S_S1200000 : (⟨S_, .i32⟩ : BufTy).Contents (Elt F) → (⟨S1200000, .i32⟩ : BufTy).Contents (Elt F)),
    binary main_arg14 main_v146 main_v147 (cmpi .slt : (⟨S1200000, .i32⟩ : BufTy).Contents (Elt F) → (⟨S1200000, .i32⟩ : BufTy).Contents (Elt F) → (⟨S1200000, .i1⟩ : BufTy).Contents (Elt F)),
    nullary main_c_34 (constantI S_ 32 200000#32),
    unary main_c_34 main_v148 (broadcastInDim S1200000 ![] bcast_S_S1200000 : (⟨S_, .i32⟩ : BufTy).Contents (Elt F) → (⟨S1200000, .i32⟩ : BufTy).Contents (Elt F)),
    binary main_arg14 main_v148 main_v149 (addi : (⟨S1200000, .i32⟩ : BufTy).Contents (Elt F) → (⟨S1200000, .i32⟩ : BufTy).Contents (Elt F) → (⟨S1200000, .i32⟩ : BufTy).Contents (Elt F)),
    ternary main_v147 main_v149 main_arg14 main_v150 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v150 main_v151 (broadcastInDim S1200000x1 ![0] bcast_S1200000_S1200000x1_0 : (⟨S1200000, .i32⟩ : BufTy).Contents (Elt F) → (⟨S1200000x1, .i32⟩ : BufTy).Contents (Elt F)),
    binary main_v135 main_v151 main_v152 ((fun x i => Host.gather gather_S200000x128_S1200000x1_S1200000x128_1_0_n_n_0_1_1128 x i) : (⟨S200000x128, .f32⟩ : BufTy).Contents (Elt F) → (⟨S1200000x1, .i32⟩ : BufTy).Contents (Elt F) → (⟨S1200000x128, .f32⟩ : BufTy).Contents (Elt F)),
    nullary main_c_35 (constantI S_ 32 0#32),
    unary main_c_35 main_v153 (broadcastInDim S1200000 ![] bcast_S_S1200000 : (⟨S_, .i32⟩ : BufTy).Contents (Elt F) → (⟨S1200000, .i32⟩ : BufTy).Contents (Elt F)),
    binary main_arg14 main_v153 main_v154 (cmpi .slt : (⟨S1200000, .i32⟩ : BufTy).Contents (Elt F) → (⟨S1200000, .i32⟩ : BufTy).Contents (Elt F) → (⟨S1200000, .i1⟩ : BufTy).Contents (Elt F)),
    nullary main_c_36 (constantI S_ 32 200000#32),
    unary main_c_36 main_v155 (broadcastInDim S1200000 ![] bcast_S_S1200000 : (⟨S_, .i32⟩ : BufTy).Contents (Elt F) → (⟨S1200000, .i32⟩ : BufTy).Contents (Elt F)),
    binary main_arg14 main_v155 main_v156 (addi : (⟨S1200000, .i32⟩ : BufTy).Contents (Elt F) → (⟨S1200000, .i32⟩ : BufTy).Contents (Elt F) → (⟨S1200000, .i32⟩ : BufTy).Contents (Elt F)),
    ternary main_v154 main_v156 main_arg14 main_v157 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v157 main_v158 (broadcastInDim S1200000x1 ![0] bcast_S1200000_S1200000x1_0 : (⟨S1200000, .i32⟩ : BufTy).Contents (Elt F) → (⟨S1200000x1, .i32⟩ : BufTy).Contents (Elt F)),
    binary main_v145 main_v158 main_v159 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    nullary main_c_37 (constantI S_ 32 0#32),
    unary main_c_37 main_v160 (broadcastInDim S1200000 ![] bcast_S_S1200000 : (⟨S_, .i32⟩ : BufTy).Contents (Elt F) → (⟨S1200000, .i32⟩ : BufTy).Contents (Elt F)),
    binary main_arg15 main_v160 main_v161 (cmpi .slt : (⟨S1200000, .i32⟩ : BufTy).Contents (Elt F) → (⟨S1200000, .i32⟩ : BufTy).Contents (Elt F) → (⟨S1200000, .i1⟩ : BufTy).Contents (Elt F)),
    nullary main_c_38 (constantI S_ 32 200000#32),
    unary main_c_38 main_v162 (broadcastInDim S1200000 ![] bcast_S_S1200000 : (⟨S_, .i32⟩ : BufTy).Contents (Elt F) → (⟨S1200000, .i32⟩ : BufTy).Contents (Elt F)),
    binary main_arg15 main_v162 main_v163 (addi : (⟨S1200000, .i32⟩ : BufTy).Contents (Elt F) → (⟨S1200000, .i32⟩ : BufTy).Contents (Elt F) → (⟨S1200000, .i32⟩ : BufTy).Contents (Elt F)),
    ternary main_v161 main_v163 main_arg15 main_v164 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v164 main_v165 (broadcastInDim S1200000x1 ![0] bcast_S1200000_S1200000x1_0 : (⟨S1200000, .i32⟩ : BufTy).Contents (Elt F) → (⟨S1200000x1, .i32⟩ : BufTy).Contents (Elt F)),
    binary main_v145 main_v165 main_v166 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    binary main_v159 main_v166 main_v167 (mulf : (⟨S1200000, .f32⟩ : BufTy).Contents (Elt F) → (⟨S1200000, .f32⟩ : BufTy).Contents (Elt F) → (⟨S1200000, .f32⟩ : BufTy).Contents (Elt F)),
    unary main_v167 main_v168 (broadcastInDim S1200000x1 ![0] bcast_S1200000_S1200000x1_0 : (⟨S1200000, .f32⟩ : BufTy).Contents (Elt F) → (⟨S1200000x1, .f32⟩ : BufTy).Contents (Elt F)),
    unary main_v168 main_v169 (broadcastInDim S1200000x128 ![0, 1] bcast_S1200000x1_S1200000x128_0_1 : (⟨S1200000x1, .f32⟩ : BufTy).Contents (Elt F) → (⟨S1200000x128, .f32⟩ : BufTy).Contents (Elt F)),
    binary main_v152 main_v169 main_v170 (mulf : (⟨S1200000x128, .f32⟩ : BufTy).Contents (Elt F) → (⟨S1200000x128, .f32⟩ : BufTy).Contents (Elt F) → (⟨S1200000x128, .f32⟩ : BufTy).Contents (Elt F)),
    nullary main_cst_39 (constant S_ .f32 0x00000000#32),
    unary main_cst_39 main_v171 (broadcastInDim S200000x128 ![] bcast_S_S200000x128 : (⟨S_, .f32⟩ : BufTy).Contents (Elt F) → (⟨S200000x128, .f32⟩ : BufTy).Contents (Elt F)),
    unary main_arg15 main_v172 (broadcastInDim S1200000x1 ![0] bcast_S1200000_S1200000x1_0 : (⟨S1200000, .i32⟩ : BufTy).Contents (Elt F) → (⟨S1200000x1, .i32⟩ : BufTy).Contents (Elt F)),
    ternary main_v171 main_v172 main_v170 main_v173 ((fun x i u => Host.scatterAdd scatter_S200000x128_S1200000x1_S1200000x128_1_0_0_1 x i u) : (⟨S200000x128, .f32⟩ : BufTy).Contents (Elt F) → (⟨S1200000x1, .i32⟩ : BufTy).Contents (Elt F) → (⟨S1200000x128, .f32⟩ : BufTy).Contents (Elt F) → (⟨S200000x128, .f32⟩ : BufTy).Contents (Elt F)),
    nullary main_cst_40 (constant S_ .f32 0x3F800000#32),
    unary main_cst_40 main_v174 (broadcastInDim S200000 ![] bcast_S_S200000 : (⟨S_, .f32⟩ : BufTy).Contents (Elt F) → (⟨S200000, .f32⟩ : BufTy).Contents (Elt F)),
    binary main_v174 main_v144 main_v175 (Host.divf : (⟨S200000, .f32⟩ : BufTy).Contents (Elt F) → (⟨S200000, .f32⟩ : BufTy).Contents (Elt F) → (⟨S200000, .f32⟩ : BufTy).Contents (Elt F)),
    unary main_v175 main_v176 (broadcastInDim S200000x1 ![0] bcast_S200000_S200000x1_0 : (⟨S200000, .f32⟩ : BufTy).Contents (Elt F) → (⟨S200000x1, .f32⟩ : BufTy).Contents (Elt F)),
    unary main_v176 main_v177 (broadcastInDim S200000x128 ![0, 1] bcast_S200000x1_S200000x128_0_1 : (⟨S200000x1, .f32⟩ : BufTy).Contents (Elt F) → (⟨S200000x128, .f32⟩ : BufTy).Contents (Elt F)),
    binary main_v135 main_v177 main_v178 (mulf : (⟨S200000x128, .f32⟩ : BufTy).Contents (Elt F) → (⟨S200000x128, .f32⟩ : BufTy).Contents (Elt F) → (⟨S200000x128, .f32⟩ : BufTy).Contents (Elt F)),
    binary main_v173 main_v178 main_v179 (addf : (⟨S200000x128, .f32⟩ : BufTy).Contents (Elt F) → (⟨S200000x128, .f32⟩ : BufTy).Contents (Elt F) → (⟨S200000x128, .f32⟩ : BufTy).Contents (Elt F)),
    unary main_arg9 main_v180 (broadcastInDim S1x128 ![1] bcast_S128_S1x128_1 : (⟨S128, .f32⟩ : BufTy).Contents (Elt F) → (⟨S1x128, .f32⟩ : BufTy).Contents (Elt F)),
    unary main_v180 main_v181 (broadcastInDim S200000x128 ![0, 1] bcast_S1x128_S200000x128_0_1 : (⟨S1x128, .f32⟩ : BufTy).Contents (Elt F) → (⟨S200000x128, .f32⟩ : BufTy).Contents (Elt F)),
    binary main_v179 main_v181 main_v182 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x128, .f32⟩) main_call2_v0) (broadcastInDim S200000x128 ![] bcast_S_S200000x128),
    TRef.binary (TRef.of (T := ⟨S200000x128, .f32⟩) main_v182) (TRef.of (T := ⟨S200000x128, .f32⟩) main_call2_v0) (TRef.of (T := ⟨S200000x128, .f32⟩) main_v183) maximumf,
    binary main_v183 main_arg10 main_v184 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    nullary main_cst_41 (constant S_ .f32 0x3F800000#32),
    unary main_cst_41 main_v185 (broadcastInDim S200000 ![] bcast_S_S200000 : (⟨S_, .f32⟩ : BufTy).Contents (Elt F) → (⟨S200000, .f32⟩ : BufTy).Contents (Elt F)),
    nullary main_c_42 (constantI S_ 32 0#32),
    unary main_c_42 main_v186 (broadcastInDim S1200000 ![] bcast_S_S1200000 : (⟨S_, .i32⟩ : BufTy).Contents (Elt F) → (⟨S1200000, .i32⟩ : BufTy).Contents (Elt F)),
    binary main_arg15 main_v186 main_v187 (cmpi .slt : (⟨S1200000, .i32⟩ : BufTy).Contents (Elt F) → (⟨S1200000, .i32⟩ : BufTy).Contents (Elt F) → (⟨S1200000, .i1⟩ : BufTy).Contents (Elt F)),
    nullary main_c_43 (constantI S_ 32 200000#32),
    unary main_c_43 main_v188 (broadcastInDim S1200000 ![] bcast_S_S1200000 : (⟨S_, .i32⟩ : BufTy).Contents (Elt F) → (⟨S1200000, .i32⟩ : BufTy).Contents (Elt F)),
    binary main_arg15 main_v188 main_v189 (addi : (⟨S1200000, .i32⟩ : BufTy).Contents (Elt F) → (⟨S1200000, .i32⟩ : BufTy).Contents (Elt F) → (⟨S1200000, .i32⟩ : BufTy).Contents (Elt F)),
    ternary main_v187 main_v189 main_arg15 main_v190 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v190 main_v191 (broadcastInDim S1200000x1 ![0] bcast_S1200000_S1200000x1_0 : (⟨S1200000, .i32⟩ : BufTy).Contents (Elt F) → (⟨S1200000x1, .i32⟩ : BufTy).Contents (Elt F)),
    nullary main_cst_44 (constant S_ .f32 0x3F800000#32),
    unary main_cst_44 main_v192 (broadcastInDim S1200000 ![] bcast_S_S1200000 : (⟨S_, .f32⟩ : BufTy).Contents (Elt F) → (⟨S1200000, .f32⟩ : BufTy).Contents (Elt F)),
    ternary main_v185 main_v191 main_v192 main_v193 ((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)),
    unary main_v193 main_v194 (Host.rsqrt : (⟨S200000, .f32⟩ : BufTy).Contents (Elt F) → (⟨S200000, .f32⟩ : BufTy).Contents (Elt F)),
    nullary main_c_45 (constantI S_ 32 0#32),
    unary main_c_45 main_v195 (broadcastInDim S1200000 ![] bcast_S_S1200000 : (⟨S_, .i32⟩ : BufTy).Contents (Elt F) → (⟨S1200000, .i32⟩ : BufTy).Contents (Elt F)),
    binary main_arg14 main_v195 main_v196 (cmpi .slt : (⟨S1200000, .i32⟩ : BufTy).Contents (Elt F) → (⟨S1200000, .i32⟩ : BufTy).Contents (Elt F) → (⟨S1200000, .i1⟩ : BufTy).Contents (Elt F)),
    nullary main_c_46 (constantI S_ 32 200000#32),
    unary main_c_46 main_v197 (broadcastInDim S1200000 ![] bcast_S_S1200000 : (⟨S_, .i32⟩ : BufTy).Contents (Elt F) → (⟨S1200000, .i32⟩ : BufTy).Contents (Elt F)),
    binary main_arg14 main_v197 main_v198 (addi : (⟨S1200000, .i32⟩ : BufTy).Contents (Elt F) → (⟨S1200000, .i32⟩ : BufTy).Contents (Elt F) → (⟨S1200000, .i32⟩ : BufTy).Contents (Elt F)),
    ternary main_v196 main_v198 main_arg14 main_v199 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v199 main_v200 (broadcastInDim S1200000x1 ![0] bcast_S1200000_S1200000x1_0 : (⟨S1200000, .i32⟩ : BufTy).Contents (Elt F) → (⟨S1200000x1, .i32⟩ : BufTy).Contents (Elt F)),
    binary main_v184 main_v200 main_v201 ((fun x i => Host.gather gather_S200000x64_S1200000x1_S1200000x64_1_0_n_n_0_1_164 x i) : (⟨S200000x64, .f32⟩ : BufTy).Contents (Elt F) → (⟨S1200000x1, .i32⟩ : BufTy).Contents (Elt F) → (⟨S1200000x64, .f32⟩ : BufTy).Contents (Elt F)),
    nullary main_c_47 (constantI S_ 32 0#32),
    unary main_c_47 main_v202 (broadcastInDim S1200000 ![] bcast_S_S1200000 : (⟨S_, .i32⟩ : BufTy).Contents (Elt F) → (⟨S1200000, .i32⟩ : BufTy).Contents (Elt F)),
    binary main_arg14 main_v202 main_v203 (cmpi .slt : (⟨S1200000, .i32⟩ : BufTy).Contents (Elt F) → (⟨S1200000, .i32⟩ : BufTy).Contents (Elt F) → (⟨S1200000, .i1⟩ : BufTy).Contents (Elt F)),
    nullary main_c_48 (constantI S_ 32 200000#32),
    unary main_c_48 main_v204 (broadcastInDim S1200000 ![] bcast_S_S1200000 : (⟨S_, .i32⟩ : BufTy).Contents (Elt F) → (⟨S1200000, .i32⟩ : BufTy).Contents (Elt F)),
    binary main_arg14 main_v204 main_v205 (addi : (⟨S1200000, .i32⟩ : BufTy).Contents (Elt F) → (⟨S1200000, .i32⟩ : BufTy).Contents (Elt F) → (⟨S1200000, .i32⟩ : BufTy).Contents (Elt F)),
    ternary main_v203 main_v205 main_arg14 main_v206 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v206 main_v207 (broadcastInDim S1200000x1 ![0] bcast_S1200000_S1200000x1_0 : (⟨S1200000, .i32⟩ : BufTy).Contents (Elt F) → (⟨S1200000x1, .i32⟩ : BufTy).Contents (Elt F)),
    binary main_v194 main_v207 main_v208 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    nullary main_c_49 (constantI S_ 32 0#32),
    unary main_c_49 main_v209 (broadcastInDim S1200000 ![] bcast_S_S1200000 : (⟨S_, .i32⟩ : BufTy).Contents (Elt F) → (⟨S1200000, .i32⟩ : BufTy).Contents (Elt F)),
    binary main_arg15 main_v209 main_v210 (cmpi .slt : (⟨S1200000, .i32⟩ : BufTy).Contents (Elt F) → (⟨S1200000, .i32⟩ : BufTy).Contents (Elt F) → (⟨S1200000, .i1⟩ : BufTy).Contents (Elt F)),
    nullary main_c_50 (constantI S_ 32 200000#32),
    unary main_c_50 main_v211 (broadcastInDim S1200000 ![] bcast_S_S1200000 : (⟨S_, .i32⟩ : BufTy).Contents (Elt F) → (⟨S1200000, .i32⟩ : BufTy).Contents (Elt F)),
    binary main_arg15 main_v211 main_v212 (addi : (⟨S1200000, .i32⟩ : BufTy).Contents (Elt F) → (⟨S1200000, .i32⟩ : BufTy).Contents (Elt F) → (⟨S1200000, .i32⟩ : BufTy).Contents (Elt F)),
    ternary main_v210 main_v212 main_arg15 main_v213 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v213 main_v214 (broadcastInDim S1200000x1 ![0] bcast_S1200000_S1200000x1_0 : (⟨S1200000, .i32⟩ : BufTy).Contents (Elt F) → (⟨S1200000x1, .i32⟩ : BufTy).Contents (Elt F)),
    binary main_v194 main_v214 main_v215 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    binary main_v208 main_v215 main_v216 (mulf : (⟨S1200000, .f32⟩ : BufTy).Contents (Elt F) → (⟨S1200000, .f32⟩ : BufTy).Contents (Elt F) → (⟨S1200000, .f32⟩ : BufTy).Contents (Elt F)),
    unary main_v216 main_v217 (broadcastInDim S1200000x1 ![0] bcast_S1200000_S1200000x1_0 : (⟨S1200000, .f32⟩ : BufTy).Contents (Elt F) → (⟨S1200000x1, .f32⟩ : BufTy).Contents (Elt F)),
    unary main_v217 main_v218 (broadcastInDim S1200000x64 ![0, 1] bcast_S1200000x1_S1200000x64_0_1 : (⟨S1200000x1, .f32⟩ : BufTy).Contents (Elt F) → (⟨S1200000x64, .f32⟩ : BufTy).Contents (Elt F)),
    binary main_v201 main_v218 main_v219 (mulf : (⟨S1200000x64, .f32⟩ : BufTy).Contents (Elt F) → (⟨S1200000x64, .f32⟩ : BufTy).Contents (Elt F) → (⟨S1200000x64, .f32⟩ : BufTy).Contents (Elt F)),
    nullary main_cst_51 (constant S_ .f32 0x00000000#32),
    unary main_cst_51 main_v220 (broadcastInDim S200000x64 ![] bcast_S_S200000x64 : (⟨S_, .f32⟩ : BufTy).Contents (Elt F) → (⟨S200000x64, .f32⟩ : BufTy).Contents (Elt F)),
    unary main_arg15 main_v221 (broadcastInDim S1200000x1 ![0] bcast_S1200000_S1200000x1_0 : (⟨S1200000, .i32⟩ : BufTy).Contents (Elt F) → (⟨S1200000x1, .i32⟩ : BufTy).Contents (Elt F)),
    ternary main_v220 main_v221 main_v219 main_v222 ((fun x i u => Host.scatterAdd scatter_S200000x64_S1200000x1_S1200000x64_1_0_0_1 x i u) : (⟨S200000x64, .f32⟩ : BufTy).Contents (Elt F) → (⟨S1200000x1, .i32⟩ : BufTy).Contents (Elt F) → (⟨S1200000x64, .f32⟩ : BufTy).Contents (Elt F) → (⟨S200000x64, .f32⟩ : BufTy).Contents (Elt F)),
    nullary main_cst_52 (constant S_ .f32 0x3F800000#32),
    unary main_cst_52 main_v223 (broadcastInDim S200000 ![] bcast_S_S200000 : (⟨S_, .f32⟩ : BufTy).Contents (Elt F) → (⟨S200000, .f32⟩ : BufTy).Contents (Elt F)),
    binary main_v223 main_v193 main_v224 (Host.divf : (⟨S200000, .f32⟩ : BufTy).Contents (Elt F) → (⟨S200000, .f32⟩ : BufTy).Contents (Elt F) → (⟨S200000, .f32⟩ : BufTy).Contents (Elt F)),
    unary main_v224 main_v225 (broadcastInDim S200000x1 ![0] bcast_S200000_S200000x1_0 : (⟨S200000, .f32⟩ : BufTy).Contents (Elt F) → (⟨S200000x1, .f32⟩ : BufTy).Contents (Elt F)),
    unary main_v225 main_v226 (broadcastInDim S200000x64 ![0, 1] bcast_S200000x1_S200000x64_0_1 : (⟨S200000x1, .f32⟩ : BufTy).Contents (Elt F) → (⟨S200000x64, .f32⟩ : BufTy).Contents (Elt F)),
    binary main_v184 main_v226 main_v227 (mulf : (⟨S200000x64, .f32⟩ : BufTy).Contents (Elt F) → (⟨S200000x64, .f32⟩ : BufTy).Contents (Elt F) → (⟨S200000x64, .f32⟩ : BufTy).Contents (Elt F)),
    binary main_v222 main_v227 main_v228 (addf : (⟨S200000x64, .f32⟩ : BufTy).Contents (Elt F) → (⟨S200000x64, .f32⟩ : BufTy).Contents (Elt F) → (⟨S200000x64, .f32⟩ : BufTy).Contents (Elt F)),
    unary main_arg11 main_v229 (broadcastInDim S1x64 ![1] bcast_S64_S1x64_1 : (⟨S64, .f32⟩ : BufTy).Contents (Elt F) → (⟨S1x64, .f32⟩ : BufTy).Contents (Elt F)),
    unary main_v229 main_v230 (broadcastInDim S200000x64 ![0, 1] bcast_S1x64_S200000x64_0_1 : (⟨S1x64, .f32⟩ : BufTy).Contents (Elt F) → (⟨S200000x64, .f32⟩ : BufTy).Contents (Elt F)),
    binary main_v228 main_v230 main_v231 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S200000x64, .f32⟩) main_call3_v0) (broadcastInDim S200000x64 ![] bcast_S_S200000x64),
    TRef.binary (TRef.of (T := ⟨S200000x64, .f32⟩) main_v231) (TRef.of (T := ⟨S200000x64, .f32⟩) main_call3_v0) (TRef.of (T := ⟨S200000x64, .f32⟩) main_v232) maximumf,
    binary main_v232 main_arg12 main_v233 ((fun l r => Host.dotGeneral dot_S200000x64_S64x2_S200000x2_1_0_0_1_n_n none l r) : (⟨S200000x64, .f32⟩ : BufTy).Contents (Elt F) → (⟨S64x2, .f32⟩ : BufTy).Contents (Elt F) → (⟨S200000x2, .f32⟩ : BufTy).Contents (Elt F)),
    nullary main_cst_53 (constant S_ .f32 0x3F800000#32),
    unary main_cst_53 main_v234 (broadcastInDim S200000 ![] bcast_S_S200000 : (⟨S_, .f32⟩ : BufTy).Contents (Elt F) → (⟨S200000, .f32⟩ : BufTy).Contents (Elt F)),
    nullary main_c_54 (constantI S_ 32 0#32),
    unary main_c_54 main_v235 (broadcastInDim S1200000 ![] bcast_S_S1200000 : (⟨S_, .i32⟩ : BufTy).Contents (Elt F) → (⟨S1200000, .i32⟩ : BufTy).Contents (Elt F)),
    binary main_arg15 main_v235 main_v236 (cmpi .slt : (⟨S1200000, .i32⟩ : BufTy).Contents (Elt F) → (⟨S1200000, .i32⟩ : BufTy).Contents (Elt F) → (⟨S1200000, .i1⟩ : BufTy).Contents (Elt F)),
    nullary main_c_55 (constantI S_ 32 200000#32),
    unary main_c_55 main_v237 (broadcastInDim S1200000 ![] bcast_S_S1200000 : (⟨S_, .i32⟩ : BufTy).Contents (Elt F) → (⟨S1200000, .i32⟩ : BufTy).Contents (Elt F)),
    binary main_arg15 main_v237 main_v238 (addi : (⟨S1200000, .i32⟩ : BufTy).Contents (Elt F) → (⟨S1200000, .i32⟩ : BufTy).Contents (Elt F) → (⟨S1200000, .i32⟩ : BufTy).Contents (Elt F)),
    ternary main_v236 main_v238 main_arg15 main_v239 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v239 main_v240 (broadcastInDim S1200000x1 ![0] bcast_S1200000_S1200000x1_0 : (⟨S1200000, .i32⟩ : BufTy).Contents (Elt F) → (⟨S1200000x1, .i32⟩ : BufTy).Contents (Elt F)),
    nullary main_cst_56 (constant S_ .f32 0x3F800000#32),
    unary main_cst_56 main_v241 (broadcastInDim S1200000 ![] bcast_S_S1200000 : (⟨S_, .f32⟩ : BufTy).Contents (Elt F) → (⟨S1200000, .f32⟩ : BufTy).Contents (Elt F)),
    ternary main_v234 main_v240 main_v241 main_v242 ((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)),
    unary main_v242 main_v243 (Host.rsqrt : (⟨S200000, .f32⟩ : BufTy).Contents (Elt F) → (⟨S200000, .f32⟩ : BufTy).Contents (Elt F)),
    nullary main_c_57 (constantI S_ 32 0#32),
    unary main_c_57 main_v244 (broadcastInDim S1200000 ![] bcast_S_S1200000 : (⟨S_, .i32⟩ : BufTy).Contents (Elt F) → (⟨S1200000, .i32⟩ : BufTy).Contents (Elt F)),
    binary main_arg14 main_v244 main_v245 (cmpi .slt : (⟨S1200000, .i32⟩ : BufTy).Contents (Elt F) → (⟨S1200000, .i32⟩ : BufTy).Contents (Elt F) → (⟨S1200000, .i1⟩ : BufTy).Contents (Elt F)),
    nullary main_c_58 (constantI S_ 32 200000#32),
    unary main_c_58 main_v246 (broadcastInDim S1200000 ![] bcast_S_S1200000 : (⟨S_, .i32⟩ : BufTy).Contents (Elt F) → (⟨S1200000, .i32⟩ : BufTy).Contents (Elt F)),
    binary main_arg14 main_v246 main_v247 (addi : (⟨S1200000, .i32⟩ : BufTy).Contents (Elt F) → (⟨S1200000, .i32⟩ : BufTy).Contents (Elt F) → (⟨S1200000, .i32⟩ : BufTy).Contents (Elt F)),
    ternary main_v245 main_v247 main_arg14 main_v248 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v248 main_v249 (broadcastInDim S1200000x1 ![0] bcast_S1200000_S1200000x1_0 : (⟨S1200000, .i32⟩ : BufTy).Contents (Elt F) → (⟨S1200000x1, .i32⟩ : BufTy).Contents (Elt F)),
    binary main_v233 main_v249 main_v250 ((fun x i => Host.gather gather_S200000x2_S1200000x1_S1200000x2_1_0_n_n_0_1_12 x i) : (⟨S200000x2, .f32⟩ : BufTy).Contents (Elt F) → (⟨S1200000x1, .i32⟩ : BufTy).Contents (Elt F) → (⟨S1200000x2, .f32⟩ : BufTy).Contents (Elt F)),
    nullary main_c_59 (constantI S_ 32 0#32),
    unary main_c_59 main_v251 (broadcastInDim S1200000 ![] bcast_S_S1200000 : (⟨S_, .i32⟩ : BufTy).Contents (Elt F) → (⟨S1200000, .i32⟩ : BufTy).Contents (Elt F)),
    binary main_arg14 main_v251 main_v252 (cmpi .slt : (⟨S1200000, .i32⟩ : BufTy).Contents (Elt F) → (⟨S1200000, .i32⟩ : BufTy).Contents (Elt F) → (⟨S1200000, .i1⟩ : BufTy).Contents (Elt F)),
    nullary main_c_60 (constantI S_ 32 200000#32),
    unary main_c_60 main_v253 (broadcastInDim S1200000 ![] bcast_S_S1200000 : (⟨S_, .i32⟩ : BufTy).Contents (Elt F) → (⟨S1200000, .i32⟩ : BufTy).Contents (Elt F)),
    binary main_arg14 main_v253 main_v254 (addi : (⟨S1200000, .i32⟩ : BufTy).Contents (Elt F) → (⟨S1200000, .i32⟩ : BufTy).Contents (Elt F) → (⟨S1200000, .i32⟩ : BufTy).Contents (Elt F)),
    ternary main_v252 main_v254 main_arg14 main_v255 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v255 main_v256 (broadcastInDim S1200000x1 ![0] bcast_S1200000_S1200000x1_0 : (⟨S1200000, .i32⟩ : BufTy).Contents (Elt F) → (⟨S1200000x1, .i32⟩ : BufTy).Contents (Elt F)),
    binary main_v243 main_v256 main_v257 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    nullary main_c_61 (constantI S_ 32 0#32),
    unary main_c_61 main_v258 (broadcastInDim S1200000 ![] bcast_S_S1200000 : (⟨S_, .i32⟩ : BufTy).Contents (Elt F) → (⟨S1200000, .i32⟩ : BufTy).Contents (Elt F)),
    binary main_arg15 main_v258 main_v259 (cmpi .slt : (⟨S1200000, .i32⟩ : BufTy).Contents (Elt F) → (⟨S1200000, .i32⟩ : BufTy).Contents (Elt F) → (⟨S1200000, .i1⟩ : BufTy).Contents (Elt F)),
    nullary main_c_62 (constantI S_ 32 200000#32),
    unary main_c_62 main_v260 (broadcastInDim S1200000 ![] bcast_S_S1200000 : (⟨S_, .i32⟩ : BufTy).Contents (Elt F) → (⟨S1200000, .i32⟩ : BufTy).Contents (Elt F)),
    binary main_arg15 main_v260 main_v261 (addi : (⟨S1200000, .i32⟩ : BufTy).Contents (Elt F) → (⟨S1200000, .i32⟩ : BufTy).Contents (Elt F) → (⟨S1200000, .i32⟩ : BufTy).Contents (Elt F)),
    ternary main_v259 main_v261 main_arg15 main_v262 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v262 main_v263 (broadcastInDim S1200000x1 ![0] bcast_S1200000_S1200000x1_0 : (⟨S1200000, .i32⟩ : BufTy).Contents (Elt F) → (⟨S1200000x1, .i32⟩ : BufTy).Contents (Elt F)),
    binary main_v243 main_v263 main_v264 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    binary main_v257 main_v264 main_v265 (mulf : (⟨S1200000, .f32⟩ : BufTy).Contents (Elt F) → (⟨S1200000, .f32⟩ : BufTy).Contents (Elt F) → (⟨S1200000, .f32⟩ : BufTy).Contents (Elt F)),
    unary main_v265 main_v266 (broadcastInDim S1200000x1 ![0] bcast_S1200000_S1200000x1_0 : (⟨S1200000, .f32⟩ : BufTy).Contents (Elt F) → (⟨S1200000x1, .f32⟩ : BufTy).Contents (Elt F)),
    unary main_v266 main_v267 (broadcastInDim S1200000x2 ![0, 1] bcast_S1200000x1_S1200000x2_0_1 : (⟨S1200000x1, .f32⟩ : BufTy).Contents (Elt F) → (⟨S1200000x2, .f32⟩ : BufTy).Contents (Elt F)),
    binary main_v250 main_v267 main_v268 (mulf : (⟨S1200000x2, .f32⟩ : BufTy).Contents (Elt F) → (⟨S1200000x2, .f32⟩ : BufTy).Contents (Elt F) → (⟨S1200000x2, .f32⟩ : BufTy).Contents (Elt F)),
    nullary main_cst_63 (constant S_ .f32 0x00000000#32),
    unary main_cst_63 main_v269 (broadcastInDim S200000x2 ![] bcast_S_S200000x2 : (⟨S_, .f32⟩ : BufTy).Contents (Elt F) → (⟨S200000x2, .f32⟩ : BufTy).Contents (Elt F)),
    unary main_arg15 main_v270 (broadcastInDim S1200000x1 ![0] bcast_S1200000_S1200000x1_0 : (⟨S1200000, .i32⟩ : BufTy).Contents (Elt F) → (⟨S1200000x1, .i32⟩ : BufTy).Contents (Elt F)),
    ternary main_v269 main_v270 main_v268 main_v271 ((fun x i u => Host.scatterAdd scatter_S200000x2_S1200000x1_S1200000x2_1_0_0_1 x i u) : (⟨S200000x2, .f32⟩ : BufTy).Contents (Elt F) → (⟨S1200000x1, .i32⟩ : BufTy).Contents (Elt F) → (⟨S1200000x2, .f32⟩ : BufTy).Contents (Elt F) → (⟨S200000x2, .f32⟩ : BufTy).Contents (Elt F)),
    nullary main_cst_64 (constant S_ .f32 0x3F800000#32),
    unary main_cst_64 main_v272 (broadcastInDim S200000 ![] bcast_S_S200000 : (⟨S_, .f32⟩ : BufTy).Contents (Elt F) → (⟨S200000, .f32⟩ : BufTy).Contents (Elt F)),
    binary main_v272 main_v242 main_v273 (Host.divf : (⟨S200000, .f32⟩ : BufTy).Contents (Elt F) → (⟨S200000, .f32⟩ : BufTy).Contents (Elt F) → (⟨S200000, .f32⟩ : BufTy).Contents (Elt F)),
    unary main_v273 main_v274 (broadcastInDim S200000x1 ![0] bcast_S200000_S200000x1_0 : (⟨S200000, .f32⟩ : BufTy).Contents (Elt F) → (⟨S200000x1, .f32⟩ : BufTy).Contents (Elt F)),
    unary main_v274 main_v275 (broadcastInDim S200000x2 ![0, 1] bcast_S200000x1_S200000x2_0_1 : (⟨S200000x1, .f32⟩ : BufTy).Contents (Elt F) → (⟨S200000x2, .f32⟩ : BufTy).Contents (Elt F)),
    binary main_v233 main_v275 main_v276 (mulf : (⟨S200000x2, .f32⟩ : BufTy).Contents (Elt F) → (⟨S200000x2, .f32⟩ : BufTy).Contents (Elt F) → (⟨S200000x2, .f32⟩ : BufTy).Contents (Elt F)),
    binary main_v271 main_v276 main_v277 (addf : (⟨S200000x2, .f32⟩ : BufTy).Contents (Elt F) → (⟨S200000x2, .f32⟩ : BufTy).Contents (Elt F) → (⟨S200000x2, .f32⟩ : BufTy).Contents (Elt F)),
    unary main_arg13 main_v278 (broadcastInDim S1x2 ![1] bcast_S2_S1x2_1 : (⟨S2, .f32⟩ : BufTy).Contents (Elt F) → (⟨S1x2, .f32⟩ : BufTy).Contents (Elt F)),
    unary main_v278 main_v279 (broadcastInDim S200000x2 ![0, 1] bcast_S1x2_S200000x2_0_1 : (⟨S1x2, .f32⟩ : BufTy).Contents (Elt F) → (⟨S200000x2, .f32⟩ : BufTy).Contents (Elt F)),
    binary main_v277 main_v279 main_v280 (addf : (⟨S200000x2, .f32⟩ : BufTy).Contents (Elt F) → (⟨S200000x2, .f32⟩ : BufTy).Contents (Elt F) → (⟨S200000x2, .f32⟩ : BufTy).Contents (Elt F)),
    nullary main_cst_65 (constant S_ .f32 0x00000000#32),
    unary main_cst_65 main_v281 (broadcastInDim S200000x2 ![] bcast_S_S200000x2 : (⟨S_, .f32⟩ : BufTy).Contents (Elt F) → (⟨S200000x2, .f32⟩ : BufTy).Contents (Elt F)),
    nullary main_c_66 (constantI S_ 32 0#32),
    unary main_c_66 main_v282 (broadcastInDim S200000 ![] bcast_S_S200000 : (⟨S_, .i32⟩ : BufTy).Contents (Elt F) → (⟨S200000, .i32⟩ : BufTy).Contents (Elt F)),
    binary main_arg19 main_v282 main_v283 (cmpi .slt : (⟨S200000, .i32⟩ : BufTy).Contents (Elt F) → (⟨S200000, .i32⟩ : BufTy).Contents (Elt F) → (⟨S200000, .i1⟩ : BufTy).Contents (Elt F)),
    nullary main_c_67 (constantI S_ 32 200000#32),
    unary main_c_67 main_v284 (broadcastInDim S200000 ![] bcast_S_S200000 : (⟨S_, .i32⟩ : BufTy).Contents (Elt F) → (⟨S200000, .i32⟩ : BufTy).Contents (Elt F)),
    binary main_arg19 main_v284 main_v285 (addi : (⟨S200000, .i32⟩ : BufTy).Contents (Elt F) → (⟨S200000, .i32⟩ : BufTy).Contents (Elt F) → (⟨S200000, .i32⟩ : BufTy).Contents (Elt F)),
    ternary main_v283 main_v285 main_arg19 main_v286 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v286 main_v287 (broadcastInDim S200000x1 ![0] bcast_S200000_S200000x1_0 : (⟨S200000, .i32⟩ : BufTy).Contents (Elt F) → (⟨S200000x1, .i32⟩ : BufTy).Contents (Elt F)),
    ternary main_v281 main_v287 main_v280 main_v288 ((fun x i u => Host.scatter scatter_S200000x2_S200000x1_S200000x2_1_0_0_1 (fun _ b => b) x i u) : (⟨S200000x2, .f32⟩ : BufTy).Contents (Elt F) → (⟨S200000x1, .i32⟩ : BufTy).Contents (Elt F) → (⟨S200000x2, .f32⟩ : BufTy).Contents (Elt F) → (⟨S200000x2, .f32⟩ : BufTy).Contents (Elt F)),
    TRef.nullary (TRef.of (T := ⟨S_, .f32⟩) main_call4_cst) (constant S_ .f32 0xFF800000#32),
    TRef.binary (TRef.of (T := ⟨S200000x2, .f32⟩) main_v288) (TRef.of (T := ⟨S_, .f32⟩) main_call4_cst) (TRef.of (T := ⟨S200000, .f32⟩) main_call4_v0) (fun x v => Host.reduce FloatOps.maximumf x v reducesTo_S200000x2_S200000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S200000, .f32⟩) main_call4_v1) (broadcastInDim S200000 ![] bcast_S_S200000),
    TRef.binary (TRef.of (T := ⟨S200000, .f32⟩) main_call4_v1) (TRef.of (T := ⟨S200000, .f32⟩) main_call4_v0) (TRef.of (T := ⟨S200000, .f32⟩) main_call4_v2) maximumf,
    TRef.unary (TRef.of (T := ⟨S200000, .f32⟩) main_call4_v2) (TRef.of (T := ⟨S200000x1, .f32⟩) main_call4_v3) (broadcastInDim S200000x1 ![0] bcast_S200000_S200000x1_0),
    TRef.unary (TRef.of (T := ⟨S200000x1, .f32⟩) main_call4_v3) (TRef.of (T := ⟨S200000x2, .f32⟩) main_call4_v4) (broadcastInDim S200000x2 ![0, 1] bcast_S200000x1_S200000x2_0_1),
    TRef.binary (TRef.of (T := ⟨S200000x2, .f32⟩) main_v288) (TRef.of (T := ⟨S200000x2, .f32⟩) main_call4_v4) (TRef.of (T := ⟨S200000x2, .f32⟩) main_call4_v5) subf,
    TRef.unary (TRef.of (T := ⟨S200000x2, .f32⟩) main_call4_v5) (TRef.of (T := ⟨S200000x2, .f32⟩) main_call4_v6) Host.exp,
    TRef.nullary (TRef.of (T := ⟨S_, .f32⟩) main_call4_cst_1) (constant S_ .f32 0x00000000#32),
    TRef.binary (TRef.of (T := ⟨S200000x2, .f32⟩) main_call4_v6) (TRef.of (T := ⟨S_, .f32⟩) main_call4_cst_1) (TRef.of (T := ⟨S200000, .f32⟩) main_call4_v7) (fun x v => Host.reduceAdd x v reducesTo_S200000x2_S200000_d1 h_S_),
    TRef.unary (TRef.of (T := ⟨S200000, .f32⟩) main_call4_v7) (TRef.of (T := ⟨S200000x1, .f32⟩) main_call4_v8) (broadcastInDim S200000x1 ![0] bcast_S200000_S200000x1_0),
    TRef.unary (TRef.of (T := ⟨S200000x1, .f32⟩) main_call4_v8) (TRef.of (T := ⟨S200000x1, .f32⟩) main_call4_v9) Host.log,
    TRef.unary (TRef.of (T := ⟨S200000x1, .f32⟩) main_call4_v9) (TRef.of (T := ⟨S200000x2, .f32⟩) main_call4_v10) (broadcastInDim S200000x2 ![0, 1] bcast_S200000x1_S200000x2_0_1),
    TRef.binary (TRef.of (T := ⟨S200000x2, .f32⟩) main_call4_v5) (TRef.of (T := ⟨S200000x2, .f32⟩) main_call4_v10) (TRef.of (T := ⟨S200000x2, .f32⟩) main_v289) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 4000000 in
theorem ops_sub : (ops : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 4000000 in
/-- No operation allocates a buffer. -/
theorem ops_fresh : (ops : List (HloOp τ sig (Elt F))).Forall fun op => op.fresh = ∅ := by
  simp only [List.Forall]; repeat' constructor

/-! ## The fifteen segments -/

/-- Operations 0–49: the first community layer from the product to the aggregated messages. -/
abbrev Seg1 : List (HloOp τ sig (Elt F)) :=
  [ binary main_arg1 main_arg2 main_v0 ((fun l r => Host.dotGeneral dot_S10000x32_S32x64_S10000x64_1_0_0_1_n_n none l r) : (⟨S10000x32, .f32⟩ : BufTy).Contents (Elt F) → (⟨S32x64, .f32⟩ : BufTy).Contents (Elt F) → (⟨S10000x64, .f32⟩ : BufTy).Contents (Elt F)),
    nullary main_cst (constant S_ .f32 0x3F800000#32),
    unary main_cst main_v1 (broadcastInDim S10000 ![] bcast_S_S10000 : (⟨S_, .f32⟩ : BufTy).Contents (Elt F) → (⟨S10000, .f32⟩ : BufTy).Contents (Elt F)),
    nullary main_c (constantI S_ 32 0#32),
    unary main_c main_v2 (broadcastInDim S160000 ![] bcast_S_S160000 : (⟨S_, .i32⟩ : BufTy).Contents (Elt F) → (⟨S160000, .i32⟩ : BufTy).Contents (Elt F)),
    binary main_arg17 main_v2 main_v3 (cmpi .slt : (⟨S160000, .i32⟩ : BufTy).Contents (Elt F) → (⟨S160000, .i32⟩ : BufTy).Contents (Elt F) → (⟨S160000, .i1⟩ : BufTy).Contents (Elt F)),
    nullary main_c_0 (constantI S_ 32 10000#32),
    unary main_c_0 main_v4 (broadcastInDim S160000 ![] bcast_S_S160000 : (⟨S_, .i32⟩ : BufTy).Contents (Elt F) → (⟨S160000, .i32⟩ : BufTy).Contents (Elt F)),
    binary main_arg17 main_v4 main_v5 (addi : (⟨S160000, .i32⟩ : BufTy).Contents (Elt F) → (⟨S160000, .i32⟩ : BufTy).Contents (Elt F) → (⟨S160000, .i32⟩ : BufTy).Contents (Elt F)),
    ternary main_v3 main_v5 main_arg17 main_v6 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v6 main_v7 (broadcastInDim S160000x1 ![0] bcast_S160000_S160000x1_0 : (⟨S160000, .i32⟩ : BufTy).Contents (Elt F) → (⟨S160000x1, .i32⟩ : BufTy).Contents (Elt F)),
    nullary main_cst_1 (constant S_ .f32 0x3F800000#32),
    unary main_cst_1 main_v8 (broadcastInDim S160000 ![] bcast_S_S160000 : (⟨S_, .f32⟩ : BufTy).Contents (Elt F) → (⟨S160000, .f32⟩ : BufTy).Contents (Elt F)),
    ternary main_v1 main_v7 main_v8 main_v9 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    unary main_v9 main_v10 (Host.rsqrt : (⟨S10000, .f32⟩ : BufTy).Contents (Elt F) → (⟨S10000, .f32⟩ : BufTy).Contents (Elt F)),
    nullary main_c_2 (constantI S_ 32 0#32),
    unary main_c_2 main_v11 (broadcastInDim S160000 ![] bcast_S_S160000 : (⟨S_, .i32⟩ : BufTy).Contents (Elt F) → (⟨S160000, .i32⟩ : BufTy).Contents (Elt F)),
    binary main_arg16 main_v11 main_v12 (cmpi .slt : (⟨S160000, .i32⟩ : BufTy).Contents (Elt F) → (⟨S160000, .i32⟩ : BufTy).Contents (Elt F) → (⟨S160000, .i1⟩ : BufTy).Contents (Elt F)),
    nullary main_c_3 (constantI S_ 32 10000#32),
    unary main_c_3 main_v13 (broadcastInDim S160000 ![] bcast_S_S160000 : (⟨S_, .i32⟩ : BufTy).Contents (Elt F) → (⟨S160000, .i32⟩ : BufTy).Contents (Elt F)),
    binary main_arg16 main_v13 main_v14 (addi : (⟨S160000, .i32⟩ : BufTy).Contents (Elt F) → (⟨S160000, .i32⟩ : BufTy).Contents (Elt F) → (⟨S160000, .i32⟩ : BufTy).Contents (Elt F)),
    ternary main_v12 main_v14 main_arg16 main_v15 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v15 main_v16 (broadcastInDim S160000x1 ![0] bcast_S160000_S160000x1_0 : (⟨S160000, .i32⟩ : BufTy).Contents (Elt F) → (⟨S160000x1, .i32⟩ : BufTy).Contents (Elt F)),
    binary main_v0 main_v16 main_v17 ((fun x i => Host.gather gather_S10000x64_S160000x1_S160000x64_1_0_n_n_0_1_164 x i) : (⟨S10000x64, .f32⟩ : BufTy).Contents (Elt F) → (⟨S160000x1, .i32⟩ : BufTy).Contents (Elt F) → (⟨S160000x64, .f32⟩ : BufTy).Contents (Elt F)),
    nullary main_c_4 (constantI S_ 32 0#32),
    unary main_c_4 main_v18 (broadcastInDim S160000 ![] bcast_S_S160000 : (⟨S_, .i32⟩ : BufTy).Contents (Elt F) → (⟨S160000, .i32⟩ : BufTy).Contents (Elt F)),
    binary main_arg16 main_v18 main_v19 (cmpi .slt : (⟨S160000, .i32⟩ : BufTy).Contents (Elt F) → (⟨S160000, .i32⟩ : BufTy).Contents (Elt F) → (⟨S160000, .i1⟩ : BufTy).Contents (Elt F)),
    nullary main_c_5 (constantI S_ 32 10000#32),
    unary main_c_5 main_v20 (broadcastInDim S160000 ![] bcast_S_S160000 : (⟨S_, .i32⟩ : BufTy).Contents (Elt F) → (⟨S160000, .i32⟩ : BufTy).Contents (Elt F)),
    binary main_arg16 main_v20 main_v21 (addi : (⟨S160000, .i32⟩ : BufTy).Contents (Elt F) → (⟨S160000, .i32⟩ : BufTy).Contents (Elt F) → (⟨S160000, .i32⟩ : BufTy).Contents (Elt F)),
    ternary main_v19 main_v21 main_arg16 main_v22 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v22 main_v23 (broadcastInDim S160000x1 ![0] bcast_S160000_S160000x1_0 : (⟨S160000, .i32⟩ : BufTy).Contents (Elt F) → (⟨S160000x1, .i32⟩ : BufTy).Contents (Elt F)),
    binary main_v10 main_v23 main_v24 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    nullary main_c_6 (constantI S_ 32 0#32),
    unary main_c_6 main_v25 (broadcastInDim S160000 ![] bcast_S_S160000 : (⟨S_, .i32⟩ : BufTy).Contents (Elt F) → (⟨S160000, .i32⟩ : BufTy).Contents (Elt F)),
    binary main_arg17 main_v25 main_v26 (cmpi .slt : (⟨S160000, .i32⟩ : BufTy).Contents (Elt F) → (⟨S160000, .i32⟩ : BufTy).Contents (Elt F) → (⟨S160000, .i1⟩ : BufTy).Contents (Elt F)),
    nullary main_c_7 (constantI S_ 32 10000#32),
    unary main_c_7 main_v27 (broadcastInDim S160000 ![] bcast_S_S160000 : (⟨S_, .i32⟩ : BufTy).Contents (Elt F) → (⟨S160000, .i32⟩ : BufTy).Contents (Elt F)),
    binary main_arg17 main_v27 main_v28 (addi : (⟨S160000, .i32⟩ : BufTy).Contents (Elt F) → (⟨S160000, .i32⟩ : BufTy).Contents (Elt F) → (⟨S160000, .i32⟩ : BufTy).Contents (Elt F)),
    ternary main_v26 main_v28 main_arg17 main_v29 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v29 main_v30 (broadcastInDim S160000x1 ![0] bcast_S160000_S160000x1_0 : (⟨S160000, .i32⟩ : BufTy).Contents (Elt F) → (⟨S160000x1, .i32⟩ : BufTy).Contents (Elt F)),
    binary main_v10 main_v30 main_v31 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    binary main_v24 main_v31 main_v32 (mulf : (⟨S160000, .f32⟩ : BufTy).Contents (Elt F) → (⟨S160000, .f32⟩ : BufTy).Contents (Elt F) → (⟨S160000, .f32⟩ : BufTy).Contents (Elt F)),
    unary main_v32 main_v33 (broadcastInDim S160000x1 ![0] bcast_S160000_S160000x1_0 : (⟨S160000, .f32⟩ : BufTy).Contents (Elt F) → (⟨S160000x1, .f32⟩ : BufTy).Contents (Elt F)),
    unary main_v33 main_v34 (broadcastInDim S160000x64 ![0, 1] bcast_S160000x1_S160000x64_0_1 : (⟨S160000x1, .f32⟩ : BufTy).Contents (Elt F) → (⟨S160000x64, .f32⟩ : BufTy).Contents (Elt F)),
    binary main_v17 main_v34 main_v35 (mulf : (⟨S160000x64, .f32⟩ : BufTy).Contents (Elt F) → (⟨S160000x64, .f32⟩ : BufTy).Contents (Elt F) → (⟨S160000x64, .f32⟩ : BufTy).Contents (Elt F)),
    nullary main_cst_8 (constant S_ .f32 0x00000000#32),
    unary main_cst_8 main_v36 (broadcastInDim S10000x64 ![] bcast_S_S10000x64 : (⟨S_, .f32⟩ : BufTy).Contents (Elt F) → (⟨S10000x64, .f32⟩ : BufTy).Contents (Elt F)),
    unary main_arg17 main_v37 (broadcastInDim S160000x1 ![0] bcast_S160000_S160000x1_0 : (⟨S160000, .i32⟩ : BufTy).Contents (Elt F) → (⟨S160000x1, .i32⟩ : BufTy).Contents (Elt F)),
    ternary main_v36 main_v37 main_v35 main_v38 ((fun x i u => Host.scatterAdd scatter_S10000x64_S160000x1_S160000x64_1_0_0_1 x i u) : (⟨S10000x64, .f32⟩ : BufTy).Contents (Elt F) → (⟨S160000x1, .i32⟩ : BufTy).Contents (Elt F) → (⟨S160000x64, .f32⟩ : BufTy).Contents (Elt F) → (⟨S10000x64, .f32⟩ : BufTy).Contents (Elt F)) ]

/-- Operations 50–62: the first community layer's node update. -/
abbrev Seg2 : List (HloOp τ sig (Elt F)) :=
  [ nullary main_cst_9 (constant S_ .f32 0x3F800000#32),
    unary main_cst_9 main_v39 (broadcastInDim S10000 ![] bcast_S_S10000 : (⟨S_, .f32⟩ : BufTy).Contents (Elt F) → (⟨S10000, .f32⟩ : BufTy).Contents (Elt F)),
    binary main_v39 main_v9 main_v40 (Host.divf : (⟨S10000, .f32⟩ : BufTy).Contents (Elt F) → (⟨S10000, .f32⟩ : BufTy).Contents (Elt F) → (⟨S10000, .f32⟩ : BufTy).Contents (Elt F)),
    unary main_v40 main_v41 (broadcastInDim S10000x1 ![0] bcast_S10000_S10000x1_0 : (⟨S10000, .f32⟩ : BufTy).Contents (Elt F) → (⟨S10000x1, .f32⟩ : BufTy).Contents (Elt F)),
    unary main_v41 main_v42 (broadcastInDim S10000x64 ![0, 1] bcast_S10000x1_S10000x64_0_1 : (⟨S10000x1, .f32⟩ : BufTy).Contents (Elt F) → (⟨S10000x64, .f32⟩ : BufTy).Contents (Elt F)),
    binary main_v0 main_v42 main_v43 (mulf : (⟨S10000x64, .f32⟩ : BufTy).Contents (Elt F) → (⟨S10000x64, .f32⟩ : BufTy).Contents (Elt F) → (⟨S10000x64, .f32⟩ : BufTy).Contents (Elt F)),
    binary main_v38 main_v43 main_v44 (addf : (⟨S10000x64, .f32⟩ : BufTy).Contents (Elt F) → (⟨S10000x64, .f32⟩ : BufTy).Contents (Elt F) → (⟨S10000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S10000x64 ![0, 1] bcast_S1x64_S10000x64_0_1 : (⟨S1x64, .f32⟩ : BufTy).Contents (Elt F) → (⟨S10000x64, .f32⟩ : BufTy).Contents (Elt F)),
    binary main_v44 main_v46 main_v47 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x64, .f32⟩) main_call0_v0) (broadcastInDim S10000x64 ![] bcast_S_S10000x64),
    TRef.binary (TRef.of (T := ⟨S10000x64, .f32⟩) main_v47) (TRef.of (T := ⟨S10000x64, .f32⟩) main_call0_v0) (TRef.of (T := ⟨S10000x64, .f32⟩) main_v48) maximumf ]

/-- Operations 63–112: the second community layer from the product to the aggregated messages. -/
abbrev Seg3 : List (HloOp τ sig (Elt F)) :=
  [ binary main_v48 main_arg4 main_v49 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    nullary main_cst_10 (constant S_ .f32 0x3F800000#32),
    unary main_cst_10 main_v50 (broadcastInDim S10000 ![] bcast_S_S10000 : (⟨S_, .f32⟩ : BufTy).Contents (Elt F) → (⟨S10000, .f32⟩ : BufTy).Contents (Elt F)),
    nullary main_c_11 (constantI S_ 32 0#32),
    unary main_c_11 main_v51 (broadcastInDim S160000 ![] bcast_S_S160000 : (⟨S_, .i32⟩ : BufTy).Contents (Elt F) → (⟨S160000, .i32⟩ : BufTy).Contents (Elt F)),
    binary main_arg17 main_v51 main_v52 (cmpi .slt : (⟨S160000, .i32⟩ : BufTy).Contents (Elt F) → (⟨S160000, .i32⟩ : BufTy).Contents (Elt F) → (⟨S160000, .i1⟩ : BufTy).Contents (Elt F)),
    nullary main_c_12 (constantI S_ 32 10000#32),
    unary main_c_12 main_v53 (broadcastInDim S160000 ![] bcast_S_S160000 : (⟨S_, .i32⟩ : BufTy).Contents (Elt F) → (⟨S160000, .i32⟩ : BufTy).Contents (Elt F)),
    binary main_arg17 main_v53 main_v54 (addi : (⟨S160000, .i32⟩ : BufTy).Contents (Elt F) → (⟨S160000, .i32⟩ : BufTy).Contents (Elt F) → (⟨S160000, .i32⟩ : BufTy).Contents (Elt F)),
    ternary main_v52 main_v54 main_arg17 main_v55 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v55 main_v56 (broadcastInDim S160000x1 ![0] bcast_S160000_S160000x1_0 : (⟨S160000, .i32⟩ : BufTy).Contents (Elt F) → (⟨S160000x1, .i32⟩ : BufTy).Contents (Elt F)),
    nullary main_cst_13 (constant S_ .f32 0x3F800000#32),
    unary main_cst_13 main_v57 (broadcastInDim S160000 ![] bcast_S_S160000 : (⟨S_, .f32⟩ : BufTy).Contents (Elt F) → (⟨S160000, .f32⟩ : BufTy).Contents (Elt F)),
    ternary main_v50 main_v56 main_v57 main_v58 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    unary main_v58 main_v59 (Host.rsqrt : (⟨S10000, .f32⟩ : BufTy).Contents (Elt F) → (⟨S10000, .f32⟩ : BufTy).Contents (Elt F)),
    nullary main_c_14 (constantI S_ 32 0#32),
    unary main_c_14 main_v60 (broadcastInDim S160000 ![] bcast_S_S160000 : (⟨S_, .i32⟩ : BufTy).Contents (Elt F) → (⟨S160000, .i32⟩ : BufTy).Contents (Elt F)),
    binary main_arg16 main_v60 main_v61 (cmpi .slt : (⟨S160000, .i32⟩ : BufTy).Contents (Elt F) → (⟨S160000, .i32⟩ : BufTy).Contents (Elt F) → (⟨S160000, .i1⟩ : BufTy).Contents (Elt F)),
    nullary main_c_15 (constantI S_ 32 10000#32),
    unary main_c_15 main_v62 (broadcastInDim S160000 ![] bcast_S_S160000 : (⟨S_, .i32⟩ : BufTy).Contents (Elt F) → (⟨S160000, .i32⟩ : BufTy).Contents (Elt F)),
    binary main_arg16 main_v62 main_v63 (addi : (⟨S160000, .i32⟩ : BufTy).Contents (Elt F) → (⟨S160000, .i32⟩ : BufTy).Contents (Elt F) → (⟨S160000, .i32⟩ : BufTy).Contents (Elt F)),
    ternary main_v61 main_v63 main_arg16 main_v64 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v64 main_v65 (broadcastInDim S160000x1 ![0] bcast_S160000_S160000x1_0 : (⟨S160000, .i32⟩ : BufTy).Contents (Elt F) → (⟨S160000x1, .i32⟩ : BufTy).Contents (Elt F)),
    binary main_v49 main_v65 main_v66 ((fun x i => Host.gather gather_S10000x64_S160000x1_S160000x64_1_0_n_n_0_1_164 x i) : (⟨S10000x64, .f32⟩ : BufTy).Contents (Elt F) → (⟨S160000x1, .i32⟩ : BufTy).Contents (Elt F) → (⟨S160000x64, .f32⟩ : BufTy).Contents (Elt F)),
    nullary main_c_16 (constantI S_ 32 0#32),
    unary main_c_16 main_v67 (broadcastInDim S160000 ![] bcast_S_S160000 : (⟨S_, .i32⟩ : BufTy).Contents (Elt F) → (⟨S160000, .i32⟩ : BufTy).Contents (Elt F)),
    binary main_arg16 main_v67 main_v68 (cmpi .slt : (⟨S160000, .i32⟩ : BufTy).Contents (Elt F) → (⟨S160000, .i32⟩ : BufTy).Contents (Elt F) → (⟨S160000, .i1⟩ : BufTy).Contents (Elt F)),
    nullary main_c_17 (constantI S_ 32 10000#32),
    unary main_c_17 main_v69 (broadcastInDim S160000 ![] bcast_S_S160000 : (⟨S_, .i32⟩ : BufTy).Contents (Elt F) → (⟨S160000, .i32⟩ : BufTy).Contents (Elt F)),
    binary main_arg16 main_v69 main_v70 (addi : (⟨S160000, .i32⟩ : BufTy).Contents (Elt F) → (⟨S160000, .i32⟩ : BufTy).Contents (Elt F) → (⟨S160000, .i32⟩ : BufTy).Contents (Elt F)),
    ternary main_v68 main_v70 main_arg16 main_v71 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v71 main_v72 (broadcastInDim S160000x1 ![0] bcast_S160000_S160000x1_0 : (⟨S160000, .i32⟩ : BufTy).Contents (Elt F) → (⟨S160000x1, .i32⟩ : BufTy).Contents (Elt F)),
    binary main_v59 main_v72 main_v73 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    nullary main_c_18 (constantI S_ 32 0#32),
    unary main_c_18 main_v74 (broadcastInDim S160000 ![] bcast_S_S160000 : (⟨S_, .i32⟩ : BufTy).Contents (Elt F) → (⟨S160000, .i32⟩ : BufTy).Contents (Elt F)),
    binary main_arg17 main_v74 main_v75 (cmpi .slt : (⟨S160000, .i32⟩ : BufTy).Contents (Elt F) → (⟨S160000, .i32⟩ : BufTy).Contents (Elt F) → (⟨S160000, .i1⟩ : BufTy).Contents (Elt F)),
    nullary main_c_19 (constantI S_ 32 10000#32),
    unary main_c_19 main_v76 (broadcastInDim S160000 ![] bcast_S_S160000 : (⟨S_, .i32⟩ : BufTy).Contents (Elt F) → (⟨S160000, .i32⟩ : BufTy).Contents (Elt F)),
    binary main_arg17 main_v76 main_v77 (addi : (⟨S160000, .i32⟩ : BufTy).Contents (Elt F) → (⟨S160000, .i32⟩ : BufTy).Contents (Elt F) → (⟨S160000, .i32⟩ : BufTy).Contents (Elt F)),
    ternary main_v75 main_v77 main_arg17 main_v78 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v78 main_v79 (broadcastInDim S160000x1 ![0] bcast_S160000_S160000x1_0 : (⟨S160000, .i32⟩ : BufTy).Contents (Elt F) → (⟨S160000x1, .i32⟩ : BufTy).Contents (Elt F)),
    binary main_v59 main_v79 main_v80 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    binary main_v73 main_v80 main_v81 (mulf : (⟨S160000, .f32⟩ : BufTy).Contents (Elt F) → (⟨S160000, .f32⟩ : BufTy).Contents (Elt F) → (⟨S160000, .f32⟩ : BufTy).Contents (Elt F)),
    unary main_v81 main_v82 (broadcastInDim S160000x1 ![0] bcast_S160000_S160000x1_0 : (⟨S160000, .f32⟩ : BufTy).Contents (Elt F) → (⟨S160000x1, .f32⟩ : BufTy).Contents (Elt F)),
    unary main_v82 main_v83 (broadcastInDim S160000x64 ![0, 1] bcast_S160000x1_S160000x64_0_1 : (⟨S160000x1, .f32⟩ : BufTy).Contents (Elt F) → (⟨S160000x64, .f32⟩ : BufTy).Contents (Elt F)),
    binary main_v66 main_v83 main_v84 (mulf : (⟨S160000x64, .f32⟩ : BufTy).Contents (Elt F) → (⟨S160000x64, .f32⟩ : BufTy).Contents (Elt F) → (⟨S160000x64, .f32⟩ : BufTy).Contents (Elt F)),
    nullary main_cst_20 (constant S_ .f32 0x00000000#32),
    unary main_cst_20 main_v85 (broadcastInDim S10000x64 ![] bcast_S_S10000x64 : (⟨S_, .f32⟩ : BufTy).Contents (Elt F) → (⟨S10000x64, .f32⟩ : BufTy).Contents (Elt F)),
    unary main_arg17 main_v86 (broadcastInDim S160000x1 ![0] bcast_S160000_S160000x1_0 : (⟨S160000, .i32⟩ : BufTy).Contents (Elt F) → (⟨S160000x1, .i32⟩ : BufTy).Contents (Elt F)),
    ternary main_v85 main_v86 main_v84 main_v87 ((fun x i u => Host.scatterAdd scatter_S10000x64_S160000x1_S160000x64_1_0_0_1 x i u) : (⟨S10000x64, .f32⟩ : BufTy).Contents (Elt F) → (⟨S160000x1, .i32⟩ : BufTy).Contents (Elt F) → (⟨S160000x64, .f32⟩ : BufTy).Contents (Elt F) → (⟨S10000x64, .f32⟩ : BufTy).Contents (Elt F)) ]

/-- Operations 113–125: the second community layer's node update. -/
abbrev Seg4 : List (HloOp τ sig (Elt F)) :=
  [ nullary main_cst_21 (constant S_ .f32 0x3F800000#32),
    unary main_cst_21 main_v88 (broadcastInDim S10000 ![] bcast_S_S10000 : (⟨S_, .f32⟩ : BufTy).Contents (Elt F) → (⟨S10000, .f32⟩ : BufTy).Contents (Elt F)),
    binary main_v88 main_v58 main_v89 (Host.divf : (⟨S10000, .f32⟩ : BufTy).Contents (Elt F) → (⟨S10000, .f32⟩ : BufTy).Contents (Elt F) → (⟨S10000, .f32⟩ : BufTy).Contents (Elt F)),
    unary main_v89 main_v90 (broadcastInDim S10000x1 ![0] bcast_S10000_S10000x1_0 : (⟨S10000, .f32⟩ : BufTy).Contents (Elt F) → (⟨S10000x1, .f32⟩ : BufTy).Contents (Elt F)),
    unary main_v90 main_v91 (broadcastInDim S10000x64 ![0, 1] bcast_S10000x1_S10000x64_0_1 : (⟨S10000x1, .f32⟩ : BufTy).Contents (Elt F) → (⟨S10000x64, .f32⟩ : BufTy).Contents (Elt F)),
    binary main_v49 main_v91 main_v92 (mulf : (⟨S10000x64, .f32⟩ : BufTy).Contents (Elt F) → (⟨S10000x64, .f32⟩ : BufTy).Contents (Elt F) → (⟨S10000x64, .f32⟩ : BufTy).Contents (Elt F)),
    binary main_v87 main_v92 main_v93 (addf : (⟨S10000x64, .f32⟩ : BufTy).Contents (Elt F) → (⟨S10000x64, .f32⟩ : BufTy).Contents (Elt F) → (⟨S10000x64, .f32⟩ : BufTy).Contents (Elt F)),
    unary main_arg5 main_v94 (broadcastInDim S1x64 ![1] bcast_S64_S1x64_1 : (⟨S64, .f32⟩ : BufTy).Contents (Elt F) → (⟨S1x64, .f32⟩ : BufTy).Contents (Elt F)),
    unary main_v94 main_v95 (broadcastInDim S10000x64 ![0, 1] bcast_S1x64_S10000x64_0_1 : (⟨S1x64, .f32⟩ : BufTy).Contents (Elt F) → (⟨S10000x64, .f32⟩ : BufTy).Contents (Elt F)),
    binary main_v93 main_v95 main_v96 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x64, .f32⟩) main_call1_v0) (broadcastInDim S10000x64 ![] bcast_S_S10000x64),
    TRef.binary (TRef.of (T := ⟨S10000x64, .f32⟩) main_v96) (TRef.of (T := ⟨S10000x64, .f32⟩) main_call1_v0) (TRef.of (T := ⟨S10000x64, .f32⟩) main_v97) maximumf ]

/-- Operations 126–134: the per-building community embedding (a row gather). -/
abbrev Seg5 : List (HloOp τ sig (Elt F)) :=
  [ nullary main_c_22 (constantI S_ 32 0#32),
    unary main_c_22 main_v98 (broadcastInDim S200000 ![] bcast_S_S200000 : (⟨S_, .i32⟩ : BufTy).Contents (Elt F) → (⟨S200000, .i32⟩ : BufTy).Contents (Elt F)),
    binary main_arg18 main_v98 main_v99 (cmpi .slt : (⟨S200000, .i32⟩ : BufTy).Contents (Elt F) → (⟨S200000, .i32⟩ : BufTy).Contents (Elt F) → (⟨S200000, .i1⟩ : BufTy).Contents (Elt F)),
    nullary main_c_23 (constantI S_ 32 10000#32),
    unary main_c_23 main_v100 (broadcastInDim S200000 ![] bcast_S_S200000 : (⟨S_, .i32⟩ : BufTy).Contents (Elt F) → (⟨S200000, .i32⟩ : BufTy).Contents (Elt F)),
    binary main_arg18 main_v100 main_v101 (addi : (⟨S200000, .i32⟩ : BufTy).Contents (Elt F) → (⟨S200000, .i32⟩ : BufTy).Contents (Elt F) → (⟨S200000, .i32⟩ : BufTy).Contents (Elt F)),
    ternary main_v99 main_v101 main_arg18 main_v102 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v102 main_v103 (broadcastInDim S200000x1 ![0] bcast_S200000_S200000x1_0 : (⟨S200000, .i32⟩ : BufTy).Contents (Elt F) → (⟨S200000x1, .i32⟩ : BufTy).Contents (Elt F)),
    binary main_v97 main_v103 main_v104 ((fun x i => Host.gather gather_S10000x64_S200000x1_S200000x64_1_0_n_n_0_1_164 x i) : (⟨S10000x64, .f32⟩ : BufTy).Contents (Elt F) → (⟨S200000x1, .i32⟩ : BufTy).Contents (Elt F) → (⟨S200000x64, .f32⟩ : BufTy).Contents (Elt F)) ]

/-- Operations 135–160: the attention gate. -/
abbrev Seg6 : List (HloOp τ sig (Elt F)) :=
  [ binary main_arg0 main_v104 main_v105 ((fun a b => concatenate S200000x128 1 [⟨S200000x64, a⟩, ⟨S200000x64, b⟩] concatenates_S200000x64_S200000x64_S200000x128_d1) : (⟨S200000x64, .f32⟩ : BufTy).Contents (Elt F) → (⟨S200000x64, .f32⟩ : BufTy).Contents (Elt F) → (⟨S200000x128, .f32⟩ : BufTy).Contents (Elt F)),
    binary main_v105 main_arg6 main_v106 ((fun l r => Host.dotGeneral dot_S200000x128_S128x2_S200000x2_1_0_0_1_n_n none l r) : (⟨S200000x128, .f32⟩ : BufTy).Contents (Elt F) → (⟨S128x2, .f32⟩ : BufTy).Contents (Elt F) → (⟨S200000x2, .f32⟩ : BufTy).Contents (Elt F)),
    unary main_arg7 main_v107 (broadcastInDim S1x2 ![1] bcast_S2_S1x2_1 : (⟨S2, .f32⟩ : BufTy).Contents (Elt F) → (⟨S1x2, .f32⟩ : BufTy).Contents (Elt F)),
    unary main_v107 main_v108 (broadcastInDim S200000x2 ![0, 1] bcast_S1x2_S200000x2_0_1 : (⟨S1x2, .f32⟩ : BufTy).Contents (Elt F) → (⟨S200000x2, .f32⟩ : BufTy).Contents (Elt F)),
    binary main_v106 main_v108 main_v109 (addf : (⟨S200000x2, .f32⟩ : BufTy).Contents (Elt F) → (⟨S200000x2, .f32⟩ : BufTy).Contents (Elt F) → (⟨S200000x2, .f32⟩ : BufTy).Contents (Elt F)),
    nullary main_cst_24 (constant S_ .f32 0xFF800000#32),
    binary main_v109 main_cst_24 main_v110 ((fun x v => Host.reduce FloatOps.maximumf x v reducesTo_S200000x2_S200000_d1 h_S_) : (⟨S200000x2, .f32⟩ : BufTy).Contents (Elt F) → (⟨S_, .f32⟩ : BufTy).Contents (Elt F) → (⟨S200000, .f32⟩ : BufTy).Contents (Elt F)),
    nullary main_cst_25 (constant S_ .f32 0xFF800000#32),
    unary main_cst_25 main_v111 (broadcastInDim S200000 ![] bcast_S_S200000 : (⟨S_, .f32⟩ : BufTy).Contents (Elt F) → (⟨S200000, .f32⟩ : BufTy).Contents (Elt F)),
    binary main_v111 main_v110 main_v112 (maximumf : (⟨S200000, .f32⟩ : BufTy).Contents (Elt F) → (⟨S200000, .f32⟩ : BufTy).Contents (Elt F) → (⟨S200000, .f32⟩ : BufTy).Contents (Elt F)),
    unary main_v112 main_v113 (broadcastInDim S200000x1 ![0] bcast_S200000_S200000x1_0 : (⟨S200000, .f32⟩ : BufTy).Contents (Elt F) → (⟨S200000x1, .f32⟩ : BufTy).Contents (Elt F)),
    unary main_v113 main_v114 (broadcastInDim S200000x2 ![0, 1] bcast_S200000x1_S200000x2_0_1 : (⟨S200000x1, .f32⟩ : BufTy).Contents (Elt F) → (⟨S200000x2, .f32⟩ : BufTy).Contents (Elt F)),
    binary main_v109 main_v114 main_v115 (subf : (⟨S200000x2, .f32⟩ : BufTy).Contents (Elt F) → (⟨S200000x2, .f32⟩ : BufTy).Contents (Elt F) → (⟨S200000x2, .f32⟩ : BufTy).Contents (Elt F)),
    unary main_v115 main_v116 (Host.exp : (⟨S200000x2, .f32⟩ : BufTy).Contents (Elt F) → (⟨S200000x2, .f32⟩ : BufTy).Contents (Elt F)),
    nullary main_cst_26 (constant S_ .f32 0x00000000#32),
    binary main_v116 main_cst_26 main_v117 ((fun x v => Host.reduceAdd x v reducesTo_S200000x2_S200000_d1 h_S_) : (⟨S200000x2, .f32⟩ : BufTy).Contents (Elt F) → (⟨S_, .f32⟩ : BufTy).Contents (Elt F) → (⟨S200000, .f32⟩ : BufTy).Contents (Elt F)),
    unary main_v117 main_v118 (broadcastInDim S200000x1 ![0] bcast_S200000_S200000x1_0 : (⟨S200000, .f32⟩ : BufTy).Contents (Elt F) → (⟨S200000x1, .f32⟩ : BufTy).Contents (Elt F)),
    unary main_v118 main_v119 (broadcastInDim S200000x2 ![0, 1] bcast_S200000x1_S200000x2_0_1 : (⟨S200000x1, .f32⟩ : BufTy).Contents (Elt F) → (⟨S200000x2, .f32⟩ : BufTy).Contents (Elt F)),
    binary main_v116 main_v119 main_v120 (Host.divf : (⟨S200000x2, .f32⟩ : BufTy).Contents (Elt F) → (⟨S200000x2, .f32⟩ : BufTy).Contents (Elt F) → (⟨S200000x2, .f32⟩ : BufTy).Contents (Elt F)),
    unary main_v120 main_v121 ((extractStridedSlice S200000x1 ![0, 0] · slices_S200000x2_S200000x1_0_0) : (⟨S200000x2, .f32⟩ : BufTy).Contents (Elt F) → (⟨S200000x1, .f32⟩ : BufTy).Contents (Elt F)),
    unary main_v121 main_v122 (broadcastInDim S200000x64 ![0, 1] bcast_S200000x1_S200000x64_0_1 : (⟨S200000x1, .f32⟩ : BufTy).Contents (Elt F) → (⟨S200000x64, .f32⟩ : BufTy).Contents (Elt F)),
    binary main_arg0 main_v122 main_v123 (mulf : (⟨S200000x64, .f32⟩ : BufTy).Contents (Elt F) → (⟨S200000x64, .f32⟩ : BufTy).Contents (Elt F) → (⟨S200000x64, .f32⟩ : BufTy).Contents (Elt F)),
    unary main_v120 main_v124 ((extractStridedSlice S200000x1 ![0, 1] · slices_S200000x2_S200000x1_0_1) : (⟨S200000x2, .f32⟩ : BufTy).Contents (Elt F) → (⟨S200000x1, .f32⟩ : BufTy).Contents (Elt F)),
    unary main_v124 main_v125 (broadcastInDim S200000x64 ![0, 1] bcast_S200000x1_S200000x64_0_1 : (⟨S200000x1, .f32⟩ : BufTy).Contents (Elt F) → (⟨S200000x64, .f32⟩ : BufTy).Contents (Elt F)),
    binary main_v104 main_v125 main_v126 (mulf : (⟨S200000x64, .f32⟩ : BufTy).Contents (Elt F) → (⟨S200000x64, .f32⟩ : BufTy).Contents (Elt F) → (⟨S200000x64, .f32⟩ : BufTy).Contents (Elt F)),
    binary main_v123 main_v126 main_v127 ((fun a b => concatenate S200000x128 1 [⟨S200000x64, a⟩, ⟨S200000x64, b⟩] concatenates_S200000x64_S200000x64_S200000x128_d1) : (⟨S200000x64, .f32⟩ : BufTy).Contents (Elt F) → (⟨S200000x64, .f32⟩ : BufTy).Contents (Elt F) → (⟨S200000x128, .f32⟩ : BufTy).Contents (Elt F)) ]

/-- Operations 161–169: the batch-order row gather. -/
abbrev Seg7 : List (HloOp τ sig (Elt F)) :=
  [ nullary main_c_27 (constantI S_ 32 0#32),
    unary main_c_27 main_v128 (broadcastInDim S200000 ![] bcast_S_S200000 : (⟨S_, .i32⟩ : BufTy).Contents (Elt F) → (⟨S200000, .i32⟩ : BufTy).Contents (Elt F)),
    binary main_arg19 main_v128 main_v129 (cmpi .slt : (⟨S200000, .i32⟩ : BufTy).Contents (Elt F) → (⟨S200000, .i32⟩ : BufTy).Contents (Elt F) → (⟨S200000, .i1⟩ : BufTy).Contents (Elt F)),
    nullary main_c_28 (constantI S_ 32 200000#32),
    unary main_c_28 main_v130 (broadcastInDim S200000 ![] bcast_S_S200000 : (⟨S_, .i32⟩ : BufTy).Contents (Elt F) → (⟨S200000, .i32⟩ : BufTy).Contents (Elt F)),
    binary main_arg19 main_v130 main_v131 (addi : (⟨S200000, .i32⟩ : BufTy).Contents (Elt F) → (⟨S200000, .i32⟩ : BufTy).Contents (Elt F) → (⟨S200000, .i32⟩ : BufTy).Contents (Elt F)),
    ternary main_v129 main_v131 main_arg19 main_v132 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v132 main_v133 (broadcastInDim S200000x1 ![0] bcast_S200000_S200000x1_0 : (⟨S200000, .i32⟩ : BufTy).Contents (Elt F) → (⟨S200000x1, .i32⟩ : BufTy).Contents (Elt F)),
    binary main_v127 main_v133 main_v134 ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)) ]

/-- Operations 170–219: the first building layer from the product to the aggregated messages. -/
abbrev Seg8 : List (HloOp τ sig (Elt F)) :=
  [ binary main_v134 main_arg8 main_v135 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    nullary main_cst_29 (constant S_ .f32 0x3F800000#32),
    unary main_cst_29 main_v136 (broadcastInDim S200000 ![] bcast_S_S200000 : (⟨S_, .f32⟩ : BufTy).Contents (Elt F) → (⟨S200000, .f32⟩ : BufTy).Contents (Elt F)),
    nullary main_c_30 (constantI S_ 32 0#32),
    unary main_c_30 main_v137 (broadcastInDim S1200000 ![] bcast_S_S1200000 : (⟨S_, .i32⟩ : BufTy).Contents (Elt F) → (⟨S1200000, .i32⟩ : BufTy).Contents (Elt F)),
    binary main_arg15 main_v137 main_v138 (cmpi .slt : (⟨S1200000, .i32⟩ : BufTy).Contents (Elt F) → (⟨S1200000, .i32⟩ : BufTy).Contents (Elt F) → (⟨S1200000, .i1⟩ : BufTy).Contents (Elt F)),
    nullary main_c_31 (constantI S_ 32 200000#32),
    unary main_c_31 main_v139 (broadcastInDim S1200000 ![] bcast_S_S1200000 : (⟨S_, .i32⟩ : BufTy).Contents (Elt F) → (⟨S1200000, .i32⟩ : BufTy).Contents (Elt F)),
    binary main_arg15 main_v139 main_v140 (addi : (⟨S1200000, .i32⟩ : BufTy).Contents (Elt F) → (⟨S1200000, .i32⟩ : BufTy).Contents (Elt F) → (⟨S1200000, .i32⟩ : BufTy).Contents (Elt F)),
    ternary main_v138 main_v140 main_arg15 main_v141 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v141 main_v142 (broadcastInDim S1200000x1 ![0] bcast_S1200000_S1200000x1_0 : (⟨S1200000, .i32⟩ : BufTy).Contents (Elt F) → (⟨S1200000x1, .i32⟩ : BufTy).Contents (Elt F)),
    nullary main_cst_32 (constant S_ .f32 0x3F800000#32),
    unary main_cst_32 main_v143 (broadcastInDim S1200000 ![] bcast_S_S1200000 : (⟨S_, .f32⟩ : BufTy).Contents (Elt F) → (⟨S1200000, .f32⟩ : BufTy).Contents (Elt F)),
    ternary main_v136 main_v142 main_v143 main_v144 ((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)),
    unary main_v144 main_v145 (Host.rsqrt : (⟨S200000, .f32⟩ : BufTy).Contents (Elt F) → (⟨S200000, .f32⟩ : BufTy).Contents (Elt F)),
    nullary main_c_33 (constantI S_ 32 0#32),
    unary main_c_33 main_v146 (broadcastInDim S1200000 ![] bcast_S_S1200000 : (⟨S_, .i32⟩ : BufTy).Contents (Elt F) → (⟨S1200000, .i32⟩ : BufTy).Contents (Elt F)),
    binary main_arg14 main_v146 main_v147 (cmpi .slt : (⟨S1200000, .i32⟩ : BufTy).Contents (Elt F) → (⟨S1200000, .i32⟩ : BufTy).Contents (Elt F) → (⟨S1200000, .i1⟩ : BufTy).Contents (Elt F)),
    nullary main_c_34 (constantI S_ 32 200000#32),
    unary main_c_34 main_v148 (broadcastInDim S1200000 ![] bcast_S_S1200000 : (⟨S_, .i32⟩ : BufTy).Contents (Elt F) → (⟨S1200000, .i32⟩ : BufTy).Contents (Elt F)),
    binary main_arg14 main_v148 main_v149 (addi : (⟨S1200000, .i32⟩ : BufTy).Contents (Elt F) → (⟨S1200000, .i32⟩ : BufTy).Contents (Elt F) → (⟨S1200000, .i32⟩ : BufTy).Contents (Elt F)),
    ternary main_v147 main_v149 main_arg14 main_v150 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v150 main_v151 (broadcastInDim S1200000x1 ![0] bcast_S1200000_S1200000x1_0 : (⟨S1200000, .i32⟩ : BufTy).Contents (Elt F) → (⟨S1200000x1, .i32⟩ : BufTy).Contents (Elt F)),
    binary main_v135 main_v151 main_v152 ((fun x i => Host.gather gather_S200000x128_S1200000x1_S1200000x128_1_0_n_n_0_1_1128 x i) : (⟨S200000x128, .f32⟩ : BufTy).Contents (Elt F) → (⟨S1200000x1, .i32⟩ : BufTy).Contents (Elt F) → (⟨S1200000x128, .f32⟩ : BufTy).Contents (Elt F)),
    nullary main_c_35 (constantI S_ 32 0#32),
    unary main_c_35 main_v153 (broadcastInDim S1200000 ![] bcast_S_S1200000 : (⟨S_, .i32⟩ : BufTy).Contents (Elt F) → (⟨S1200000, .i32⟩ : BufTy).Contents (Elt F)),
    binary main_arg14 main_v153 main_v154 (cmpi .slt : (⟨S1200000, .i32⟩ : BufTy).Contents (Elt F) → (⟨S1200000, .i32⟩ : BufTy).Contents (Elt F) → (⟨S1200000, .i1⟩ : BufTy).Contents (Elt F)),
    nullary main_c_36 (constantI S_ 32 200000#32),
    unary main_c_36 main_v155 (broadcastInDim S1200000 ![] bcast_S_S1200000 : (⟨S_, .i32⟩ : BufTy).Contents (Elt F) → (⟨S1200000, .i32⟩ : BufTy).Contents (Elt F)),
    binary main_arg14 main_v155 main_v156 (addi : (⟨S1200000, .i32⟩ : BufTy).Contents (Elt F) → (⟨S1200000, .i32⟩ : BufTy).Contents (Elt F) → (⟨S1200000, .i32⟩ : BufTy).Contents (Elt F)),
    ternary main_v154 main_v156 main_arg14 main_v157 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v157 main_v158 (broadcastInDim S1200000x1 ![0] bcast_S1200000_S1200000x1_0 : (⟨S1200000, .i32⟩ : BufTy).Contents (Elt F) → (⟨S1200000x1, .i32⟩ : BufTy).Contents (Elt F)),
    binary main_v145 main_v158 main_v159 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    nullary main_c_37 (constantI S_ 32 0#32),
    unary main_c_37 main_v160 (broadcastInDim S1200000 ![] bcast_S_S1200000 : (⟨S_, .i32⟩ : BufTy).Contents (Elt F) → (⟨S1200000, .i32⟩ : BufTy).Contents (Elt F)),
    binary main_arg15 main_v160 main_v161 (cmpi .slt : (⟨S1200000, .i32⟩ : BufTy).Contents (Elt F) → (⟨S1200000, .i32⟩ : BufTy).Contents (Elt F) → (⟨S1200000, .i1⟩ : BufTy).Contents (Elt F)),
    nullary main_c_38 (constantI S_ 32 200000#32),
    unary main_c_38 main_v162 (broadcastInDim S1200000 ![] bcast_S_S1200000 : (⟨S_, .i32⟩ : BufTy).Contents (Elt F) → (⟨S1200000, .i32⟩ : BufTy).Contents (Elt F)),
    binary main_arg15 main_v162 main_v163 (addi : (⟨S1200000, .i32⟩ : BufTy).Contents (Elt F) → (⟨S1200000, .i32⟩ : BufTy).Contents (Elt F) → (⟨S1200000, .i32⟩ : BufTy).Contents (Elt F)),
    ternary main_v161 main_v163 main_arg15 main_v164 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v164 main_v165 (broadcastInDim S1200000x1 ![0] bcast_S1200000_S1200000x1_0 : (⟨S1200000, .i32⟩ : BufTy).Contents (Elt F) → (⟨S1200000x1, .i32⟩ : BufTy).Contents (Elt F)),
    binary main_v145 main_v165 main_v166 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    binary main_v159 main_v166 main_v167 (mulf : (⟨S1200000, .f32⟩ : BufTy).Contents (Elt F) → (⟨S1200000, .f32⟩ : BufTy).Contents (Elt F) → (⟨S1200000, .f32⟩ : BufTy).Contents (Elt F)),
    unary main_v167 main_v168 (broadcastInDim S1200000x1 ![0] bcast_S1200000_S1200000x1_0 : (⟨S1200000, .f32⟩ : BufTy).Contents (Elt F) → (⟨S1200000x1, .f32⟩ : BufTy).Contents (Elt F)),
    unary main_v168 main_v169 (broadcastInDim S1200000x128 ![0, 1] bcast_S1200000x1_S1200000x128_0_1 : (⟨S1200000x1, .f32⟩ : BufTy).Contents (Elt F) → (⟨S1200000x128, .f32⟩ : BufTy).Contents (Elt F)),
    binary main_v152 main_v169 main_v170 (mulf : (⟨S1200000x128, .f32⟩ : BufTy).Contents (Elt F) → (⟨S1200000x128, .f32⟩ : BufTy).Contents (Elt F) → (⟨S1200000x128, .f32⟩ : BufTy).Contents (Elt F)),
    nullary main_cst_39 (constant S_ .f32 0x00000000#32),
    unary main_cst_39 main_v171 (broadcastInDim S200000x128 ![] bcast_S_S200000x128 : (⟨S_, .f32⟩ : BufTy).Contents (Elt F) → (⟨S200000x128, .f32⟩ : BufTy).Contents (Elt F)),
    unary main_arg15 main_v172 (broadcastInDim S1200000x1 ![0] bcast_S1200000_S1200000x1_0 : (⟨S1200000, .i32⟩ : BufTy).Contents (Elt F) → (⟨S1200000x1, .i32⟩ : BufTy).Contents (Elt F)),
    ternary main_v171 main_v172 main_v170 main_v173 ((fun x i u => Host.scatterAdd scatter_S200000x128_S1200000x1_S1200000x128_1_0_0_1 x i u) : (⟨S200000x128, .f32⟩ : BufTy).Contents (Elt F) → (⟨S1200000x1, .i32⟩ : BufTy).Contents (Elt F) → (⟨S1200000x128, .f32⟩ : BufTy).Contents (Elt F) → (⟨S200000x128, .f32⟩ : BufTy).Contents (Elt F)) ]

/-- Operations 220–232: the first building layer's node update. -/
abbrev Seg9 : List (HloOp τ sig (Elt F)) :=
  [ nullary main_cst_40 (constant S_ .f32 0x3F800000#32),
    unary main_cst_40 main_v174 (broadcastInDim S200000 ![] bcast_S_S200000 : (⟨S_, .f32⟩ : BufTy).Contents (Elt F) → (⟨S200000, .f32⟩ : BufTy).Contents (Elt F)),
    binary main_v174 main_v144 main_v175 (Host.divf : (⟨S200000, .f32⟩ : BufTy).Contents (Elt F) → (⟨S200000, .f32⟩ : BufTy).Contents (Elt F) → (⟨S200000, .f32⟩ : BufTy).Contents (Elt F)),
    unary main_v175 main_v176 (broadcastInDim S200000x1 ![0] bcast_S200000_S200000x1_0 : (⟨S200000, .f32⟩ : BufTy).Contents (Elt F) → (⟨S200000x1, .f32⟩ : BufTy).Contents (Elt F)),
    unary main_v176 main_v177 (broadcastInDim S200000x128 ![0, 1] bcast_S200000x1_S200000x128_0_1 : (⟨S200000x1, .f32⟩ : BufTy).Contents (Elt F) → (⟨S200000x128, .f32⟩ : BufTy).Contents (Elt F)),
    binary main_v135 main_v177 main_v178 (mulf : (⟨S200000x128, .f32⟩ : BufTy).Contents (Elt F) → (⟨S200000x128, .f32⟩ : BufTy).Contents (Elt F) → (⟨S200000x128, .f32⟩ : BufTy).Contents (Elt F)),
    binary main_v173 main_v178 main_v179 (addf : (⟨S200000x128, .f32⟩ : BufTy).Contents (Elt F) → (⟨S200000x128, .f32⟩ : BufTy).Contents (Elt F) → (⟨S200000x128, .f32⟩ : BufTy).Contents (Elt F)),
    unary main_arg9 main_v180 (broadcastInDim S1x128 ![1] bcast_S128_S1x128_1 : (⟨S128, .f32⟩ : BufTy).Contents (Elt F) → (⟨S1x128, .f32⟩ : BufTy).Contents (Elt F)),
    unary main_v180 main_v181 (broadcastInDim S200000x128 ![0, 1] bcast_S1x128_S200000x128_0_1 : (⟨S1x128, .f32⟩ : BufTy).Contents (Elt F) → (⟨S200000x128, .f32⟩ : BufTy).Contents (Elt F)),
    binary main_v179 main_v181 main_v182 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x128, .f32⟩) main_call2_v0) (broadcastInDim S200000x128 ![] bcast_S_S200000x128),
    TRef.binary (TRef.of (T := ⟨S200000x128, .f32⟩) main_v182) (TRef.of (T := ⟨S200000x128, .f32⟩) main_call2_v0) (TRef.of (T := ⟨S200000x128, .f32⟩) main_v183) maximumf ]

/-- Operations 233–282: the second building layer from the product to the aggregated messages. -/
abbrev Seg10 : List (HloOp τ sig (Elt F)) :=
  [ binary main_v183 main_arg10 main_v184 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    nullary main_cst_41 (constant S_ .f32 0x3F800000#32),
    unary main_cst_41 main_v185 (broadcastInDim S200000 ![] bcast_S_S200000 : (⟨S_, .f32⟩ : BufTy).Contents (Elt F) → (⟨S200000, .f32⟩ : BufTy).Contents (Elt F)),
    nullary main_c_42 (constantI S_ 32 0#32),
    unary main_c_42 main_v186 (broadcastInDim S1200000 ![] bcast_S_S1200000 : (⟨S_, .i32⟩ : BufTy).Contents (Elt F) → (⟨S1200000, .i32⟩ : BufTy).Contents (Elt F)),
    binary main_arg15 main_v186 main_v187 (cmpi .slt : (⟨S1200000, .i32⟩ : BufTy).Contents (Elt F) → (⟨S1200000, .i32⟩ : BufTy).Contents (Elt F) → (⟨S1200000, .i1⟩ : BufTy).Contents (Elt F)),
    nullary main_c_43 (constantI S_ 32 200000#32),
    unary main_c_43 main_v188 (broadcastInDim S1200000 ![] bcast_S_S1200000 : (⟨S_, .i32⟩ : BufTy).Contents (Elt F) → (⟨S1200000, .i32⟩ : BufTy).Contents (Elt F)),
    binary main_arg15 main_v188 main_v189 (addi : (⟨S1200000, .i32⟩ : BufTy).Contents (Elt F) → (⟨S1200000, .i32⟩ : BufTy).Contents (Elt F) → (⟨S1200000, .i32⟩ : BufTy).Contents (Elt F)),
    ternary main_v187 main_v189 main_arg15 main_v190 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v190 main_v191 (broadcastInDim S1200000x1 ![0] bcast_S1200000_S1200000x1_0 : (⟨S1200000, .i32⟩ : BufTy).Contents (Elt F) → (⟨S1200000x1, .i32⟩ : BufTy).Contents (Elt F)),
    nullary main_cst_44 (constant S_ .f32 0x3F800000#32),
    unary main_cst_44 main_v192 (broadcastInDim S1200000 ![] bcast_S_S1200000 : (⟨S_, .f32⟩ : BufTy).Contents (Elt F) → (⟨S1200000, .f32⟩ : BufTy).Contents (Elt F)),
    ternary main_v185 main_v191 main_v192 main_v193 ((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)),
    unary main_v193 main_v194 (Host.rsqrt : (⟨S200000, .f32⟩ : BufTy).Contents (Elt F) → (⟨S200000, .f32⟩ : BufTy).Contents (Elt F)),
    nullary main_c_45 (constantI S_ 32 0#32),
    unary main_c_45 main_v195 (broadcastInDim S1200000 ![] bcast_S_S1200000 : (⟨S_, .i32⟩ : BufTy).Contents (Elt F) → (⟨S1200000, .i32⟩ : BufTy).Contents (Elt F)),
    binary main_arg14 main_v195 main_v196 (cmpi .slt : (⟨S1200000, .i32⟩ : BufTy).Contents (Elt F) → (⟨S1200000, .i32⟩ : BufTy).Contents (Elt F) → (⟨S1200000, .i1⟩ : BufTy).Contents (Elt F)),
    nullary main_c_46 (constantI S_ 32 200000#32),
    unary main_c_46 main_v197 (broadcastInDim S1200000 ![] bcast_S_S1200000 : (⟨S_, .i32⟩ : BufTy).Contents (Elt F) → (⟨S1200000, .i32⟩ : BufTy).Contents (Elt F)),
    binary main_arg14 main_v197 main_v198 (addi : (⟨S1200000, .i32⟩ : BufTy).Contents (Elt F) → (⟨S1200000, .i32⟩ : BufTy).Contents (Elt F) → (⟨S1200000, .i32⟩ : BufTy).Contents (Elt F)),
    ternary main_v196 main_v198 main_arg14 main_v199 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v199 main_v200 (broadcastInDim S1200000x1 ![0] bcast_S1200000_S1200000x1_0 : (⟨S1200000, .i32⟩ : BufTy).Contents (Elt F) → (⟨S1200000x1, .i32⟩ : BufTy).Contents (Elt F)),
    binary main_v184 main_v200 main_v201 ((fun x i => Host.gather gather_S200000x64_S1200000x1_S1200000x64_1_0_n_n_0_1_164 x i) : (⟨S200000x64, .f32⟩ : BufTy).Contents (Elt F) → (⟨S1200000x1, .i32⟩ : BufTy).Contents (Elt F) → (⟨S1200000x64, .f32⟩ : BufTy).Contents (Elt F)),
    nullary main_c_47 (constantI S_ 32 0#32),
    unary main_c_47 main_v202 (broadcastInDim S1200000 ![] bcast_S_S1200000 : (⟨S_, .i32⟩ : BufTy).Contents (Elt F) → (⟨S1200000, .i32⟩ : BufTy).Contents (Elt F)),
    binary main_arg14 main_v202 main_v203 (cmpi .slt : (⟨S1200000, .i32⟩ : BufTy).Contents (Elt F) → (⟨S1200000, .i32⟩ : BufTy).Contents (Elt F) → (⟨S1200000, .i1⟩ : BufTy).Contents (Elt F)),
    nullary main_c_48 (constantI S_ 32 200000#32),
    unary main_c_48 main_v204 (broadcastInDim S1200000 ![] bcast_S_S1200000 : (⟨S_, .i32⟩ : BufTy).Contents (Elt F) → (⟨S1200000, .i32⟩ : BufTy).Contents (Elt F)),
    binary main_arg14 main_v204 main_v205 (addi : (⟨S1200000, .i32⟩ : BufTy).Contents (Elt F) → (⟨S1200000, .i32⟩ : BufTy).Contents (Elt F) → (⟨S1200000, .i32⟩ : BufTy).Contents (Elt F)),
    ternary main_v203 main_v205 main_arg14 main_v206 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v206 main_v207 (broadcastInDim S1200000x1 ![0] bcast_S1200000_S1200000x1_0 : (⟨S1200000, .i32⟩ : BufTy).Contents (Elt F) → (⟨S1200000x1, .i32⟩ : BufTy).Contents (Elt F)),
    binary main_v194 main_v207 main_v208 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    nullary main_c_49 (constantI S_ 32 0#32),
    unary main_c_49 main_v209 (broadcastInDim S1200000 ![] bcast_S_S1200000 : (⟨S_, .i32⟩ : BufTy).Contents (Elt F) → (⟨S1200000, .i32⟩ : BufTy).Contents (Elt F)),
    binary main_arg15 main_v209 main_v210 (cmpi .slt : (⟨S1200000, .i32⟩ : BufTy).Contents (Elt F) → (⟨S1200000, .i32⟩ : BufTy).Contents (Elt F) → (⟨S1200000, .i1⟩ : BufTy).Contents (Elt F)),
    nullary main_c_50 (constantI S_ 32 200000#32),
    unary main_c_50 main_v211 (broadcastInDim S1200000 ![] bcast_S_S1200000 : (⟨S_, .i32⟩ : BufTy).Contents (Elt F) → (⟨S1200000, .i32⟩ : BufTy).Contents (Elt F)),
    binary main_arg15 main_v211 main_v212 (addi : (⟨S1200000, .i32⟩ : BufTy).Contents (Elt F) → (⟨S1200000, .i32⟩ : BufTy).Contents (Elt F) → (⟨S1200000, .i32⟩ : BufTy).Contents (Elt F)),
    ternary main_v210 main_v212 main_arg15 main_v213 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v213 main_v214 (broadcastInDim S1200000x1 ![0] bcast_S1200000_S1200000x1_0 : (⟨S1200000, .i32⟩ : BufTy).Contents (Elt F) → (⟨S1200000x1, .i32⟩ : BufTy).Contents (Elt F)),
    binary main_v194 main_v214 main_v215 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    binary main_v208 main_v215 main_v216 (mulf : (⟨S1200000, .f32⟩ : BufTy).Contents (Elt F) → (⟨S1200000, .f32⟩ : BufTy).Contents (Elt F) → (⟨S1200000, .f32⟩ : BufTy).Contents (Elt F)),
    unary main_v216 main_v217 (broadcastInDim S1200000x1 ![0] bcast_S1200000_S1200000x1_0 : (⟨S1200000, .f32⟩ : BufTy).Contents (Elt F) → (⟨S1200000x1, .f32⟩ : BufTy).Contents (Elt F)),
    unary main_v217 main_v218 (broadcastInDim S1200000x64 ![0, 1] bcast_S1200000x1_S1200000x64_0_1 : (⟨S1200000x1, .f32⟩ : BufTy).Contents (Elt F) → (⟨S1200000x64, .f32⟩ : BufTy).Contents (Elt F)),
    binary main_v201 main_v218 main_v219 (mulf : (⟨S1200000x64, .f32⟩ : BufTy).Contents (Elt F) → (⟨S1200000x64, .f32⟩ : BufTy).Contents (Elt F) → (⟨S1200000x64, .f32⟩ : BufTy).Contents (Elt F)),
    nullary main_cst_51 (constant S_ .f32 0x00000000#32),
    unary main_cst_51 main_v220 (broadcastInDim S200000x64 ![] bcast_S_S200000x64 : (⟨S_, .f32⟩ : BufTy).Contents (Elt F) → (⟨S200000x64, .f32⟩ : BufTy).Contents (Elt F)),
    unary main_arg15 main_v221 (broadcastInDim S1200000x1 ![0] bcast_S1200000_S1200000x1_0 : (⟨S1200000, .i32⟩ : BufTy).Contents (Elt F) → (⟨S1200000x1, .i32⟩ : BufTy).Contents (Elt F)),
    ternary main_v220 main_v221 main_v219 main_v222 ((fun x i u => Host.scatterAdd scatter_S200000x64_S1200000x1_S1200000x64_1_0_0_1 x i u) : (⟨S200000x64, .f32⟩ : BufTy).Contents (Elt F) → (⟨S1200000x1, .i32⟩ : BufTy).Contents (Elt F) → (⟨S1200000x64, .f32⟩ : BufTy).Contents (Elt F) → (⟨S200000x64, .f32⟩ : BufTy).Contents (Elt F)) ]

/-- Operations 283–295: the second building layer's node update. -/
abbrev Seg11 : List (HloOp τ sig (Elt F)) :=
  [ nullary main_cst_52 (constant S_ .f32 0x3F800000#32),
    unary main_cst_52 main_v223 (broadcastInDim S200000 ![] bcast_S_S200000 : (⟨S_, .f32⟩ : BufTy).Contents (Elt F) → (⟨S200000, .f32⟩ : BufTy).Contents (Elt F)),
    binary main_v223 main_v193 main_v224 (Host.divf : (⟨S200000, .f32⟩ : BufTy).Contents (Elt F) → (⟨S200000, .f32⟩ : BufTy).Contents (Elt F) → (⟨S200000, .f32⟩ : BufTy).Contents (Elt F)),
    unary main_v224 main_v225 (broadcastInDim S200000x1 ![0] bcast_S200000_S200000x1_0 : (⟨S200000, .f32⟩ : BufTy).Contents (Elt F) → (⟨S200000x1, .f32⟩ : BufTy).Contents (Elt F)),
    unary main_v225 main_v226 (broadcastInDim S200000x64 ![0, 1] bcast_S200000x1_S200000x64_0_1 : (⟨S200000x1, .f32⟩ : BufTy).Contents (Elt F) → (⟨S200000x64, .f32⟩ : BufTy).Contents (Elt F)),
    binary main_v184 main_v226 main_v227 (mulf : (⟨S200000x64, .f32⟩ : BufTy).Contents (Elt F) → (⟨S200000x64, .f32⟩ : BufTy).Contents (Elt F) → (⟨S200000x64, .f32⟩ : BufTy).Contents (Elt F)),
    binary main_v222 main_v227 main_v228 (addf : (⟨S200000x64, .f32⟩ : BufTy).Contents (Elt F) → (⟨S200000x64, .f32⟩ : BufTy).Contents (Elt F) → (⟨S200000x64, .f32⟩ : BufTy).Contents (Elt F)),
    unary main_arg11 main_v229 (broadcastInDim S1x64 ![1] bcast_S64_S1x64_1 : (⟨S64, .f32⟩ : BufTy).Contents (Elt F) → (⟨S1x64, .f32⟩ : BufTy).Contents (Elt F)),
    unary main_v229 main_v230 (broadcastInDim S200000x64 ![0, 1] bcast_S1x64_S200000x64_0_1 : (⟨S1x64, .f32⟩ : BufTy).Contents (Elt F) → (⟨S200000x64, .f32⟩ : BufTy).Contents (Elt F)),
    binary main_v228 main_v230 main_v231 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S200000x64, .f32⟩) main_call3_v0) (broadcastInDim S200000x64 ![] bcast_S_S200000x64),
    TRef.binary (TRef.of (T := ⟨S200000x64, .f32⟩) main_v231) (TRef.of (T := ⟨S200000x64, .f32⟩) main_call3_v0) (TRef.of (T := ⟨S200000x64, .f32⟩) main_v232) maximumf ]

/-- Operations 296–345: the third building layer from the product to the aggregated messages. -/
abbrev Seg12 : List (HloOp τ sig (Elt F)) :=
  [ binary main_v232 main_arg12 main_v233 ((fun l r => Host.dotGeneral dot_S200000x64_S64x2_S200000x2_1_0_0_1_n_n none l r) : (⟨S200000x64, .f32⟩ : BufTy).Contents (Elt F) → (⟨S64x2, .f32⟩ : BufTy).Contents (Elt F) → (⟨S200000x2, .f32⟩ : BufTy).Contents (Elt F)),
    nullary main_cst_53 (constant S_ .f32 0x3F800000#32),
    unary main_cst_53 main_v234 (broadcastInDim S200000 ![] bcast_S_S200000 : (⟨S_, .f32⟩ : BufTy).Contents (Elt F) → (⟨S200000, .f32⟩ : BufTy).Contents (Elt F)),
    nullary main_c_54 (constantI S_ 32 0#32),
    unary main_c_54 main_v235 (broadcastInDim S1200000 ![] bcast_S_S1200000 : (⟨S_, .i32⟩ : BufTy).Contents (Elt F) → (⟨S1200000, .i32⟩ : BufTy).Contents (Elt F)),
    binary main_arg15 main_v235 main_v236 (cmpi .slt : (⟨S1200000, .i32⟩ : BufTy).Contents (Elt F) → (⟨S1200000, .i32⟩ : BufTy).Contents (Elt F) → (⟨S1200000, .i1⟩ : BufTy).Contents (Elt F)),
    nullary main_c_55 (constantI S_ 32 200000#32),
    unary main_c_55 main_v237 (broadcastInDim S1200000 ![] bcast_S_S1200000 : (⟨S_, .i32⟩ : BufTy).Contents (Elt F) → (⟨S1200000, .i32⟩ : BufTy).Contents (Elt F)),
    binary main_arg15 main_v237 main_v238 (addi : (⟨S1200000, .i32⟩ : BufTy).Contents (Elt F) → (⟨S1200000, .i32⟩ : BufTy).Contents (Elt F) → (⟨S1200000, .i32⟩ : BufTy).Contents (Elt F)),
    ternary main_v236 main_v238 main_arg15 main_v239 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v239 main_v240 (broadcastInDim S1200000x1 ![0] bcast_S1200000_S1200000x1_0 : (⟨S1200000, .i32⟩ : BufTy).Contents (Elt F) → (⟨S1200000x1, .i32⟩ : BufTy).Contents (Elt F)),
    nullary main_cst_56 (constant S_ .f32 0x3F800000#32),
    unary main_cst_56 main_v241 (broadcastInDim S1200000 ![] bcast_S_S1200000 : (⟨S_, .f32⟩ : BufTy).Contents (Elt F) → (⟨S1200000, .f32⟩ : BufTy).Contents (Elt F)),
    ternary main_v234 main_v240 main_v241 main_v242 ((fun x i u => Host.scatterAdd scatter_S200000_S1200000x1_S1200000_n_0_0_1 x i u) : (⟨S200000, .f32⟩ : BufTy).Contents (Elt F) → (⟨S1200000x1, .i32⟩ : BufTy).Contents (Elt F) → (⟨S1200000, .f32⟩ : BufTy).Contents (Elt F) → (⟨S200000, .f32⟩ : BufTy).Contents (Elt F)),
    unary main_v242 main_v243 (Host.rsqrt : (⟨S200000, .f32⟩ : BufTy).Contents (Elt F) → (⟨S200000, .f32⟩ : BufTy).Contents (Elt F)),
    nullary main_c_57 (constantI S_ 32 0#32),
    unary main_c_57 main_v244 (broadcastInDim S1200000 ![] bcast_S_S1200000 : (⟨S_, .i32⟩ : BufTy).Contents (Elt F) → (⟨S1200000, .i32⟩ : BufTy).Contents (Elt F)),
    binary main_arg14 main_v244 main_v245 (cmpi .slt : (⟨S1200000, .i32⟩ : BufTy).Contents (Elt F) → (⟨S1200000, .i32⟩ : BufTy).Contents (Elt F) → (⟨S1200000, .i1⟩ : BufTy).Contents (Elt F)),
    nullary main_c_58 (constantI S_ 32 200000#32),
    unary main_c_58 main_v246 (broadcastInDim S1200000 ![] bcast_S_S1200000 : (⟨S_, .i32⟩ : BufTy).Contents (Elt F) → (⟨S1200000, .i32⟩ : BufTy).Contents (Elt F)),
    binary main_arg14 main_v246 main_v247 (addi : (⟨S1200000, .i32⟩ : BufTy).Contents (Elt F) → (⟨S1200000, .i32⟩ : BufTy).Contents (Elt F) → (⟨S1200000, .i32⟩ : BufTy).Contents (Elt F)),
    ternary main_v245 main_v247 main_arg14 main_v248 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v248 main_v249 (broadcastInDim S1200000x1 ![0] bcast_S1200000_S1200000x1_0 : (⟨S1200000, .i32⟩ : BufTy).Contents (Elt F) → (⟨S1200000x1, .i32⟩ : BufTy).Contents (Elt F)),
    binary main_v233 main_v249 main_v250 ((fun x i => Host.gather gather_S200000x2_S1200000x1_S1200000x2_1_0_n_n_0_1_12 x i) : (⟨S200000x2, .f32⟩ : BufTy).Contents (Elt F) → (⟨S1200000x1, .i32⟩ : BufTy).Contents (Elt F) → (⟨S1200000x2, .f32⟩ : BufTy).Contents (Elt F)),
    nullary main_c_59 (constantI S_ 32 0#32),
    unary main_c_59 main_v251 (broadcastInDim S1200000 ![] bcast_S_S1200000 : (⟨S_, .i32⟩ : BufTy).Contents (Elt F) → (⟨S1200000, .i32⟩ : BufTy).Contents (Elt F)),
    binary main_arg14 main_v251 main_v252 (cmpi .slt : (⟨S1200000, .i32⟩ : BufTy).Contents (Elt F) → (⟨S1200000, .i32⟩ : BufTy).Contents (Elt F) → (⟨S1200000, .i1⟩ : BufTy).Contents (Elt F)),
    nullary main_c_60 (constantI S_ 32 200000#32),
    unary main_c_60 main_v253 (broadcastInDim S1200000 ![] bcast_S_S1200000 : (⟨S_, .i32⟩ : BufTy).Contents (Elt F) → (⟨S1200000, .i32⟩ : BufTy).Contents (Elt F)),
    binary main_arg14 main_v253 main_v254 (addi : (⟨S1200000, .i32⟩ : BufTy).Contents (Elt F) → (⟨S1200000, .i32⟩ : BufTy).Contents (Elt F) → (⟨S1200000, .i32⟩ : BufTy).Contents (Elt F)),
    ternary main_v252 main_v254 main_arg14 main_v255 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v255 main_v256 (broadcastInDim S1200000x1 ![0] bcast_S1200000_S1200000x1_0 : (⟨S1200000, .i32⟩ : BufTy).Contents (Elt F) → (⟨S1200000x1, .i32⟩ : BufTy).Contents (Elt F)),
    binary main_v243 main_v256 main_v257 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    nullary main_c_61 (constantI S_ 32 0#32),
    unary main_c_61 main_v258 (broadcastInDim S1200000 ![] bcast_S_S1200000 : (⟨S_, .i32⟩ : BufTy).Contents (Elt F) → (⟨S1200000, .i32⟩ : BufTy).Contents (Elt F)),
    binary main_arg15 main_v258 main_v259 (cmpi .slt : (⟨S1200000, .i32⟩ : BufTy).Contents (Elt F) → (⟨S1200000, .i32⟩ : BufTy).Contents (Elt F) → (⟨S1200000, .i1⟩ : BufTy).Contents (Elt F)),
    nullary main_c_62 (constantI S_ 32 200000#32),
    unary main_c_62 main_v260 (broadcastInDim S1200000 ![] bcast_S_S1200000 : (⟨S_, .i32⟩ : BufTy).Contents (Elt F) → (⟨S1200000, .i32⟩ : BufTy).Contents (Elt F)),
    binary main_arg15 main_v260 main_v261 (addi : (⟨S1200000, .i32⟩ : BufTy).Contents (Elt F) → (⟨S1200000, .i32⟩ : BufTy).Contents (Elt F) → (⟨S1200000, .i32⟩ : BufTy).Contents (Elt F)),
    ternary main_v259 main_v261 main_arg15 main_v262 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v262 main_v263 (broadcastInDim S1200000x1 ![0] bcast_S1200000_S1200000x1_0 : (⟨S1200000, .i32⟩ : BufTy).Contents (Elt F) → (⟨S1200000x1, .i32⟩ : BufTy).Contents (Elt F)),
    binary main_v243 main_v263 main_v264 ((fun x i => Host.gather gather_S200000_S1200000x1_S1200000_n_0_n_n_0_1_1 x i) : (⟨S200000, .f32⟩ : BufTy).Contents (Elt F) → (⟨S1200000x1, .i32⟩ : BufTy).Contents (Elt F) → (⟨S1200000, .f32⟩ : BufTy).Contents (Elt F)),
    binary main_v257 main_v264 main_v265 (mulf : (⟨S1200000, .f32⟩ : BufTy).Contents (Elt F) → (⟨S1200000, .f32⟩ : BufTy).Contents (Elt F) → (⟨S1200000, .f32⟩ : BufTy).Contents (Elt F)),
    unary main_v265 main_v266 (broadcastInDim S1200000x1 ![0] bcast_S1200000_S1200000x1_0 : (⟨S1200000, .f32⟩ : BufTy).Contents (Elt F) → (⟨S1200000x1, .f32⟩ : BufTy).Contents (Elt F)),
    unary main_v266 main_v267 (broadcastInDim S1200000x2 ![0, 1] bcast_S1200000x1_S1200000x2_0_1 : (⟨S1200000x1, .f32⟩ : BufTy).Contents (Elt F) → (⟨S1200000x2, .f32⟩ : BufTy).Contents (Elt F)),
    binary main_v250 main_v267 main_v268 (mulf : (⟨S1200000x2, .f32⟩ : BufTy).Contents (Elt F) → (⟨S1200000x2, .f32⟩ : BufTy).Contents (Elt F) → (⟨S1200000x2, .f32⟩ : BufTy).Contents (Elt F)),
    nullary main_cst_63 (constant S_ .f32 0x00000000#32),
    unary main_cst_63 main_v269 (broadcastInDim S200000x2 ![] bcast_S_S200000x2 : (⟨S_, .f32⟩ : BufTy).Contents (Elt F) → (⟨S200000x2, .f32⟩ : BufTy).Contents (Elt F)),
    unary main_arg15 main_v270 (broadcastInDim S1200000x1 ![0] bcast_S1200000_S1200000x1_0 : (⟨S1200000, .i32⟩ : BufTy).Contents (Elt F) → (⟨S1200000x1, .i32⟩ : BufTy).Contents (Elt F)),
    ternary main_v269 main_v270 main_v268 main_v271 ((fun x i u => Host.scatterAdd scatter_S200000x2_S1200000x1_S1200000x2_1_0_0_1 x i u) : (⟨S200000x2, .f32⟩ : BufTy).Contents (Elt F) → (⟨S1200000x1, .i32⟩ : BufTy).Contents (Elt F) → (⟨S1200000x2, .f32⟩ : BufTy).Contents (Elt F) → (⟨S200000x2, .f32⟩ : BufTy).Contents (Elt F)) ]

/-- Operations 346–355: the third building layer's node update (not rectified). -/
abbrev Seg13 : List (HloOp τ sig (Elt F)) :=
  [ nullary main_cst_64 (constant S_ .f32 0x3F800000#32),
    unary main_cst_64 main_v272 (broadcastInDim S200000 ![] bcast_S_S200000 : (⟨S_, .f32⟩ : BufTy).Contents (Elt F) → (⟨S200000, .f32⟩ : BufTy).Contents (Elt F)),
    binary main_v272 main_v242 main_v273 (Host.divf : (⟨S200000, .f32⟩ : BufTy).Contents (Elt F) → (⟨S200000, .f32⟩ : BufTy).Contents (Elt F) → (⟨S200000, .f32⟩ : BufTy).Contents (Elt F)),
    unary main_v273 main_v274 (broadcastInDim S200000x1 ![0] bcast_S200000_S200000x1_0 : (⟨S200000, .f32⟩ : BufTy).Contents (Elt F) → (⟨S200000x1, .f32⟩ : BufTy).Contents (Elt F)),
    unary main_v274 main_v275 (broadcastInDim S200000x2 ![0, 1] bcast_S200000x1_S200000x2_0_1 : (⟨S200000x1, .f32⟩ : BufTy).Contents (Elt F) → (⟨S200000x2, .f32⟩ : BufTy).Contents (Elt F)),
    binary main_v233 main_v275 main_v276 (mulf : (⟨S200000x2, .f32⟩ : BufTy).Contents (Elt F) → (⟨S200000x2, .f32⟩ : BufTy).Contents (Elt F) → (⟨S200000x2, .f32⟩ : BufTy).Contents (Elt F)),
    binary main_v271 main_v276 main_v277 (addf : (⟨S200000x2, .f32⟩ : BufTy).Contents (Elt F) → (⟨S200000x2, .f32⟩ : BufTy).Contents (Elt F) → (⟨S200000x2, .f32⟩ : BufTy).Contents (Elt F)),
    unary main_arg13 main_v278 (broadcastInDim S1x2 ![1] bcast_S2_S1x2_1 : (⟨S2, .f32⟩ : BufTy).Contents (Elt F) → (⟨S1x2, .f32⟩ : BufTy).Contents (Elt F)),
    unary main_v278 main_v279 (broadcastInDim S200000x2 ![0, 1] bcast_S1x2_S200000x2_0_1 : (⟨S1x2, .f32⟩ : BufTy).Contents (Elt F) → (⟨S200000x2, .f32⟩ : BufTy).Contents (Elt F)),
    binary main_v277 main_v279 main_v280 (addf : (⟨S200000x2, .f32⟩ : BufTy).Contents (Elt F) → (⟨S200000x2, .f32⟩ : BufTy).Contents (Elt F) → (⟨S200000x2, .f32⟩ : BufTy).Contents (Elt F)) ]

/-- Operations 356–366: the scatter back to global order. -/
abbrev Seg14 : List (HloOp τ sig (Elt F)) :=
  [ nullary main_cst_65 (constant S_ .f32 0x00000000#32),
    unary main_cst_65 main_v281 (broadcastInDim S200000x2 ![] bcast_S_S200000x2 : (⟨S_, .f32⟩ : BufTy).Contents (Elt F) → (⟨S200000x2, .f32⟩ : BufTy).Contents (Elt F)),
    nullary main_c_66 (constantI S_ 32 0#32),
    unary main_c_66 main_v282 (broadcastInDim S200000 ![] bcast_S_S200000 : (⟨S_, .i32⟩ : BufTy).Contents (Elt F) → (⟨S200000, .i32⟩ : BufTy).Contents (Elt F)),
    binary main_arg19 main_v282 main_v283 (cmpi .slt : (⟨S200000, .i32⟩ : BufTy).Contents (Elt F) → (⟨S200000, .i32⟩ : BufTy).Contents (Elt F) → (⟨S200000, .i1⟩ : BufTy).Contents (Elt F)),
    nullary main_c_67 (constantI S_ 32 200000#32),
    unary main_c_67 main_v284 (broadcastInDim S200000 ![] bcast_S_S200000 : (⟨S_, .i32⟩ : BufTy).Contents (Elt F) → (⟨S200000, .i32⟩ : BufTy).Contents (Elt F)),
    binary main_arg19 main_v284 main_v285 (addi : (⟨S200000, .i32⟩ : BufTy).Contents (Elt F) → (⟨S200000, .i32⟩ : BufTy).Contents (Elt F) → (⟨S200000, .i32⟩ : BufTy).Contents (Elt F)),
    ternary main_v283 main_v285 main_arg19 main_v286 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v286 main_v287 (broadcastInDim S200000x1 ![0] bcast_S200000_S200000x1_0 : (⟨S200000, .i32⟩ : BufTy).Contents (Elt F) → (⟨S200000x1, .i32⟩ : BufTy).Contents (Elt F)),
    ternary main_v281 main_v287 main_v280 main_v288 ((fun x i u => Host.scatter scatter_S200000x2_S200000x1_S200000x2_1_0_0_1 (fun _ b => b) x i u) : (⟨S200000x2, .f32⟩ : BufTy).Contents (Elt F) → (⟨S200000x1, .i32⟩ : BufTy).Contents (Elt F) → (⟨S200000x2, .f32⟩ : BufTy).Contents (Elt F) → (⟨S200000x2, .f32⟩ : BufTy).Contents (Elt F)) ]

/-- Operations 367–381: the row log-softmax. -/
abbrev Seg15 : List (HloOp τ sig (Elt F)) :=
  [ TRef.nullary (TRef.of (T := ⟨S_, .f32⟩) main_call4_cst) (constant S_ .f32 0xFF800000#32),
    TRef.binary (TRef.of (T := ⟨S200000x2, .f32⟩) main_v288) (TRef.of (T := ⟨S_, .f32⟩) main_call4_cst) (TRef.of (T := ⟨S200000, .f32⟩) main_call4_v0) (fun x v => Host.reduce FloatOps.maximumf x v reducesTo_S200000x2_S200000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S200000, .f32⟩) main_call4_v1) (broadcastInDim S200000 ![] bcast_S_S200000),
    TRef.binary (TRef.of (T := ⟨S200000, .f32⟩) main_call4_v1) (TRef.of (T := ⟨S200000, .f32⟩) main_call4_v0) (TRef.of (T := ⟨S200000, .f32⟩) main_call4_v2) maximumf,
    TRef.unary (TRef.of (T := ⟨S200000, .f32⟩) main_call4_v2) (TRef.of (T := ⟨S200000x1, .f32⟩) main_call4_v3) (broadcastInDim S200000x1 ![0] bcast_S200000_S200000x1_0),
    TRef.unary (TRef.of (T := ⟨S200000x1, .f32⟩) main_call4_v3) (TRef.of (T := ⟨S200000x2, .f32⟩) main_call4_v4) (broadcastInDim S200000x2 ![0, 1] bcast_S200000x1_S200000x2_0_1),
    TRef.binary (TRef.of (T := ⟨S200000x2, .f32⟩) main_v288) (TRef.of (T := ⟨S200000x2, .f32⟩) main_call4_v4) (TRef.of (T := ⟨S200000x2, .f32⟩) main_call4_v5) subf,
    TRef.unary (TRef.of (T := ⟨S200000x2, .f32⟩) main_call4_v5) (TRef.of (T := ⟨S200000x2, .f32⟩) main_call4_v6) Host.exp,
    TRef.nullary (TRef.of (T := ⟨S_, .f32⟩) main_call4_cst_1) (constant S_ .f32 0x00000000#32),
    TRef.binary (TRef.of (T := ⟨S200000x2, .f32⟩) main_call4_v6) (TRef.of (T := ⟨S_, .f32⟩) main_call4_cst_1) (TRef.of (T := ⟨S200000, .f32⟩) main_call4_v7) (fun x v => Host.reduceAdd x v reducesTo_S200000x2_S200000_d1 h_S_),
    TRef.unary (TRef.of (T := ⟨S200000, .f32⟩) main_call4_v7) (TRef.of (T := ⟨S200000x1, .f32⟩) main_call4_v8) (broadcastInDim S200000x1 ![0] bcast_S200000_S200000x1_0),
    TRef.unary (TRef.of (T := ⟨S200000x1, .f32⟩) main_call4_v8) (TRef.of (T := ⟨S200000x1, .f32⟩) main_call4_v9) Host.log,
    TRef.unary (TRef.of (T := ⟨S200000x1, .f32⟩) main_call4_v9) (TRef.of (T := ⟨S200000x2, .f32⟩) main_call4_v10) (broadcastInDim S200000x2 ![0, 1] bcast_S200000x1_S200000x2_0_1),
    TRef.binary (TRef.of (T := ⟨S200000x2, .f32⟩) main_call4_v5) (TRef.of (T := ⟨S200000x2, .f32⟩) main_call4_v10) (TRef.of (T := ⟨S200000x2, .f32⟩) main_v289) subf ]

set_option maxRecDepth 8192 in
set_option maxHeartbeats 4000000 in
/-- The segments, in order, are the program. -/
theorem ops_split : (ops : List (HloOp τ sig (Elt F))) = Seg1 ++ Seg2 ++ Seg3 ++ Seg4 ++ Seg5 ++ Seg6 ++ Seg7 ++ Seg8 ++ Seg9 ++ Seg10 ++ Seg11 ++ Seg12 ++ Seg13 ++ Seg14 ++ Seg15 := rfl

/-- The contents after a concatenation: the second list's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The buffer contents at each cut -/

variable (m : (ℓ : Loc nD τ sig) → Buf (Elt F) ℓ)

/-- At launch. -/
def U0 (c : Dev nD) : Valuation τ sig (Elt F) := launchContents m c
/-- After the first community layer from the product to the aggregated messages. -/
def U1 (c : Dev nD) : Valuation τ sig (Elt F) := after Seg1 (U0 m c)
/-- After the first community layer's node update. -/
def U2 (c : Dev nD) : Valuation τ sig (Elt F) := after Seg2 (U1 m c)
/-- After the second community layer from the product to the aggregated messages. -/
def U3 (c : Dev nD) : Valuation τ sig (Elt F) := after Seg3 (U2 m c)
/-- After the second community layer's node update. -/
def U4 (c : Dev nD) : Valuation τ sig (Elt F) := after Seg4 (U3 m c)
/-- After the per-building community embedding (a row gather). -/
def U5 (c : Dev nD) : Valuation τ sig (Elt F) := after Seg5 (U4 m c)
/-- After the attention gate. -/
def U6 (c : Dev nD) : Valuation τ sig (Elt F) := after Seg6 (U5 m c)
/-- After the batch-order row gather. -/
def U7 (c : Dev nD) : Valuation τ sig (Elt F) := after Seg7 (U6 m c)
/-- After the first building layer from the product to the aggregated messages. -/
def U8 (c : Dev nD) : Valuation τ sig (Elt F) := after Seg8 (U7 m c)
/-- After the first building layer's node update. -/
def U9 (c : Dev nD) : Valuation τ sig (Elt F) := after Seg9 (U8 m c)
/-- After the second building layer from the product to the aggregated messages. -/
def U10 (c : Dev nD) : Valuation τ sig (Elt F) := after Seg10 (U9 m c)
/-- After the second building layer's node update. -/
def U11 (c : Dev nD) : Valuation τ sig (Elt F) := after Seg11 (U10 m c)
/-- After the third building layer from the product to the aggregated messages. -/
def U12 (c : Dev nD) : Valuation τ sig (Elt F) := after Seg12 (U11 m c)
/-- After the third building layer's node update (not rectified). -/
def U13 (c : Dev nD) : Valuation τ sig (Elt F) := after Seg13 (U12 m c)
/-- After the scatter back to global order. -/
def U14 (c : Dev nD) : Valuation τ sig (Elt F) := after Seg14 (U13 m c)
/-- After the row log-softmax. -/
def U15 (c : Dev nD) : Valuation τ sig (Elt F) := after Seg15 (U14 m c)

/-- The whole program's fold is the last cut's contents. -/
theorem after_ops (c : Dev nD) : after ops (launchContents m c) = U15 m c := by
  rw [ops_split]
  simp only [after_append]
  rfl

/-- On every device, for any float values, from any memory with zero counters: every weakly fair execution of @main
    terminates with every buffer at the last cut's contents. -/
theorem run (ρ : Dev nD → PrngReg) :
    θ_run defs (onTc (τ := τ) (main (F := F))) ⟨m, fun _ => 0, ρ⟩ fun r => ∀ (c : Dev nD) (b : Ref sig .tc),
      r.2.mem ((c.tc : Thread nD τ).loc b) = U15 m c (Proc.devRef .tc b) :=
  (θ_run defs _ _).mono (fun _ h c b => (h c b).trans (congrFun (after_ops m c) _))
    (run_seq scopedRefs_eq scopedSems_eq defs main (fun _ => ops) main_eq (fun _ => ops_sub) m ρ
      (hfresh := fun _ op h => (List.forall_iff_forall_mem.mp ops_fresh) op h))

end Cert.ReferenceIdeal.RefRun

end
-- ==== Proof.RChain.lean ====
/-
  The argument arrays at every cut of the reference's run.  The reference is single-assignment over its buffers and no
  operation writes an argument array, so at each of the fifteen cuts every argument array still holds its launch
  contents: one step per segment, by induction along the program.
-/
import proofs.«114758_j41918880809423_1_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The program's twenty argument arrays. -/
def argL : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- Every argument array holds its launch contents in the buffer contents `W`. -/
def Kept (c : Dev nD) (W : Valuation τ sig (Elt F)) : Prop :=
  ∀ b ∈ argL, W (Proc.devRef .tc b) = m ((c.tc : Thread nD τ).loc b)

theorem kept0 (c : Dev nD) : Kept m c (U0 m c) := fun _ _ => rfl

/-- The operations of segment 1 each write a buffer of their own. -/
theorem kept1 (c : Dev nD) (h : Kept m c (U0 m c)) : Kept m c (U1 m c) := by
  intro b hb
  unfold U1
  refine (after_of_forall_not_mem (b := Proc.devRef .tc b) _ _ (List.forall_iff_forall_mem.mp ?_)).trans (h b hb)
  simp only [argL, List.mem_cons, List.mem_singleton, List.not_mem_nil, or_false] at hb
  simp only [Seg1, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 2 each write a buffer of their own. -/
theorem kept2 (c : Dev nD) (h : Kept m c (U1 m c)) : Kept m c (U2 m c) := by
  intro b hb
  unfold U2
  refine (after_of_forall_not_mem (b := Proc.devRef .tc b) _ _ (List.forall_iff_forall_mem.mp ?_)).trans (h b hb)
  simp only [argL, List.mem_cons, List.mem_singleton, List.not_mem_nil, or_false] at hb
  simp only [Seg2, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 3 each write a buffer of their own. -/
theorem kept3 (c : Dev nD) (h : Kept m c (U2 m c)) : Kept m c (U3 m c) := by
  intro b hb
  unfold U3
  refine (after_of_forall_not_mem (b := Proc.devRef .tc b) _ _ (List.forall_iff_forall_mem.mp ?_)).trans (h b hb)
  simp only [argL, List.mem_cons, List.mem_singleton, List.not_mem_nil, or_false] at hb
  simp only [Seg3, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 4 each write a buffer of their own. -/
theorem kept4 (c : Dev nD) (h : Kept m c (U3 m c)) : Kept m c (U4 m c) := by
  intro b hb
  unfold U4
  refine (after_of_forall_not_mem (b := Proc.devRef .tc b) _ _ (List.forall_iff_forall_mem.mp ?_)).trans (h b hb)
  simp only [argL, List.mem_cons, List.mem_singleton, List.not_mem_nil, or_false] at hb
  simp only [Seg4, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 5 each write a buffer of their own. -/
theorem kept5 (c : Dev nD) (h : Kept m c (U4 m c)) : Kept m c (U5 m c) := by
  intro b hb
  unfold U5
  refine (after_of_forall_not_mem (b := Proc.devRef .tc b) _ _ (List.forall_iff_forall_mem.mp ?_)).trans (h b hb)
  simp only [argL, List.mem_cons, List.mem_singleton, List.not_mem_nil, or_false] at hb
  simp only [Seg5, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 6 each write a buffer of their own. -/
theorem kept6 (c : Dev nD) (h : Kept m c (U5 m c)) : Kept m c (U6 m c) := by
  intro b hb
  unfold U6
  refine (after_of_forall_not_mem (b := Proc.devRef .tc b) _ _ (List.forall_iff_forall_mem.mp ?_)).trans (h b hb)
  simp only [argL, List.mem_cons, List.mem_singleton, List.not_mem_nil, or_false] at hb
  simp only [Seg6, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 7 each write a buffer of their own. -/
theorem kept7 (c : Dev nD) (h : Kept m c (U6 m c)) : Kept m c (U7 m c) := by
  intro b hb
  unfold U7
  refine (after_of_forall_not_mem (b := Proc.devRef .tc b) _ _ (List.forall_iff_forall_mem.mp ?_)).trans (h b hb)
  simp only [argL, List.mem_cons, List.mem_singleton, List.not_mem_nil, or_false] at hb
  simp only [Seg7, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 8 each write a buffer of their own. -/
theorem kept8 (c : Dev nD) (h : Kept m c (U7 m c)) : Kept m c (U8 m c) := by
  intro b hb
  unfold U8
  refine (after_of_forall_not_mem (b := Proc.devRef .tc b) _ _ (List.forall_iff_forall_mem.mp ?_)).trans (h b hb)
  simp only [argL, List.mem_cons, List.mem_singleton, List.not_mem_nil, or_false] at hb
  simp only [Seg8, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 9 each write a buffer of their own. -/
theorem kept9 (c : Dev nD) (h : Kept m c (U8 m c)) : Kept m c (U9 m c) := by
  intro b hb
  unfold U9
  refine (after_of_forall_not_mem (b := Proc.devRef .tc b) _ _ (List.forall_iff_forall_mem.mp ?_)).trans (h b hb)
  simp only [argL, List.mem_cons, List.mem_singleton, List.not_mem_nil, or_false] at hb
  simp only [Seg9, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 10 each write a buffer of their own. -/
theorem kept10 (c : Dev nD) (h : Kept m c (U9 m c)) : Kept m c (U10 m c) := by
  intro b hb
  unfold U10
  refine (after_of_forall_not_mem (b := Proc.devRef .tc b) _ _ (List.forall_iff_forall_mem.mp ?_)).trans (h b hb)
  simp only [argL, List.mem_cons, List.mem_singleton, List.not_mem_nil, or_false] at hb
  simp only [Seg10, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 11 each write a buffer of their own. -/
theorem kept11 (c : Dev nD) (h : Kept m c (U10 m c)) : Kept m c (U11 m c) := by
  intro b hb
  unfold U11
  refine (after_of_forall_not_mem (b := Proc.devRef .tc b) _ _ (List.forall_iff_forall_mem.mp ?_)).trans (h b hb)
  simp only [argL, List.mem_cons, List.mem_singleton, List.not_mem_nil, or_false] at hb
  simp only [Seg11, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 12 each write a buffer of their own. -/
theorem kept12 (c : Dev nD) (h : Kept m c (U11 m c)) : Kept m c (U12 m c) := by
  intro b hb
  unfold U12
  refine (after_of_forall_not_mem (b := Proc.devRef .tc b) _ _ (List.forall_iff_forall_mem.mp ?_)).trans (h b hb)
  simp only [argL, List.mem_cons, List.mem_singleton, List.not_mem_nil, or_false] at hb
  simp only [Seg12, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 13 each write a buffer of their own. -/
theorem kept13 (c : Dev nD) (h : Kept m c (U12 m c)) : Kept m c (U13 m c) := by
  intro b hb
  unfold U13
  refine (after_of_forall_not_mem (b := Proc.devRef .tc b) _ _ (List.forall_iff_forall_mem.mp ?_)).trans (h b hb)
  simp only [argL, List.mem_cons, List.mem_singleton, List.not_mem_nil, or_false] at hb
  simp only [Seg13, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 14 each write a buffer of their own. -/
theorem kept14 (c : Dev nD) (h : Kept m c (U13 m c)) : Kept m c (U14 m c) := by
  intro b hb
  unfold U14
  refine (after_of_forall_not_mem (b := Proc.devRef .tc b) _ _ (List.forall_iff_forall_mem.mp ?_)).trans (h b hb)
  simp only [argL, List.mem_cons, List.mem_singleton, List.not_mem_nil, or_false] at hb
  simp only [Seg14, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- The operations of segment 15 each write a buffer of their own. -/
theorem kept15 (c : Dev nD) (h : Kept m c (U14 m c)) : Kept m c (U15 m c) := by
  intro b hb
  unfold U15
  refine (after_of_forall_not_mem (b := Proc.devRef .tc b) _ _ (List.forall_iff_forall_mem.mp ?_)).trans (h b hb)
  simp only [argL, List.mem_cons, List.mem_singleton, List.not_mem_nil, or_false] at hb
  simp only [Seg15, List.Forall, nullary_writes, unary_writes, binary_writes, ternary_writes,
    quaternary_writes, reshape_writes, binaryIndexed_writes, TRef.nullary, TRef.unary, TRef.binary, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact devRef_ne_of_ne (by decide)

/-- At cut j the argument arrays are as launched. -/
theorem at1 (c : Dev nD) : Kept m c (U1 m c) := kept1 m c (kept0 m c)
theorem at2 (c : Dev nD) : Kept m c (U2 m c) := kept2 m c (at1 m c)
theorem at3 (c : Dev nD) : Kept m c (U3 m c) := kept3 m c (at2 m c)
theorem at4 (c : Dev nD) : Kept m c (U4 m c) := kept4 m c (at3 m c)
theorem at5 (c : Dev nD) : Kept m c (U5 m c) := kept5 m c (at4 m c)
theorem at6 (c : Dev nD) : Kept m c (U6 m c) := kept6 m c (at5 m c)
theorem at7 (c : Dev nD) : Kept m c (U7 m c) := kept7 m c (at6 m c)
theorem at8 (c : Dev nD) : Kept m c (U8 m c) := kept8 m c (at7 m c)
theorem at9 (c : Dev nD) : Kept m c (U9 m c) := kept9 m c (at8 m c)
theorem at10 (c : Dev nD) : Kept m c (U10 m c) := kept10 m c (at9 m c)
theorem at11 (c : Dev nD) : Kept m c (U11 m c) := kept11 m c (at10 m c)
theorem at12 (c : Dev nD) : Kept m c (U12 m c) := kept12 m c (at11 m c)
theorem at13 (c : Dev nD) : Kept m c (U13 m c) := kept13 m c (at12 m c)
theorem at14 (c : Dev nD) : Kept m c (U14 m c) := kept14 m c (at13 m c)
theorem at15 (c : Dev nD) : Kept m c (U15 m c) := kept15 m c (at14 m c)

end Cert.ReferenceIdeal.RefRun

end
-- ==== Proof.Basics.lean ====
/-
  Small facts the bridge needs, over any shapes.

  * Words.  A 32-bit word that is at least 0 read signed is not below 0 read signed; so an index array all of whose
    entries are at least 0 is left as it is by the wrap "add the extent where the entry is negative"
    (`wrap_nonneg`): Python-style indexing wraps a negative index once, and there is nothing to wrap.
  * Degrees.  On the extended reals a scatter with an adding body leaves, at each place, the operand's entry plus
    the sum of the updates that land there.  Counting the in-edges of a graph's nodes into an array of zeros and then
    adding one everywhere, or counting them into an array of ones, is the same array: (0 + S) + 1 = 1 + S, by
    commutativity alone, whatever the sum S (`count_then_one`).
  * A maximum against minus infinity is the other operand.
-/
import Idealize.ShloMosaic.Lib.ValueIdx
import Idealize.ShloMosaic.Lib.ValueLayout
import Idealize.ShloMosaic.PureOps.Ideal.Laws

noncomputable section

namespace Cert.Basics

open Idealize.ShloMosaic Idealize.ShloMosaic.ValueIdx

theorem ofBool_eq_one (b : Bool) : BitVec.ofBool b = 1#1 ↔ b = true := by cases b <;> decide

theorem and_one : ∀ (a b : BitVec 1), IntOp.andi a b = 1#1 ↔ a = 1#1 ∧ b = 1#1 := by decide

/-- A word at least 0 read signed is not below 0 read signed. -/
theorem slt_zero_of_sge (w : BitVec 32) (h : IntOp.cmpi .sge w 0#32 = 1#1) : IntOp.cmpi .slt w 0#32 = 0#1 := by
  unfold IntOp.cmpi at h ⊢
  rw [ofBool_eq_one] at h
  simp only [BitVec.sle, BitVec.slt, decide_eq_true_eq] at h ⊢
  have hz : (0#32 : BitVec 32).toInt = 0 := by decide
  rw [hz] at h ⊢
  have hn : ¬ (w.toInt < 0) := not_lt.mpr h
  rw [decide_eq_false hn]
  rfl

/-- The wrap of negative entries by the extent `n` leaves an array of entries at least 0 as it is. -/
theorem wrap_nonneg {s : Shape} (x : IVec s 32) (z nn : IVec s 32) (hz : ∀ e, z e = 0#32)
    (hx : ∀ e, IntOp.cmpi .sge (x e) 0#32 = 1#1) :
    select (cmpi .slt x z) (addi x nn) x = x := by
  funext e
  rw [select_apply]
  have h0 : cmpi .slt x z e = 0#1 := by
    show IntOp.cmpi .slt (x e) (z e) = 0#1
    rw [hz]; exact slt_zero_of_sge _ (hx e)
  rw [h0]
  rfl

/-- Counting into zeros and then adding the ones, or counting into the ones: one array. -/
theorem count_then_one {s si su : Shape} (d : ScatterDims s si su) {w : ℕ} (idx : IVec si w)
    (upd : FVec Ideal su .f32) (z o : FVec Ideal s .f32) (hz : ∀ i, z i = 0) :
    addf (Host.scatterAdd d z idx upd) o = Host.scatterAdd d o idx upd := by
  funext i
  show (z i + _) + o i = o i + _
  rw [hz, zero_add, add_comm]

end Cert.Basics

end
-- ==== Proof.PreDecode.lean ====
/-
  What the precondition says of the two destination-index arrays.  The precondition is one bit, the conjunction of
  "every float input is finite" with "every entry of b_dst is at least 0" and "every entry of c_dst is at least 0",
  each a reduction by `and` over a whole array.  A reduction by `and` that came out 1 met only 1s, so the two last
  conjuncts give, entry by entry, that the word is at least 0 read signed.
-/
import proofs.«114758_j41918880809423_1_alg».proof.Defs
import proofs.«114758_j41918880809423_1_alg».proof.Proof.Gen.Pre_finite_inputs
import proofs.«114758_j41918880809423_1_alg».proof.Proof.Basics
import Idealize.ShloMosaic.Lib.ReduceAll

set_option maxRecDepth 16384

noncomputable section

namespace Cert.PreDecode

open Idealize.ShloMosaic Idealize.ShloMosaic.TcCoe Idealize.SL.Sem Cert.Basics

/-- The precondition's result has one index. -/
instance : Subsingleton Cert.Pre_finite_inputs.S_.Idx := ⟨fun a b => funext fun d => d.elim0⟩

/-- Under the precondition every entry of the building graph's and of the community graph's destination-index
    array is at least 0 read signed, on every device. -/
theorem dst_nonneg (m : (ℓ : Loc Cert.KernelIdeal.nD Cert.KernelIdeal.τ Cert.KernelIdeal.sig) → Buf (Elt Ideal) ℓ)
    (h : Cert.Pre_KernelIdeal m) (c : Dev Cert.KernelIdeal.nD) :
    (∀ e, IntOp.cmpi .sge (m ((c.tc : Thread Cert.KernelIdeal.nD Cert.KernelIdeal.τ).loc Cert.KernelIdeal.main_arg15) e) 0#32 = 1#1)
    ∧ (∀ e, IntOp.cmpi .sge (m ((c.tc : Thread Cert.KernelIdeal.nD Cert.KernelIdeal.τ).loc Cert.KernelIdeal.main_arg17) e) 0#32 = 1#1) := by
  have e0 := congrFun (h c) (fun a => a.elim0)
  unfold Cert.Pre_finite_inputs.fn Cert.Pre_finite_inputs.fn_part1 Cert.Pre_finite_inputs.fn_part2
    Cert.Pre_finite_inputs.fn_part3 Cert.Pre_finite_inputs.fn_part4 at e0
  dsimp only at e0
  obtain ⟨h1, h17⟩ := (and_one _ _).1 e0
  obtain ⟨-, h15⟩ := (and_one _ _).1 h1
  exact ⟨fun e => Host.reduce_andi_all _ _ _ _ _ h15 e, fun e => Host.reduce_andi_all _ _ _ _ _ h17 e⟩

end Cert.PreDecode

end
-- ==== Proof.Assembly.lean ====
/-
  The certificate's claim, assembled from its parts, the last equation between the two programs' results taken as a
  hypothesis.

  The claim has five conjuncts.  Three say that a program runs to the end without a fault and leaves its argument
  arrays as launched: for the two kernel programs that is their frame run as it stands; the reference is a straight
  line of host operations in single-assignment form, none of which writes an argument array, so after its run, where
  every buffer holds the contents at the last cut of the program, each of the twenty argument arrays still holds its
  launch contents.  The fourth is empty: reading the kernel program on the extended reals rewrote none of its
  operations.  The fifth says that from memories agreeing on the twenty arguments both idealized programs run and end
  with equal result arrays.  The kernel program's result array ends at the contents its last region leaves; the
  reference's at the contents at its last cut.  What remains is ONE equation per device between those two arrays, under
  the agreement of the arguments and under what the precondition gives of the two destination-index arrays (every
  entry at least 0, read signed): that equation is the hypothesis `hfinal` here.
-/
import proofs.«114758_j41918880809423_1_alg».proof.Defs
import proofs.«114758_j41918880809423_1_alg».proof.Proof.Gen.Kernel.Frame
import proofs.«114758_j41918880809423_1_alg».proof.Proof.Gen.KernelIdeal.Frame
import proofs.«114758_j41918880809423_1_alg».proof.Proof.Gen.ReferenceIdeal
import proofs.«114758_j41918880809423_1_alg».proof.Proof.Gen.Pre_finite_inputs
import proofs.«114758_j41918880809423_1_alg».proof.Proof.KVal
import proofs.«114758_j41918880809423_1_alg».proof.Proof.RChain
import proofs.«114758_j41918880809423_1_alg».proof.Proof.PreDecode

noncomputable section

namespace Cert.Assembly

open Idealize.ShloMosaic Idealize.ShloMosaic.TcCoe Idealize.SL.Sem
open Cert.ReferenceIdeal.RefRun (at15 argL)

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs, and each argument array, never written, ends as launched. -/
theorem frame_ri : Cert.frame_ReferenceIdeal := fun m ρ _ =>
  (θ_run Cert.ReferenceIdeal.defs _ _).mono (fun _ h c =>
    ⟨(h c Cert.ReferenceIdeal.main_arg0).trans (at15 m c Cert.ReferenceIdeal.main_arg0 (by simp [argL])),
      (h c Cert.ReferenceIdeal.main_arg1).trans (at15 m c Cert.ReferenceIdeal.main_arg1 (by simp [argL])),
      (h c Cert.ReferenceIdeal.main_arg2).trans (at15 m c Cert.ReferenceIdeal.main_arg2 (by simp [argL])),
      (h c Cert.ReferenceIdeal.main_arg3).trans (at15 m c Cert.ReferenceIdeal.main_arg3 (by simp [argL])),
      (h c Cert.ReferenceIdeal.main_arg4).trans (at15 m c Cert.ReferenceIdeal.main_arg4 (by simp [argL])),
      (h c Cert.ReferenceIdeal.main_arg5).trans (at15 m c Cert.ReferenceIdeal.main_arg5 (by simp [argL])),
      (h c Cert.ReferenceIdeal.main_arg6).trans (at15 m c Cert.ReferenceIdeal.main_arg6 (by simp [argL])),
      (h c Cert.ReferenceIdeal.main_arg7).trans (at15 m c Cert.ReferenceIdeal.main_arg7 (by simp [argL])),
      (h c Cert.ReferenceIdeal.main_arg8).trans (at15 m c Cert.ReferenceIdeal.main_arg8 (by simp [argL])),
      (h c Cert.ReferenceIdeal.main_arg9).trans (at15 m c Cert.ReferenceIdeal.main_arg9 (by simp [argL])),
      (h c Cert.ReferenceIdeal.main_arg10).trans (at15 m c Cert.ReferenceIdeal.main_arg10 (by simp [argL])),
      (h c Cert.ReferenceIdeal.main_arg11).trans (at15 m c Cert.ReferenceIdeal.main_arg11 (by simp [argL])),
      (h c Cert.ReferenceIdeal.main_arg12).trans (at15 m c Cert.ReferenceIdeal.main_arg12 (by simp [argL])),
      (h c Cert.ReferenceIdeal.main_arg13).trans (at15 m c Cert.ReferenceIdeal.main_arg13 (by simp [argL])),
      (h c Cert.ReferenceIdeal.main_arg14).trans (at15 m c Cert.ReferenceIdeal.main_arg14 (by simp [argL])),
      (h c Cert.ReferenceIdeal.main_arg15).trans (at15 m c Cert.ReferenceIdeal.main_arg15 (by simp [argL])),
      (h c Cert.ReferenceIdeal.main_arg16).trans (at15 m c Cert.ReferenceIdeal.main_arg16 (by simp [argL])),
      (h c Cert.ReferenceIdeal.main_arg17).trans (at15 m c Cert.ReferenceIdeal.main_arg17 (by simp [argL])),
      (h c Cert.ReferenceIdeal.main_arg18).trans (at15 m c Cert.ReferenceIdeal.main_arg18 (by simp [argL])),
      (h c Cert.ReferenceIdeal.main_arg19).trans (at15 m c Cert.ReferenceIdeal.main_arg19 (by simp [argL]))⟩)
    (Cert.ReferenceIdeal.RefRun.run (F := Ideal) m ρ)

/-- The two idealized programs end with equal results, given the one equation between the kernel program's last
    contents and the reference's at the two result arrays. -/
theorem algebraic_of
    (hfinal : ∀ (m : (ℓ : Loc Cert.KernelIdeal.nD Cert.KernelIdeal.τ Cert.KernelIdeal.sig) → Buf (Elt Ideal) ℓ) (ρ : Dev Cert.KernelIdeal.nD → PrngReg)
        (m' : (ℓ : Loc Cert.ReferenceIdeal.nD Cert.ReferenceIdeal.τ Cert.ReferenceIdeal.sig) → Buf (Elt Ideal) ℓ) (c : Dev Cert.KernelIdeal.nD),
        (m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
          ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
          ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
          ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
          ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
          ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
          ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
          ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
          ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
          ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
          ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
          ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
          ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
          ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
          ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
          ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
          ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
          ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
          ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
          ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
        (∀ e, IntOp.cmpi .sge (m ((c.tc : Thread Cert.KernelIdeal.nD Cert.KernelIdeal.τ).loc Cert.KernelIdeal.main_arg15) e) 0#32 = 1#1) →
        (∀ e, IntOp.cmpi .sge (m ((c.tc : Thread Cert.KernelIdeal.nD Cert.KernelIdeal.τ).loc Cert.KernelIdeal.main_arg17) e) 0#32 = 1#1) →
        Cert.KernelIdeal.Gen.W20 m ρ c (Proc.devRef .tc Cert.KernelIdeal.main_v229)
          = Cert.ReferenceIdeal.RefRun.U15 m' c (Proc.devRef .tc Cert.ReferenceIdeal.main_v289)) :
    Cert.algebraic_KernelIdeal_ReferenceIdeal := by
  intro m ρ m' ρ' hpre hagree
  refine ⟨fun c => Cert.KernelIdeal.Gen.W20 m ρ c (Proc.devRef .tc Cert.KernelIdeal.main_v229),
    Cert.KernelIdeal.KVal.run_result (F := Ideal) m ρ, ?_⟩
  refine (θ_run Cert.ReferenceIdeal.defs _ _).mono (fun _ h c =>
    ⟨(h c Cert.ReferenceIdeal.main_v289).trans
        (hfinal m ρ m' c (hagree c) (Cert.PreDecode.dst_nonneg m hpre c).1 (Cert.PreDecode.dst_nonneg m hpre c).2).symm,
      (h c Cert.ReferenceIdeal.main_arg0).trans (at15 m' c Cert.ReferenceIdeal.main_arg0 (by simp [argL])),
      (h c Cert.ReferenceIdeal.main_arg1).trans (at15 m' c Cert.ReferenceIdeal.main_arg1 (by simp [argL])),
      (h c Cert.ReferenceIdeal.main_arg2).trans (at15 m' c Cert.ReferenceIdeal.main_arg2 (by simp [argL])),
      (h c Cert.ReferenceIdeal.main_arg3).trans (at15 m' c Cert.ReferenceIdeal.main_arg3 (by simp [argL])),
      (h c Cert.ReferenceIdeal.main_arg4).trans (at15 m' c Cert.ReferenceIdeal.main_arg4 (by simp [argL])),
      (h c Cert.ReferenceIdeal.main_arg5).trans (at15 m' c Cert.ReferenceIdeal.main_arg5 (by simp [argL])),
      (h c Cert.ReferenceIdeal.main_arg6).trans (at15 m' c Cert.ReferenceIdeal.main_arg6 (by simp [argL])),
      (h c Cert.ReferenceIdeal.main_arg7).trans (at15 m' c Cert.ReferenceIdeal.main_arg7 (by simp [argL])),
      (h c Cert.ReferenceIdeal.main_arg8).trans (at15 m' c Cert.ReferenceIdeal.main_arg8 (by simp [argL])),
      (h c Cert.ReferenceIdeal.main_arg9).trans (at15 m' c Cert.ReferenceIdeal.main_arg9 (by simp [argL])),
      (h c Cert.ReferenceIdeal.main_arg10).trans (at15 m' c Cert.ReferenceIdeal.main_arg10 (by simp [argL])),
      (h c Cert.ReferenceIdeal.main_arg11).trans (at15 m' c Cert.ReferenceIdeal.main_arg11 (by simp [argL])),
      (h c Cert.ReferenceIdeal.main_arg12).trans (at15 m' c Cert.ReferenceIdeal.main_arg12 (by simp [argL])),
      (h c Cert.ReferenceIdeal.main_arg13).trans (at15 m' c Cert.ReferenceIdeal.main_arg13 (by simp [argL])),
      (h c Cert.ReferenceIdeal.main_arg14).trans (at15 m' c Cert.ReferenceIdeal.main_arg14 (by simp [argL])),
      (h c Cert.ReferenceIdeal.main_arg15).trans (at15 m' c Cert.ReferenceIdeal.main_arg15 (by simp [argL])),
      (h c Cert.ReferenceIdeal.main_arg16).trans (at15 m' c Cert.ReferenceIdeal.main_arg16 (by simp [argL])),
      (h c Cert.ReferenceIdeal.main_arg17).trans (at15 m' c Cert.ReferenceIdeal.main_arg17 (by simp [argL])),
      (h c Cert.ReferenceIdeal.main_arg18).trans (at15 m' c Cert.ReferenceIdeal.main_arg18 (by simp [argL])),
      (h c Cert.ReferenceIdeal.main_arg19).trans (at15 m' c Cert.ReferenceIdeal.main_arg19 (by simp [argL]))⟩)
    (Cert.ReferenceIdeal.RefRun.run (F := Ideal) m' ρ')

/-- The claim, from the one equation between the two result arrays. -/
theorem claim_of
    (hfinal : ∀ (m : (ℓ : Loc Cert.KernelIdeal.nD Cert.KernelIdeal.τ Cert.KernelIdeal.sig) → Buf (Elt Ideal) ℓ) (ρ : Dev Cert.KernelIdeal.nD → PrngReg)
        (m' : (ℓ : Loc Cert.ReferenceIdeal.nD Cert.ReferenceIdeal.τ Cert.ReferenceIdeal.sig) → Buf (Elt Ideal) ℓ) (c : Dev Cert.KernelIdeal.nD),
        (m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
          ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
          ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
          ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
          ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
          ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
          ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
          ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
          ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
          ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
          ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
          ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
          ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
          ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
          ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
          ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
          ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
          ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
          ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
          ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
        (∀ e, IntOp.cmpi .sge (m ((c.tc : Thread Cert.KernelIdeal.nD Cert.KernelIdeal.τ).loc Cert.KernelIdeal.main_arg15) e) 0#32 = 1#1) →
        (∀ e, IntOp.cmpi .sge (m ((c.tc : Thread Cert.KernelIdeal.nD Cert.KernelIdeal.τ).loc Cert.KernelIdeal.main_arg17) e) 0#32 = 1#1) →
        Cert.KernelIdeal.Gen.W20 m ρ c (Proc.devRef .tc Cert.KernelIdeal.main_v229)
          = Cert.ReferenceIdeal.RefRun.U15 m' c (Proc.devRef .tc Cert.ReferenceIdeal.main_v289)) :
    Cert.Claim :=
  ⟨Cert.Kernel.Gen.facts, Cert.KernelIdeal.Gen.facts, Cert.ReferenceIdeal.Gen.facts, Cert.Pre_finite_inputs.Gen.facts,
    frame_k, frame_ki, frame_ri, trivial, algebraic_of hfinal⟩

end Cert.Assembly

end
-- ==== Proof.KChain.lean ====
/-
  The argument arrays at every boundary of the idealized kernel's program.  The program is single-assignment over its
  buffers: no host operation and no region writes an argument array (a region reads one through an input window, which
  hands the array back as it found it, or does not touch it).  So at each of the twenty boundaries between the
  program's segments every argument array still holds its launch contents: one step per segment, by induction along
  the program.
-/
import proofs.«114758_j41918880809423_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The program's twenty argument arrays. -/
def argL : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- Every argument array holds its launch contents in the buffer contents `W`. -/
def Kept (c : Dev nD) (W : Valuation τ sig (Elt F)) : Prop :=
  ∀ b ∈ argL, W (Proc.devRef .tc b) = m ((c : Thread nD τ).loc b)

theorem kept0 (c : Dev nD) : Kept m c (W0 m ρ c) := fun _ _ => rfl

/-- Region 0 writes only its output array. -/
theorem kept1 (c : Dev nD) (h : Kept m c (W0 m ρ c)) : Kept m c (W1 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W1_of_ne m ρ c _ (by decide)).trans (h _ (by simp [argL]))
    | exact ((W1_arr m ρ c 0).trans (((dat0 (V0 m ρ) c).arrAt_in 0 rfl _).trans (A_eq0 (V0 m ρ) c 0))).trans (h _ (by simp [argL]))
    | exact ((W1_arr m ρ c 1).trans (((dat0 (V0 m ρ) c).arrAt_in 1 rfl _).trans (A_eq0 (V0 m ρ) c 1))).trans (h _ (by simp [argL]))

/-- The host operations of this stretch each write a buffer of their own. -/
theorem kept2 (c : Dev nD) (h : Kept m c (W1 m ρ c)) : Kept m c (W2 m ρ c) := by
  intro b hb
  refine (StableHlo.after_of_forall_not_mem (b := Proc.devRef .tc b) _ _ (List.forall_iff_forall_mem.mp ?_)).trans (h b hb)
  simp only [argL, List.mem_cons, List.mem_singleton, List.not_mem_nil, or_false] at hb
  simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact StableHlo.devRef_ne_of_ne (by decide)

/-- Region 1 writes only its output array. -/
theorem kept3 (c : Dev nD) (h : Kept m c (W2 m ρ c)) : Kept m c (W3 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W3_of_ne m ρ c _ (by decide)).trans (h _ (by simp [argL]))
    | exact ((W3_arr m ρ c 0).trans (((dat1 (V2 m ρ) c).arrAt_in 0 rfl _).trans (A_eq1 (V2 m ρ) c 0))).trans (h _ (by simp [argL]))
    | exact ((W3_arr m ρ c 1).trans (((dat1 (V2 m ρ) c).arrAt_in 1 rfl _).trans (A_eq1 (V2 m ρ) c 1))).trans (h _ (by simp [argL]))
    | exact ((W3_arr m ρ c 2).trans (((dat1 (V2 m ρ) c).arrAt_in 2 rfl _).trans (A_eq1 (V2 m ρ) c 2))).trans (h _ (by simp [argL]))
    | exact ((W3_arr m ρ c 3).trans (((dat1 (V2 m ρ) c).arrAt_in 3 rfl _).trans (A_eq1 (V2 m ρ) c 3))).trans (h _ (by simp [argL]))

/-- Region 2 writes only its output array. -/
theorem kept4 (c : Dev nD) (h : Kept m c (W3 m ρ c)) : Kept m c (W4 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W4_of_ne m ρ c _ (by decide)).trans (h _ (by simp [argL]))
    | exact ((W4_arr m ρ c 0).trans (((dat2 (V3 m ρ) c).arrAt_in 0 rfl _).trans (A_eq2 (V3 m ρ) c 0))).trans (h _ (by simp [argL]))
    | exact ((W4_arr m ρ c 1).trans (((dat2 (V3 m ρ) c).arrAt_in 1 rfl _).trans (A_eq2 (V3 m ρ) c 1))).trans (h _ (by simp [argL]))

/-- The host operations of this stretch each write a buffer of their own. -/
theorem kept5 (c : Dev nD) (h : Kept m c (W4 m ρ c)) : Kept m c (W5 m ρ c) := by
  intro b hb
  refine (StableHlo.after_of_forall_not_mem (b := Proc.devRef .tc b) _ _ (List.forall_iff_forall_mem.mp ?_)).trans (h b hb)
  simp only [argL, List.mem_cons, List.mem_singleton, List.not_mem_nil, or_false] at hb
  simp only [hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact StableHlo.devRef_ne_of_ne (by decide)

/-- Region 3 writes only its output array. -/
theorem kept6 (c : Dev nD) (h : Kept m c (W5 m ρ c)) : Kept m c (W6 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W6_of_ne m ρ c _ (by decide)).trans (h _ (by simp [argL]))
    | exact ((W6_arr m ρ c 0).trans (((dat3 (V5 m ρ) c).arrAt_in 0 rfl _).trans (A_eq3 (V5 m ρ) c 0))).trans (h _ (by simp [argL]))
    | exact ((W6_arr m ρ c 1).trans (((dat3 (V5 m ρ) c).arrAt_in 1 rfl _).trans (A_eq3 (V5 m ρ) c 1))).trans (h _ (by simp [argL]))
    | exact ((W6_arr m ρ c 2).trans (((dat3 (V5 m ρ) c).arrAt_in 2 rfl _).trans (A_eq3 (V5 m ρ) c 2))).trans (h _ (by simp [argL]))
    | exact ((W6_arr m ρ c 3).trans (((dat3 (V5 m ρ) c).arrAt_in 3 rfl _).trans (A_eq3 (V5 m ρ) c 3))).trans (h _ (by simp [argL]))

/-- The host operations of this stretch each write a buffer of their own. -/
theorem kept7 (c : Dev nD) (h : Kept m c (W6 m ρ c)) : Kept m c (W7 m ρ c) := by
  intro b hb
  refine (StableHlo.after_of_forall_not_mem (b := Proc.devRef .tc b) _ _ (List.forall_iff_forall_mem.mp ?_)).trans (h b hb)
  simp only [argL, List.mem_cons, List.mem_singleton, List.not_mem_nil, or_false] at hb
  simp only [hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact StableHlo.devRef_ne_of_ne (by decide)

/-- Region 4 writes only its output array. -/
theorem kept8 (c : Dev nD) (h : Kept m c (W7 m ρ c)) : Kept m c (W8 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W8_of_ne m ρ c _ (by decide)).trans (h _ (by simp [argL]))
    | exact ((W8_arr m ρ c 0).trans (((dat4 (V7 m ρ) c).arrAt_in 0 rfl _).trans (A_eq4 (V7 m ρ) c 0))).trans (h _ (by simp [argL]))
    | exact ((W8_arr m ρ c 1).trans (((dat4 (V7 m ρ) c).arrAt_in 1 rfl _).trans (A_eq4 (V7 m ρ) c 1))).trans (h _ (by simp [argL]))
    | exact ((W8_arr m ρ c 2).trans (((dat4 (V7 m ρ) c).arrAt_in 2 rfl _).trans (A_eq4 (V7 m ρ) c 2))).trans (h _ (by simp [argL]))
    | exact ((W8_arr m ρ c 3).trans (((dat4 (V7 m ρ) c).arrAt_in 3 rfl _).trans (A_eq4 (V7 m ρ) c 3))).trans (h _ (by simp [argL]))

/-- The host operations of this stretch each write a buffer of their own. -/
theorem kept9 (c : Dev nD) (h : Kept m c (W8 m ρ c)) : Kept m c (W9 m ρ c) := by
  intro b hb
  refine (StableHlo.after_of_forall_not_mem (b := Proc.devRef .tc b) _ _ (List.forall_iff_forall_mem.mp ?_)).trans (h b hb)
  simp only [argL, List.mem_cons, List.mem_singleton, List.not_mem_nil, or_false] at hb
  simp only [hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact StableHlo.devRef_ne_of_ne (by decide)

/-- Region 5 writes only its output array. -/
theorem kept10 (c : Dev nD) (h : Kept m c (W9 m ρ c)) : Kept m c (W10 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W10_of_ne m ρ c _ (by decide)).trans (h _ (by simp [argL]))
    | exact ((W10_arr m ρ c 0).trans (((dat5 (V9 m ρ) c).arrAt_in 0 rfl _).trans (A_eq5 (V9 m ρ) c 0))).trans (h _ (by simp [argL]))
    | exact ((W10_arr m ρ c 1).trans (((dat5 (V9 m ρ) c).arrAt_in 1 rfl _).trans (A_eq5 (V9 m ρ) c 1))).trans (h _ (by simp [argL]))

/-- The host operations of this stretch each write a buffer of their own. -/
theorem kept11 (c : Dev nD) (h : Kept m c (W10 m ρ c)) : Kept m c (W11 m ρ c) := by
  intro b hb
  refine (StableHlo.after_of_forall_not_mem (b := Proc.devRef .tc b) _ _ (List.forall_iff_forall_mem.mp ?_)).trans (h b hb)
  simp only [argL, List.mem_cons, List.mem_singleton, List.not_mem_nil, or_false] at hb
  simp only [hostOps6, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact StableHlo.devRef_ne_of_ne (by decide)

/-- Region 6 writes only its output array. -/
theorem kept12 (c : Dev nD) (h : Kept m c (W11 m ρ c)) : Kept m c (W12 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W12_of_ne m ρ c _ (by decide)).trans (h _ (by simp [argL]))
    | exact ((W12_arr m ρ c 0).trans (((dat6 (V11 m ρ) c).arrAt_in 0 rfl _).trans (A_eq6 (V11 m ρ) c 0))).trans (h _ (by simp [argL]))
    | exact ((W12_arr m ρ c 1).trans (((dat6 (V11 m ρ) c).arrAt_in 1 rfl _).trans (A_eq6 (V11 m ρ) c 1))).trans (h _ (by simp [argL]))
    | exact ((W12_arr m ρ c 2).trans (((dat6 (V11 m ρ) c).arrAt_in 2 rfl _).trans (A_eq6 (V11 m ρ) c 2))).trans (h _ (by simp [argL]))
    | exact ((W12_arr m ρ c 3).trans (((dat6 (V11 m ρ) c).arrAt_in 3 rfl _).trans (A_eq6 (V11 m ρ) c 3))).trans (h _ (by simp [argL]))

/-- Region 7 writes only its output array. -/
theorem kept13 (c : Dev nD) (h : Kept m c (W12 m ρ c)) : Kept m c (W13 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W13_of_ne m ρ c _ (by decide)).trans (h _ (by simp [argL]))
    | exact ((W13_arr m ρ c 0).trans (((dat7 (V12 m ρ) c).arrAt_in 0 rfl _).trans (A_eq7 (V12 m ρ) c 0))).trans (h _ (by simp [argL]))
    | exact ((W13_arr m ρ c 1).trans (((dat7 (V12 m ρ) c).arrAt_in 1 rfl _).trans (A_eq7 (V12 m ρ) c 1))).trans (h _ (by simp [argL]))

/-- The host operations of this stretch each write a buffer of their own. -/
theorem kept14 (c : Dev nD) (h : Kept m c (W13 m ρ c)) : Kept m c (W14 m ρ c) := by
  intro b hb
  refine (StableHlo.after_of_forall_not_mem (b := Proc.devRef .tc b) _ _ (List.forall_iff_forall_mem.mp ?_)).trans (h b hb)
  simp only [argL, List.mem_cons, List.mem_singleton, List.not_mem_nil, or_false] at hb
  simp only [hostOps8, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact StableHlo.devRef_ne_of_ne (by decide)

/-- Region 8 writes only its output array. -/
theorem kept15 (c : Dev nD) (h : Kept m c (W14 m ρ c)) : Kept m c (W15 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W15_of_ne m ρ c _ (by decide)).trans (h _ (by simp [argL]))
    | exact ((W15_arr m ρ c 0).trans (((dat8 (V14 m ρ) c).arrAt_in 0 rfl _).trans (A_eq8 (V14 m ρ) c 0))).trans (h _ (by simp [argL]))
    | exact ((W15_arr m ρ c 1).trans (((dat8 (V14 m ρ) c).arrAt_in 1 rfl _).trans (A_eq8 (V14 m ρ) c 1))).trans (h _ (by simp [argL]))
    | exact ((W15_arr m ρ c 2).trans (((dat8 (V14 m ρ) c).arrAt_in 2 rfl _).trans (A_eq8 (V14 m ρ) c 2))).trans (h _ (by simp [argL]))
    | exact ((W15_arr m ρ c 3).trans (((dat8 (V14 m ρ) c).arrAt_in 3 rfl _).trans (A_eq8 (V14 m ρ) c 3))).trans (h _ (by simp [argL]))

/-- Region 9 writes only its output array. -/
theorem kept16 (c : Dev nD) (h : Kept m c (W15 m ρ c)) : Kept m c (W16 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W16_of_ne m ρ c _ (by decide)).trans (h _ (by simp [argL]))
    | exact ((W16_arr m ρ c 0).trans (((dat9 (V15 m ρ) c).arrAt_in 0 rfl _).trans (A_eq9 (V15 m ρ) c 0))).trans (h _ (by simp [argL]))
    | exact ((W16_arr m ρ c 1).trans (((dat9 (V15 m ρ) c).arrAt_in 1 rfl _).trans (A_eq9 (V15 m ρ) c 1))).trans (h _ (by simp [argL]))

/-- The host operations of this stretch each write a buffer of their own. -/
theorem kept17 (c : Dev nD) (h : Kept m c (W16 m ρ c)) : Kept m c (W17 m ρ c) := by
  intro b hb
  refine (StableHlo.after_of_forall_not_mem (b := Proc.devRef .tc b) _ _ (List.forall_iff_forall_mem.mp ?_)).trans (h b hb)
  simp only [argL, List.mem_cons, List.mem_singleton, List.not_mem_nil, or_false] at hb
  simp only [hostOps10, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact StableHlo.devRef_ne_of_ne (by decide)

/-- Region 10 writes only its output array. -/
theorem kept18 (c : Dev nD) (h : Kept m c (W17 m ρ c)) : Kept m c (W18 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W18_of_ne m ρ c _ (by decide)).trans (h _ (by simp [argL]))
    | exact ((W18_arr m ρ c 0).trans (((dat10 (V17 m ρ) c).arrAt_in 0 rfl _).trans (A_eq10 (V17 m ρ) c 0))).trans (h _ (by simp [argL]))
    | exact ((W18_arr m ρ c 1).trans (((dat10 (V17 m ρ) c).arrAt_in 1 rfl _).trans (A_eq10 (V17 m ρ) c 1))).trans (h _ (by simp [argL]))
    | exact ((W18_arr m ρ c 2).trans (((dat10 (V17 m ρ) c).arrAt_in 2 rfl _).trans (A_eq10 (V17 m ρ) c 2))).trans (h _ (by simp [argL]))
    | exact ((W18_arr m ρ c 3).trans (((dat10 (V17 m ρ) c).arrAt_in 3 rfl _).trans (A_eq10 (V17 m ρ) c 3))).trans (h _ (by simp [argL]))

/-- The host operations of this stretch each write a buffer of their own. -/
theorem kept19 (c : Dev nD) (h : Kept m c (W18 m ρ c)) : Kept m c (W19 m ρ c) := by
  intro b hb
  refine (StableHlo.after_of_forall_not_mem (b := Proc.devRef .tc b) _ _ (List.forall_iff_forall_mem.mp ?_)).trans (h b hb)
  simp only [argL, List.mem_cons, List.mem_singleton, List.not_mem_nil, or_false] at hb
  simp only [hostOps11, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl | rfl | rfl | rfl | rfl | rfl | rfl | rfl | rfl | rfl | rfl | rfl | rfl | rfl
  all_goals (repeat' apply And.intro)
  all_goals exact StableHlo.devRef_ne_of_ne (by decide)

/-- Region 11 writes only its output array. -/
theorem kept20 (c : Dev nD) (h : Kept m c (W19 m ρ c)) : Kept m c (W20 m ρ c) := by
  intro b hb
  simp only [argL, List.mem_cons, List.mem_singleton, List.not_mem_nil, or_false] at hb
  rcases hb with rfl | rfl | rfl | rfl | rfl | rfl | rfl | rfl | rfl | rfl | rfl | rfl | rfl | rfl | rfl | rfl | rfl | rfl | rfl | rfl
  all_goals first
    | exact (W20_of_ne m ρ c _ (by decide)).trans (h _ (by simp [argL]))
    | exact ((W20_arr m ρ c 0).trans (((dat11 (V19 m ρ) c).arrAt_in 0 rfl _).trans (A_eq11 (V19 m ρ) c 0))).trans (h _ (by simp [argL]))

/-- At boundary k the argument arrays are as launched. -/
theorem at1 (c : Dev nD) : Kept m c (W1 m ρ c) := kept1 m ρ c (kept0 m ρ c)
theorem at2 (c : Dev nD) : Kept m c (W2 m ρ c) := kept2 m ρ c (at1 m ρ c)
theorem at3 (c : Dev nD) : Kept m c (W3 m ρ c) := kept3 m ρ c (at2 m ρ c)
theorem at4 (c : Dev nD) : Kept m c (W4 m ρ c) := kept4 m ρ c (at3 m ρ c)
theorem at5 (c : Dev nD) : Kept m c (W5 m ρ c) := kept5 m ρ c (at4 m ρ c)
theorem at6 (c : Dev nD) : Kept m c (W6 m ρ c) := kept6 m ρ c (at5 m ρ c)
theorem at7 (c : Dev nD) : Kept m c (W7 m ρ c) := kept7 m ρ c (at6 m ρ c)
theorem at8 (c : Dev nD) : Kept m c (W8 m ρ c) := kept8 m ρ c (at7 m ρ c)
theorem at9 (c : Dev nD) : Kept m c (W9 m ρ c) := kept9 m ρ c (at8 m ρ c)
theorem at10 (c : Dev nD) : Kept m c (W10 m ρ c) := kept10 m ρ c (at9 m ρ c)
theorem at11 (c : Dev nD) : Kept m c (W11 m ρ c) := kept11 m ρ c (at10 m ρ c)
theorem at12 (c : Dev nD) : Kept m c (W12 m ρ c) := kept12 m ρ c (at11 m ρ c)
theorem at13 (c : Dev nD) : Kept m c (W13 m ρ c) := kept13 m ρ c (at12 m ρ c)
theorem at14 (c : Dev nD) : Kept m c (W14 m ρ c) := kept14 m ρ c (at13 m ρ c)
theorem at15 (c : Dev nD) : Kept m c (W15 m ρ c) := kept15 m ρ c (at14 m ρ c)
theorem at16 (c : Dev nD) : Kept m c (W16 m ρ c) := kept16 m ρ c (at15 m ρ c)
theorem at17 (c : Dev nD) : Kept m c (W17 m ρ c) := kept17 m ρ c (at16 m ρ c)
theorem at18 (c : Dev nD) : Kept m c (W18 m ρ c) := kept18 m ρ c (at17 m ρ c)
theorem at19 (c : Dev nD) : Kept m c (W19 m ρ c) := kept19 m ρ c (at18 m ρ c)
theorem at20 (c : Dev nD) : Kept m c (W20 m ρ c) := kept20 m ρ c (at19 m ρ c)

end Cert.KernelIdeal.Chain

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«114758_j41918880809423_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«114758_j41918880809423_1_alg».proof.Proof.LibPlainMatmul
import proofs.«114758_j41918880809423_1_alg».proof.Proof.LibPlainDot
import proofs.«114758_j41918880809423_1_alg».proof.Proof.LibHostRows
import proofs.«114758_j41918880809423_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.LibHostLayers.lean ====
/-
  The three layers as the host program spells them — a dot_general, the bias vector made a row and repeated down the
  rows by two broadcast_in_dims, a maximum against the zero matrix — are, as whole matrices on the extended reals, the
  layer functions the kernel's tiles are restrictions of (LibDenseLayers): `host_proj_eq` for max (x · W + b, 0),
  `host_sage_eq` for max ((a · Wl + b) + h · Wr, 0), `host_aff_eq` for x · W + b.  For any extents; the products over
  the plain dimension record, the axis maps and their values taken as hypotheses.
-/
import proofs.«114758_j41918880809423_1_alg».proof.Proof.LibDenseLayers

noncomputable section

open scoped BigOperators

namespace Cert.SageLayers

open Idealize.ShloMosaic Idealize.ShloMosaic.ValueIdx

variable {R K N : ℕ}

/-- max (x · W + b, 0) in the host's spelling. -/
theorem host_proj_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (Host.dotGeneral (DotDims.plain R K N) none A W)
        (broadcastInDim ⟨2, ![R, N]⟩ d2 hb2 (broadcastInDim ⟨2, ![1, N]⟩ d1 hb1 b)))
      (broadcastInDim ⟨2, ![R, N]⟩ d0 hb0 (constant (F := Ideal) ⟨0, ![]⟩ .f32 0x00000000#32))
      = projLayer A W (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at]
  exact congrArg (max · zeroF) (host_affine_at A W b d1 hd1 hb1 d2 hd20 hd21 hb2 r g)

/-- max ((a · Wl + b) + h · Wr, 0) in the host's spelling. -/
theorem host_sage_eq {K' : ℕ} (A : FVec Ideal ⟨2, ![R, K]⟩ .f32) (H : FVec Ideal ⟨2, ![R, K']⟩ .f32)
    (Wl : FVec Ideal ⟨2, ![K, N]⟩ .f32) (b : FVec Ideal ⟨1, ![N]⟩ .f32) (Wr : FVec Ideal ⟨2, ![K', N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (addf (Host.dotGeneral (DotDims.plain R K N) none A Wl)
          (broadcastInDim ⟨2, ![R, N]⟩ d2 hb2 (broadcastInDim ⟨2, ![1, N]⟩ d1 hb1 b)))
        (Host.dotGeneral (DotDims.plain R K' N) none H Wr))
      (broadcastInDim ⟨2, ![R, N]⟩ d0 hb0 (constant (F := Ideal) ⟨0, ![]⟩ .f32 0x00000000#32))
      = sageLayer A H Wl (broadcastInDim ⟨2, ![1, N]⟩ d1 hb1 b) Wr := by
  funext i
  obtain ⟨r, g, rfl⟩ : ∃ (r : Fin R) (g : Fin N), i = ix2 r g := ⟨i 0, i 1, eq_ix2 i⟩
  rw [maximumf_apply, host_zero_at, addf_apply]
  exact congrArg (max · zeroF)
    (congrArg₂ (· + ·) (host_affine_at A Wl b d1 hd1 hb1 d2 hd20 hd21 hb2 r g) (host_dot_at H Wr r g))

/-- x · W + b in the host's spelling. -/
theorem host_aff_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (Host.dotGeneral (DotDims.plain R K N) none A W)
        (broadcastInDim ⟨2, ![R, N]⟩ d2 hb2 (broadcastInDim ⟨2, ![1, N]⟩ d1 hb1 b))
      = affLayer A W (broadcastInDim ⟨2, ![1, N]⟩ d1 hb1 b) := by
  funext i
  obtain ⟨r, g, rfl⟩ : ∃ (r : Fin R) (g : Fin N), i = ix2 r g := ⟨i 0, i 1, eq_ix2 i⟩
  exact host_affine_at A W b d1 hd1 hb1 d2 hd20 hd21 hb2 r g

end Cert.SageLayers

end
-- ==== Proof.LibGcnLayers.lean ====
/-
  The layer functions of a graph convolution layer, as whole matrices on the extended reals, for any extents R, K, N,
  beside the dense layers x · W + b and max (x · W + b, 0) of LibDenseLayers:

  * `linLayer H W`  — the bias-free product H · W, entry (r, g) the sum over k of H (r, k) · W (k, g);
  * `updLayer agg hw s b` — the node update max ((agg + hw ∘ s) + b, 0): entry (r, g) adds to the aggregated
    messages agg (r, g) the node's own transformed feature hw (r, g) scaled by its self-loop weight s (r, 0), then the
    bias b (0, g), and rectifies.  The association ((agg + hw·s) + b) is the one both programs compute in, so no law of
    addition is needed to join them.

  Each entry of linLayer / updLayer reads only row r of its row operands: a row block of the result is the same
  function of the row blocks of the operands.  Also here: the host's dot_general over the plain dimension record is
  `linLayer` as a whole matrix (`host_lin_eq`).  The two spellings of `updLayer` (a pipelined kernel body's and a host
  program's) are read at an entry in LibGcnUpdate.
-/
import proofs.«114758_j41918880809423_1_alg».proof.Proof.LibDenseLayers
import proofs.«114758_j41918880809423_1_alg».proof.Proof.LibHostLayers

noncomputable section

open scoped BigOperators

namespace Cert.GcnLayers

open Idealize.ShloMosaic Idealize.ShloMosaic.ValueIdx Cert.SageLayers

variable {R K N : ℕ}

/-- The bias-free product H · W as a whole matrix. -/
def linLayer (H : (⟨2, ![R, K]⟩ : Shape).Idx → EReal) (W : (⟨2, ![K, N]⟩ : Shape).Idx → EReal) :
    (⟨2, ![R, N]⟩ : Shape).Idx → EReal :=
  fun i => dotAt H W (i 0) (i 1)

/-- Entry (r, g) of the node update max ((agg + hw · s) + b, 0). -/
def updAt (agg hw : (⟨2, ![R, N]⟩ : Shape).Idx → EReal) (s : (⟨2, ![R, 1]⟩ : Shape).Idx → EReal)
    (b : (⟨2, ![1, N]⟩ : Shape).Idx → EReal) (r : Fin R) (g : Fin N) : EReal :=
  max ((agg (ix2 r g) + hw (ix2 r g) * s (ix2 r (0 : Fin 1))) + b (ix2 (0 : Fin 1) g)) zeroF

/-- The node update as a whole matrix. -/
def updLayer (agg hw : (⟨2, ![R, N]⟩ : Shape).Idx → EReal) (s : (⟨2, ![R, 1]⟩ : Shape).Idx → EReal)
    (b : (⟨2, ![1, N]⟩ : Shape).Idx → EReal) : (⟨2, ![R, N]⟩ : Shape).Idx → EReal :=
  fun i => updAt agg hw s b (i 0) (i 1)

/-- The host's product as a whole matrix. -/
theorem host_lin_eq (H : FVec Ideal ⟨2, ![R, K]⟩ .f32) (W : FVec Ideal ⟨2, ![K, N]⟩ .f32) :
    Host.dotGeneral (DotDims.plain R K N) none H W = linLayer H W := by
  funext i
  obtain ⟨r, g, rfl⟩ : ∃ (r : Fin R) (g : Fin N), i = ix2 r g := ⟨i 0, i 1, eq_ix2 i⟩
  exact host_dot_at H W r g

end Cert.GcnLayers

end
-- ==== Proof.LibGcnUpdate.lean ====
/-
  The node update max ((agg + hw ∘ s) + b, 0) of a graph convolution layer, read at an entry on the extended reals, in
  the two spellings it has here.

  A pipelined kernel body holds a row block of the aggregated messages agg and of the transformed features hw, the
  matching [R, 1] column block of the self-loop weights s and the whole [1, N] bias row b; it repeats the column along
  the N columns and the row down the R rows, multiplies, adds twice and takes the maximum with the zero matrix.  The host
  program has s and b as vectors, makes the column and the row by a broadcast_in_dim each and repeats them by a second
  one.  A column [R, 1] repeated along the columns reads, at (r, g), the column at (r, 0); a row [1, N] repeated down
  the rows reads the row at (0, g); so both spellings read, at (r, g), as

      max ((agg (r, g) + hw (r, g) · s (r, 0)) + b (0, g), 0),

  the entry `updAt` of `updLayer`.  For any extents R, N.  Also here: a vector made an [R, 1] column by a reshape is
  the column a broadcast_in_dim along axis 0 makes of it (`col_of_vector`).
-/
import proofs.«114758_j41918880809423_1_alg».proof.Proof.LibGcnLayers

noncomputable section

open scoped BigOperators

namespace Cert.GcnLayers

open Idealize.ShloMosaic Idealize.ShloMosaic.ValueIdx Cert.SageLayers

variable {R N : ℕ}

/-- An [R, 1] column repeated along N columns reads, at (r, g), the column at (r, 0). -/
theorem colBroadcast_at {α : Type} (col : (⟨2, ![R, 1]⟩ : Shape).Idx → α)
    (hb : (⟨2, ![R, 1]⟩ : Shape).Broadcasts ⟨2, ![R, N]⟩) (r : Fin R) (g : Fin N) :
    broadcastTo ⟨2, ![R, N]⟩ col hb (ix2 r g) = col (ix2 r (0 : Fin 1)) := by
  refine broadcastTo_apply col hb (ix2 r g) (ix2 r (0 : Fin 1)) (fun a => ?_)
  match a with
  | ⟨0, _⟩ =>
    show r.val = if R = 1 then 0 else r.val
    split_ifs with h
    · have := r.isLt; omega
    · rfl
  | ⟨1, _⟩ => show (0 : ℕ) = if (1 : ℕ) = 1 then 0 else _; rw [if_pos rfl]

/-- The kernel body's spelling of the node update, read at an entry: the identity casts drop, the repeated column is
    read at (r, 0), the repeated row at (0, g). -/
theorem kernel_upd_at (agg hw : FVec Ideal ⟨2, ![R, N]⟩ .f32) (s : FVec Ideal ⟨2, ![R, 1]⟩ .f32)
    (b : FVec Ideal ⟨2, ![1, N]⟩ .f32)
    (h1 : (⟨2, ![R, N]⟩ : Shape).ShapeCasts ⟨2, ![R, N]⟩) (h2 : (⟨2, ![R, N]⟩ : Shape).ShapeCasts ⟨2, ![R, N]⟩)
    (h3 : (⟨2, ![R, 1]⟩ : Shape).ShapeCasts ⟨2, ![R, 1]⟩) (hb3 : (⟨2, ![R, 1]⟩ : Shape).Broadcasts ⟨2, ![R, N]⟩)
    (h4 : (⟨2, ![1, N]⟩ : Shape).ShapeCasts ⟨2, ![1, N]⟩) (hb4 : (⟨2, ![1, N]⟩ : Shape).Broadcasts ⟨2, ![R, N]⟩)
    (r : Fin R) (g : Fin N) :
    maximumf
        (addf
          (addf (shapeCast ⟨2, ![R, N]⟩ agg h1)
            (mulf (shapeCast ⟨2, ![R, N]⟩ hw h2) (broadcastTo ⟨2, ![R, N]⟩ (shapeCast ⟨2, ![R, 1]⟩ s h3) hb3)))
          (broadcastTo ⟨2, ![R, N]⟩ (shapeCast ⟨2, ![1, N]⟩ b h4) hb4))
        (broadcast ⟨2, ![R, N]⟩ (Scalar.ofBits .f32 0x00000000#32)) (ix2 r g)
      = updAt agg hw s b r g := by
  rw [maximumf_apply, addf_apply, addf_apply, mulf_apply, broadcast_apply, colBroadcast_at,
    Cert.LibBlockLayout.rowBroadcast_at, shapeCast_self, shapeCast_self, shapeCast_self, shapeCast_self]
  rfl

/-- The host's spelling of the node update, the self-loop weights and the bias given as vectors: as a whole matrix it is
    the node update of the column and the row the first broadcasts make of them. -/
theorem host_upd_eq (agg hw : FVec Ideal ⟨2, ![R, N]⟩ .f32) (s : FVec Ideal ⟨1, ![R]⟩ .f32) (b : FVec Ideal ⟨1, ![N]⟩ .f32)
    (d3 : Fin (⟨1, ![R]⟩ : Shape).rank → Fin (⟨2, ![R, 1]⟩ : Shape).rank) (hd3 : d3 0 = 0)
    (h3 : (⟨1, ![R]⟩ : Shape).BroadcastsInDim ⟨2, ![R, 1]⟩ d3)
    (d4 : Fin (⟨2, ![R, 1]⟩ : Shape).rank → Fin (⟨2, ![R, N]⟩ : Shape).rank) (hd40 : d4 0 = 0) (hd41 : d4 1 = 1)
    (h4 : (⟨2, ![R, 1]⟩ : Shape).BroadcastsInDim ⟨2, ![R, N]⟩ d4)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf
        (addf
          (addf agg (mulf hw (broadcastInDim ⟨2, ![R, N]⟩ d4 h4 (broadcastInDim ⟨2, ![R, 1]⟩ d3 h3 s))))
          (broadcastInDim ⟨2, ![R, N]⟩ d2 hb2 (broadcastInDim ⟨2, ![1, N]⟩ d1 hb1 b)))
        (broadcastInDim ⟨2, ![R, N]⟩ d0 hb0 (constant (F := Ideal) ⟨0, ![]⟩ .f32 0x00000000#32))
      = updLayer agg hw (broadcastInDim ⟨2, ![R, 1]⟩ d3 h3 s) (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at, addf_apply, addf_apply, mulf_apply,
    Cert.LibHostRows.bcast_a1_ab_at d4 hd40 hd41 h4 _ r g, Cert.LibHostRows.bcast_1b_ab_at d2 hd20 hd21 hb2 _ r g]
  rfl

/-- A vector kept as an [R, 1] column by a reshape is the same column a broadcast_in_dim along axis 0 makes of it: the
    row-major position of (r, 0) among [R, 1] is r. -/
theorem col_of_vector (v : (⟨1, ![R]⟩ : Shape).Idx → EReal)
    (d3 : Fin (⟨1, ![R]⟩ : Shape).rank → Fin (⟨2, ![R, 1]⟩ : Shape).rank) (hd3 : d3 0 = 0)
    (h3 : (⟨1, ![R]⟩ : Shape).BroadcastsInDim ⟨2, ![R, 1]⟩ d3)
    (hc : (⟨1, ![R]⟩ : Shape).ShapeCasts ⟨2, ![R, 1]⟩) :
    broadcastInDim ⟨2, ![R, 1]⟩ d3 h3 v = shapeCast ⟨2, ![R, 1]⟩ v hc := by
  funext i
  obtain ⟨r, u, rfl⟩ : ∃ (r : Fin R) (u : Fin 1), i = ix2 r u := ⟨i 0, i 1, eq_ix2 i⟩
  rw [Cert.LibHostRows.bcast_a_a1_at d3 hd3 h3 v r u]
  refine (shapeCast_apply v hc (ix2 r u) (ix1 r) ?_).symm
  rw [Shape.rowMajor_val_one, Shape.rowMajor_val_two]
  have hu : u.val = 0 := by omega
  show r.val = r.val * 1 + u.val
  rw [hu, Nat.mul_one, Nat.add_zero]

end Cert.GcnLayers

end
-- ==== Proof.BridgeBase.lean ====
/-
  The two facts every graph layer's bridge uses, in the spelling the printed programs give their constants.

  * The destination index, wrapped Python-style (add the extent where the entry is below the broadcast constant 0),
    is the index itself when every entry is at least 0 read signed.
  * The in-degree plus one: counting the edges into a broadcast zero and then adding an array, or counting them into
    that array, is one array — (0 + S) + o = o + S on the extended reals, by commutativity alone.
  * A broadcast zero constant is 0 at every index.
-/
import proofs.«114758_j41918880809423_1_alg».proof.Proof.Basics

noncomputable section

namespace Cert.Bridge

open Idealize.ShloMosaic Idealize.ShloMosaic.ValueIdx Cert.Basics

/-- A broadcast zero constant is 0 at every index. -/
theorem zeros_at {s : Shape} (d : Fin (⟨0, ![]⟩ : Shape).rank → Fin s.rank) (hb : (⟨0, ![]⟩ : Shape).BroadcastsInDim s d) (i : s.Idx) :
    broadcastInDim s d hb (constant (F := Ideal) ⟨0, ![]⟩ .f32 0x00000000#32) i = 0 :=
  Ideal.ofBits_zero_f32

/-- The wrapped index array is the array, when no entry is negative. -/
theorem wrap_zero {s : Shape} (d : Fin (⟨0, ![]⟩ : Shape).rank → Fin s.rank) (hb : (⟨0, ![]⟩ : Shape).BroadcastsInDim s d)
    (x nn : IVec s 32) (hx : ∀ e, IntOp.cmpi .sge (x e) 0#32 = 1#1) :
    select (cmpi .slt x (broadcastInDim s d hb (constantI ⟨0, ![]⟩ 32 0#32))) (addi x nn) x = x :=
  wrap_nonneg x _ nn (fun _ => rfl) hx

/-- Counted into a broadcast zero with `o` added after, or counted into `o`. -/
theorem count_zero {s si su : Shape} (sd : ScatterDims s si su) {w : ℕ} (idx : IVec si w) (upd : FVec Ideal su .f32)
    (d : Fin (⟨0, ![]⟩ : Shape).rank → Fin s.rank) (hb : (⟨0, ![]⟩ : Shape).BroadcastsInDim s d) (o : FVec Ideal s .f32) :
    addf (Host.scatterAdd sd (broadcastInDim s d hb (constant (F := Ideal) ⟨0, ![]⟩ .f32 0x00000000#32)) idx upd) o
      = Host.scatterAdd sd o idx upd :=
  count_then_one sd idx upd _ o (fun i => zeros_at d hb i)

end Cert.Bridge

end
-- ==== Proof.RefPlain.lean ====
/-
  The reference's four rectified node-update segments over the plain operation builders.

  The run spells the three operations of each outlined rectifier (the zero, its broadcast, the maximum) through typed
  references, which transport a value along an equation between a buffer's type and the value's type.  For a literal
  buffer that transport is the identity, so each segment is the same list of operations as the list here, in which those
  three entries are spelt like the others: a constant into a buffer, a one-operand operation, a two-operand operation.
  The equations are by computation, with the operations' own bodies kept folded while the transports reduce.
-/
import proofs.«114758_j41918880809423_1_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 2 (the first community layer's node update) over the plain builders. -/
abbrev Seg2p : List (HloOp τ sig (Elt F)) :=
  [ nullary main_cst_9 (constant S_ .f32 0x3F800000#32),
    unary main_cst_9 main_v39 (broadcastInDim S10000 ![] bcast_S_S10000 : (⟨S_, .f32⟩ : BufTy).Contents (Elt F) → (⟨S10000, .f32⟩ : BufTy).Contents (Elt F)),
    binary main_v39 main_v9 main_v40 (Host.divf : (⟨S10000, .f32⟩ : BufTy).Contents (Elt F) → (⟨S10000, .f32⟩ : BufTy).Contents (Elt F) → (⟨S10000, .f32⟩ : BufTy).Contents (Elt F)),
    unary main_v40 main_v41 (broadcastInDim S10000x1 ![0] bcast_S10000_S10000x1_0 : (⟨S10000, .f32⟩ : BufTy).Contents (Elt F) → (⟨S10000x1, .f32⟩ : BufTy).Contents (Elt F)),
    unary main_v41 main_v42 (broadcastInDim S10000x64 ![0, 1] bcast_S10000x1_S10000x64_0_1 : (⟨S10000x1, .f32⟩ : BufTy).Contents (Elt F) → (⟨S10000x64, .f32⟩ : BufTy).Contents (Elt F)),
    binary main_v0 main_v42 main_v43 (mulf : (⟨S10000x64, .f32⟩ : BufTy).Contents (Elt F) → (⟨S10000x64, .f32⟩ : BufTy).Contents (Elt F) → (⟨S10000x64, .f32⟩ : BufTy).Contents (Elt F)),
    binary main_v38 main_v43 main_v44 (addf : (⟨S10000x64, .f32⟩ : BufTy).Contents (Elt F) → (⟨S10000x64, .f32⟩ : BufTy).Contents (Elt F) → (⟨S10000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S10000x64 ![0, 1] bcast_S1x64_S10000x64_0_1 : (⟨S1x64, .f32⟩ : BufTy).Contents (Elt F) → (⟨S10000x64, .f32⟩ : BufTy).Contents (Elt F)),
    binary main_v44 main_v46 main_v47 (addf : (⟨S10000x64, .f32⟩ : BufTy).Contents (Elt F) → (⟨S10000x64, .f32⟩ : BufTy).Contents (Elt F) → (⟨S10000x64, .f32⟩ : BufTy).Contents (Elt F)),
    nullary main_call0_cst (constant S_ .f32 0x00000000#32),
    unary main_call0_cst main_call0_v0 (broadcastInDim S10000x64 ![] bcast_S_S10000x64 : (⟨S_, .f32⟩ : BufTy).Contents (Elt F) → (⟨S10000x64, .f32⟩ : BufTy).Contents (Elt F)),
    binary main_v47 main_call0_v0 main_v48 (maximumf : (⟨S10000x64, .f32⟩ : BufTy).Contents (Elt F) → (⟨S10000x64, .f32⟩ : BufTy).Contents (Elt F) → (⟨S10000x64, .f32⟩ : BufTy).Contents (Elt F)) ]

attribute [local irreducible] Host.divf broadcastInDim mulf addf maximumf constant in
set_option maxRecDepth 65536 in
/-- Segment 2 is that list. -/
theorem seg2_plain : (Seg2 : List (HloOp τ sig (Elt F))) = Seg2p := rfl

/-- Segment 4 (the second community layer's node update) over the plain builders. -/
abbrev Seg4p : List (HloOp τ sig (Elt F)) :=
  [ nullary main_cst_21 (constant S_ .f32 0x3F800000#32),
    unary main_cst_21 main_v88 (broadcastInDim S10000 ![] bcast_S_S10000 : (⟨S_, .f32⟩ : BufTy).Contents (Elt F) → (⟨S10000, .f32⟩ : BufTy).Contents (Elt F)),
    binary main_v88 main_v58 main_v89 (Host.divf : (⟨S10000, .f32⟩ : BufTy).Contents (Elt F) → (⟨S10000, .f32⟩ : BufTy).Contents (Elt F) → (⟨S10000, .f32⟩ : BufTy).Contents (Elt F)),
    unary main_v89 main_v90 (broadcastInDim S10000x1 ![0] bcast_S10000_S10000x1_0 : (⟨S10000, .f32⟩ : BufTy).Contents (Elt F) → (⟨S10000x1, .f32⟩ : BufTy).Contents (Elt F)),
    unary main_v90 main_v91 (broadcastInDim S10000x64 ![0, 1] bcast_S10000x1_S10000x64_0_1 : (⟨S10000x1, .f32⟩ : BufTy).Contents (Elt F) → (⟨S10000x64, .f32⟩ : BufTy).Contents (Elt F)),
    binary main_v49 main_v91 main_v92 (mulf : (⟨S10000x64, .f32⟩ : BufTy).Contents (Elt F) → (⟨S10000x64, .f32⟩ : BufTy).Contents (Elt F) → (⟨S10000x64, .f32⟩ : BufTy).Contents (Elt F)),
    binary main_v87 main_v92 main_v93 (addf : (⟨S10000x64, .f32⟩ : BufTy).Contents (Elt F) → (⟨S10000x64, .f32⟩ : BufTy).Contents (Elt F) → (⟨S10000x64, .f32⟩ : BufTy).Contents (Elt F)),
    unary main_arg5 main_v94 (broadcastInDim S1x64 ![1] bcast_S64_S1x64_1 : (⟨S64, .f32⟩ : BufTy).Contents (Elt F) → (⟨S1x64, .f32⟩ : BufTy).Contents (Elt F)),
    unary main_v94 main_v95 (broadcastInDim S10000x64 ![0, 1] bcast_S1x64_S10000x64_0_1 : (⟨S1x64, .f32⟩ : BufTy).Contents (Elt F) → (⟨S10000x64, .f32⟩ : BufTy).Contents (Elt F)),
    binary main_v93 main_v95 main_v96 (addf : (⟨S10000x64, .f32⟩ : BufTy).Contents (Elt F) → (⟨S10000x64, .f32⟩ : BufTy).Contents (Elt F) → (⟨S10000x64, .f32⟩ : BufTy).Contents (Elt F)),
    nullary main_call1_cst (constant S_ .f32 0x00000000#32),
    unary main_call1_cst main_call1_v0 (broadcastInDim S10000x64 ![] bcast_S_S10000x64 : (⟨S_, .f32⟩ : BufTy).Contents (Elt F) → (⟨S10000x64, .f32⟩ : BufTy).Contents (Elt F)),
    binary main_v96 main_call1_v0 main_v97 (maximumf : (⟨S10000x64, .f32⟩ : BufTy).Contents (Elt F) → (⟨S10000x64, .f32⟩ : BufTy).Contents (Elt F) → (⟨S10000x64, .f32⟩ : BufTy).Contents (Elt F)) ]

attribute [local irreducible] Host.divf broadcastInDim mulf addf maximumf constant in
set_option maxRecDepth 65536 in
/-- Segment 4 is that list. -/
theorem seg4_plain : (Seg4 : List (HloOp τ sig (Elt F))) = Seg4p := rfl

/-- Segment 9 (the first building layer's node update) over the plain builders. -/
abbrev Seg9p : List (HloOp τ sig (Elt F)) :=
  [ nullary main_cst_40 (constant S_ .f32 0x3F800000#32),
    unary main_cst_40 main_v174 (broadcastInDim S200000 ![] bcast_S_S200000 : (⟨S_, .f32⟩ : BufTy).Contents (Elt F) → (⟨S200000, .f32⟩ : BufTy).Contents (Elt F)),
    binary main_v174 main_v144 main_v175 (Host.divf : (⟨S200000, .f32⟩ : BufTy).Contents (Elt F) → (⟨S200000, .f32⟩ : BufTy).Contents (Elt F) → (⟨S200000, .f32⟩ : BufTy).Contents (Elt F)),
    unary main_v175 main_v176 (broadcastInDim S200000x1 ![0] bcast_S200000_S200000x1_0 : (⟨S200000, .f32⟩ : BufTy).Contents (Elt F) → (⟨S200000x1, .f32⟩ : BufTy).Contents (Elt F)),
    unary main_v176 main_v177 (broadcastInDim S200000x128 ![0, 1] bcast_S200000x1_S200000x128_0_1 : (⟨S200000x1, .f32⟩ : BufTy).Contents (Elt F) → (⟨S200000x128, .f32⟩ : BufTy).Contents (Elt F)),
    binary main_v135 main_v177 main_v178 (mulf : (⟨S200000x128, .f32⟩ : BufTy).Contents (Elt F) → (⟨S200000x128, .f32⟩ : BufTy).Contents (Elt F) → (⟨S200000x128, .f32⟩ : BufTy).Contents (Elt F)),
    binary main_v173 main_v178 main_v179 (addf : (⟨S200000x128, .f32⟩ : BufTy).Contents (Elt F) → (⟨S200000x128, .f32⟩ : BufTy).Contents (Elt F) → (⟨S200000x128, .f32⟩ : BufTy).Contents (Elt F)),
    unary main_arg9 main_v180 (broadcastInDim S1x128 ![1] bcast_S128_S1x128_1 : (⟨S128, .f32⟩ : BufTy).Contents (Elt F) → (⟨S1x128, .f32⟩ : BufTy).Contents (Elt F)),
    unary main_v180 main_v181 (broadcastInDim S200000x128 ![0, 1] bcast_S1x128_S200000x128_0_1 : (⟨S1x128, .f32⟩ : BufTy).Contents (Elt F) → (⟨S200000x128, .f32⟩ : BufTy).Contents (Elt F)),
    binary main_v179 main_v181 main_v182 (addf : (⟨S200000x128, .f32⟩ : BufTy).Contents (Elt F) → (⟨S200000x128, .f32⟩ : BufTy).Contents (Elt F) → (⟨S200000x128, .f32⟩ : BufTy).Contents (Elt F)),
    nullary main_call2_cst (constant S_ .f32 0x00000000#32),
    unary main_call2_cst main_call2_v0 (broadcastInDim S200000x128 ![] bcast_S_S200000x128 : (⟨S_, .f32⟩ : BufTy).Contents (Elt F) → (⟨S200000x128, .f32⟩ : BufTy).Contents (Elt F)),
    binary main_v182 main_call2_v0 main_v183 (maximumf : (⟨S200000x128, .f32⟩ : BufTy).Contents (Elt F) → (⟨S200000x128, .f32⟩ : BufTy).Contents (Elt F) → (⟨S200000x128, .f32⟩ : BufTy).Contents (Elt F)) ]

attribute [local irreducible] Host.divf broadcastInDim mulf addf maximumf constant in
set_option maxRecDepth 65536 in
/-- Segment 9 is that list. -/
theorem seg9_plain : (Seg9 : List (HloOp τ sig (Elt F))) = Seg9p := rfl

/-- Segment 11 (the second building layer's node update) over the plain builders. -/
abbrev Seg11p : List (HloOp τ sig (Elt F)) :=
  [ nullary main_cst_52 (constant S_ .f32 0x3F800000#32),
    unary main_cst_52 main_v223 (broadcastInDim S200000 ![] bcast_S_S200000 : (⟨S_, .f32⟩ : BufTy).Contents (Elt F) → (⟨S200000, .f32⟩ : BufTy).Contents (Elt F)),
    binary main_v223 main_v193 main_v224 (Host.divf : (⟨S200000, .f32⟩ : BufTy).Contents (Elt F) → (⟨S200000, .f32⟩ : BufTy).Contents (Elt F) → (⟨S200000, .f32⟩ : BufTy).Contents (Elt F)),
    unary main_v224 main_v225 (broadcastInDim S200000x1 ![0] bcast_S200000_S200000x1_0 : (⟨S200000, .f32⟩ : BufTy).Contents (Elt F) → (⟨S200000x1, .f32⟩ : BufTy).Contents (Elt F)),
    unary main_v225 main_v226 (broadcastInDim S200000x64 ![0, 1] bcast_S200000x1_S200000x64_0_1 : (⟨S200000x1, .f32⟩ : BufTy).Contents (Elt F) → (⟨S200000x64, .f32⟩ : BufTy).Contents (Elt F)),
    binary main_v184 main_v226 main_v227 (mulf : (⟨S200000x64, .f32⟩ : BufTy).Contents (Elt F) → (⟨S200000x64, .f32⟩ : BufTy).Contents (Elt F) → (⟨S200000x64, .f32⟩ : BufTy).Contents (Elt F)),
    binary main_v222 main_v227 main_v228 (addf : (⟨S200000x64, .f32⟩ : BufTy).Contents (Elt F) → (⟨S200000x64, .f32⟩ : BufTy).Contents (Elt F) → (⟨S200000x64, .f32⟩ : BufTy).Contents (Elt F)),
    unary main_arg11 main_v229 (broadcastInDim S1x64 ![1] bcast_S64_S1x64_1 : (⟨S64, .f32⟩ : BufTy).Contents (Elt F) → (⟨S1x64, .f32⟩ : BufTy).Contents (Elt F)),
    unary main_v229 main_v230 (broadcastInDim S200000x64 ![0, 1] bcast_S1x64_S200000x64_0_1 : (⟨S1x64, .f32⟩ : BufTy).Contents (Elt F) → (⟨S200000x64, .f32⟩ : BufTy).Contents (Elt F)),
    binary main_v228 main_v230 main_v231 (addf : (⟨S200000x64, .f32⟩ : BufTy).Contents (Elt F) → (⟨S200000x64, .f32⟩ : BufTy).Contents (Elt F) → (⟨S200000x64, .f32⟩ : BufTy).Contents (Elt F)),
    nullary main_call3_cst (constant S_ .f32 0x00000000#32),
    unary main_call3_cst main_call3_v0 (broadcastInDim S200000x64 ![] bcast_S_S200000x64 : (⟨S_, .f32⟩ : BufTy).Contents (Elt F) → (⟨S200000x64, .f32⟩ : BufTy).Contents (Elt F)),
    binary main_v231 main_call3_v0 main_v232 (maximumf : (⟨S200000x64, .f32⟩ : BufTy).Contents (Elt F) → (⟨S200000x64, .f32⟩ : BufTy).Contents (Elt F) → (⟨S200000x64, .f32⟩ : BufTy).Contents (Elt F)) ]

attribute [local irreducible] Host.divf broadcastInDim mulf addf maximumf constant in
set_option maxRecDepth 65536 in
/-- Segment 11 is that list. -/
theorem seg11_plain : (Seg11 : List (HloOp τ sig (Elt F))) = Seg11p := rfl

end Cert.ReferenceIdeal.RefRun

end
-- ==== Proof.RegionLin.lean ====
/-
  The five matrix-product regions of the idealized kernel program, each read as ONE whole-array function of the
  arrays it finds on entry.

  A product region walks a one-dimensional grid of row blocks.  At point t it holds rows  t·B … t·B + B − 1  of the
  left operand x (B rows per block), the whole right operand W, and stores, into the same rows of the output, the
  product of the block with W accumulated from zero; narrowing the operands to bf16 changes nothing on the extended
  reals.  Entry (r, g) of a product  x · W  is the sum over k of x (r, k) · W (k, g): it reads only row r of x.  So
  the block stored at point t is the restriction to its rows of the whole matrix  x · W  (`linLayer`), the row blocks
  of the points tile the rows (row r lies in the block of point r / B), and the output array after the region is
  `linLayer` of the two operand arrays as the region found them.

  Per region: the block indices of the three windows at a point (decided over the grid), each window's block read at
  an entry, what a point writes back, which rows a block holds, the cover, and the array after the region.
-/
import proofs.«114758_j41918880809423_1_alg».proof.Proof.Gen.KernelIdeal.Frame
import proofs.«114758_j41918880809423_1_alg».proof.Proof.LibGcnLayers
import Idealize.ShloMosaic.Lib.Pipeline.Value
import Idealize.ShloMosaic.Lib.ValueIdx

set_option maxRecDepth 16384

noncomputable section

open scoped BigOperators

namespace Cert.KernelIdeal.Dense

open Cert.KernelIdeal Cert.KernelIdeal.Gen
open Idealize.ShloMosaic Idealize.ShloMosaic.TcCoe Idealize.ShloMosaic.ValueIdx
open Idealize.SL.Sem
open Idealize.ShloMosaic.Pipeline (Dat)
open Cert.SageLayers Cert.GcnLayers

-- the buffer contents a region is entered with, on the extended reals
variable (V : (c : Dev nD) → (b : Ref sig .tc) → Buf (Elt Ideal) ((c : Thread nD τ).loc b))

/-- The zero offsets of a whole-block access. -/
theorem zeroOff : (![0, 0] : Fin 2 → Nat) = fun _ => 0 := funext fun a => by fin_cases a <;> rfl

/-! ## Region 0: x [10000, 32] · W [32, 64], row blocks of 2000 -/

/-- The printed dimension record is the plain one: contract the left operand's columns with the right one's rows. -/
theorem dims0 : dot_S2000x32_S32x64_S2000x64_1_0_0_1_n_n = DotDims.plain 2000 32 64 := rfl

/-- The body's stored value at an entry: the product of the two loaded blocks there. -/
theorem pay0_at (x : FVec Ideal S2000x32 .f32) (w : FVec Ideal S32x64 .f32) (p : Fin 2000) (g : Fin 64) :
    k0_pay1 (F := Ideal) x w (ix2 p g) = dotAt x w p g := by
  unfold k0_pay1
  rw [dims0]
  exact kernel_dot_at x w bitsLt_bf16_f32 bitsLt_bf16_f32 p g

/-- At point t the x window and the output window sit at row block t, the W window at block (0, 0). -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x block at point t holds rows t·2000 + p of x. -/
theorem xblk0_at (c : Dev nD) (t : Fin cfg0.N) (p : Fin 2000) (k : Fin 32) (r : Fin 10000)
    (hr : r.val = t.val * 2000 + p.val) :
    (iblk0 V c 0 t : Vec Ideal S2000x32 .f32) (ix2 p k)
      = (V c (Pipeline.arrRef spec0 0) : S10000x32.Idx → EReal) (ix2 r k) := by
  obtain ⟨e00, e01, -, -, -, -⟩ := blockIdx0 t
  show (V c (Pipeline.arrRef spec0 0) : S10000x32.Idx → EReal) (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 32 + 1 * k.val = k.val; omega

/-- The W block at any point is the whole of W. -/
theorem wblk0_at (c : Dev nD) (t : Fin cfg0.N) (k : Fin 32) (g : Fin 64) :
    (iblk0 V c 1 t : Vec Ideal S32x64 .f32) (ix2 k g)
      = (V c (Pipeline.arrRef spec0 1) : S32x64.Idx → EReal) (ix2 k g) := by
  obtain ⟨-, -, e10, e11, -, -⟩ := blockIdx0 t
  show (V c (Pipeline.arrRef spec0 1) : S32x64.Idx → EReal) (((cfg0.win 1).blk t).view.emb (ix2 k g)) = _
  refine congrArg _ (funext fun a => Fin.ext ?_)
  match a with
  | ⟨0, _⟩ => show win0_1.index t (0 : Fin 2) * 32 + 1 * k.val = k.val; omega
  | ⟨1, _⟩ => show win0_1.index t (1 : Fin 2) * 64 + 1 * g.val = g.val; omega

/-- Entry (p, g) of the output block at point t is entry (t·2000 + p, g) of the output array. -/
theorem oblk0_emb (t : Fin cfg0.N) (p : Fin 2000) (g : Fin 64) (r : Fin 10000)
    (hr : r.val = t.val * 2000 + p.val) :
    (((cfg0.win 2).blk t).view.emb (ix2 p g) : S10000x64.Idx) = ix2 r g := by
  obtain ⟨-, -, -, -, e20, e21⟩ := blockIdx0 t
  refine funext fun a => Fin.ext ?_
  match a with
  | ⟨0, _⟩ => show win0_2.index t (0 : Fin 2) * 2000 + 1 * p.val = r.val; omega
  | ⟨1, _⟩ => show win0_2.index t (1 : Fin 2) * 64 + 1 * g.val = g.val; omega

/-- What point t writes back is block t of the whole product. -/
theorem flushed_lin0 (c : Dev nD) (t : Fin cfg0.N) :
    (dat0 (F := Ideal) V c).flushed 2 t
      = ((cfg0.win 2).blk t).view.read (Elt Ideal)
          (linLayer (R := 10000) (K := 32) (N := 64) (V c (Pipeline.arrRef spec0 0)) (V c (Pipeline.arrRef spec0 1))) := by
  show (cfg0.win 2).cut (grid0.coords t) ((dat0 V c).after 2 t) = _
  rw [after0_2]
  unfold out0_2
  rw [View.canon_unit_zero zeroOff]
  simp only [View.ld_unit_zero (S := S2000x32) zeroOff, View.ld_unit_zero (S := S32x64) zeroOff]
  funext j
  obtain ⟨p, g, rfl⟩ : ∃ (p : Fin 2000) (g : Fin 64), j = ix2 p g := ⟨j 0, j 1, eq_ix2 j⟩
  have ht : t.val < 5 := lt_of_lt_of_eq t.isLt N_0
  obtain ⟨r, hr⟩ : ∃ r : Fin 10000, r.val = t.val * 2000 + p.val := ⟨⟨t.val * 2000 + p.val, by omega⟩, rfl⟩
  show k0_pay1 (iblk0 V c 0 t) (iblk0 V c 1 t) (ix2 p g)
    = linLayer (R := 10000) (K := 32) (N := 64) (V c (Pipeline.arrRef spec0 0)) (V c (Pipeline.arrRef spec0 1))
        (((cfg0.win 2).blk t).view.emb (ix2 p g))
  rw [oblk0_emb t p g r hr]
  refine (pay0_at _ _ p g).trans ?_
  show dotAt _ _ p g = dotAt _ _ r g
  unfold dotAt
  refine Finset.sum_congr rfl fun k _ => ?_
  exact congrArg₂ (· * ·) (xblk0_at V c t p k r hr) (wblk0_at V c t k g)

/-- An entry of the output array is in point t's block iff its coordinates are in the block's ranges. -/
theorem mem_oblk0 (t : Fin cfg0.N) (i : S10000x64.Idx) :
    i ∈ ((cfg0.win 2).blk t).view.set
      ↔ ∀ a : Fin 2, win0_2.index t a * S2000x64.size a ≤ (i a).val
          ∧ (i a).val < win0_2.index t a * S2000x64.size a + S2000x64.size a := by
  show i ∈ ((View.whole main_v0).slice (win0_2.rect t)).set ↔ _
  rw [View.set_slice_whole, Rect.mem_set_unit]
  exact Iff.rfl

/-- Row r of the output lies in the block of point r / 2000. -/
theorem cover_lin0 (i : S10000x64.Idx) :
    ∃ t : Fin cfg0.N, (cfg0.win 2).flush t = true ∧ i ∈ ((cfg0.win 2).blk t).view.set := by
  have hi0 : (i 0).val < 10000 := (i 0).isLt
  have hi1 : (i 1).val < 64 := (i 1).isLt
  obtain ⟨t, ht⟩ : ∃ t : Fin cfg0.N, t.val = (i 0).val / 2000 :=
    ⟨⟨(i 0).val / 2000, lt_of_lt_of_eq (by omega : (i 0).val / 2000 < 5) N_0.symm⟩, rfl⟩
  obtain ⟨-, -, -, -, e20, e21⟩ := blockIdx0 t
  refine ⟨t, flush0_2 t, ?_⟩
  rw [mem_oblk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 64 ≤ (i 1).val ∧ (i 1).val < win0_2.index t (1 : Fin 2) * 64 + 64
    omega

/-- The output array after region 0 is the whole product of the two operand arrays the region found. -/
theorem lin0 (c : Dev nD) :
    (dat0 (F := Ideal) V c).arrAt 2 cfg0.N
      = linLayer (R := 10000) (K := 32) (N := 64) (V c (Pipeline.arrRef spec0 0)) (V c (Pipeline.arrRef spec0 1)) :=
  (dat0 (F := Ideal) V c).arrAt_eq_of_cover 2 _ (fun t _ => flushed_lin0 V c t) cover_lin0

/-! ## Region 2: x [10000, 64] · W [64, 64], row blocks of 2000 -/

/-- The printed dimension record is the plain one: contract the left operand's columns with the right one's rows. -/
theorem dims2 : dot_S2000x64_S64x64_S2000x64_1_0_0_1_n_n = DotDims.plain 2000 64 64 := rfl

/-- The body's stored value at an entry: the product of the two loaded blocks there (the cast of x to its own shape drops). -/
theorem pay2_at (x : FVec Ideal S2000x64 .f32) (w : FVec Ideal S64x64 .f32) (p : Fin 2000) (g : Fin 64) :
    k2_pay1 (F := Ideal) x w (ix2 p g) = dotAt x w p g := by
  unfold k2_pay1
  rw [dims2, shapeCast_self]
  exact kernel_dot_at x w bitsLt_bf16_f32 bitsLt_bf16_f32 p g

/-- At point t the x window and the output window sit at row block t, the W window at block (0, 0). -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The x block at point t holds rows t·2000 + p of x. -/
theorem xblk2_at (c : Dev nD) (t : Fin cfg2.N) (p : Fin 2000) (k : Fin 64) (r : Fin 10000)
    (hr : r.val = t.val * 2000 + p.val) :
    (iblk2 V c 0 t : Vec Ideal S2000x64 .f32) (ix2 p k)
      = (V c (Pipeline.arrRef spec2 0) : S10000x64.Idx → EReal) (ix2 r k) := by
  obtain ⟨e00, e01, -, -, -, -⟩ := blockIdx2 t
  show (V c (Pipeline.arrRef spec2 0) : S10000x64.Idx → EReal) (((cfg2.win 0).blk t).view.emb (ix2 p k)) = _
  refine congrArg _ (funext fun a => Fin.ext ?_)
  match a with
  | ⟨0, _⟩ => show win2_0.index t (0 : Fin 2) * 2000 + 1 * p.val = r.val; omega
  | ⟨1, _⟩ => show win2_0.index t (1 : Fin 2) * 64 + 1 * k.val = k.val; omega

/-- The W block at any point is the whole of W. -/
theorem wblk2_at (c : Dev nD) (t : Fin cfg2.N) (k : Fin 64) (g : Fin 64) :
    (iblk2 V c 1 t : Vec Ideal S64x64 .f32) (ix2 k g)
      = (V c (Pipeline.arrRef spec2 1) : S64x64.Idx → EReal) (ix2 k g) := by
  obtain ⟨-, -, e10, e11, -, -⟩ := blockIdx2 t
  show (V c (Pipeline.arrRef spec2 1) : S64x64.Idx → EReal) (((cfg2.win 1).blk t).view.emb (ix2 k g)) = _
  refine congrArg _ (funext fun a => Fin.ext ?_)
  match a with
  | ⟨0, _⟩ => show win2_1.index t (0 : Fin 2) * 64 + 1 * k.val = k.val; omega
  | ⟨1, _⟩ => show win2_1.index t (1 : Fin 2) * 64 + 1 * g.val = g.val; omega

/-- Entry (p, g) of the output block at point t is entry (t·2000 + p, g) of the output array. -/
theorem oblk2_emb (t : Fin cfg2.N) (p : Fin 2000) (g : Fin 64) (r : Fin 10000)
    (hr : r.val = t.val * 2000 + p.val) :
    (((cfg2.win 2).blk t).view.emb (ix2 p g) : S10000x64.Idx) = ix2 r g := by
  obtain ⟨-, -, -, -, e20, e21⟩ := blockIdx2 t
  refine funext fun a => Fin.ext ?_
  match a with
  | ⟨0, _⟩ => show win2_2.index t (0 : Fin 2) * 2000 + 1 * p.val = r.val; omega
  | ⟨1, _⟩ => show win2_2.index t (1 : Fin 2) * 64 + 1 * g.val = g.val; omega

/-- What point t writes back is block t of the whole product. -/
theorem flushed_lin2 (c : Dev nD) (t : Fin cfg2.N) :
    (dat2 (F := Ideal) V c).flushed 2 t
      = ((cfg2.win 2).blk t).view.read (Elt Ideal)
          (linLayer (R := 10000) (K := 64) (N := 64) (V c (Pipeline.arrRef spec2 0)) (V c (Pipeline.arrRef spec2 1))) := by
  show (cfg2.win 2).cut (grid2.coords t) ((dat2 V c).after 2 t) = _
  rw [after2_2]
  unfold out2_2
  rw [View.canon_unit_zero zeroOff]
  simp only [View.ld_unit_zero (S := S2000x64) zeroOff, View.ld_unit_zero (S := S64x64) zeroOff]
  funext j
  obtain ⟨p, g, rfl⟩ : ∃ (p : Fin 2000) (g : Fin 64), j = ix2 p g := ⟨j 0, j 1, eq_ix2 j⟩
  have ht : t.val < 5 := lt_of_lt_of_eq t.isLt N_2
  obtain ⟨r, hr⟩ : ∃ r : Fin 10000, r.val = t.val * 2000 + p.val := ⟨⟨t.val * 2000 + p.val, by omega⟩, rfl⟩
  show k2_pay1 (iblk2 V c 0 t) (iblk2 V c 1 t) (ix2 p g)
    = linLayer (R := 10000) (K := 64) (N := 64) (V c (Pipeline.arrRef spec2 0)) (V c (Pipeline.arrRef spec2 1))
        (((cfg2.win 2).blk t).view.emb (ix2 p g))
  rw [oblk2_emb t p g r hr]
  refine (pay2_at _ _ p g).trans ?_
  show dotAt _ _ p g = dotAt _ _ r g
  unfold dotAt
  refine Finset.sum_congr rfl fun k _ => ?_
  exact congrArg₂ (· * ·) (xblk2_at V c t p k r hr) (wblk2_at V c t k g)

/-- An entry of the output array is in point t's block iff its coordinates are in the block's ranges. -/
theorem mem_oblk2 (t : Fin cfg2.N) (i : S10000x64.Idx) :
    i ∈ ((cfg2.win 2).blk t).view.set
      ↔ ∀ a : Fin 2, win2_2.index t a * S2000x64.size a ≤ (i a).val
          ∧ (i a).val < win2_2.index t a * S2000x64.size a + S2000x64.size a := by
  show i ∈ ((View.whole main_v41).slice (win2_2.rect t)).set ↔ _
  rw [View.set_slice_whole, Rect.mem_set_unit]
  exact Iff.rfl

/-- Row r of the output lies in the block of point r / 2000. -/
theorem cover_lin2 (i : S10000x64.Idx) :
    ∃ t : Fin cfg2.N, (cfg2.win 2).flush t = true ∧ i ∈ ((cfg2.win 2).blk t).view.set := by
  have hi0 : (i 0).val < 10000 := (i 0).isLt
  have hi1 : (i 1).val < 64 := (i 1).isLt
  obtain ⟨t, ht⟩ : ∃ t : Fin cfg2.N, t.val = (i 0).val / 2000 :=
    ⟨⟨(i 0).val / 2000, lt_of_lt_of_eq (by omega : (i 0).val / 2000 < 5) N_2.symm⟩, rfl⟩
  obtain ⟨-, -, -, -, e20, e21⟩ := blockIdx2 t
  refine ⟨t, flush2_2 t, ?_⟩
  rw [mem_oblk2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 64 ≤ (i 1).val ∧ (i 1).val < win2_2.index t (1 : Fin 2) * 64 + 64
    omega

/-- The output array after region 2 is the whole product of the two operand arrays the region found. -/
theorem lin2 (c : Dev nD) :
    (dat2 (F := Ideal) V c).arrAt 2 cfg2.N
      = linLayer (R := 10000) (K := 64) (N := 64) (V c (Pipeline.arrRef spec2 0)) (V c (Pipeline.arrRef spec2 1)) :=
  (dat2 (F := Ideal) V c).arrAt_eq_of_cover 2 _ (fun t _ => flushed_lin2 V c t) cover_lin2

/-! ## Region 5: x [200000, 128] · W [128, 128], row blocks of 5000 -/

/-- The printed dimension record is the plain one: contract the left operand's columns with the right one's rows. -/
theorem dims5 : dot_S5000x128_S128x128_S5000x128_1_0_0_1_n_n = DotDims.plain 5000 128 128 := rfl

/-- The body's stored value at an entry: the product of the two loaded blocks there (the cast of x to its own shape drops). -/
theorem pay5_at (x : FVec Ideal S5000x128 .f32) (w : FVec Ideal S128x128 .f32) (p : Fin 5000) (g : Fin 128) :
    k5_pay1 (F := Ideal) x w (ix2 p g) = dotAt x w p g := by
  unfold k5_pay1
  rw [dims5, shapeCast_self]
  exact kernel_dot_at x w bitsLt_bf16_f32 bitsLt_bf16_f32 p g

/-- At point t the x window and the output window sit at row block t, the W window at block (0, 0). -/
theorem blockIdx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The x block at point t holds rows t·5000 + p of x. -/
theorem xblk5_at (c : Dev nD) (t : Fin cfg5.N) (p : Fin 5000) (k : Fin 128) (r : Fin 200000)
    (hr : r.val = t.val * 5000 + p.val) :
    (iblk5 V c 0 t : Vec Ideal S5000x128 .f32) (ix2 p k)
      = (V c (Pipeline.arrRef spec5 0) : S200000x128.Idx → EReal) (ix2 r k) := by
  obtain ⟨e00, e01, -, -, -, -⟩ := blockIdx5 t
  show (V c (Pipeline.arrRef spec5 0) : S200000x128.Idx → EReal) (((cfg5.win 0).blk t).view.emb (ix2 p k)) = _
  refine congrArg _ (funext fun a => Fin.ext ?_)
  match a with
  | ⟨0, _⟩ => show win5_0.index t (0 : Fin 2) * 5000 + 1 * p.val = r.val; omega
  | ⟨1, _⟩ => show win5_0.index t (1 : Fin 2) * 128 + 1 * k.val = k.val; omega

/-- The W block at any point is the whole of W. -/
theorem wblk5_at (c : Dev nD) (t : Fin cfg5.N) (k : Fin 128) (g : Fin 128) :
    (iblk5 V c 1 t : Vec Ideal S128x128 .f32) (ix2 k g)
      = (V c (Pipeline.arrRef spec5 1) : S128x128.Idx → EReal) (ix2 k g) := by
  obtain ⟨-, -, e10, e11, -, -⟩ := blockIdx5 t
  show (V c (Pipeline.arrRef spec5 1) : S128x128.Idx → EReal) (((cfg5.win 1).blk t).view.emb (ix2 k g)) = _
  refine congrArg _ (funext fun a => Fin.ext ?_)
  match a with
  | ⟨0, _⟩ => show win5_1.index t (0 : Fin 2) * 128 + 1 * k.val = k.val; omega
  | ⟨1, _⟩ => show win5_1.index t (1 : Fin 2) * 128 + 1 * g.val = g.val; omega

/-- Entry (p, g) of the output block at point t is entry (t·5000 + p, g) of the output array. -/
theorem oblk5_emb (t : Fin cfg5.N) (p : Fin 5000) (g : Fin 128) (r : Fin 200000)
    (hr : r.val = t.val * 5000 + p.val) :
    (((cfg5.win 2).blk t).view.emb (ix2 p g) : S200000x128.Idx) = ix2 r g := by
  obtain ⟨-, -, -, -, e20, e21⟩ := blockIdx5 t
  refine funext fun a => Fin.ext ?_
  match a with
  | ⟨0, _⟩ => show win5_2.index t (0 : Fin 2) * 5000 + 1 * p.val = r.val; omega
  | ⟨1, _⟩ => show win5_2.index t (1 : Fin 2) * 128 + 1 * g.val = g.val; omega

/-- What point t writes back is block t of the whole product. -/
theorem flushed_lin5 (c : Dev nD) (t : Fin cfg5.N) :
    (dat5 (F := Ideal) V c).flushed 2 t
      = ((cfg5.win 2).blk t).view.read (Elt Ideal)
          (linLayer (R := 200000) (K := 128) (N := 128) (V c (Pipeline.arrRef spec5 0)) (V c (Pipeline.arrRef spec5 1))) := by
  show (cfg5.win 2).cut (grid5.coords t) ((dat5 V c).after 2 t) = _
  rw [after5_2]
  unfold out5_2
  rw [View.canon_unit_zero zeroOff]
  simp only [View.ld_unit_zero (S := S5000x128) zeroOff, View.ld_unit_zero (S := S128x128) zeroOff]
  funext j
  obtain ⟨p, g, rfl⟩ : ∃ (p : Fin 5000) (g : Fin 128), j = ix2 p g := ⟨j 0, j 1, eq_ix2 j⟩
  have ht : t.val < 40 := lt_of_lt_of_eq t.isLt N_5
  obtain ⟨r, hr⟩ : ∃ r : Fin 200000, r.val = t.val * 5000 + p.val := ⟨⟨t.val * 5000 + p.val, by omega⟩, rfl⟩
  show k5_pay1 (iblk5 V c 0 t) (iblk5 V c 1 t) (ix2 p g)
    = linLayer (R := 200000) (K := 128) (N := 128) (V c (Pipeline.arrRef spec5 0)) (V c (Pipeline.arrRef spec5 1))
        (((cfg5.win 2).blk t).view.emb (ix2 p g))
  rw [oblk5_emb t p g r hr]
  refine (pay5_at _ _ p g).trans ?_
  show dotAt _ _ p g = dotAt _ _ r g
  unfold dotAt
  refine Finset.sum_congr rfl fun k _ => ?_
  exact congrArg₂ (· * ·) (xblk5_at V c t p k r hr) (wblk5_at V c t k g)

/-- An entry of the output array is in point t's block iff its coordinates are in the block's ranges. -/
theorem mem_oblk5 (t : Fin cfg5.N) (i : S200000x128.Idx) :
    i ∈ ((cfg5.win 2).blk t).view.set
      ↔ ∀ a : Fin 2, win5_2.index t a * S5000x128.size a ≤ (i a).val
          ∧ (i a).val < win5_2.index t a * S5000x128.size a + S5000x128.size a := by
  show i ∈ ((View.whole main_v98).slice (win5_2.rect t)).set ↔ _
  rw [View.set_slice_whole, Rect.mem_set_unit]
  exact Iff.rfl

/-- Row r of the output lies in the block of point r / 5000. -/
theorem cover_lin5 (i : S200000x128.Idx) :
    ∃ t : Fin cfg5.N, (cfg5.win 2).flush t = true ∧ i ∈ ((cfg5.win 2).blk t).view.set := by
  have hi0 : (i 0).val < 200000 := (i 0).isLt
  have hi1 : (i 1).val < 128 := (i 1).isLt
  obtain ⟨t, ht⟩ : ∃ t : Fin cfg5.N, t.val = (i 0).val / 5000 :=
    ⟨⟨(i 0).val / 5000, lt_of_lt_of_eq (by omega : (i 0).val / 5000 < 40) N_5.symm⟩, rfl⟩
  obtain ⟨-, -, -, -, e20, e21⟩ := blockIdx5 t
  refine ⟨t, flush5_2 t, ?_⟩
  rw [mem_oblk5]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 128 ≤ (i 1).val ∧ (i 1).val < win5_2.index t (1 : Fin 2) * 128 + 128
    omega

/-- The output array after region 5 is the whole product of the two operand arrays the region found. -/
theorem lin5 (c : Dev nD) :
    (dat5 (F := Ideal) V c).arrAt 2 cfg5.N
      = linLayer (R := 200000) (K := 128) (N := 128) (V c (Pipeline.arrRef spec5 0)) (V c (Pipeline.arrRef spec5 1)) :=
  (dat5 (F := Ideal) V c).arrAt_eq_of_cover 2 _ (fun t _ => flushed_lin5 V c t) cover_lin5

/-! ## Region 7: x [200000, 128] · W [128, 64], row blocks of 5000 -/

/-- The printed dimension record is the plain one: contract the left operand's columns with the right one's rows. -/
theorem dims7 : dot_S5000x128_S128x64_S5000x64_1_0_0_1_n_n = DotDims.plain 5000 128 64 := rfl

/-- The body's stored value at an entry: the product of the two loaded blocks there (the cast of x to its own shape drops). -/
theorem pay7_at (x : FVec Ideal S5000x128 .f32) (w : FVec Ideal S128x64 .f32) (p : Fin 5000) (g : Fin 64) :
    k7_pay1 (F := Ideal) x w (ix2 p g) = dotAt x w p g := by
  unfold k7_pay1
  rw [dims7, shapeCast_self]
  exact kernel_dot_at x w bitsLt_bf16_f32 bitsLt_bf16_f32 p g

/-- At point t the x window and the output window sit at row block t, the W window at block (0, 0). -/
theorem blockIdx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The x block at point t holds rows t·5000 + p of x. -/
theorem xblk7_at (c : Dev nD) (t : Fin cfg7.N) (p : Fin 5000) (k : Fin 128) (r : Fin 200000)
    (hr : r.val = t.val * 5000 + p.val) :
    (iblk7 V c 0 t : Vec Ideal S5000x128 .f32) (ix2 p k)
      = (V c (Pipeline.arrRef spec7 0) : S200000x128.Idx → EReal) (ix2 r k) := by
  obtain ⟨e00, e01, -, -, -, -⟩ := blockIdx7 t
  show (V c (Pipeline.arrRef spec7 0) : S200000x128.Idx → EReal) (((cfg7.win 0).blk t).view.emb (ix2 p k)) = _
  refine congrArg _ (funext fun a => Fin.ext ?_)
  match a with
  | ⟨0, _⟩ => show win7_0.index t (0 : Fin 2) * 5000 + 1 * p.val = r.val; omega
  | ⟨1, _⟩ => show win7_0.index t (1 : Fin 2) * 128 + 1 * k.val = k.val; omega

/-- The W block at any point is the whole of W. -/
theorem wblk7_at (c : Dev nD) (t : Fin cfg7.N) (k : Fin 128) (g : Fin 64) :
    (iblk7 V c 1 t : Vec Ideal S128x64 .f32) (ix2 k g)
      = (V c (Pipeline.arrRef spec7 1) : S128x64.Idx → EReal) (ix2 k g) := by
  obtain ⟨-, -, e10, e11, -, -⟩ := blockIdx7 t
  show (V c (Pipeline.arrRef spec7 1) : S128x64.Idx → EReal) (((cfg7.win 1).blk t).view.emb (ix2 k g)) = _
  refine congrArg _ (funext fun a => Fin.ext ?_)
  match a with
  | ⟨0, _⟩ => show win7_1.index t (0 : Fin 2) * 128 + 1 * k.val = k.val; omega
  | ⟨1, _⟩ => show win7_1.index t (1 : Fin 2) * 64 + 1 * g.val = g.val; omega

/-- Entry (p, g) of the output block at point t is entry (t·5000 + p, g) of the output array. -/
theorem oblk7_emb (t : Fin cfg7.N) (p : Fin 5000) (g : Fin 64) (r : Fin 200000)
    (hr : r.val = t.val * 5000 + p.val) :
    (((cfg7.win 2).blk t).view.emb (ix2 p g) : S200000x64.Idx) = ix2 r g := by
  obtain ⟨-, -, -, -, e20, e21⟩ := blockIdx7 t
  refine funext fun a => Fin.ext ?_
  match a with
  | ⟨0, _⟩ => show win7_2.index t (0 : Fin 2) * 5000 + 1 * p.val = r.val; omega
  | ⟨1, _⟩ => show win7_2.index t (1 : Fin 2) * 64 + 1 * g.val = g.val; omega

/-- What point t writes back is block t of the whole product. -/
theorem flushed_lin7 (c : Dev nD) (t : Fin cfg7.N) :
    (dat7 (F := Ideal) V c).flushed 2 t
      = ((cfg7.win 2).blk t).view.read (Elt Ideal)
          (linLayer (R := 200000) (K := 128) (N := 64) (V c (Pipeline.arrRef spec7 0)) (V c (Pipeline.arrRef spec7 1))) := by
  show (cfg7.win 2).cut (grid7.coords t) ((dat7 V c).after 2 t) = _
  rw [after7_2]
  unfold out7_2
  rw [View.canon_unit_zero zeroOff]
  simp only [View.ld_unit_zero (S := S5000x128) zeroOff, View.ld_unit_zero (S := S128x64) zeroOff]
  funext j
  obtain ⟨p, g, rfl⟩ : ∃ (p : Fin 5000) (g : Fin 64), j = ix2 p g := ⟨j 0, j 1, eq_ix2 j⟩
  have ht : t.val < 40 := lt_of_lt_of_eq t.isLt N_7
  obtain ⟨r, hr⟩ : ∃ r : Fin 200000, r.val = t.val * 5000 + p.val := ⟨⟨t.val * 5000 + p.val, by omega⟩, rfl⟩
  show k7_pay1 (iblk7 V c 0 t) (iblk7 V c 1 t) (ix2 p g)
    = linLayer (R := 200000) (K := 128) (N := 64) (V c (Pipeline.arrRef spec7 0)) (V c (Pipeline.arrRef spec7 1))
        (((cfg7.win 2).blk t).view.emb (ix2 p g))
  rw [oblk7_emb t p g r hr]
  refine (pay7_at _ _ p g).trans ?_
  show dotAt _ _ p g = dotAt _ _ r g
  unfold dotAt
  refine Finset.sum_congr rfl fun k _ => ?_
  exact congrArg₂ (· * ·) (xblk7_at V c t p k r hr) (wblk7_at V c t k g)

/-- An entry of the output array is in point t's block iff its coordinates are in the block's ranges. -/
theorem mem_oblk7 (t : Fin cfg7.N) (i : S200000x64.Idx) :
    i ∈ ((cfg7.win 2).blk t).view.set
      ↔ ∀ a : Fin 2, win7_2.index t a * S5000x64.size a ≤ (i a).val
          ∧ (i a).val < win7_2.index t a * S5000x64.size a + S5000x64.size a := by
  show i ∈ ((View.whole main_v139).slice (win7_2.rect t)).set ↔ _
  rw [View.set_slice_whole, Rect.mem_set_unit]
  exact Iff.rfl

/-- Row r of the output lies in the block of point r / 5000. -/
theorem cover_lin7 (i : S200000x64.Idx) :
    ∃ t : Fin cfg7.N, (cfg7.win 2).flush t = true ∧ i ∈ ((cfg7.win 2).blk t).view.set := by
  have hi0 : (i 0).val < 200000 := (i 0).isLt
  have hi1 : (i 1).val < 64 := (i 1).isLt
  obtain ⟨t, ht⟩ : ∃ t : Fin cfg7.N, t.val = (i 0).val / 5000 :=
    ⟨⟨(i 0).val / 5000, lt_of_lt_of_eq (by omega : (i 0).val / 5000 < 40) N_7.symm⟩, rfl⟩
  obtain ⟨-, -, -, -, e20, e21⟩ := blockIdx7 t
  refine ⟨t, flush7_2 t, ?_⟩
  rw [mem_oblk7]
  intro a
  match a with
  | ⟨0, _⟩ =>
    show win7_2.index t (0 : Fin 2) * 5000 ≤ (i 0).val ∧ (i 0).val < win7_2.index t (0 : Fin 2) * 5000 + 5000
    omega
  | ⟨1, _⟩ =>
    show win7_2.index t (1 : Fin 2) * 64 ≤ (i 1).val ∧ (i 1).val < win7_2.index t (1 : Fin 2) * 64 + 64
    omega

/-- The output array after region 7 is the whole product of the two operand arrays the region found. -/
theorem lin7 (c : Dev nD) :
    (dat7 (F := Ideal) V c).arrAt 2 cfg7.N
      = linLayer (R := 200000) (K := 128) (N := 64) (V c (Pipeline.arrRef spec7 0)) (V c (Pipeline.arrRef spec7 1)) :=
  (dat7 (F := Ideal) V c).arrAt_eq_of_cover 2 _ (fun t _ => flushed_lin7 V c t) cover_lin7

/-! ## Region 9: x [200000, 64] · W [64, 2], row blocks of 5000 -/

/-- The printed dimension record is the plain one: contract the left operand's columns with the right one's rows. -/
theorem dims9 : dot_S5000x64_S64x2_S5000x2_1_0_0_1_n_n = DotDims.plain 5000 64 2 := rfl

/-- The body's stored value at an entry: the product of the two loaded blocks there (the cast of x to its own shape drops). -/
theorem pay9_at (x : FVec Ideal S5000x64 .f32) (w : FVec Ideal S64x2 .f32) (p : Fin 5000) (g : Fin 2) :
    k9_pay1 (F := Ideal) x w (ix2 p g) = dotAt x w p g := by
  unfold k9_pay1
  rw [dims9, shapeCast_self]
  exact kernel_dot_at x w bitsLt_bf16_f32 bitsLt_bf16_f32 p g

/-- At point t the x window and the output window sit at row block t, the W window at block (0, 0). -/
theorem blockIdx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- The x block at point t holds rows t·5000 + p of x. -/
theorem xblk9_at (c : Dev nD) (t : Fin cfg9.N) (p : Fin 5000) (k : Fin 64) (r : Fin 200000)
    (hr : r.val = t.val * 5000 + p.val) :
    (iblk9 V c 0 t : Vec Ideal S5000x64 .f32) (ix2 p k)
      = (V c (Pipeline.arrRef spec9 0) : S200000x64.Idx → EReal) (ix2 r k) := by
  obtain ⟨e00, e01, -, -, -, -⟩ := blockIdx9 t
  show (V c (Pipeline.arrRef spec9 0) : S200000x64.Idx → EReal) (((cfg9.win 0).blk t).view.emb (ix2 p k)) = _
  refine congrArg _ (funext fun a => Fin.ext ?_)
  match a with
  | ⟨0, _⟩ => show win9_0.index t (0 : Fin 2) * 5000 + 1 * p.val = r.val; omega
  | ⟨1, _⟩ => show win9_0.index t (1 : Fin 2) * 64 + 1 * k.val = k.val; omega

/-- The W block at any point is the whole of W. -/
theorem wblk9_at (c : Dev nD) (t : Fin cfg9.N) (k : Fin 64) (g : Fin 2) :
    (iblk9 V c 1 t : Vec Ideal S64x2 .f32) (ix2 k g)
      = (V c (Pipeline.arrRef spec9 1) : S64x2.Idx → EReal) (ix2 k g) := by
  obtain ⟨-, -, e10, e11, -, -⟩ := blockIdx9 t
  show (V c (Pipeline.arrRef spec9 1) : S64x2.Idx → EReal) (((cfg9.win 1).blk t).view.emb (ix2 k g)) = _
  refine congrArg _ (funext fun a => Fin.ext ?_)
  match a with
  | ⟨0, _⟩ => show win9_1.index t (0 : Fin 2) * 64 + 1 * k.val = k.val; omega
  | ⟨1, _⟩ => show win9_1.index t (1 : Fin 2) * 2 + 1 * g.val = g.val; omega

/-- Entry (p, g) of the output block at point t is entry (t·5000 + p, g) of the output array. -/
theorem oblk9_emb (t : Fin cfg9.N) (p : Fin 5000) (g : Fin 2) (r : Fin 200000)
    (hr : r.val = t.val * 5000 + p.val) :
    (((cfg9.win 2).blk t).view.emb (ix2 p g) : S200000x2.Idx) = ix2 r g := by
  obtain ⟨-, -, -, -, e20, e21⟩ := blockIdx9 t
  refine funext fun a => Fin.ext ?_
  match a with
  | ⟨0, _⟩ => show win9_2.index t (0 : Fin 2) * 5000 + 1 * p.val = r.val; omega
  | ⟨1, _⟩ => show win9_2.index t (1 : Fin 2) * 2 + 1 * g.val = g.val; omega

/-- What point t writes back is block t of the whole product. -/
theorem flushed_lin9 (c : Dev nD) (t : Fin cfg9.N) :
    (dat9 (F := Ideal) V c).flushed 2 t
      = ((cfg9.win 2).blk t).view.read (Elt Ideal)
          (linLayer (R := 200000) (K := 64) (N := 2) (V c (Pipeline.arrRef spec9 0)) (V c (Pipeline.arrRef spec9 1))) := by
  show (cfg9.win 2).cut (grid9.coords t) ((dat9 V c).after 2 t) = _
  rw [after9_2]
  unfold out9_2
  rw [View.canon_unit_zero zeroOff]
  simp only [View.ld_unit_zero (S := S5000x64) zeroOff, View.ld_unit_zero (S := S64x2) zeroOff]
  funext j
  obtain ⟨p, g, rfl⟩ : ∃ (p : Fin 5000) (g : Fin 2), j = ix2 p g := ⟨j 0, j 1, eq_ix2 j⟩
  have ht : t.val < 40 := lt_of_lt_of_eq t.isLt N_9
  obtain ⟨r, hr⟩ : ∃ r : Fin 200000, r.val = t.val * 5000 + p.val := ⟨⟨t.val * 5000 + p.val, by omega⟩, rfl⟩
  show k9_pay1 (iblk9 V c 0 t) (iblk9 V c 1 t) (ix2 p g)
    = linLayer (R := 200000) (K := 64) (N := 2) (V c (Pipeline.arrRef spec9 0)) (V c (Pipeline.arrRef spec9 1))
        (((cfg9.win 2).blk t).view.emb (ix2 p g))
  rw [oblk9_emb t p g r hr]
  refine (pay9_at _ _ p g).trans ?_
  show dotAt _ _ p g = dotAt _ _ r g
  unfold dotAt
  refine Finset.sum_congr rfl fun k _ => ?_
  exact congrArg₂ (· * ·) (xblk9_at V c t p k r hr) (wblk9_at V c t k g)

/-- An entry of the output array is in point t's block iff its coordinates are in the block's ranges. -/
theorem mem_oblk9 (t : Fin cfg9.N) (i : S200000x2.Idx) :
    i ∈ ((cfg9.win 2).blk t).view.set
      ↔ ∀ a : Fin 2, win9_2.index t a * S5000x2.size a ≤ (i a).val
          ∧ (i a).val < win9_2.index t a * S5000x2.size a + S5000x2.size a := by
  show i ∈ ((View.whole main_v180).slice (win9_2.rect t)).set ↔ _
  rw [View.set_slice_whole, Rect.mem_set_unit]
  exact Iff.rfl

/-- Row r of the output lies in the block of point r / 5000. -/
theorem cover_lin9 (i : S200000x2.Idx) :
    ∃ t : Fin cfg9.N, (cfg9.win 2).flush t = true ∧ i ∈ ((cfg9.win 2).blk t).view.set := by
  have hi0 : (i 0).val < 200000 := (i 0).isLt
  have hi1 : (i 1).val < 2 := (i 1).isLt
  obtain ⟨t, ht⟩ : ∃ t : Fin cfg9.N, t.val = (i 0).val / 5000 :=
    ⟨⟨(i 0).val / 5000, lt_of_lt_of_eq (by omega : (i 0).val / 5000 < 40) N_9.symm⟩, rfl⟩
  obtain ⟨-, -, -, -, e20, e21⟩ := blockIdx9 t
  refine ⟨t, flush9_2 t, ?_⟩
  rw [mem_oblk9]
  intro a
  match a with
  | ⟨0, _⟩ =>
    show win9_2.index t (0 : Fin 2) * 5000 ≤ (i 0).val ∧ (i 0).val < win9_2.index t (0 : Fin 2) * 5000 + 5000
    omega
  | ⟨1, _⟩ =>
    show win9_2.index t (1 : Fin 2) * 2 ≤ (i 1).val ∧ (i 1).val < win9_2.index t (1 : Fin 2) * 2 + 2
    omega

/-- The output array after region 9 is the whole product of the two operand arrays the region found. -/
theorem lin9 (c : Dev nD) :
    (dat9 (F := Ideal) V c).arrAt 2 cfg9.N
      = linLayer (R := 200000) (K := 64) (N := 2) (V c (Pipeline.arrRef spec9 0)) (V c (Pipeline.arrRef spec9 1)) :=
  (dat9 (F := Ideal) V c).arrAt_eq_of_cover 2 _ (fun t _ => flushed_lin9 V c t) cover_lin9

end Cert.KernelIdeal.Dense

end
-- ==== Proof.RegionUpd.lean ====
/-
  The four rectified node-update regions of the idealized kernel program, each read as ONE whole-array function of
  the arrays it finds on entry.

  An update region walks a one-dimensional grid of row blocks.  At point t it holds rows  t·B … t·B + B − 1  of the
  aggregated messages agg, of the transformed features hw and of the [rows, 1] column s of self-loop weights, and the
  whole [1, N] bias row b; it stores, into the same rows of the output,  max ((agg + hw · s) + b, 0)  with the column
  repeated along the columns and the row repeated down the rows.  Entry (r, g) of that update reads agg (r, g),
  hw (r, g), s (r, 0) and b (0, g): of the row operands only row r.  So the block stored at point t is the restriction
  to its rows of the whole update (`updLayer`), the row blocks tile the rows (row r lies in the block of point r / B),
  and the output array after the region is `updLayer` of the four operand arrays as the region found them.

  Per region: the block indices of the five windows at a point (decided over the grid), each window's block read at
  an entry, what a point writes back, which rows a block holds, the cover, and the array after the region.
-/
import proofs.«114758_j41918880809423_1_alg».proof.Proof.Gen.KernelIdeal.Frame
import proofs.«114758_j41918880809423_1_alg».proof.Proof.LibGcnUpdate
import Idealize.ShloMosaic.Lib.Pipeline.Value
import Idealize.ShloMosaic.Lib.ValueIdx

set_option maxRecDepth 16384

noncomputable section

open scoped BigOperators

namespace Cert.KernelIdeal.Dense

open Cert.KernelIdeal Cert.KernelIdeal.Gen
open Idealize.ShloMosaic Idealize.ShloMosaic.TcCoe Idealize.ShloMosaic.ValueIdx
open Idealize.SL.Sem
open Idealize.ShloMosaic.Pipeline (Dat)
open Cert.SageLayers Cert.GcnLayers

-- the buffer contents a region is entered with, on the extended reals
variable (V : (c : Dev nD) → (b : Ref sig .tc) → Buf (Elt Ideal) ((c : Thread nD τ).loc b))

/-- The zero offsets of a whole-block access. -/
theorem zeroOffU : (![0, 0] : Fin 2 → Nat) = fun _ => 0 := funext fun a => by fin_cases a <;> rfl

/-! ## Region 1: max ((agg + hw · s) + b, 0) on [10000, 64], row blocks of 2000 -/

/-- The body's stored value at an entry: the update of the four loaded blocks there. -/
theorem upay1_at (agg hw : FVec Ideal S2000x64 .f32) (s : FVec Ideal S2000x1 .f32) (b : FVec Ideal S1x64 .f32)
    (p : Fin 2000) (g : Fin 64) :
    k1_pay1 (F := Ideal) agg hw s b (ix2 p g) = updAt agg hw s b p g := by
  unfold k1_pay1
  exact kernel_upd_at agg hw s b _ _ _ _ _ _ p g

/-- At point t the agg, hw, s and output windows sit at row block t, the bias window at block (0, 0). -/
theorem blockIdx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0) :=
  (by decide +kernel : ∀ t : Fin grid1.N, _)

/-- The agg block at point t holds rows t·2000 + p of agg. -/
theorem aggblk1_at (c : Dev nD) (t : Fin cfg1.N) (p : Fin 2000) (g : Fin 64) (r : Fin 10000)
    (hr : r.val = t.val * 2000 + p.val) :
    (iblk1 V c 0 t : Vec Ideal S2000x64 .f32) (ix2 p g)
      = (V c (Pipeline.arrRef spec1 0) : S10000x64.Idx → EReal) (ix2 r g) := by
  obtain ⟨e0, e1⟩ := (blockIdx1 t).1
  show (V c (Pipeline.arrRef spec1 0) : S10000x64.Idx → EReal) (((cfg1.win 0).blk t).view.emb (ix2 p g)) = _
  refine congrArg _ (funext fun a => Fin.ext ?_)
  match a with
  | ⟨0, _⟩ => show win1_0.index t (0 : Fin 2) * 2000 + 1 * p.val = r.val; omega
  | ⟨1, _⟩ => show win1_0.index t (1 : Fin 2) * 64 + 1 * g.val = g.val; omega

/-- The hw block at point t holds rows t·2000 + p of hw. -/
theorem hwblk1_at (c : Dev nD) (t : Fin cfg1.N) (p : Fin 2000) (g : Fin 64) (r : Fin 10000)
    (hr : r.val = t.val * 2000 + p.val) :
    (iblk1 V c 1 t : Vec Ideal S2000x64 .f32) (ix2 p g)
      = (V c (Pipeline.arrRef spec1 1) : S10000x64.Idx → EReal) (ix2 r g) := by
  obtain ⟨e0, e1⟩ := (blockIdx1 t).2.1
  show (V c (Pipeline.arrRef spec1 1) : S10000x64.Idx → EReal) (((cfg1.win 1).blk t).view.emb (ix2 p g)) = _
  refine congrArg _ (funext fun a => Fin.ext ?_)
  match a with
  | ⟨0, _⟩ => show win1_1.index t (0 : Fin 2) * 2000 + 1 * p.val = r.val; omega
  | ⟨1, _⟩ => show win1_1.index t (1 : Fin 2) * 64 + 1 * g.val = g.val; omega

/-- The s block at point t holds rows t·2000 + p of the column s. -/
theorem sblk1_at (c : Dev nD) (t : Fin cfg1.N) (p : Fin 2000) (r : Fin 10000)
    (hr : r.val = t.val * 2000 + p.val) :
    (iblk1 V c 2 t : Vec Ideal S2000x1 .f32) (ix2 p (0 : Fin 1))
      = (V c (Pipeline.arrRef spec1 2) : S10000x1.Idx → EReal) (ix2 r (0 : Fin 1)) := by
  obtain ⟨e0, e1⟩ := (blockIdx1 t).2.2.1
  show (V c (Pipeline.arrRef spec1 2) : S10000x1.Idx → EReal) (((cfg1.win 2).blk t).view.emb (ix2 p (0 : Fin 1))) = _
  refine congrArg _ (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- The bias block at any point is the whole bias row. -/
theorem bblk1_at (c : Dev nD) (t : Fin cfg1.N) (g : Fin 64) :
    (iblk1 V c 3 t : Vec Ideal S1x64 .f32) (ix2 (0 : Fin 1) g)
      = (V c (Pipeline.arrRef spec1 3) : S1x64.Idx → EReal) (ix2 (0 : Fin 1) g) := by
  obtain ⟨e0, e1⟩ := (blockIdx1 t).2.2.2.1
  show (V c (Pipeline.arrRef spec1 3) : S1x64.Idx → EReal) (((cfg1.win 3).blk t).view.emb (ix2 (0 : Fin 1) g)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * g.val = g.val; omega

/-- Entry (p, g) of the output block at point t is entry (t·2000 + p, g) of the output array. -/
theorem ublk1_emb (t : Fin cfg1.N) (p : Fin 2000) (g : Fin 64) (r : Fin 10000)
    (hr : r.val = t.val * 2000 + p.val) :
    (((cfg1.win 4).blk t).view.emb (ix2 p g) : S10000x64.Idx) = ix2 r g := by
  obtain ⟨e0, e1⟩ := (blockIdx1 t).2.2.2.2
  refine funext fun a => Fin.ext ?_
  match a with
  | ⟨0, _⟩ => show win1_4.index t (0 : Fin 2) * 2000 + 1 * p.val = r.val; omega
  | ⟨1, _⟩ => show win1_4.index t (1 : Fin 2) * 64 + 1 * g.val = g.val; omega

-- the entry contents are typed through the program's buffer table: matching their types with a literal matrix shape unfolds it
set_option maxHeartbeats 1000000 in
/-- What point t writes back is block t of the whole update. -/
theorem flushed_upd1 (c : Dev nD) (t : Fin cfg1.N) :
    (dat1 (F := Ideal) V c).flushed 4 t
      = ((cfg1.win 4).blk t).view.read (Elt Ideal)
          (updLayer (R := 10000) (N := 64) (V c (Pipeline.arrRef spec1 0)) (V c (Pipeline.arrRef spec1 1))
            (V c (Pipeline.arrRef spec1 2)) (V c (Pipeline.arrRef spec1 3))) := by
  show (cfg1.win 4).cut (grid1.coords t) ((dat1 V c).after 4 t) = _
  rw [after1_4]
  unfold out1_4
  rw [View.canon_unit_zero zeroOffU]
  simp only [View.ld_unit_zero (S := S2000x64) zeroOffU, View.ld_unit_zero (S := S2000x1) zeroOffU,
    View.ld_unit_zero (S := S1x64) zeroOffU]
  funext j
  obtain ⟨p, g, rfl⟩ : ∃ (p : Fin 2000) (g : Fin 64), j = ix2 p g := ⟨j 0, j 1, eq_ix2 j⟩
  have ht : t.val < 5 := lt_of_lt_of_eq t.isLt N_1
  obtain ⟨r, hr⟩ : ∃ r : Fin 10000, r.val = t.val * 2000 + p.val := ⟨⟨t.val * 2000 + p.val, by omega⟩, rfl⟩
  show k1_pay1 (iblk1 V c 0 t) (iblk1 V c 1 t) (iblk1 V c 2 t) (iblk1 V c 3 t) (ix2 p g)
    = updLayer (R := 10000) (N := 64) (V c (Pipeline.arrRef spec1 0)) (V c (Pipeline.arrRef spec1 1))
        (V c (Pipeline.arrRef spec1 2)) (V c (Pipeline.arrRef spec1 3))
        (((cfg1.win 4).blk t).view.emb (ix2 p g))
  rw [ublk1_emb t p g r hr]
  refine (upay1_at _ _ _ _ p g).trans ?_
  show updAt _ _ _ _ p g = updAt _ _ _ _ r g
  unfold updAt
  exact congrArg₂ max
    (congrArg₂ (· + ·)
      (congrArg₂ (· + ·) (aggblk1_at V c t p g r hr)
        (congrArg₂ (· * ·) (hwblk1_at V c t p g r hr) (sblk1_at V c t p r hr)))
      (bblk1_at V c t g))
    rfl

/-- An entry of the output array is in point t's block iff its coordinates are in the block's ranges. -/
theorem mem_ublk1 (t : Fin cfg1.N) (i : S10000x64.Idx) :
    i ∈ ((cfg1.win 4).blk t).view.set
      ↔ ∀ a : Fin 2, win1_4.index t a * S2000x64.size a ≤ (i a).val
          ∧ (i a).val < win1_4.index t a * S2000x64.size a + S2000x64.size a := by
  show i ∈ ((View.whole main_v40).slice (win1_4.rect t)).set ↔ _
  rw [View.set_slice_whole, Rect.mem_set_unit]
  exact Iff.rfl

/-- Row r of the output lies in the block of point r / 2000. -/
theorem cover_upd1 (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ : ∃ t : Fin cfg1.N, t.val = (i 0).val / 2000 :=
    ⟨⟨(i 0).val / 2000, lt_of_lt_of_eq (by omega : (i 0).val / 2000 < 5) N_1.symm⟩, rfl⟩
  obtain ⟨e0, e1⟩ := (blockIdx1 t).2.2.2.2
  refine ⟨t, flush1_4 t, ?_⟩
  rw [mem_ublk1]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 64 ≤ (i 1).val ∧ (i 1).val < win1_4.index t (1 : Fin 2) * 64 + 64
    omega

/-- The output array after region 1 is the whole update of the four operand arrays the region found. -/
theorem upd1 (c : Dev nD) :
    (dat1 (F := Ideal) V c).arrAt 4 cfg1.N
      = updLayer (R := 10000) (N := 64) (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => flushed_upd1 V c t) cover_upd1

/-! ## Region 3: max ((agg + hw · s) + b, 0) on [10000, 64], row blocks of 2000 -/

/-- The body's stored value at an entry: the update of the four loaded blocks there. -/
theorem upay3_at (agg hw : FVec Ideal S2000x64 .f32) (s : FVec Ideal S2000x1 .f32) (b : FVec Ideal S1x64 .f32)
    (p : Fin 2000) (g : Fin 64) :
    k3_pay1 (F := Ideal) agg hw s b (ix2 p g) = updAt agg hw s b p g := by
  unfold k3_pay1
  exact kernel_upd_at agg hw s b _ _ _ _ _ _ p g

/-- At point t the agg, hw, s and output windows sit at row block t, the bias window at block (0, 0). -/
theorem blockIdx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = t.val ∧ win3_4.index t (1 : Fin 2) = 0) :=
  (by decide +kernel : ∀ t : Fin grid3.N, _)

/-- The agg block at point t holds rows t·2000 + p of agg. -/
theorem aggblk3_at (c : Dev nD) (t : Fin cfg3.N) (p : Fin 2000) (g : Fin 64) (r : Fin 10000)
    (hr : r.val = t.val * 2000 + p.val) :
    (iblk3 V c 0 t : Vec Ideal S2000x64 .f32) (ix2 p g)
      = (V c (Pipeline.arrRef spec3 0) : S10000x64.Idx → EReal) (ix2 r g) := by
  obtain ⟨e0, e1⟩ := (blockIdx3 t).1
  show (V c (Pipeline.arrRef spec3 0) : S10000x64.Idx → EReal) (((cfg3.win 0).blk t).view.emb (ix2 p g)) = _
  refine congrArg _ (funext fun a => Fin.ext ?_)
  match a with
  | ⟨0, _⟩ => show win3_0.index t (0 : Fin 2) * 2000 + 1 * p.val = r.val; omega
  | ⟨1, _⟩ => show win3_0.index t (1 : Fin 2) * 64 + 1 * g.val = g.val; omega

/-- The hw block at point t holds rows t·2000 + p of hw. -/
theorem hwblk3_at (c : Dev nD) (t : Fin cfg3.N) (p : Fin 2000) (g : Fin 64) (r : Fin 10000)
    (hr : r.val = t.val * 2000 + p.val) :
    (iblk3 V c 1 t : Vec Ideal S2000x64 .f32) (ix2 p g)
      = (V c (Pipeline.arrRef spec3 1) : S10000x64.Idx → EReal) (ix2 r g) := by
  obtain ⟨e0, e1⟩ := (blockIdx3 t).2.1
  show (V c (Pipeline.arrRef spec3 1) : S10000x64.Idx → EReal) (((cfg3.win 1).blk t).view.emb (ix2 p g)) = _
  refine congrArg _ (funext fun a => Fin.ext ?_)
  match a with
  | ⟨0, _⟩ => show win3_1.index t (0 : Fin 2) * 2000 + 1 * p.val = r.val; omega
  | ⟨1, _⟩ => show win3_1.index t (1 : Fin 2) * 64 + 1 * g.val = g.val; omega

/-- The s block at point t holds rows t·2000 + p of the column s. -/
theorem sblk3_at (c : Dev nD) (t : Fin cfg3.N) (p : Fin 2000) (r : Fin 10000)
    (hr : r.val = t.val * 2000 + p.val) :
    (iblk3 V c 2 t : Vec Ideal S2000x1 .f32) (ix2 p (0 : Fin 1))
      = (V c (Pipeline.arrRef spec3 2) : S10000x1.Idx → EReal) (ix2 r (0 : Fin 1)) := by
  obtain ⟨e0, e1⟩ := (blockIdx3 t).2.2.1
  show (V c (Pipeline.arrRef spec3 2) : S10000x1.Idx → EReal) (((cfg3.win 2).blk t).view.emb (ix2 p (0 : Fin 1))) = _
  refine congrArg _ (funext fun a => Fin.ext ?_)
  match a with
  | ⟨0, _⟩ => show win3_2.index t (0 : Fin 2) * 2000 + 1 * p.val = r.val; omega
  | ⟨1, _⟩ => show win3_2.index t (1 : Fin 2) * 1 + 1 * 0 = 0; omega

/-- The bias block at any point is the whole bias row. -/
theorem bblk3_at (c : Dev nD) (t : Fin cfg3.N) (g : Fin 64) :
    (iblk3 V c 3 t : Vec Ideal S1x64 .f32) (ix2 (0 : Fin 1) g)
      = (V c (Pipeline.arrRef spec3 3) : S1x64.Idx → EReal) (ix2 (0 : Fin 1) g) := by
  obtain ⟨e0, e1⟩ := (blockIdx3 t).2.2.2.1
  show (V c (Pipeline.arrRef spec3 3) : S1x64.Idx → EReal) (((cfg3.win 3).blk t).view.emb (ix2 (0 : Fin 1) g)) = _
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * g.val = g.val; omega

/-- Entry (p, g) of the output block at point t is entry (t·2000 + p, g) of the output array. -/
theorem ublk3_emb (t : Fin cfg3.N) (p : Fin 2000) (g : Fin 64) (r : Fin 10000)
    (hr : r.val = t.val * 2000 + p.val) :
    (((cfg3.win 4).blk t).view.emb (ix2 p g) : S10000x64.Idx) = ix2 r g := by
  obtain ⟨e0, e1⟩ := (blockIdx3 t).2.2.2.2
  refine funext fun a => Fin.ext ?_
  match a with
  | ⟨0, _⟩ => show win3_4.index t (0 : Fin 2) * 2000 + 1 * p.val = r.val; omega
  | ⟨1, _⟩ => show win3_4.index t (1 : Fin 2) * 64 + 1 * g.val = g.val; omega

-- the entry contents are typed through the program's buffer table: matching their types with a literal matrix shape unfolds it
set_option maxHeartbeats 1000000 in
/-- What point t writes back is block t of the whole update. -/
theorem flushed_upd3 (c : Dev nD) (t : Fin cfg3.N) :
    (dat3 (F := Ideal) V c).flushed 4 t
      = ((cfg3.win 4).blk t).view.read (Elt Ideal)
          (updLayer (R := 10000) (N := 64) (V c (Pipeline.arrRef spec3 0)) (V c (Pipeline.arrRef spec3 1))
            (V c (Pipeline.arrRef spec3 2)) (V c (Pipeline.arrRef spec3 3))) := by
  show (cfg3.win 4).cut (grid3.coords t) ((dat3 V c).after 4 t) = _
  rw [after3_4]
  unfold out3_4
  rw [View.canon_unit_zero zeroOffU]
  simp only [View.ld_unit_zero (S := S2000x64) zeroOffU, View.ld_unit_zero (S := S2000x1) zeroOffU,
    View.ld_unit_zero (S := S1x64) zeroOffU]
  funext j
  obtain ⟨p, g, rfl⟩ : ∃ (p : Fin 2000) (g : Fin 64), j = ix2 p g := ⟨j 0, j 1, eq_ix2 j⟩
  have ht : t.val < 5 := lt_of_lt_of_eq t.isLt N_3
  obtain ⟨r, hr⟩ : ∃ r : Fin 10000, r.val = t.val * 2000 + p.val := ⟨⟨t.val * 2000 + p.val, by omega⟩, rfl⟩
  show k3_pay1 (iblk3 V c 0 t) (iblk3 V c 1 t) (iblk3 V c 2 t) (iblk3 V c 3 t) (ix2 p g)
    = updLayer (R := 10000) (N := 64) (V c (Pipeline.arrRef spec3 0)) (V c (Pipeline.arrRef spec3 1))
        (V c (Pipeline.arrRef spec3 2)) (V c (Pipeline.arrRef spec3 3))
        (((cfg3.win 4).blk t).view.emb (ix2 p g))
  rw [ublk3_emb t p g r hr]
  refine (upay3_at _ _ _ _ p g).trans ?_
  show updAt _ _ _ _ p g = updAt _ _ _ _ r g
  unfold updAt
  exact congrArg₂ max
    (congrArg₂ (· + ·)
      (congrArg₂ (· + ·) (aggblk3_at V c t p g r hr)
        (congrArg₂ (· * ·) (hwblk3_at V c t p g r hr) (sblk3_at V c t p r hr)))
      (bblk3_at V c t g))
    rfl

/-- An entry of the output array is in point t's block iff its coordinates are in the block's ranges. -/
theorem mem_ublk3 (t : Fin cfg3.N) (i : S10000x64.Idx) :
    i ∈ ((cfg3.win 4).blk t).view.set
      ↔ ∀ a : Fin 2, win3_4.index t a * S2000x64.size a ≤ (i a).val
          ∧ (i a).val < win3_4.index t a * S2000x64.size a + S2000x64.size a := by
  show i ∈ ((View.whole main_v81).slice (win3_4.rect t)).set ↔ _
  rw [View.set_slice_whole, Rect.mem_set_unit]
  exact Iff.rfl

/-- Row r of the output lies in the block of point r / 2000. -/
theorem cover_upd3 (i : S10000x64.Idx) :
    ∃ t : Fin cfg3.N, (cfg3.win 4).flush t = true ∧ i ∈ ((cfg3.win 4).blk t).view.set := by
  have hi0 : (i 0).val < 10000 := (i 0).isLt
  have hi1 : (i 1).val < 64 := (i 1).isLt
  obtain ⟨t, ht⟩ : ∃ t : Fin cfg3.N, t.val = (i 0).val / 2000 :=
    ⟨⟨(i 0).val / 2000, lt_of_lt_of_eq (by omega : (i 0).val / 2000 < 5) N_3.symm⟩, rfl⟩
  obtain ⟨e0, e1⟩ := (blockIdx3 t).2.2.2.2
  refine ⟨t, flush3_4 t, ?_⟩
  rw [mem_ublk3]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 64 ≤ (i 1).val ∧ (i 1).val < win3_4.index t (1 : Fin 2) * 64 + 64
    omega

/-- The output array after region 3 is the whole update of the four operand arrays the region found. -/
theorem upd3 (c : Dev nD) :
    (dat3 (F := Ideal) V c).arrAt 4 cfg3.N
      = updLayer (R := 10000) (N := 64) (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => flushed_upd3 V c t) cover_upd3

/-! ## Region 6: max ((agg + hw · s) + b, 0) on [200000, 128], row blocks of 5000 -/

/-- The body's stored value at an entry: the update of the four loaded blocks there. -/
theorem upay6_at (agg hw : FVec Ideal S5000x128 .f32) (s : FVec Ideal S5000x1 .f32) (b : FVec Ideal S1x128 .f32)
    (p : Fin 5000) (g : Fin 128) :
    k6_pay1 (F := Ideal) agg hw s b (ix2 p g) = updAt agg hw s b p g := by
  unfold k6_pay1
  exact kernel_upd_at agg hw s b _ _ _ _ _ _ p g

/-- At point t the agg, hw, s and output windows sit at row block t, the bias window at block (0, 0). -/
theorem blockIdx6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ (win6_4.index t (0 : Fin 2) = t.val ∧ win6_4.index t (1 : Fin 2) = 0) :=
  (by decide +kernel : ∀ t : Fin grid6.N, _)

/-- The agg block at point t holds rows t·5000 + p of agg. -/
theorem aggblk6_at (c : Dev nD) (t : Fin cfg6.N) (p : Fin 5000) (g : Fin 128) (r : Fin 200000)
    (hr : r.val = t.val * 5000 + p.val) :
    (iblk6 V c 0 t : Vec Ideal S5000x128 .f32) (ix2 p g)
      = (V c (Pipeline.arrRef spec6 0) : S200000x128.Idx → EReal) (ix2 r g) := by
  obtain ⟨e0, e1⟩ := (blockIdx6 t).1
  show (V c (Pipeline.arrRef spec6 0) : S200000x128.Idx → EReal) (((cfg6.win 0).blk t).view.emb (ix2 p g)) = _
  refine congrArg _ (funext fun a => Fin.ext ?_)
  match a with
  | ⟨0, _⟩ => show win6_0.index t (0 : Fin 2) * 5000 + 1 * p.val = r.val; omega
  | ⟨1, _⟩ => show win6_0.index t (1 : Fin 2) * 128 + 1 * g.val = g.val; omega

/-- The hw block at point t holds rows t·5000 + p of hw. -/
theorem hwblk6_at (c : Dev nD) (t : Fin cfg6.N) (p : Fin 5000) (g : Fin 128) (r : Fin 200000)
    (hr : r.val = t.val * 5000 + p.val) :
    (iblk6 V c 1 t : Vec Ideal S5000x128 .f32) (ix2 p g)
      = (V c (Pipeline.arrRef spec6 1) : S200000x128.Idx → EReal) (ix2 r g) := by
  obtain ⟨e0, e1⟩ := (blockIdx6 t).2.1
  show (V c (Pipeline.arrRef spec6 1) : S200000x128.Idx → EReal) (((cfg6.win 1).blk t).view.emb (ix2 p g)) = _
  refine congrArg _ (funext fun a => Fin.ext ?_)
  match a with
  | ⟨0, _⟩ => show win6_1.index t (0 : Fin 2) * 5000 + 1 * p.val = r.val; omega
  | ⟨1, _⟩ => show win6_1.index t (1 : Fin 2) * 128 + 1 * g.val = g.val; omega

/-- The s block at point t holds rows t·5000 + p of the column s. -/
theorem sblk6_at (c : Dev nD) (t : Fin cfg6.N) (p : Fin 5000) (r : Fin 200000)
    (hr : r.val = t.val * 5000 + p.val) :
    (iblk6 V c 2 t : Vec Ideal S5000x1 .f32) (ix2 p (0 : Fin 1))
      = (V c (Pipeline.arrRef spec6 2) : S200000x1.Idx → EReal) (ix2 r (0 : Fin 1)) := by
  obtain ⟨e0, e1⟩ := (blockIdx6 t).2.2.1
  show (V c (Pipeline.arrRef spec6 2) : S200000x1.Idx → EReal) (((cfg6.win 2).blk t).view.emb (ix2 p (0 : Fin 1))) = _
  refine congrArg _ (funext fun a => Fin.ext ?_)
  match a with
  | ⟨0, _⟩ => show win6_2.index t (0 : Fin 2) * 5000 + 1 * p.val = r.val; omega
  | ⟨1, _⟩ => show win6_2.index t (1 : Fin 2) * 1 + 1 * 0 = 0; omega

/-- The bias block at any point is the whole bias row. -/
theorem bblk6_at (c : Dev nD) (t : Fin cfg6.N) (g : Fin 128) :
    (iblk6 V c 3 t : Vec Ideal S1x128 .f32) (ix2 (0 : Fin 1) g)
      = (V c (Pipeline.arrRef spec6 3) : S1x128.Idx → EReal) (ix2 (0 : Fin 1) g) := by
  obtain ⟨e0, e1⟩ := (blockIdx6 t).2.2.2.1
  show (V c (Pipeline.arrRef spec6 3) : S1x128.Idx → EReal) (((cfg6.win 3).blk t).view.emb (ix2 (0 : Fin 1) g)) = _
  refine congrArg _ (funext fun a => Fin.ext ?_)
  match a with
  | ⟨0, _⟩ => show win6_3.index t (0 : Fin 2) * 1 + 1 * 0 = 0; omega
  | ⟨1, _⟩ => show win6_3.index t (1 : Fin 2) * 128 + 1 * g.val = g.val; omega

/-- Entry (p, g) of the output block at point t is entry (t·5000 + p, g) of the output array. -/
theorem ublk6_emb (t : Fin cfg6.N) (p : Fin 5000) (g : Fin 128) (r : Fin 200000)
    (hr : r.val = t.val * 5000 + p.val) :
    (((cfg6.win 4).blk t).view.emb (ix2 p g) : S200000x128.Idx) = ix2 r g := by
  obtain ⟨e0, e1⟩ := (blockIdx6 t).2.2.2.2
  refine funext fun a => Fin.ext ?_
  match a with
  | ⟨0, _⟩ => show win6_4.index t (0 : Fin 2) * 5000 + 1 * p.val = r.val; omega
  | ⟨1, _⟩ => show win6_4.index t (1 : Fin 2) * 128 + 1 * g.val = g.val; omega

-- the entry contents are typed through the program's buffer table: matching their types with a literal matrix shape unfolds it
set_option maxHeartbeats 1000000 in
/-- What point t writes back is block t of the whole update. -/
theorem flushed_upd6 (c : Dev nD) (t : Fin cfg6.N) :
    (dat6 (F := Ideal) V c).flushed 4 t
      = ((cfg6.win 4).blk t).view.read (Elt Ideal)
          (updLayer (R := 200000) (N := 128) (V c (Pipeline.arrRef spec6 0)) (V c (Pipeline.arrRef spec6 1))
            (V c (Pipeline.arrRef spec6 2)) (V c (Pipeline.arrRef spec6 3))) := by
  show (cfg6.win 4).cut (grid6.coords t) ((dat6 V c).after 4 t) = _
  rw [after6_4]
  unfold out6_4
  rw [View.canon_unit_zero zeroOffU]
  simp only [View.ld_unit_zero (S := S5000x128) zeroOffU, View.ld_unit_zero (S := S5000x1) zeroOffU,
    View.ld_unit_zero (S := S1x128) zeroOffU]
  funext j
  obtain ⟨p, g, rfl⟩ : ∃ (p : Fin 5000) (g : Fin 128), j = ix2 p g := ⟨j 0, j 1, eq_ix2 j⟩
  have ht : t.val < 40 := lt_of_lt_of_eq t.isLt N_6
  obtain ⟨r, hr⟩ : ∃ r : Fin 200000, r.val = t.val * 5000 + p.val := ⟨⟨t.val * 5000 + p.val, by omega⟩, rfl⟩
  show k6_pay1 (iblk6 V c 0 t) (iblk6 V c 1 t) (iblk6 V c 2 t) (iblk6 V c 3 t) (ix2 p g)
    = updLayer (R := 200000) (N := 128) (V c (Pipeline.arrRef spec6 0)) (V c (Pipeline.arrRef spec6 1))
        (V c (Pipeline.arrRef spec6 2)) (V c (Pipeline.arrRef spec6 3))
        (((cfg6.win 4).blk t).view.emb (ix2 p g))
  rw [ublk6_emb t p g r hr]
  refine (upay6_at _ _ _ _ p g).trans ?_
  show updAt _ _ _ _ p g = updAt _ _ _ _ r g
  unfold updAt
  exact congrArg₂ max
    (congrArg₂ (· + ·)
      (congrArg₂ (· + ·) (aggblk6_at V c t p g r hr)
        (congrArg₂ (· * ·) (hwblk6_at V c t p g r hr) (sblk6_at V c t p r hr)))
      (bblk6_at V c t g))
    rfl

/-- An entry of the output array is in point t's block iff its coordinates are in the block's ranges. -/
theorem mem_ublk6 (t : Fin cfg6.N) (i : S200000x128.Idx) :
    i ∈ ((cfg6.win 4).blk t).view.set
      ↔ ∀ a : Fin 2, win6_4.index t a * S5000x128.size a ≤ (i a).val
          ∧ (i a).val < win6_4.index t a * S5000x128.size a + S5000x128.size a := by
  show i ∈ ((View.whole main_v138).slice (win6_4.rect t)).set ↔ _
  rw [View.set_slice_whole, Rect.mem_set_unit]
  exact Iff.rfl

/-- Row r of the output lies in the block of point r / 5000. -/
theorem cover_upd6 (i : S200000x128.Idx) :
    ∃ t : Fin cfg6.N, (cfg6.win 4).flush t = true ∧ i ∈ ((cfg6.win 4).blk t).view.set := by
  have hi0 : (i 0).val < 200000 := (i 0).isLt
  have hi1 : (i 1).val < 128 := (i 1).isLt
  obtain ⟨t, ht⟩ : ∃ t : Fin cfg6.N, t.val = (i 0).val / 5000 :=
    ⟨⟨(i 0).val / 5000, lt_of_lt_of_eq (by omega : (i 0).val / 5000 < 40) N_6.symm⟩, rfl⟩
  obtain ⟨e0, e1⟩ := (blockIdx6 t).2.2.2.2
  refine ⟨t, flush6_4 t, ?_⟩
  rw [mem_ublk6]
  intro a
  match a with
  | ⟨0, _⟩ =>
    show win6_4.index t (0 : Fin 2) * 5000 ≤ (i 0).val ∧ (i 0).val < win6_4.index t (0 : Fin 2) * 5000 + 5000
    omega
  | ⟨1, _⟩ =>
    show win6_4.index t (1 : Fin 2) * 128 ≤ (i 1).val ∧ (i 1).val < win6_4.index t (1 : Fin 2) * 128 + 128
    omega

/-- The output array after region 6 is the whole update of the four operand arrays the region found. -/
theorem upd6 (c : Dev nD) :
    (dat6 (F := Ideal) V c).arrAt 4 cfg6.N
      = updLayer (R := 200000) (N := 128) (V c (Pipeline.arrRef spec6 0)) (V c (Pipeline.arrRef spec6 1))
          (V c (Pipeline.arrRef spec6 2)) (V c (Pipeline.arrRef spec6 3)) :=
  (dat6 (F := Ideal) V c).arrAt_eq_of_cover 4 _ (fun t _ => flushed_upd6 V c t) cover_upd6

/-! ## Region 8: max ((agg + hw · s) + b, 0) on [200000, 64], row blocks of 5000 -/

/-- The body's stored value at an entry: the update of the four loaded blocks there. -/
theorem upay8_at (agg hw : FVec Ideal S5000x64 .f32) (s : FVec Ideal S5000x1 .f32) (b : FVec Ideal S1x64 .f32)
    (p : Fin 5000) (g : Fin 64) :
    k8_pay1 (F := Ideal) agg hw s b (ix2 p g) = updAt agg hw s b p g := by
  unfold k8_pay1
  exact kernel_upd_at agg hw s b _ _ _ _ _ _ p g

/-- At point t the agg, hw, s and output windows sit at row block t, the bias window at block (0, 0). -/
theorem blockIdx8 : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = t.val ∧ win8_2.index t (1 : Fin 2) = 0)
    ∧ (win8_3.index t (0 : Fin 2) = 0 ∧ win8_3.index t (1 : Fin 2) = 0)
    ∧ (win8_4.index t (0 : Fin 2) = t.val ∧ win8_4.index t (1 : Fin 2) = 0) :=
  (by decide +kernel : ∀ t : Fin grid8.N, _)

/-- The agg block at point t holds rows t·5000 + p of agg. -/
theorem aggblk8_at (c : Dev nD) (t : Fin cfg8.N) (p : Fin 5000) (g : Fin 64) (r : Fin 200000)
    (hr : r.val = t.val * 5000 + p.val) :
    (iblk8 V c 0 t : Vec Ideal S5000x64 .f32) (ix2 p g)
      = (V c (Pipeline.arrRef spec8 0) : S200000x64.Idx → EReal) (ix2 r g) := by
  obtain ⟨e0, e1⟩ := (blockIdx8 t).1
  show (V c (Pipeline.arrRef spec8 0) : S200000x64.Idx → EReal) (((cfg8.win 0).blk t).view.emb (ix2 p g)) = _
  refine congrArg _ (funext fun a => Fin.ext ?_)
  match a with
  | ⟨0, _⟩ => show win8_0.index t (0 : Fin 2) * 5000 + 1 * p.val = r.val; omega
  | ⟨1, _⟩ => show win8_0.index t (1 : Fin 2) * 64 + 1 * g.val = g.val; omega

/-- The hw block at point t holds rows t·5000 + p of hw. -/
theorem hwblk8_at (c : Dev nD) (t : Fin cfg8.N) (p : Fin 5000) (g : Fin 64) (r : Fin 200000)
    (hr : r.val = t.val * 5000 + p.val) :
    (iblk8 V c 1 t : Vec Ideal S5000x64 .f32) (ix2 p g)
      = (V c (Pipeline.arrRef spec8 1) : S200000x64.Idx → EReal) (ix2 r g) := by
  obtain ⟨e0, e1⟩ := (blockIdx8 t).2.1
  show (V c (Pipeline.arrRef spec8 1) : S200000x64.Idx → EReal) (((cfg8.win 1).blk t).view.emb (ix2 p g)) = _
  refine congrArg _ (funext fun a => Fin.ext ?_)
  match a with
  | ⟨0, _⟩ => show win8_1.index t (0 : Fin 2) * 5000 + 1 * p.val = r.val; omega
  | ⟨1, _⟩ => show win8_1.index t (1 : Fin 2) * 64 + 1 * g.val = g.val; omega

/-- The s block at point t holds rows t·5000 + p of the column s. -/
theorem sblk8_at (c : Dev nD) (t : Fin cfg8.N) (p : Fin 5000) (r : Fin 200000)
    (hr : r.val = t.val * 5000 + p.val) :
    (iblk8 V c 2 t : Vec Ideal S5000x1 .f32) (ix2 p (0 : Fin 1))
      = (V c (Pipeline.arrRef spec8 2) : S200000x1.Idx → EReal) (ix2 r (0 : Fin 1)) := by
  obtain ⟨e0, e1⟩ := (blockIdx8 t).2.2.1
  show (V c (Pipeline.arrRef spec8 2) : S200000x1.Idx → EReal) (((cfg8.win 2).blk t).view.emb (ix2 p (0 : Fin 1))) = _
  refine congrArg _ (funext fun a => Fin.ext ?_)
  match a with
  | ⟨0, _⟩ => show win8_2.index t (0 : Fin 2) * 5000 + 1 * p.val = r.val; omega
  | ⟨1, _⟩ => show win8_2.index t (1 : Fin 2) * 1 + 1 * 0 = 0; omega

/-- The bias block at any point is the whole bias row. -/
theorem bblk8_at (c : Dev nD) (t : Fin cfg8.N) (g : Fin 64) :
    (iblk8 V c 3 t : Vec Ideal S1x64 .f32) (ix2 (0 : Fin 1) g)
      = (V c (Pipeline.arrRef spec8 3) : S1x64.Idx → EReal) (ix2 (0 : Fin 1) g) := by
  obtain ⟨e0, e1⟩ := (blockIdx8 t).2.2.2.1
  show (V c (Pipeline.arrRef spec8 3) : S1x64.Idx → EReal) (((cfg8.win 3).blk t).view.emb (ix2 (0 : Fin 1) g)) = _
  refine congrArg _ (funext fun a => Fin.ext ?_)
  match a with
  | ⟨0, _⟩ => show win8_3.index t (0 : Fin 2) * 1 + 1 * 0 = 0; omega
  | ⟨1, _⟩ => show win8_3.index t (1 : Fin 2) * 64 + 1 * g.val = g.val; omega

/-- Entry (p, g) of the output block at point t is entry (t·5000 + p, g) of the output array. -/
theorem ublk8_emb (t : Fin cfg8.N) (p : Fin 5000) (g : Fin 64) (r : Fin 200000)
    (hr : r.val = t.val * 5000 + p.val) :
    (((cfg8.win 4).blk t).view.emb (ix2 p g) : S200000x64.Idx) = ix2 r g := by
  obtain ⟨e0, e1⟩ := (blockIdx8 t).2.2.2.2
  refine funext fun a => Fin.ext ?_
  match a with
  | ⟨0, _⟩ => show win8_4.index t (0 : Fin 2) * 5000 + 1 * p.val = r.val; omega
  | ⟨1, _⟩ => show win8_4.index t (1 : Fin 2) * 64 + 1 * g.val = g.val; omega

-- the entry contents are typed through the program's buffer table: matching their types with a literal matrix shape unfolds it
set_option maxHeartbeats 1000000 in
/-- What point t writes back is block t of the whole update. -/
theorem flushed_upd8 (c : Dev nD) (t : Fin cfg8.N) :
    (dat8 (F := Ideal) V c).flushed 4 t
      = ((cfg8.win 4).blk t).view.read (Elt Ideal)
          (updLayer (R := 200000) (N := 64) (V c (Pipeline.arrRef spec8 0)) (V c (Pipeline.arrRef spec8 1))
            (V c (Pipeline.arrRef spec8 2)) (V c (Pipeline.arrRef spec8 3))) := by
  show (cfg8.win 4).cut (grid8.coords t) ((dat8 V c).after 4 t) = _
  rw [after8_4]
  unfold out8_4
  rw [View.canon_unit_zero zeroOffU]
  simp only [View.ld_unit_zero (S := S5000x64) zeroOffU, View.ld_unit_zero (S := S5000x1) zeroOffU,
    View.ld_unit_zero (S := S1x64) zeroOffU]
  funext j
  obtain ⟨p, g, rfl⟩ : ∃ (p : Fin 5000) (g : Fin 64), j = ix2 p g := ⟨j 0, j 1, eq_ix2 j⟩
  have ht : t.val < 40 := lt_of_lt_of_eq t.isLt N_8
  obtain ⟨r, hr⟩ : ∃ r : Fin 200000, r.val = t.val * 5000 + p.val := ⟨⟨t.val * 5000 + p.val, by omega⟩, rfl⟩
  show k8_pay1 (iblk8 V c 0 t) (iblk8 V c 1 t) (iblk8 V c 2 t) (iblk8 V c 3 t) (ix2 p g)
    = updLayer (R := 200000) (N := 64) (V c (Pipeline.arrRef spec8 0)) (V c (Pipeline.arrRef spec8 1))
        (V c (Pipeline.arrRef spec8 2)) (V c (Pipeline.arrRef spec8 3))
        (((cfg8.win 4).blk t).view.emb (ix2 p g))
  rw [ublk8_emb t p g r hr]
  refine (upay8_at _ _ _ _ p g).trans ?_
  show updAt _ _ _ _ p g = updAt _ _ _ _ r g
  unfold updAt
  exact congrArg₂ max
    (congrArg₂ (· + ·)
      (congrArg₂ (· + ·) (aggblk8_at V c t p g r hr)
        (congrArg₂ (· * ·) (hwblk8_at V c t p g r hr) (sblk8_at V c t p r hr)))
      (bblk8_at V c t g))
    rfl

/-- An entry of the output array is in point t's block iff its coordinates are in the block's ranges. -/
theorem mem_ublk8 (t : Fin cfg8.N) (i : S200000x64.Idx) :
    i ∈ ((cfg8.win 4).blk t).view.set
      ↔ ∀ a : Fin 2, win8_4.index t a * S5000x64.size a ≤ (i a).val
          ∧ (i a).val < win8_4.index t a * S5000x64.size a + S5000x64.size a := by
  show i ∈ ((View.whole main_v179).slice (win8_4.rect t)).set ↔ _
  rw [View.set_slice_whole, Rect.mem_set_unit]
  exact Iff.rfl

/-- Row r of the output lies in the block of point r / 5000. -/
theorem cover_upd8 (i : S200000x64.Idx) :
    ∃ t : Fin cfg8.N, (cfg8.win 4).flush t = true ∧ i ∈ ((cfg8.win 4).blk t).view.set := by
  have hi0 : (i 0).val < 200000 := (i 0).isLt
  have hi1 : (i 1).val < 64 := (i 1).isLt
  obtain ⟨t, ht⟩ : ∃ t : Fin cfg8.N, t.val = (i 0).val / 5000 :=
    ⟨⟨(i 0).val / 5000, lt_of_lt_of_eq (by omega : (i 0).val / 5000 < 40) N_8.symm⟩, rfl⟩
  obtain ⟨e0, e1⟩ := (blockIdx8 t).2.2.2.2
  refine ⟨t, flush8_4 t, ?_⟩
  rw [mem_ublk8]
  intro a
  match a with
  | ⟨0, _⟩ =>
    show win8_4.index t (0 : Fin 2) * 5000 ≤ (i 0).val ∧ (i 0).val < win8_4.index t (0 : Fin 2) * 5000 + 5000
    omega
  | ⟨1, _⟩ =>
    show win8_4.index t (1 : Fin 2) * 64 ≤ (i 1).val ∧ (i 1).val < win8_4.index t (1 : Fin 2) * 64 + 64
    omega

/-- The output array after region 8 is the whole update of the four operand arrays the region found. -/
theorem upd8 (c : Dev nD) :
    (dat8 (F := Ideal) V c).arrAt 4 cfg8.N
      = updLayer (R := 200000) (N := 64) (V c (Pipeline.arrRef spec8 0)) (V c (Pipeline.arrRef spec8 1))
          (V c (Pipeline.arrRef spec8 2)) (V c (Pipeline.arrRef spec8 3)) :=
  (dat8 (F := Ideal) V c).arrAt_eq_of_cover 4 _ (fun t _ => flushed_upd8 V c t) cover_upd8

end Cert.KernelIdeal.Dense

end
-- ==== Proof.BridgeC1.lean ====
/-
  The first community layer, on both sides.  The kernel computes the product H = X · W in a pipelined region, then on
  the host, from the edge lists: the in-degree of every node plus one (counted into zeros, the ones added after), its
  inverse square root, the edge weights norm[src] · norm[dst], the messages H[src] scaled by them, their sum per
  destination node and the self-loop weights 1 / degree; a second region makes the node update
  max ((agg + H · (1/deg)) + b, 0).  The reference does all of it on the host, counting the degree into an array of ones
  through the wrapped destination index.  Where no destination index is negative the wrap changes nothing and the two
  degrees are one array (commutativity of +); every other step is the same operation applied to equal arrays; and the
  two spellings of the node update are one function of the aggregated messages, the product, the self-loop column and
  the bias row.
-/
import proofs.«114758_j41918880809423_1_alg».proof.Proof.Gen.KernelIdeal.Frame
import proofs.«114758_j41918880809423_1_alg».proof.Proof.RefRun
import proofs.«114758_j41918880809423_1_alg».proof.Proof.RChain
import proofs.«114758_j41918880809423_1_alg».proof.Proof.KChain
import proofs.«114758_j41918880809423_1_alg».proof.Proof.Basics
import proofs.«114758_j41918880809423_1_alg».proof.Proof.LibGcnUpdate
import proofs.«114758_j41918880809423_1_alg».proof.Proof.BridgeBase
import proofs.«114758_j41918880809423_1_alg».proof.Proof.RefPlain
import proofs.«114758_j41918880809423_1_alg».proof.Proof.RegionLin
import proofs.«114758_j41918880809423_1_alg».proof.Proof.RegionUpd
set_option maxRecDepth 16384
-- reading a stretch of fifty host operations at a buffer is one long simp pass
set_option maxHeartbeats 4000000

noncomputable section

namespace Cert.Bridge

open Cert.KernelIdeal Cert.KernelIdeal.Gen
open Idealize.ShloMosaic Idealize.ShloMosaic.TcCoe Idealize.SL.Sem Idealize.ShloMosaic.ValueIdx Idealize.ShloMosaic.StableHlo
open Cert.Basics Cert.GcnLayers
open Cert.ReferenceIdeal.RefRun (U0 U1 U2 U3 U4 U5 U6 U7 U8 U9 U10 U11 U12 U13 U14 U15)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

set_option quotPrecheck false
/-- The kernel's argument array `b` at launch. -/
local notation "arg(" b ")" => m ((c : Thread nD τ).loc b)
/-- The reference's argument array `b` at launch. -/
local notation "rarg(" b ")" => m' ((c.tc : Thread Cert.ReferenceIdeal.nD Cert.ReferenceIdeal.τ).loc b)

/-- The product, on the kernel's side: region 0 leaves the matrix product of its two input arrays. -/
theorem c1_hK : W1 m ρ c (Proc.devRef .tc main_v0)
    = linLayer (R := 10000) (K := 32) (N := 64) (V0 m ρ c (Pipeline.arrRef spec0 0)) (V0 m ρ c (Pipeline.arrRef spec0 1)) :=
  (W1_arr m ρ c 2).trans (Cert.KernelIdeal.Dense.lin0 (V0 m ρ) c)

/-- The reference's dot_general of this layer is the matrix product. -/
theorem c1_dot (H : FVec Ideal Cert.ReferenceIdeal.S10000x32 .f32) (W : FVec Ideal Cert.ReferenceIdeal.S32x64 .f32) :
    Host.dotGeneral Cert.ReferenceIdeal.dot_S10000x32_S32x64_S10000x64_1_0_0_1_n_n none H W
      = linLayer (R := 10000) (K := 32) (N := 64) H W :=
  host_lin_eq H W

/-- The product, across: the reference's dot_general is the same product of the same arrays. -/
theorem c1_h (e1 : rarg(Cert.ReferenceIdeal.main_arg1) = arg(main_arg1)) (e2 : rarg(Cert.ReferenceIdeal.main_arg2) = arg(main_arg2)) :
    W1 m ρ c (Proc.devRef .tc main_v0) = U1 m' c (Proc.devRef .tc Cert.ReferenceIdeal.main_v0) := by
  rw [c1_hK]
  unfold Cert.ReferenceIdeal.RefRun.U1
  after_results_simp
  rw [Cert.ReferenceIdeal.RefRun.kept0 m' c Cert.ReferenceIdeal.main_arg1 (by simp [Cert.ReferenceIdeal.RefRun.argL]), Cert.ReferenceIdeal.RefRun.kept0 m' c Cert.ReferenceIdeal.main_arg2 (by simp [Cert.ReferenceIdeal.RefRun.argL]), e1, e2, c1_dot]

/-- The degree array. -/
theorem c1_deg (e17 : rarg(Cert.ReferenceIdeal.main_arg17) = arg(main_arg17))
    (h17 : ∀ e, IntOp.cmpi .sge (arg(main_arg17) e) 0#32 = 1#1) :
    W2 m ρ c (Proc.devRef .tc main_v6) = U1 m' c (Proc.devRef .tc Cert.ReferenceIdeal.main_v9) := by
  show StableHlo.after hostOps1 (W1 m ρ c) (Proc.devRef .tc main_v6) = _
  unfold Cert.ReferenceIdeal.RefRun.U1
  after_results_simp
  rw [Cert.KernelIdeal.Chain.at1 m ρ c main_arg17 (by simp [Cert.KernelIdeal.Chain.argL]), Cert.ReferenceIdeal.RefRun.kept0 m' c Cert.ReferenceIdeal.main_arg17 (by simp [Cert.ReferenceIdeal.RefRun.argL]), e17]
  simp only [wrap_zero (s := Cert.ReferenceIdeal.S160000) _ _ _ _ h17, count_zero]
  rfl

/-- The aggregated messages. -/
theorem c1_agg (e1 : rarg(Cert.ReferenceIdeal.main_arg1) = arg(main_arg1)) (e2 : rarg(Cert.ReferenceIdeal.main_arg2) = arg(main_arg2))
    (e16 : rarg(Cert.ReferenceIdeal.main_arg16) = arg(main_arg16)) (e17 : rarg(Cert.ReferenceIdeal.main_arg17) = arg(main_arg17))
    (h17 : ∀ e, IntOp.cmpi .sge (arg(main_arg17) e) 0#32 = 1#1) :
    W2 m ρ c (Proc.devRef .tc main_v35) = U1 m' c (Proc.devRef .tc Cert.ReferenceIdeal.main_v38) := by
  show StableHlo.after hostOps1 (W1 m ρ c) (Proc.devRef .tc main_v35) = _
  unfold Cert.ReferenceIdeal.RefRun.U1
  after_results_simp
  rw [Cert.KernelIdeal.Chain.at1 m ρ c main_arg17 (by simp [Cert.KernelIdeal.Chain.argL]), Cert.KernelIdeal.Chain.at1 m ρ c main_arg16 (by simp [Cert.KernelIdeal.Chain.argL]), c1_hK]
  simp only [Cert.ReferenceIdeal.RefRun.kept0 m' c Cert.ReferenceIdeal.main_arg1 (by simp [Cert.ReferenceIdeal.RefRun.argL]), Cert.ReferenceIdeal.RefRun.kept0 m' c Cert.ReferenceIdeal.main_arg2 (by simp [Cert.ReferenceIdeal.RefRun.argL]), Cert.ReferenceIdeal.RefRun.kept0 m' c Cert.ReferenceIdeal.main_arg16 (by simp [Cert.ReferenceIdeal.RefRun.argL]), Cert.ReferenceIdeal.RefRun.kept0 m' c Cert.ReferenceIdeal.main_arg17 (by simp [Cert.ReferenceIdeal.RefRun.argL]), e1, e2, e16, e17]
  simp only [wrap_zero (s := Cert.ReferenceIdeal.S160000) _ _ _ _ h17, count_zero, c1_dot]
  rfl

/-- The node update.  The kernel's region 1 is the update function of four arrays: the aggregated messages, the product,
    the self-loop column (the reshaped 1 / degree) and the bias row (the reshaped bias vector); the reference's host
    spelling is the same function of the same four (a reshaped vector is the column, or the row, a broadcast makes of it). -/
theorem c1_x (e1 : rarg(Cert.ReferenceIdeal.main_arg1) = arg(main_arg1)) (e2 : rarg(Cert.ReferenceIdeal.main_arg2) = arg(main_arg2))
    (e3 : rarg(Cert.ReferenceIdeal.main_arg3) = arg(main_arg3))
    (e16 : rarg(Cert.ReferenceIdeal.main_arg16) = arg(main_arg16)) (e17 : rarg(Cert.ReferenceIdeal.main_arg17) = arg(main_arg17))
    (h17 : ∀ e, IntOp.cmpi .sge (arg(main_arg17) e) 0#32 = 1#1) :
    W3 m ρ c (Proc.devRef .tc main_v40) = U2 m' c (Proc.devRef .tc Cert.ReferenceIdeal.main_v48) := by
  refine (W3_arr m ρ c 4).trans ?_
  rw [Cert.KernelIdeal.Dense.upd1 (V2 m ρ) c]
  have hagg : V2 m ρ c (Pipeline.arrRef spec1 0) = U1 m' c (Proc.devRef .tc Cert.ReferenceIdeal.main_v38) :=
    c1_agg m ρ m' c e1 e2 e16 e17 h17
  have hh : V2 m ρ c (Pipeline.arrRef spec1 1) = U1 m' c (Proc.devRef .tc Cert.ReferenceIdeal.main_v0) := by
    show StableHlo.after hostOps1 (W1 m ρ c) (Proc.devRef .tc main_v0) = _
    after_results_simp
    exact c1_h m ρ m' c e1 e2
  have hs : V2 m ρ c (Pipeline.arrRef spec1 2)
      = broadcastInDim (⟨2, ![10000, 1]⟩ : Shape) ![0] Cert.ReferenceIdeal.Gen.bcast_S10000_S10000x1_0
          (Host.divf (broadcastInDim Cert.ReferenceIdeal.S10000 ![] Cert.ReferenceIdeal.Gen.bcast_S_S10000 (constant (F := Ideal) Cert.ReferenceIdeal.S_ .f32 0x3F800000#32))
            (U1 m' c (Proc.devRef .tc Cert.ReferenceIdeal.main_v9))) := by
    rw [← c1_deg m ρ m' c e17 h17]
    show StableHlo.after hostOps1 (W1 m ρ c) (Proc.devRef .tc main_v38) = _
    after_results_simp
    exact (col_of_vector _ _ rfl _ _).symm
  have hb : V2 m ρ c (Pipeline.arrRef spec1 3)
      = broadcastInDim (⟨2, ![1, 64]⟩ : Shape) ![1] Cert.ReferenceIdeal.Gen.bcast_S64_S1x64_1 arg(main_arg3) := by
    show StableHlo.after hostOps1 (W1 m ρ c) (Proc.devRef .tc main_v39) = _
    after_results_simp
    rw [Cert.KernelIdeal.Chain.at1 m ρ c main_arg3 (by simp [Cert.KernelIdeal.Chain.argL])]
    exact (Cert.SageLayers.row_of_vector _ _ rfl _ _).symm
  rw [hagg, hh, hs, hb]
  unfold Cert.ReferenceIdeal.RefRun.U2
  rw [Cert.ReferenceIdeal.RefRun.seg2_plain]
  after_results_simp
  rw [Cert.ReferenceIdeal.RefRun.at1 m' c Cert.ReferenceIdeal.main_arg3 (by simp [Cert.ReferenceIdeal.RefRun.argL]), e3]
  symm
  exact host_upd_eq _ _ _ _ _ rfl _ _ rfl rfl _ _ rfl _ _ rfl rfl _ ![] Cert.ReferenceIdeal.Gen.bcast_S_S10000x64

end Cert.Bridge

end
-- ==== Proof.BridgeC2.lean ====
/-
  The second community layer, on both sides.  The kernel computes the product H = X · W of the previous layer's output in a
  pipelined region, then on the host, from the edge lists: the in-degree of every node plus one (counted into zeros, the
  ones added after), its inverse square root, the edge weights norm[src] · norm[dst], the messages H[src] scaled by
  them, their sum per destination node and the self-loop weights 1 / degree; a second region makes the node update
  max ((agg + H · (1/deg)) + b, 0).  The reference does all of it on the host, counting the degree into an array of ones
  through the wrapped destination index.  Given that the previous layer's outputs agree: where no destination index is
  negative the wrap changes nothing and the two degrees are one array (commutativity of +); every other step is the
  same operation applied to equal arrays; and the two spellings of the node update are one function of the aggregated
  messages, the product, the self-loop column and the bias row.
-/
import proofs.«114758_j41918880809423_1_alg».proof.Proof.Gen.KernelIdeal.Frame
import proofs.«114758_j41918880809423_1_alg».proof.Proof.RefRun
import proofs.«114758_j41918880809423_1_alg».proof.Proof.RChain
import proofs.«114758_j41918880809423_1_alg».proof.Proof.KChain
import proofs.«114758_j41918880809423_1_alg».proof.Proof.Basics
import proofs.«114758_j41918880809423_1_alg».proof.Proof.LibGcnUpdate
import proofs.«114758_j41918880809423_1_alg».proof.Proof.BridgeBase
import proofs.«114758_j41918880809423_1_alg».proof.Proof.RefPlain
import proofs.«114758_j41918880809423_1_alg».proof.Proof.RegionLin
import proofs.«114758_j41918880809423_1_alg».proof.Proof.RegionUpd
set_option maxRecDepth 16384
-- reading a stretch of fifty host operations at a buffer is one long simp pass
set_option maxHeartbeats 4000000

noncomputable section

namespace Cert.Bridge

open Cert.KernelIdeal Cert.KernelIdeal.Gen
open Idealize.ShloMosaic Idealize.ShloMosaic.TcCoe Idealize.SL.Sem Idealize.ShloMosaic.ValueIdx Idealize.ShloMosaic.StableHlo
open Cert.Basics Cert.GcnLayers
open Cert.ReferenceIdeal.RefRun (U0 U1 U2 U3 U4 U5 U6 U7 U8 U9 U10 U11 U12 U13 U14 U15)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

set_option quotPrecheck false
/-- The kernel's argument array `b` at launch. -/
local notation "arg(" b ")" => m ((c : Thread nD τ).loc b)
/-- The reference's argument array `b` at launch. -/
local notation "rarg(" b ")" => m' ((c.tc : Thread Cert.ReferenceIdeal.nD Cert.ReferenceIdeal.τ).loc b)

/-- The product, on the kernel's side: region 2 leaves the matrix product of its two input arrays. -/
theorem c2_hK : W4 m ρ c (Proc.devRef .tc main_v41)
    = linLayer (R := 10000) (K := 64) (N := 64) (V3 m ρ c (Pipeline.arrRef spec2 0)) (V3 m ρ c (Pipeline.arrRef spec2 1)) :=
  (W4_arr m ρ c 2).trans (Cert.KernelIdeal.Dense.lin2 (V3 m ρ) c)

/-- The reference's dot_general of this layer is the matrix product. -/
theorem c2_dot (H : FVec Ideal Cert.ReferenceIdeal.S10000x64 .f32) (W : FVec Ideal Cert.ReferenceIdeal.S64x64 .f32) :
    Host.dotGeneral Cert.ReferenceIdeal.dot_S10000x64_S64x64_S10000x64_1_0_0_1_n_n none H W
      = linLayer (R := 10000) (K := 64) (N := 64) H W :=
  host_lin_eq H W

/-- The product's two operands on the kernel's side: the previous layer's output and the weight argument. -/
theorem c2_hK' (hx : W3 m ρ c (Proc.devRef .tc main_v40) = U2 m' c (Proc.devRef .tc Cert.ReferenceIdeal.main_v48)) :
    W4 m ρ c (Proc.devRef .tc main_v41)
      = linLayer (R := 10000) (K := 64) (N := 64) (U2 m' c (Proc.devRef .tc Cert.ReferenceIdeal.main_v48)) arg(main_arg4) := by
  rw [c2_hK]
  have h0 : V3 m ρ c (Pipeline.arrRef spec2 0) = U2 m' c (Proc.devRef .tc Cert.ReferenceIdeal.main_v48) := hx
  have h1 : V3 m ρ c (Pipeline.arrRef spec2 1) = arg(main_arg4) := Cert.KernelIdeal.Chain.at3 m ρ c main_arg4 (by simp [Cert.KernelIdeal.Chain.argL])
  rw [h0, h1]

/-- The product, across. -/
theorem c2_h (e4 : rarg(Cert.ReferenceIdeal.main_arg4) = arg(main_arg4)) (hx : W3 m ρ c (Proc.devRef .tc main_v40) = U2 m' c (Proc.devRef .tc Cert.ReferenceIdeal.main_v48)) :
    W4 m ρ c (Proc.devRef .tc main_v41) = U3 m' c (Proc.devRef .tc Cert.ReferenceIdeal.main_v49) := by
  rw [c2_hK' m ρ m' c hx]
  unfold Cert.ReferenceIdeal.RefRun.U3
  after_results_simp
  rw [Cert.ReferenceIdeal.RefRun.at2 m' c Cert.ReferenceIdeal.main_arg4 (by simp [Cert.ReferenceIdeal.RefRun.argL]), e4, c2_dot]

/-- The degree array. -/
theorem c2_deg (e17 : rarg(Cert.ReferenceIdeal.main_arg17) = arg(main_arg17)) (h17 : ∀ e, IntOp.cmpi .sge (arg(main_arg17) e) 0#32 = 1#1) :
    W5 m ρ c (Proc.devRef .tc main_v47) = U3 m' c (Proc.devRef .tc Cert.ReferenceIdeal.main_v58) := by
  show StableHlo.after hostOps3 (W4 m ρ c) (Proc.devRef .tc main_v47) = _
  unfold Cert.ReferenceIdeal.RefRun.U3
  after_results_simp
  rw [Cert.KernelIdeal.Chain.at4 m ρ c main_arg17 (by simp [Cert.KernelIdeal.Chain.argL]), Cert.ReferenceIdeal.RefRun.at2 m' c Cert.ReferenceIdeal.main_arg17 (by simp [Cert.ReferenceIdeal.RefRun.argL]), e17]
  simp only [wrap_zero (s := Cert.ReferenceIdeal.S160000) _ _ _ _ h17, count_zero]
  rfl

/-- The aggregated messages. -/
theorem c2_agg (e4 : rarg(Cert.ReferenceIdeal.main_arg4) = arg(main_arg4)) (e16 : rarg(Cert.ReferenceIdeal.main_arg16) = arg(main_arg16)) (e17 : rarg(Cert.ReferenceIdeal.main_arg17) = arg(main_arg17)) (h17 : ∀ e, IntOp.cmpi .sge (arg(main_arg17) e) 0#32 = 1#1) (hx : W3 m ρ c (Proc.devRef .tc main_v40) = U2 m' c (Proc.devRef .tc Cert.ReferenceIdeal.main_v48)) :
    W5 m ρ c (Proc.devRef .tc main_v76) = U3 m' c (Proc.devRef .tc Cert.ReferenceIdeal.main_v87) := by
  show StableHlo.after hostOps3 (W4 m ρ c) (Proc.devRef .tc main_v76) = _
  unfold Cert.ReferenceIdeal.RefRun.U3
  after_results_simp
  rw [Cert.KernelIdeal.Chain.at4 m ρ c main_arg17 (by simp [Cert.KernelIdeal.Chain.argL]), Cert.KernelIdeal.Chain.at4 m ρ c main_arg16 (by simp [Cert.KernelIdeal.Chain.argL]), c2_hK' m ρ m' c hx]
  simp only [Cert.ReferenceIdeal.RefRun.at2 m' c Cert.ReferenceIdeal.main_arg4 (by simp [Cert.ReferenceIdeal.RefRun.argL]), Cert.ReferenceIdeal.RefRun.at2 m' c Cert.ReferenceIdeal.main_arg16 (by simp [Cert.ReferenceIdeal.RefRun.argL]), Cert.ReferenceIdeal.RefRun.at2 m' c Cert.ReferenceIdeal.main_arg17 (by simp [Cert.ReferenceIdeal.RefRun.argL]), e4, e16, e17]
  simp only [wrap_zero (s := Cert.ReferenceIdeal.S160000) _ _ _ _ h17, count_zero, c2_dot]
  rfl

/-- The node update.  The kernel's region 3 is the update function of four arrays: the aggregated messages, the product,
    the self-loop column (the reshaped 1 / degree) and the bias row (the reshaped bias vector); the reference's host
    spelling is the same function of the same four (a reshaped vector is the column, or the row, a broadcast makes of it). -/
theorem c2_x (e4 : rarg(Cert.ReferenceIdeal.main_arg4) = arg(main_arg4)) (e5 : rarg(Cert.ReferenceIdeal.main_arg5) = arg(main_arg5)) (e16 : rarg(Cert.ReferenceIdeal.main_arg16) = arg(main_arg16)) (e17 : rarg(Cert.ReferenceIdeal.main_arg17) = arg(main_arg17)) (h17 : ∀ e, IntOp.cmpi .sge (arg(main_arg17) e) 0#32 = 1#1) (hx : W3 m ρ c (Proc.devRef .tc main_v40) = U2 m' c (Proc.devRef .tc Cert.ReferenceIdeal.main_v48)) :
    W6 m ρ c (Proc.devRef .tc main_v81) = U4 m' c (Proc.devRef .tc Cert.ReferenceIdeal.main_v97) := by
  refine (W6_arr m ρ c 4).trans ?_
  rw [Cert.KernelIdeal.Dense.upd3 (V5 m ρ) c]
  have hagg : V5 m ρ c (Pipeline.arrRef spec3 0) = U3 m' c (Proc.devRef .tc Cert.ReferenceIdeal.main_v87) :=
    c2_agg m ρ m' c e4 e16 e17 h17 hx
  have hh : V5 m ρ c (Pipeline.arrRef spec3 1) = U3 m' c (Proc.devRef .tc Cert.ReferenceIdeal.main_v49) := by
    show StableHlo.after hostOps3 (W4 m ρ c) (Proc.devRef .tc main_v41) = _
    after_results_simp
    exact c2_h m ρ m' c e4 hx
  have hs : V5 m ρ c (Pipeline.arrRef spec3 2)
      = broadcastInDim (⟨2, ![10000, 1]⟩ : Shape) ![0] Cert.ReferenceIdeal.Gen.bcast_S10000_S10000x1_0
          (Host.divf (broadcastInDim Cert.ReferenceIdeal.S10000 ![] Cert.ReferenceIdeal.Gen.bcast_S_S10000 (constant (F := Ideal) Cert.ReferenceIdeal.S_ .f32 0x3F800000#32))
            (U3 m' c (Proc.devRef .tc Cert.ReferenceIdeal.main_v58))) := by
    rw [← c2_deg m ρ m' c e17 h17]
    show StableHlo.after hostOps3 (W4 m ρ c) (Proc.devRef .tc main_v79) = _
    after_results_simp
    exact (col_of_vector _ _ rfl _ _).symm
  have hb : V5 m ρ c (Pipeline.arrRef spec3 3)
      = broadcastInDim (⟨2, ![1, 64]⟩ : Shape) ![1] Cert.ReferenceIdeal.Gen.bcast_S64_S1x64_1 arg(main_arg5) := by
    show StableHlo.after hostOps3 (W4 m ρ c) (Proc.devRef .tc main_v80) = _
    after_results_simp
    rw [Cert.KernelIdeal.Chain.at4 m ρ c main_arg5 (by simp [Cert.KernelIdeal.Chain.argL])]
    exact (Cert.SageLayers.row_of_vector _ _ rfl _ _).symm
  rw [hagg, hh, hs, hb]
  unfold Cert.ReferenceIdeal.RefRun.U4
  rw [Cert.ReferenceIdeal.RefRun.seg4_plain]
  after_results_simp
  rw [Cert.ReferenceIdeal.RefRun.at3 m' c Cert.ReferenceIdeal.main_arg5 (by simp [Cert.ReferenceIdeal.RefRun.argL]), e5]
  symm
  exact host_upd_eq _ _ _ _ _ rfl _ _ rfl rfl _ _ rfl _ _ rfl rfl _ ![] Cert.ReferenceIdeal.Gen.bcast_S_S10000x64

end Cert.Bridge

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.SpecAttn.lean ====
/-
  The attention gate over two feature blocks, on the extended reals.

  Two [R, 64] matrices bf and bc are joined along the columns into cat : [R, 128] (column k of cat is column k of bf
  for k < 64 and column k − 64 of bc otherwise).  Each row gets two logits,

      ℓ (r, j) = Σₖ cat (r, k) · W (k, j) + b (0, j),        j = 0, 1,

  and two gate weights, the softmax of the two logits computed after subtracting the row maximum
  m r = max (−∞, ℓ (r, 0), ℓ (r, 1)):

      e (r, j) = exp (ℓ (r, j) − m r),      a (r, j) = e (r, j) / (e (r, 0) + e (r, 1)).

  The result scales the left half of cat by the first weight and the right half by the second:

      out (r, k) = cat (r, k) · a (r, [k ≥ 64]).

  `attnLayer bf bc W b` is that matrix, entry by entry, for any number of rows R.  Entry (r, k) reads only row r of bf
  and of bc (`attnLayer_row`), so a row block of the result is the same function of the row blocks of bf and bc.

  Also here, for any R: a two-piece join along the columns read at an entry (`concat_cols_at`); a column of a two-column
  matrix taken by a slice and repeated along 64 columns (`sliceCol_bcast_at`); and the whole gate in the spelling of a
  pipelined kernel body — the join, the product of the operands narrowed to bf16 into the zero accumulator plus the
  repeated bias row, lane maximum and lane sum over the two logits kept as columns and repeated, the quotient, the two
  columns sliced out, repeated and joined, the product with cat — read at an entry (`kernel_attn_at`).  On the extended
  reals a change of float format is the identity, so nothing but re-indexing separates the spelling from `attnLayer`.
-/
import Idealize.ShloMosaic.Lib.Pipeline.Value
import Idealize.ShloMosaic.Lib.ValueIdx
import Idealize.ShloMosaic.Lib.ValueLayout
import Idealize.ShloMosaic.PureOps.Ideal.Laws
import proofs.«114758_j41918880809423_1_alg».proof.Proof.LibDenseLayers
import proofs.«114758_j41918880809423_1_alg».proof.Proof.LibKeepdims
import proofs.«114758_j41918880809423_1_alg».proof.Proof.LibRowMax

noncomputable section

open scoped BigOperators

namespace Cert.Attn

open Idealize.ShloMosaic Idealize.ShloMosaic.ValueIdx Cert.SageLayers

variable {R : ℕ}

/-! ## The specification -/

/-- Entry (r, k) of two [R, 64] matrices joined along the columns. -/
def catAt {α : Type} (x y : (⟨2, ![R, 64]⟩ : Shape).Idx → α) (r : Fin R) (k : Fin 128) : α :=
  if h : k.val < 64 then x (ix2 r ⟨k.val, h⟩) else y (ix2 r ⟨k.val - 64, by have := k.isLt; omega⟩)

/-- Two [R, 64] matrices joined along the columns, as a whole matrix. -/
def catMat {α : Type} (x y : (⟨2, ![R, 64]⟩ : Shape).Idx → α) : (⟨2, ![R, 128]⟩ : Shape).Idx → α :=
  fun i => catAt x y (i 0) (i 1)

/-- Which of the two gate weights column k of the joined matrix takes: the first on the left half, the second on the
    right half. -/
def half (k : Fin 128) : Fin 2 := if k.val < 64 then 0 else 1

/-- The word of −∞ in f32, on the extended reals. -/
abbrev negInfF : EReal := Ideal.ofBits .f32 0xFF800000#32

/-- The maximum of −∞ and the two logits of row r. -/
def rowMax (L : (⟨2, ![R, 2]⟩ : Shape).Idx → EReal) (r : Fin R) : EReal :=
  (Finset.univ : Finset (Fin 2)).fold max negInfF (fun d => L (ix2 r d))

/-- exp (ℓ (r, j) − m r). -/
def expAt (L : (⟨2, ![R, 2]⟩ : Shape).Idx → EReal) (r : Fin R) (j : Fin 2) : EReal :=
  Ideal.exp (L (ix2 r j) - rowMax L r)

/-- The gate weight a (r, j): the softmax of row r's two logits at j. -/
def gateAt (L : (⟨2, ![R, 2]⟩ : Shape).Idx → EReal) (r : Fin R) (j : Fin 2) : EReal :=
  Ideal.div (expAt L r j) (∑ d : Fin 2, expAt L r d)

/-- The attention gate as a whole matrix: each half of the joined matrix scaled by its gate weight. -/
def attnLayer (bf bc : (⟨2, ![R, 64]⟩ : Shape).Idx → EReal) (W : (⟨2, ![128, 2]⟩ : Shape).Idx → EReal)
    (b : (⟨2, ![1, 2]⟩ : Shape).Idx → EReal) : (⟨2, ![R, 128]⟩ : Shape).Idx → EReal :=
  fun i => catAt bf bc (i 0) (i 1) * gateAt (affLayer (catMat bf bc) W b) (i 0) (half (i 1))

/-! ## The gate weights of a row depend on that row's logits only; an entry on its row of bf and bc only -/

/-- The gate weights of row r of one logit matrix and of row r' of another are equal when the two rows are. -/
theorem gateAt_congr {R' : ℕ} (L : (⟨2, ![R, 2]⟩ : Shape).Idx → EReal) (L' : (⟨2, ![R', 2]⟩ : Shape).Idx → EReal)
    (r : Fin R) (r' : Fin R') (h : ∀ d : Fin 2, L (ix2 r d) = L' (ix2 r' d)) (j : Fin 2) :
    gateAt L r j = gateAt L' r' j := by
  have hm : rowMax L r = rowMax L' r' := by
    unfold rowMax
    exact congrArg (fun f => (Finset.univ : Finset (Fin 2)).fold max negInfF f) (funext h)
  have he : ∀ d : Fin 2, expAt L r d = expAt L' r' d := fun d => by
    unfold expAt
    rw [h d, hm]
  unfold gateAt
  rw [he j, Finset.sum_congr rfl fun d _ => he d]

/-- The joined row r of (x, y) is the joined row r' of (x', y') when the rows of the pieces are equal. -/
theorem catAt_congr {α : Type} {R' : ℕ} (x y : (⟨2, ![R, 64]⟩ : Shape).Idx → α) (x' y' : (⟨2, ![R', 64]⟩ : Shape).Idx → α)
    (r : Fin R) (r' : Fin R') (hx : ∀ k : Fin 64, x (ix2 r k) = x' (ix2 r' k))
    (hy : ∀ k : Fin 64, y (ix2 r k) = y' (ix2 r' k)) (k : Fin 128) : catAt x y r k = catAt x' y' r' k := by
  unfold catAt
  split
  · exact hx _
  · exact hy _

/-- Entry (r, k) of the gate over (bf, bc) is entry (r', k) of the gate over (bf', bc') when row r of bf and bc is
    row r' of bf' and bc': the gate works row by row. -/
theorem attnLayer_row {R' : ℕ} (bf bc : (⟨2, ![R, 64]⟩ : Shape).Idx → EReal) (bf' bc' : (⟨2, ![R', 64]⟩ : Shape).Idx → EReal)
    (W : (⟨2, ![128, 2]⟩ : Shape).Idx → EReal) (b : (⟨2, ![1, 2]⟩ : Shape).Idx → EReal)
    (r : Fin R) (r' : Fin R') (hbf : ∀ k : Fin 64, bf (ix2 r k) = bf' (ix2 r' k))
    (hbc : ∀ k : Fin 64, bc (ix2 r k) = bc' (ix2 r' k)) (k : Fin 128) :
    attnLayer bf bc W b (ix2 r k) = attnLayer bf' bc' W b (ix2 r' k) := by
  have hcat : ∀ q : Fin 128, catAt bf bc r q = catAt bf' bc' r' q := catAt_congr bf bc bf' bc' r r' hbf hbc
  show catAt bf bc r k * gateAt (affLayer (catMat bf bc) W b) r (half k)
    = catAt bf' bc' r' k * gateAt (affLayer (catMat bf' bc') W b) r' (half k)
  rw [hcat k]
  refine congrArg (catAt bf' bc' r' k * ·) (gateAt_congr _ _ r r' (fun d => ?_) (half k))
  show (∑ q : Fin 128, catAt bf bc r q * W (ix2 q d)) + b (ix2 (0 : Fin 1) d)
    = (∑ q : Fin 128, catAt bf' bc' r' q * W (ix2 q d)) + b (ix2 (0 : Fin 1) d)
  rw [Finset.sum_congr rfl fun q _ => congrArg (· * W (ix2 q d)) (hcat q)]

/-! ## Layout steps read at an entry -/

/-- A two-piece join of [R, 64] matrices along the columns, read at (r, k). -/
theorem concat_cols_at {α : Type} (x y : (⟨2, ![R, 64]⟩ : Shape).Idx → α)
    (h : Shape.Concatenates [(⟨2, ![R, 64]⟩ : Shape), ⟨2, ![R, 64]⟩] ⟨2, ![R, 128]⟩ 1) (r : Fin R) (k : Fin 128) :
    concatenate ⟨2, ![R, 128]⟩ 1 [⟨⟨2, ![R, 64]⟩, x⟩, ⟨⟨2, ![R, 64]⟩, y⟩] h (ix2 r k) = catAt x y r k := by
  unfold catAt
  split
  · next hk =>
    refine concatenate_pair_apply_left (t := ⟨2, ![R, 128]⟩) (s₁ := ⟨2, ![R, 64]⟩) (s₂ := ⟨2, ![R, 64]⟩) (1 : Fin 2) x y h
      (ix2 r k) rfl (ix2 r ⟨k.val, hk⟩) fun b => ?_
    match b with
    | ⟨0, _⟩ => rfl
    | ⟨1, _⟩ => rfl
  · next hk =>
    refine concatenate_pair_apply_right (t := ⟨2, ![R, 128]⟩) (s₁ := ⟨2, ![R, 64]⟩) (s₂ := ⟨2, ![R, 64]⟩) (1 : Fin 2) x y h
      (ix2 r k) rfl rfl (ix2 r ⟨k.val - 64, by have := k.isLt; omega⟩) (fun b hb => ?_) ?_
    · match b with
      | ⟨0, _⟩ => rfl
      | ⟨1, _⟩ => exact absurd rfl hb
    · show (k.val - 64) + 64 = k.val
      omega

/-- The join as a whole matrix. -/
theorem concat_cols_eq {α : Type} (x y : (⟨2, ![R, 64]⟩ : Shape).Idx → α)
    (h : Shape.Concatenates [(⟨2, ![R, 64]⟩ : Shape), ⟨2, ![R, 64]⟩] ⟨2, ![R, 128]⟩ 1) :
    concatenate ⟨2, ![R, 128]⟩ 1 [⟨⟨2, ![R, 64]⟩, x⟩, ⟨⟨2, ![R, 64]⟩, y⟩] h = catMat x y := by
  funext i
  obtain ⟨r, k, rfl⟩ : ∃ (r : Fin R) (k : Fin 128), i = ix2 r k := ⟨i 0, i 1, eq_ix2 i⟩
  exact concat_cols_at x y h r k

/-- Column c of a two-column matrix taken by a unit-stride slice at offsets (0, c) reads, at (r, u), the matrix at
    (r, c). -/
theorem sliceCol_at {α : Type} (D : (⟨2, ![R, 2]⟩ : Shape).Idx → α) (c : Fin 2)
    (off : Fin (⟨2, ![R, 2]⟩ : Shape).rank → ℕ) (h0 : off 0 = 0) (h1 : off 1 = c.val)
    (hs : (⟨2, ![R, 2]⟩ : Shape).Slices off ⟨2, ![R, 1]⟩) (r : Fin R) (u : Fin 1) :
    extractStridedSlice ⟨2, ![R, 1]⟩ off D hs (ix2 r u) = D (ix2 r c) := by
  refine extractStridedSlice_apply off D hs (ix2 r u) (ix2 r c) fun a => ?_
  match a with
  | ⟨0, _⟩ =>
    show r.val = off 0 + r.val
    rw [h0, Nat.zero_add]
  | ⟨1, _⟩ =>
    have hu : u.val = 0 := by omega
    show c.val = off 1 + u.val
    rw [h1, hu, Nat.add_zero]

/-- The vector form of the exponential, at an index. -/
theorem exp_apply {s : Shape} {φ : FTy} (x : FVec Ideal s φ) (i : s.Idx) : exp x i = Ideal.exp (x i) := rfl

/-! ## The softmax of the two logits in a kernel body's spelling

  The body takes the lane maximum of the [R, 2] logits over axis 1 from the word of −∞, keeps it as an [R, 1] column,
  repeats the column along the two columns and subtracts; exponentiates; takes the lane sum over axis 1 from the zero
  word, keeps and repeats it the same way, and divides. -/

/-- The row maxima, kept as a column and repeated along the two columns. -/
abbrev kMaxB (L : FVec Ideal ⟨2, ![R, 2]⟩ .f32) (hred : (⟨2, ![R, 2]⟩ : Shape).Reduces [1] ⟨1, ![R]⟩)
    (hφ : FKind.Formats .f32) (hmax : (0xFF800000#32 : BitVec (FTy.bits .f32)) = FKind.maximumf.neutral .f32 hφ)
    (hc : (⟨1, ![R]⟩ : Shape).ShapeCasts ⟨2, ![R, 1]⟩) (hb : (⟨2, ![R, 1]⟩ : Shape).Broadcasts ⟨2, ![R, 2]⟩) :
    FVec Ideal ⟨2, ![R, 2]⟩ .f32 :=
  broadcastTo ⟨2, ![R, 2]⟩
    (shapeCast ⟨2, ![R, 1]⟩ (multiReduction .maximumf [1] ⟨1, ![R]⟩ L 0xFF800000#32 hred hφ hmax) hc) hb

/-- The exponentials of the logits less their row maximum. -/
abbrev kExp (L : FVec Ideal ⟨2, ![R, 2]⟩ .f32) (hred : (⟨2, ![R, 2]⟩ : Shape).Reduces [1] ⟨1, ![R]⟩)
    (hφ : FKind.Formats .f32) (hmax : (0xFF800000#32 : BitVec (FTy.bits .f32)) = FKind.maximumf.neutral .f32 hφ)
    (hc : (⟨1, ![R]⟩ : Shape).ShapeCasts ⟨2, ![R, 1]⟩) (hb : (⟨2, ![R, 1]⟩ : Shape).Broadcasts ⟨2, ![R, 2]⟩) :
    FVec Ideal ⟨2, ![R, 2]⟩ .f32 :=
  exp (subf L (kMaxB L hred hφ hmax hc hb))

/-- The row sums of the exponentials, kept as a column and repeated along the two columns. -/
abbrev kSumB (L : FVec Ideal ⟨2, ![R, 2]⟩ .f32) (hred : (⟨2, ![R, 2]⟩ : Shape).Reduces [1] ⟨1, ![R]⟩)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hc : (⟨1, ![R]⟩ : Shape).ShapeCasts ⟨2, ![R, 1]⟩) (hb : (⟨2, ![R, 1]⟩ : Shape).Broadcasts ⟨2, ![R, 2]⟩) :
    FVec Ideal ⟨2, ![R, 2]⟩ .f32 :=
  broadcastTo ⟨2, ![R, 2]⟩
    (shapeCast ⟨2, ![R, 1]⟩
      (multiReduction .add [1] ⟨1, ![R]⟩ (kExp L hred hφ hmax hc hb) 0x00000000#32 hred hφ hadd) hc) hb

/-- The gate weights: the exponentials over their row sums. -/
abbrev kGate (L : FVec Ideal ⟨2, ![R, 2]⟩ .f32) (hred : (⟨2, ![R, 2]⟩ : Shape).Reduces [1] ⟨1, ![R]⟩)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hc : (⟨1, ![R]⟩ : Shape).ShapeCasts ⟨2, ![R, 1]⟩) (hb : (⟨2, ![R, 1]⟩ : Shape).Broadcasts ⟨2, ![R, 2]⟩) :
    FVec Ideal ⟨2, ![R, 2]⟩ .f32 :=
  divf (kExp L hred hφ hmax hc hb) (kSumB L hred hφ hmax hadd hc hb)

theorem kMaxB_at (L : FVec Ideal ⟨2, ![R, 2]⟩ .f32) (hred : (⟨2, ![R, 2]⟩ : Shape).Reduces [1] ⟨1, ![R]⟩)
    (hφ : FKind.Formats .f32) (hmax : (0xFF800000#32 : BitVec (FTy.bits .f32)) = FKind.maximumf.neutral .f32 hφ)
    (hc : (⟨1, ![R]⟩ : Shape).ShapeCasts ⟨2, ![R, 1]⟩) (hb : (⟨2, ![R, 1]⟩ : Shape).Broadcasts ⟨2, ![R, 2]⟩)
    (r : Fin R) (j : Fin 2) : kMaxB L hred hφ hmax hc hb (ix2 r j) = rowMax L r := by
  show broadcastTo ⟨2, ![R, 2]⟩
    (shapeCast ⟨2, ![R, 1]⟩ (multiReduction .maximumf [1] ⟨1, ![R]⟩ L 0xFF800000#32 hred hφ hmax) hc) hb (ix2 r j) = _
  rw [Cert.LibKeepdims.broadcastTo_a1_ab_apply, Cert.LibKeepdims.shapeCast_a_a1_apply,
    Cert.LibRowMax.multiReduction_maximumf_rows]
  rfl

theorem kExp_at (L : FVec Ideal ⟨2, ![R, 2]⟩ .f32) (hred : (⟨2, ![R, 2]⟩ : Shape).Reduces [1] ⟨1, ![R]⟩)
    (hφ : FKind.Formats .f32) (hmax : (0xFF800000#32 : BitVec (FTy.bits .f32)) = FKind.maximumf.neutral .f32 hφ)
    (hc : (⟨1, ![R]⟩ : Shape).ShapeCasts ⟨2, ![R, 1]⟩) (hb : (⟨2, ![R, 1]⟩ : Shape).Broadcasts ⟨2, ![R, 2]⟩)
    (r : Fin R) (j : Fin 2) : kExp L hred hφ hmax hc hb (ix2 r j) = expAt L r j := by
  show Ideal.exp (L (ix2 r j) - kMaxB L hred hφ hmax hc hb (ix2 r j)) = _
  rw [kMaxB_at]
  rfl

theorem kSumB_at (L : FVec Ideal ⟨2, ![R, 2]⟩ .f32) (hred : (⟨2, ![R, 2]⟩ : Shape).Reduces [1] ⟨1, ![R]⟩)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hc : (⟨1, ![R]⟩ : Shape).ShapeCasts ⟨2, ![R, 1]⟩) (hb : (⟨2, ![R, 1]⟩ : Shape).Broadcasts ⟨2, ![R, 2]⟩)
    (r : Fin R) (j : Fin 2) : kSumB L hred hφ hmax hadd hc hb (ix2 r j) = ∑ d : Fin 2, expAt L r d := by
  show broadcastTo ⟨2, ![R, 2]⟩
    (shapeCast ⟨2, ![R, 1]⟩
      (multiReduction .add [1] ⟨1, ![R]⟩ (kExp L hred hφ hmax hc hb) 0x00000000#32 hred hφ hadd) hc) hb (ix2 r j) = _
  rw [Cert.LibKeepdims.broadcastTo_a1_ab_apply, Cert.LibKeepdims.shapeCast_a_a1_apply,
    Cert.LibKeepdims.multiReduction_add_rows]
  exact Finset.sum_congr rfl fun d _ => kExp_at L hred hφ hmax hc hb r d

/-- The kernel body's softmax of the two logits, read at an entry, is the gate weight. -/
theorem kGate_at (L : FVec Ideal ⟨2, ![R, 2]⟩ .f32) (hred : (⟨2, ![R, 2]⟩ : Shape).Reduces [1] ⟨1, ![R]⟩)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hc : (⟨1, ![R]⟩ : Shape).ShapeCasts ⟨2, ![R, 1]⟩) (hb : (⟨2, ![R, 1]⟩ : Shape).Broadcasts ⟨2, ![R, 2]⟩)
    (r : Fin R) (j : Fin 2) : kGate L hred hφ hmax hadd hc hb (ix2 r j) = gateAt L r j := by
  show Ideal.div (kExp L hred hφ hmax hc hb (ix2 r j)) (kSumB L hred hφ hmax hadd hc hb (ix2 r j)) = _
  rw [kExp_at, kSumB_at]
  rfl

/-! ## The two gate columns sliced out, repeated and joined -/

/-- Column c of a two-column matrix sliced out, kept as an [R, 1] column and repeated along 64 columns reads, at
    (r, q), the matrix at (r, c). -/
theorem sliceCol_bcast_at {α : Type} (D : (⟨2, ![R, 2]⟩ : Shape).Idx → α) (c : Fin 2)
    (off : Fin (⟨2, ![R, 2]⟩ : Shape).rank → ℕ) (h0 : off 0 = 0) (h1 : off 1 = c.val)
    (hs : (⟨2, ![R, 2]⟩ : Shape).Slices off ⟨2, ![R, 1]⟩)
    (hcc : (⟨2, ![R, 1]⟩ : Shape).ShapeCasts ⟨2, ![R, 1]⟩) (hb : (⟨2, ![R, 1]⟩ : Shape).Broadcasts ⟨2, ![R, 64]⟩)
    (r : Fin R) (q : Fin 64) :
    broadcastTo ⟨2, ![R, 64]⟩ (shapeCast ⟨2, ![R, 1]⟩ (extractStridedSlice ⟨2, ![R, 1]⟩ off D hs) hcc) hb (ix2 r q)
      = D (ix2 r c) := by
  rw [Cert.LibKeepdims.broadcastTo_a1_ab_apply, shapeCast_self]
  exact sliceCol_at D c off h0 h1 hs r 0

/-- The two columns of a two-column matrix, each repeated along 64 columns, joined along the columns: entry (r, k) is
    the matrix at (r, 0) on the left half and at (r, 1) on the right half. -/
theorem gateCols_at {α : Type} (D : (⟨2, ![R, 2]⟩ : Shape).Idx → α)
    (off0 off1 : Fin (⟨2, ![R, 2]⟩ : Shape).rank → ℕ) (h00 : off0 0 = 0) (h01 : off0 1 = 0) (h10 : off1 0 = 0)
    (h11 : off1 1 = 1)
    (hs0 : (⟨2, ![R, 2]⟩ : Shape).Slices off0 ⟨2, ![R, 1]⟩) (hs1 : (⟨2, ![R, 2]⟩ : Shape).Slices off1 ⟨2, ![R, 1]⟩)
    (hcc : (⟨2, ![R, 1]⟩ : Shape).ShapeCasts ⟨2, ![R, 1]⟩) (hb : (⟨2, ![R, 1]⟩ : Shape).Broadcasts ⟨2, ![R, 64]⟩)
    (hcat : Shape.Concatenates [(⟨2, ![R, 64]⟩ : Shape), ⟨2, ![R, 64]⟩] ⟨2, ![R, 128]⟩ 1) (r : Fin R) (k : Fin 128) :
    concatenate ⟨2, ![R, 128]⟩ 1
        [⟨⟨2, ![R, 64]⟩,
            broadcastTo ⟨2, ![R, 64]⟩ (shapeCast ⟨2, ![R, 1]⟩ (extractStridedSlice ⟨2, ![R, 1]⟩ off0 D hs0) hcc) hb⟩,
          ⟨⟨2, ![R, 64]⟩,
            broadcastTo ⟨2, ![R, 64]⟩ (shapeCast ⟨2, ![R, 1]⟩ (extractStridedSlice ⟨2, ![R, 1]⟩ off1 D hs1) hcc) hb⟩]
        hcat (ix2 r k)
      = D (ix2 r (half k)) := by
  rw [concat_cols_at]
  unfold catAt half
  by_cases hk : k.val < 64
  · rw [dif_pos hk, if_pos hk]
    exact sliceCol_bcast_at D 0 off0 h00 h01 hs0 hcc hb r _
  · rw [dif_neg hk, if_neg hk]
    exact sliceCol_bcast_at D 1 off1 h10 h11 hs1 hcc hb r _

/-! ## The whole gate in a kernel body's spelling -/

/-- The logits: the product of the joined matrix and the weights, both narrowed to bf16, into the zero accumulator, plus
    the bias row repeated down the rows. The second piece of the join passes through an identity cast. -/
abbrev kLogits (bf bc : FVec Ideal ⟨2, ![R, 64]⟩ .f32) (W : FVec Ideal ⟨2, ![128, 2]⟩ .f32)
    (b : FVec Ideal ⟨2, ![1, 2]⟩ .f32) (hc64 : (⟨2, ![R, 64]⟩ : Shape).ShapeCasts ⟨2, ![R, 64]⟩)
    (hcat : Shape.Concatenates [(⟨2, ![R, 64]⟩ : Shape), ⟨2, ![R, 64]⟩] ⟨2, ![R, 128]⟩ 1)
    (ht1 : FTy.bf16.bits < FTy.f32.bits) (ht2 : FTy.bf16.bits < FTy.f32.bits)
    (hc12 : (⟨2, ![1, 2]⟩ : Shape).ShapeCasts ⟨2, ![1, 2]⟩) (hb12 : (⟨2, ![1, 2]⟩ : Shape).Broadcasts ⟨2, ![R, 2]⟩) :
    FVec Ideal ⟨2, ![R, 2]⟩ .f32 :=
  addf
    (matmul (DotDims.plain R 128 2) none
      (truncf .bf16
        (concatenate ⟨2, ![R, 128]⟩ 1 [⟨⟨2, ![R, 64]⟩, bf⟩, ⟨⟨2, ![R, 64]⟩, shapeCast ⟨2, ![R, 64]⟩ bc hc64⟩] hcat) ht1)
      (truncf .bf16 W ht2) (constant ⟨2, ![R, 2]⟩ .f32 0x00000000#32))
    (broadcastTo ⟨2, ![R, 2]⟩ (shapeCast ⟨2, ![1, 2]⟩ b hc12) hb12)

/-- The kernel body's logits are the dense layer cat · W + b of the joined matrix. -/
theorem kLogits_eq (bf bc : FVec Ideal ⟨2, ![R, 64]⟩ .f32) (W : FVec Ideal ⟨2, ![128, 2]⟩ .f32)
    (b : FVec Ideal ⟨2, ![1, 2]⟩ .f32) (hc64 : (⟨2, ![R, 64]⟩ : Shape).ShapeCasts ⟨2, ![R, 64]⟩)
    (hcat : Shape.Concatenates [(⟨2, ![R, 64]⟩ : Shape), ⟨2, ![R, 64]⟩] ⟨2, ![R, 128]⟩ 1)
    (ht1 : FTy.bf16.bits < FTy.f32.bits) (ht2 : FTy.bf16.bits < FTy.f32.bits)
    (hc12 : (⟨2, ![1, 2]⟩ : Shape).ShapeCasts ⟨2, ![1, 2]⟩) (hb12 : (⟨2, ![1, 2]⟩ : Shape).Broadcasts ⟨2, ![R, 2]⟩) :
    kLogits bf bc W b hc64 hcat ht1 ht2 hc12 hb12 = affLayer (catMat bf bc) W b := by
  funext i
  obtain ⟨r, g, rfl⟩ : ∃ (r : Fin R) (g : Fin 2), i = ix2 r g := ⟨i 0, i 1, eq_ix2 i⟩
  show addf
    (matmul (DotDims.plain R 128 2) none
      (truncf .bf16
        (concatenate ⟨2, ![R, 128]⟩ 1 [⟨⟨2, ![R, 64]⟩, bf⟩, ⟨⟨2, ![R, 64]⟩, shapeCast ⟨2, ![R, 64]⟩ bc hc64⟩] hcat) ht1)
      (truncf .bf16 W ht2) (constant ⟨2, ![R, 2]⟩ .f32 0x00000000#32))
    (broadcastTo ⟨2, ![R, 2]⟩ (shapeCast ⟨2, ![1, 2]⟩ b hc12) hb12) (ix2 r g) = _
  rw [shapeCast_self bc hc64, concat_cols_eq]
  exact kernel_affine_at (catMat bf bc) W b ht1 ht2 hc12 hb12 r g

/-- The whole gate in the kernel body's spelling, read at an entry, is the attention gate's entry. -/
theorem kernel_attn_at (bf bc : FVec Ideal ⟨2, ![R, 64]⟩ .f32) (W : FVec Ideal ⟨2, ![128, 2]⟩ .f32)
    (b : FVec Ideal ⟨2, ![1, 2]⟩ .f32) (hc64 : (⟨2, ![R, 64]⟩ : Shape).ShapeCasts ⟨2, ![R, 64]⟩)
    (hcat : Shape.Concatenates [(⟨2, ![R, 64]⟩ : Shape), ⟨2, ![R, 64]⟩] ⟨2, ![R, 128]⟩ 1)
    (ht1 : FTy.bf16.bits < FTy.f32.bits) (ht2 : FTy.bf16.bits < FTy.f32.bits)
    (hc12 : (⟨2, ![1, 2]⟩ : Shape).ShapeCasts ⟨2, ![1, 2]⟩) (hb12 : (⟨2, ![1, 2]⟩ : Shape).Broadcasts ⟨2, ![R, 2]⟩)
    (hred : (⟨2, ![R, 2]⟩ : Shape).Reduces [1] ⟨1, ![R]⟩)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hc : (⟨1, ![R]⟩ : Shape).ShapeCasts ⟨2, ![R, 1]⟩) (hb2 : (⟨2, ![R, 1]⟩ : Shape).Broadcasts ⟨2, ![R, 2]⟩)
    (off0 off1 : Fin (⟨2, ![R, 2]⟩ : Shape).rank → ℕ) (h00 : off0 0 = 0) (h01 : off0 1 = 0) (h10 : off1 0 = 0)
    (h11 : off1 1 = 1)
    (hs0 : (⟨2, ![R, 2]⟩ : Shape).Slices off0 ⟨2, ![R, 1]⟩) (hs1 : (⟨2, ![R, 2]⟩ : Shape).Slices off1 ⟨2, ![R, 1]⟩)
    (hc11 : (⟨2, ![R, 1]⟩ : Shape).ShapeCasts ⟨2, ![R, 1]⟩) (hb64 : (⟨2, ![R, 1]⟩ : Shape).Broadcasts ⟨2, ![R, 64]⟩)
    (r : Fin R) (k : Fin 128) :
    mulf
        (concatenate ⟨2, ![R, 128]⟩ 1 [⟨⟨2, ![R, 64]⟩, bf⟩, ⟨⟨2, ![R, 64]⟩, shapeCast ⟨2, ![R, 64]⟩ bc hc64⟩] hcat)
        (concatenate ⟨2, ![R, 128]⟩ 1
          [⟨⟨2, ![R, 64]⟩,
              broadcastTo ⟨2, ![R, 64]⟩
                (shapeCast ⟨2, ![R, 1]⟩
                  (extractStridedSlice ⟨2, ![R, 1]⟩ off0
                    (kGate (kLogits bf bc W b hc64 hcat ht1 ht2 hc12 hb12) hred hφ hmax hadd hc hb2) hs0) hc11) hb64⟩,
            ⟨⟨2, ![R, 64]⟩,
              broadcastTo ⟨2, ![R, 64]⟩
                (shapeCast ⟨2, ![R, 1]⟩
                  (extractStridedSlice ⟨2, ![R, 1]⟩ off1
                    (kGate (kLogits bf bc W b hc64 hcat ht1 ht2 hc12 hb12) hred hφ hmax hadd hc hb2) hs1) hc11) hb64⟩]
          hcat)
        (ix2 r k)
      = attnLayer bf bc W b (ix2 r k) := by
  rw [mulf_apply,
    gateCols_at (kGate (kLogits bf bc W b hc64 hcat ht1 ht2 hc12 hb12) hred hφ hmax hadd hc hb2) off0 off1 h00 h01 h10 h11
      hs0 hs1 hc11 hb64 hcat r k,
    kGate_at, kLogits_eq, shapeCast_self bc hc64, concat_cols_at]
  rfl

end Cert.Attn

end
-- ==== Proof.RegionAttn.lean ====
/-
  The attention gate region of the kernel program: the output array after the region is the attention gate of the
  region's four input arrays.

  The region walks 40 row blocks of 5000 rows.  At point t the body holds rows 5000·t … 5000·t + 4999 of bf and of bc
  (two [5000, 64] blocks), the whole [128, 2] weight matrix and the whole [1, 2] bias row, and stores one
  [5000, 128] block, the gate of what it holds.  Entry (r, k) of the gate reads only row r of bf and bc, so the block
  stored at point t is rows 5000·t … of the gate of the whole arrays; the 40 blocks tile the 200000 rows (row r lies
  in block r / 5000), so the array ends holding the gate of the whole arrays.
-/
import proofs.«114758_j41918880809423_1_alg».proof.Proof.Gen.KernelIdeal.Frame
import proofs.«114758_j41918880809423_1_alg».proof.Proof.SpecAttn
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

/-- The body's stored value, read at an entry, is the gate of the four loaded blocks. -/
theorem attn_pay_at (v0 v1 : Vec Ideal S5000x64 .f32) (v5 : Vec Ideal S128x2 .f32) (v8 : Vec Ideal S1x2 .f32)
    (r : Fin 5000) (k : Fin 128) :
    Gen.k4_pay1 (F := Ideal) v0 v1 v5 v8 (ix2 r k) = Cert.Attn.attnLayer (R := 5000) v0 v1 v5 v8 (ix2 r k) := by
  unfold Gen.k4_pay1
  exact Cert.Attn.kernel_attn_at (R := 5000) v0 v1 v5 v8 _ _ _ _ _ _ _ (.inl rfl) rfl rfl _ _ ![0, 0] ![0, 1] rfl rfl rfl rfl
    _ _ _ _ r k

/-- The body's stored value is the gate of the four loaded blocks. -/
theorem attn_pay_eq (v0 v1 : Vec Ideal S5000x64 .f32) (v5 : Vec Ideal S128x2 .f32) (v8 : Vec Ideal S1x2 .f32) :
    Gen.k4_pay1 (F := Ideal) v0 v1 v5 v8 = Cert.Attn.attnLayer (R := 5000) v0 v1 v5 v8 := by
  funext y
  obtain ⟨r, k, rfl⟩ : ∃ (r : Fin 5000) (k : Fin 128), y = ix2 r k := ⟨y 0, y 1, eq_ix2 y⟩
  exact attn_pay_at v0 v1 v5 v8 r k

variable (V : (c : Dev nD) → (b : Ref sig .tc) → Buf (Elt Ideal) ((c : Thread nD τ).loc b))

/-- The zero offsets of a whole-block load or store. -/
theorem attn_hz : (![0, 0] : Fin 2 → Nat) = fun _ => 0 := funext fun a => by fin_cases a <;> rfl

/-- The printed index maps, decided once over the 40 points: the row-block windows (bf, bc, the output) are at block
    (t, 0), the whole-array windows (weights, bias row) at block (0, 0). -/
theorem attn_idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The whole-array window of the weights: its block at any point is the array. -/
theorem attn_blk2 (c : Dev nD) (t : Fin cfg4.N) :
    (iblk4 V c 2 t : S128x2.Idx → EReal) = (V c (Pipeline.arrRef spec4 2) : S128x2.Idx → EReal) := by
  obtain ⟨e00, e01, e10, e11, e20, e21, e30, e31, e40, e41⟩ := attn_idx t
  funext y
  show (V c (Pipeline.arrRef spec4 2) : S128x2.Idx → EReal) (((cfg4.win 2).blk t).view.emb y) = _
  refine congrArg _ (funext fun a => Fin.ext ?_)
  match a with
  | ⟨0, _⟩ =>
    show win4_2.index t (0 : Fin 2) * 128 + 1 * (y 0).val = (y 0).val
    rw [e20]; omega
  | ⟨1, _⟩ =>
    show win4_2.index t (1 : Fin 2) * 2 + 1 * (y 1).val = (y 1).val
    rw [e21]; omega

/-- The whole-array window of the bias row: its block at any point is the array. -/
theorem attn_blk3 (c : Dev nD) (t : Fin cfg4.N) :
    (iblk4 V c 3 t : S1x2.Idx → EReal) = (V c (Pipeline.arrRef spec4 3) : S1x2.Idx → EReal) := by
  obtain ⟨e00, e01, e10, e11, e20, e21, e30, e31, e40, e41⟩ := attn_idx t
  funext y
  show (V c (Pipeline.arrRef spec4 3) : S1x2.Idx → EReal) (((cfg4.win 3).blk t).view.emb y) = _
  refine congrArg _ (funext fun a => Fin.ext ?_)
  match a with
  | ⟨0, _⟩ =>
    show win4_3.index t (0 : Fin 2) * 1 + 1 * (y 0).val = (y 0).val
    rw [e30]; omega
  | ⟨1, _⟩ =>
    show win4_3.index t (1 : Fin 2) * 2 + 1 * (y 1).val = (y 1).val
    rw [e31]; omega

/-- Row p of the block of bf at point t is row 5000·t + p of bf. -/
theorem attn_blk0 (c : Dev nD) (t : Fin cfg4.N) (p : Fin 5000) (p' : Fin 200000) (hp : p'.val = t.val * 5000 + p.val)
    (k : Fin 64) :
    (iblk4 V c 0 t : S5000x64.Idx → EReal) (ix2 p k) = (V c (Pipeline.arrRef spec4 0) : S200000x64.Idx → EReal) (ix2 p' k) := by
  obtain ⟨e00, e01, e10, e11, e20, e21, e30, e31, e40, e41⟩ := attn_idx t
  show (V c (Pipeline.arrRef spec4 0) : S200000x64.Idx → EReal) (((cfg4.win 0).blk t).view.emb (ix2 p k)) = _
  refine congrArg _ (funext fun a => Fin.ext ?_)
  match a with
  | ⟨0, _⟩ =>
    show win4_0.index t (0 : Fin 2) * 5000 + 1 * p.val = p'.val
    rw [e00, hp]; omega
  | ⟨1, _⟩ =>
    show win4_0.index t (1 : Fin 2) * 64 + 1 * k.val = k.val
    rw [e01]; omega

/-- Row p of the block of bc at point t is row 5000·t + p of bc. -/
theorem attn_blk1 (c : Dev nD) (t : Fin cfg4.N) (p : Fin 5000) (p' : Fin 200000) (hp : p'.val = t.val * 5000 + p.val)
    (k : Fin 64) :
    (iblk4 V c 1 t : S5000x64.Idx → EReal) (ix2 p k) = (V c (Pipeline.arrRef spec4 1) : S200000x64.Idx → EReal) (ix2 p' k) := by
  obtain ⟨e00, e01, e10, e11, e20, e21, e30, e31, e40, e41⟩ := attn_idx t
  show (V c (Pipeline.arrRef spec4 1) : S200000x64.Idx → EReal) (((cfg4.win 1).blk t).view.emb (ix2 p k)) = _
  refine congrArg _ (funext fun a => Fin.ext ?_)
  match a with
  | ⟨0, _⟩ =>
    show win4_1.index t (0 : Fin 2) * 5000 + 1 * p.val = p'.val
    rw [e10, hp]; omega
  | ⟨1, _⟩ =>
    show win4_1.index t (1 : Fin 2) * 64 + 1 * k.val = k.val
    rw [e11]; omega

/-- Entry (p, q) of the output block at point t sits at (5000·t + p, q) of the output array. -/
theorem attn_emb4 (t : Fin cfg4.N) (p : Fin 5000) (q : Fin 128) (p' : Fin 200000) (hp : p'.val = t.val * 5000 + p.val) :
    (((cfg4.win 4).blk t).view.emb (ix2 p q) : S200000x128.Idx) = ix2 p' q := by
  obtain ⟨e00, e01, e10, e11, e20, e21, e30, e31, e40, e41⟩ := attn_idx t
  refine funext fun a => Fin.ext ?_
  match a with
  | ⟨0, _⟩ =>
    show win4_4.index t (0 : Fin 2) * 5000 + 1 * p.val = p'.val
    rw [e40, hp]; omega
  | ⟨1, _⟩ =>
    show win4_4.index t (1 : Fin 2) * 128 + 1 * q.val = q.val
    rw [e41]; omega

/-- What point t writes back is block t of the gate of the whole arrays. -/
theorem attn_flushed (c : Dev nD) (t : Fin cfg4.N) :
    (dat4 (F := Ideal) V c).flushed 4 t = ((cfg4.win 4).blk t).view.read (Elt Ideal)
      (Cert.Attn.attnLayer (R := 200000) (V c (Pipeline.arrRef spec4 0)) (V c (Pipeline.arrRef spec4 1))
        (V c (Pipeline.arrRef spec4 2)) (V c (Pipeline.arrRef spec4 3))) := by
  show (cfg4.win 4).cut (grid4.coords t) ((dat4 V c).after 4 t) = _
  rw [after4_4]
  unfold out4_4
  rw [View.canon_unit_zero attn_hz]
  simp only [View.ld_unit_zero (S := S5000x64) attn_hz, View.ld_unit_zero (S := S128x2) attn_hz, View.ld_unit_zero (S := S1x2) attn_hz]
  rw [attn_pay_eq]
  funext y
  obtain ⟨p, q, rfl⟩ : ∃ (p : Fin 5000) (q : Fin 128), y = ix2 p q := ⟨y 0, y 1, eq_ix2 y⟩
  have hN : cfg4.N = 40 := N_4
  have hp : t.val * 5000 + p.val < 200000 := by have := t.isLt; omega
  show Attn.attnLayer (R := 5000) (iblk4 V c 0 t) (iblk4 V c 1 t) (iblk4 V c 2 t) (iblk4 V c 3 t) (ix2 p q)
    = Attn.attnLayer (R := 200000) (V c (Pipeline.arrRef spec4 0)) (V c (Pipeline.arrRef spec4 1))
        (V c (Pipeline.arrRef spec4 2)) (V c (Pipeline.arrRef spec4 3)) (((cfg4.win 4).blk t).view.emb (ix2 p q))
  rw [attn_emb4 t p q ⟨t.val * 5000 + p.val, hp⟩ rfl, attn_blk2 V c t, attn_blk3 V c t]
  exact Cert.Attn.attnLayer_row (R := 5000) (R' := 200000) (iblk4 V c 0 t) (iblk4 V c 1 t) (V c (Pipeline.arrRef spec4 0))
    (V c (Pipeline.arrRef spec4 1)) (V c (Pipeline.arrRef spec4 2)) (V c (Pipeline.arrRef spec4 3)) p
    ⟨t.val * 5000 + p.val, hp⟩ (fun k => attn_blk0 V c t p _ rfl k) (fun k => attn_blk1 V c t p _ rfl k) q

/-- An index of the output array is in point t's block iff each coordinate is in the block's range on its axis. -/
theorem attn_mem_blk (t : Fin cfg4.N) (i : S200000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v90).slice (win4_4.rect t)).set ↔ _
  rw [View.set_slice_whole, Rect.mem_set_unit]
  exact Iff.rfl

/-- Every index of the output array is in some point's block: row r is in block r / 5000. -/
theorem attn_cover (i : S200000x128.Idx) :
    ∃ t : Fin cfg4.N, (cfg4.win 4).flush t = true ∧ i ∈ ((cfg4.win 4).blk t).view.set := by
  have hi0 : (i 0).val < 200000 := (i 0).isLt
  have hi1 : (i 1).val < 128 := (i 1).isLt
  have hN : cfg4.N = 40 := N_4
  obtain ⟨t, ht⟩ : ∃ t : Fin cfg4.N, t.val = (i 0).val / 5000 := ⟨⟨(i 0).val / 5000, by rw [hN]; omega⟩, rfl⟩
  obtain ⟨-, -, -, -, -, -, -, -, e40, e41⟩ := attn_idx t
  refine ⟨t, flush4_4 t, ?_⟩
  rw [attn_mem_blk]
  intro a
  match a with
  | ⟨0, _⟩ =>
    show win4_4.index t (0 : Fin 2) * 5000 ≤ (i 0).val ∧ (i 0).val < win4_4.index t (0 : Fin 2) * 5000 + 5000
    rw [e40, ht]; omega
  | ⟨1, _⟩ =>
    show win4_4.index t (1 : Fin 2) * 128 ≤ (i 1).val ∧ (i 1).val < win4_4.index t (1 : Fin 2) * 128 + 128
    rw [e41]; omega

/-- THE REGION: the output array after the region is the attention gate of the four input arrays as the region finds
    them. -/
theorem attn4 (c : Dev nD) :
    (dat4 (F := Ideal) V c).arrAt 4 cfg4.N
      = Cert.Attn.attnLayer (R := 200000) (V c (Pipeline.arrRef spec4 0)) (V c (Pipeline.arrRef spec4 1))
          (V c (Pipeline.arrRef spec4 2)) (V c (Pipeline.arrRef spec4 3)) :=
  (dat4 V c).arrAt_eq_of_cover 4 _ (fun t _ => attn_flushed V c t) (fun i => attn_cover i)

end Cert.KernelIdeal.Dense

end
-- ==== Proof.SpecAttnHost.lean ====
/-
  The attention gate in a host program's spelling, read on the extended reals, for any number of rows R.

  The host joins bf and bc along the columns, multiplies by the weights (a dot_general) and adds the bias, a vector made a
  [1, 2] row and repeated down the rows by two broadcasts; reduces by maximum over axis 1 from −∞ and takes the maximum
  of that with −∞ repeated (which changes nothing: the fold already starts from −∞); makes the result a column and repeats
  it along the two columns by two broadcasts; subtracts, exponentiates, sums over axis 1 from zero, repeats the sums the same
  way and divides.  It then slices the two columns of the quotient out, repeats each along 64 columns, multiplies bf by
  the first and bc by the second, and joins the two products along the columns.

  Entry (r, k) of a join of two products is the product of the joined entries, so the host's result is
  cat (r, k) · a (r, [k ≥ 64]), the entry of `attnLayer`: the host scales the halves and joins, a kernel body joins the
  weights and scales the joined matrix, and at an entry the two are the same product.
-/
import Idealize.ShloMosaic.Lib.IdealHost
import proofs.«114758_j41918880809423_1_alg».proof.Proof.SpecAttn
import proofs.«114758_j41918880809423_1_alg».proof.Proof.LibHostRows

noncomputable section

open scoped BigOperators

namespace Cert.Attn

open Idealize.ShloMosaic Idealize.ShloMosaic.ValueIdx Cert.SageLayers

variable {R : ℕ}

/-- −∞ is below the row maximum, a fold of max that starts from −∞. -/
theorem negInf_le_rowMax (L : (⟨2, ![R, 2]⟩ : Shape).Idx → EReal) (r : Fin R) : negInfF ≤ rowMax L r :=
  (Finset.le_fold_max negInfF).mpr (Or.inl le_rfl)

/-- A scalar constant repeated over any shape reads the constant's value. -/
theorem scalarConst_at {s : Shape} (bits : BitVec (FTy.bits .f32))
    (d : Fin (⟨0, ![]⟩ : Shape).rank → Fin s.rank) (hb : (⟨0, ![]⟩ : Shape).BroadcastsInDim s d) (i : s.Idx) :
    broadcastInDim s d hb (constant (F := Ideal) ⟨0, ![]⟩ .f32 bits) i = Ideal.ofBits .f32 bits :=
  broadcastInDim_apply d hb _ i ix0 (fun a => a.elim0)

/-- The host's reduction by maximum over axis 1 of an [R, 2] matrix from the scalar −∞, read at row r. -/
theorem hostRowMax_at (L : FVec Ideal ⟨2, ![R, 2]⟩ .f32)
    (h' : (⟨2, ![R, 2]⟩ : Shape).ReducesTo [1] ⟨1, ![R]⟩) (h : (⟨2, ![R, 2]⟩ : Shape).Reduces [1] ⟨1, ![R]⟩)
    (hu : 0 < (⟨0, ![]⟩ : Shape).numel) (r : Fin R) :
    Host.reduce (FloatOps.maximumf (F := Ideal) (φ := .f32)) L (constant (F := Ideal) ⟨0, ![]⟩ .f32 0xFF800000#32) h' hu
        (ix1 r)
      = rowMax L r := by
  refine (Cert.LibRowMax.hostReduce_maximumf_single L _ h' h hu (ix1 r)).trans ?_
  refine congrArg (fun f => (Finset.univ : Finset (Fin 2)).fold max negInfF f) (funext fun d => ?_)
  refine congrArg L (funext fun ax => Fin.ext ?_)
  match ax with
  | ⟨0, _⟩ => rfl
  | ⟨1, _⟩ => rfl

/-! ## The softmax of the two logits in the host's spelling -/

/-- The row maxima (the maximum with −∞ repeated taken once more), made a column and repeated along the two columns. -/
abbrev hMaxB (L : FVec Ideal ⟨2, ![R, 2]⟩ .f32) (h' : (⟨2, ![R, 2]⟩ : Shape).ReducesTo [1] ⟨1, ![R]⟩)
    (hu : 0 < (⟨0, ![]⟩ : Shape).numel)
    (d0 : Fin (⟨0, ![]⟩ : Shape).rank → Fin (⟨1, ![R]⟩ : Shape).rank) (hb0 : (⟨0, ![]⟩ : Shape).BroadcastsInDim ⟨1, ![R]⟩ d0)
    (d1 : Fin (⟨1, ![R]⟩ : Shape).rank → Fin (⟨2, ![R, 1]⟩ : Shape).rank)
    (hb1 : (⟨1, ![R]⟩ : Shape).BroadcastsInDim ⟨2, ![R, 1]⟩ d1)
    (d2 : Fin (⟨2, ![R, 1]⟩ : Shape).rank → Fin (⟨2, ![R, 2]⟩ : Shape).rank)
    (hb2 : (⟨2, ![R, 1]⟩ : Shape).BroadcastsInDim ⟨2, ![R, 2]⟩ d2) : FVec Ideal ⟨2, ![R, 2]⟩ .f32 :=
  broadcastInDim ⟨2, ![R, 2]⟩ d2 hb2
    (broadcastInDim ⟨2, ![R, 1]⟩ d1 hb1
      (maximumf (broadcastInDim ⟨1, ![R]⟩ d0 hb0 (constant (F := Ideal) ⟨0, ![]⟩ .f32 0xFF800000#32))
        (Host.reduce (FloatOps.maximumf (F := Ideal) (φ := .f32)) L (constant (F := Ideal) ⟨0, ![]⟩ .f32 0xFF800000#32)
          h' hu)))

/-- The exponentials of the logits less their row maximum. -/
abbrev hExp (L : FVec Ideal ⟨2, ![R, 2]⟩ .f32) (h' : (⟨2, ![R, 2]⟩ : Shape).ReducesTo [1] ⟨1, ![R]⟩)
    (hu : 0 < (⟨0, ![]⟩ : Shape).numel)
    (d0 : Fin (⟨0, ![]⟩ : Shape).rank → Fin (⟨1, ![R]⟩ : Shape).rank) (hb0 : (⟨0, ![]⟩ : Shape).BroadcastsInDim ⟨1, ![R]⟩ d0)
    (d1 : Fin (⟨1, ![R]⟩ : Shape).rank → Fin (⟨2, ![R, 1]⟩ : Shape).rank)
    (hb1 : (⟨1, ![R]⟩ : Shape).BroadcastsInDim ⟨2, ![R, 1]⟩ d1)
    (d2 : Fin (⟨2, ![R, 1]⟩ : Shape).rank → Fin (⟨2, ![R, 2]⟩ : Shape).rank)
    (hb2 : (⟨2, ![R, 1]⟩ : Shape).BroadcastsInDim ⟨2, ![R, 2]⟩ d2) : FVec Ideal ⟨2, ![R, 2]⟩ .f32 :=
  Host.exp (subf L (hMaxB L h' hu d0 hb0 d1 hb1 d2 hb2))

/-- The row sums of the exponentials, made a column and repeated along the two columns. -/
abbrev hSumB (L : FVec Ideal ⟨2, ![R, 2]⟩ .f32) (h' : (⟨2, ![R, 2]⟩ : Shape).ReducesTo [1] ⟨1, ![R]⟩)
    (hu : 0 < (⟨0, ![]⟩ : Shape).numel)
    (d0 : Fin (⟨0, ![]⟩ : Shape).rank → Fin (⟨1, ![R]⟩ : Shape).rank) (hb0 : (⟨0, ![]⟩ : Shape).BroadcastsInDim ⟨1, ![R]⟩ d0)
    (d1 : Fin (⟨1, ![R]⟩ : Shape).rank → Fin (⟨2, ![R, 1]⟩ : Shape).rank)
    (hb1 : (⟨1, ![R]⟩ : Shape).BroadcastsInDim ⟨2, ![R, 1]⟩ d1)
    (d2 : Fin (⟨2, ![R, 1]⟩ : Shape).rank → Fin (⟨2, ![R, 2]⟩ : Shape).rank)
    (hb2 : (⟨2, ![R, 1]⟩ : Shape).BroadcastsInDim ⟨2, ![R, 2]⟩ d2) : FVec Ideal ⟨2, ![R, 2]⟩ .f32 :=
  broadcastInDim ⟨2, ![R, 2]⟩ d2 hb2
    (broadcastInDim ⟨2, ![R, 1]⟩ d1 hb1
      (Host.reduceAdd (hExp L h' hu d0 hb0 d1 hb1 d2 hb2) (constant (F := Ideal) ⟨0, ![]⟩ .f32 0x00000000#32) h' hu))

/-- The gate weights: the exponentials over their row sums. -/
abbrev hGate (L : FVec Ideal ⟨2, ![R, 2]⟩ .f32) (h' : (⟨2, ![R, 2]⟩ : Shape).ReducesTo [1] ⟨1, ![R]⟩)
    (hu : 0 < (⟨0, ![]⟩ : Shape).numel)
    (d0 : Fin (⟨0, ![]⟩ : Shape).rank → Fin (⟨1, ![R]⟩ : Shape).rank) (hb0 : (⟨0, ![]⟩ : Shape).BroadcastsInDim ⟨1, ![R]⟩ d0)
    (d1 : Fin (⟨1, ![R]⟩ : Shape).rank → Fin (⟨2, ![R, 1]⟩ : Shape).rank)
    (hb1 : (⟨1, ![R]⟩ : Shape).BroadcastsInDim ⟨2, ![R, 1]⟩ d1)
    (d2 : Fin (⟨2, ![R, 1]⟩ : Shape).rank → Fin (⟨2, ![R, 2]⟩ : Shape).rank)
    (hb2 : (⟨2, ![R, 1]⟩ : Shape).BroadcastsInDim ⟨2, ![R, 2]⟩ d2) : FVec Ideal ⟨2, ![R, 2]⟩ .f32 :=
  Host.divf (hExp L h' hu d0 hb0 d1 hb1 d2 hb2) (hSumB L h' hu d0 hb0 d1 hb1 d2 hb2)

theorem hMaxB_at (L : FVec Ideal ⟨2, ![R, 2]⟩ .f32) (h' : (⟨2, ![R, 2]⟩ : Shape).ReducesTo [1] ⟨1, ![R]⟩)
    (h : (⟨2, ![R, 2]⟩ : Shape).Reduces [1] ⟨1, ![R]⟩) (hu : 0 < (⟨0, ![]⟩ : Shape).numel)
    (d0 : Fin (⟨0, ![]⟩ : Shape).rank → Fin (⟨1, ![R]⟩ : Shape).rank) (hb0 : (⟨0, ![]⟩ : Shape).BroadcastsInDim ⟨1, ![R]⟩ d0)
    (d1 : Fin (⟨1, ![R]⟩ : Shape).rank → Fin (⟨2, ![R, 1]⟩ : Shape).rank) (hd1 : d1 0 = 0)
    (hb1 : (⟨1, ![R]⟩ : Shape).BroadcastsInDim ⟨2, ![R, 1]⟩ d1)
    (d2 : Fin (⟨2, ![R, 1]⟩ : Shape).rank → Fin (⟨2, ![R, 2]⟩ : Shape).rank) (hd20 : d2 0 = 0) (hd21 : d2 1 = 1)
    (hb2 : (⟨2, ![R, 1]⟩ : Shape).BroadcastsInDim ⟨2, ![R, 2]⟩ d2) (r : Fin R) (j : Fin 2) :
    hMaxB L h' hu d0 hb0 d1 hb1 d2 hb2 (ix2 r j) = rowMax L r := by
  show broadcastInDim ⟨2, ![R, 2]⟩ d2 hb2
    (broadcastInDim ⟨2, ![R, 1]⟩ d1 hb1
      (maximumf (broadcastInDim ⟨1, ![R]⟩ d0 hb0 (constant (F := Ideal) ⟨0, ![]⟩ .f32 0xFF800000#32))
        (Host.reduce (FloatOps.maximumf (F := Ideal) (φ := .f32)) L (constant (F := Ideal) ⟨0, ![]⟩ .f32 0xFF800000#32)
          h' hu))) (ix2 r j) = _
  rw [Cert.LibHostRows.bcast_a1_ab_at d2 hd20 hd21 hb2 _ r j, Cert.LibHostRows.bcast_a_a1_at d1 hd1 hb1 _ r 0,
    maximumf_apply, scalarConst_at, hostRowMax_at L h' h hu r]
  exact max_eq_right (negInf_le_rowMax L r)

theorem hExp_at (L : FVec Ideal ⟨2, ![R, 2]⟩ .f32) (h' : (⟨2, ![R, 2]⟩ : Shape).ReducesTo [1] ⟨1, ![R]⟩)
    (h : (⟨2, ![R, 2]⟩ : Shape).Reduces [1] ⟨1, ![R]⟩) (hu : 0 < (⟨0, ![]⟩ : Shape).numel)
    (d0 : Fin (⟨0, ![]⟩ : Shape).rank → Fin (⟨1, ![R]⟩ : Shape).rank) (hb0 : (⟨0, ![]⟩ : Shape).BroadcastsInDim ⟨1, ![R]⟩ d0)
    (d1 : Fin (⟨1, ![R]⟩ : Shape).rank → Fin (⟨2, ![R, 1]⟩ : Shape).rank) (hd1 : d1 0 = 0)
    (hb1 : (⟨1, ![R]⟩ : Shape).BroadcastsInDim ⟨2, ![R, 1]⟩ d1)
    (d2 : Fin (⟨2, ![R, 1]⟩ : Shape).rank → Fin (⟨2, ![R, 2]⟩ : Shape).rank) (hd20 : d2 0 = 0) (hd21 : d2 1 = 1)
    (hb2 : (⟨2, ![R, 1]⟩ : Shape).BroadcastsInDim ⟨2, ![R, 2]⟩ d2) (r : Fin R) (j : Fin 2) :
    hExp L h' hu d0 hb0 d1 hb1 d2 hb2 (ix2 r j) = expAt L r j := by
  show Ideal.exp (L (ix2 r j) - hMaxB L h' hu d0 hb0 d1 hb1 d2 hb2 (ix2 r j)) = _
  rw [hMaxB_at L h' h hu d0 hb0 d1 hd1 hb1 d2 hd20 hd21 hb2 r j]
  rfl

theorem hSumB_at (L : FVec Ideal ⟨2, ![R, 2]⟩ .f32) (h' : (⟨2, ![R, 2]⟩ : Shape).ReducesTo [1] ⟨1, ![R]⟩)
    (h : (⟨2, ![R, 2]⟩ : Shape).Reduces [1] ⟨1, ![R]⟩) (hu : 0 < (⟨0, ![]⟩ : Shape).numel)
    (d0 : Fin (⟨0, ![]⟩ : Shape).rank → Fin (⟨1, ![R]⟩ : Shape).rank) (hb0 : (⟨0, ![]⟩ : Shape).BroadcastsInDim ⟨1, ![R]⟩ d0)
    (d1 : Fin (⟨1, ![R]⟩ : Shape).rank → Fin (⟨2, ![R, 1]⟩ : Shape).rank) (hd1 : d1 0 = 0)
    (hb1 : (⟨1, ![R]⟩ : Shape).BroadcastsInDim ⟨2, ![R, 1]⟩ d1)
    (d2 : Fin (⟨2, ![R, 1]⟩ : Shape).rank → Fin (⟨2, ![R, 2]⟩ : Shape).rank) (hd20 : d2 0 = 0) (hd21 : d2 1 = 1)
    (hb2 : (⟨2, ![R, 1]⟩ : Shape).BroadcastsInDim ⟨2, ![R, 2]⟩ d2) (r : Fin R) (j : Fin 2) :
    hSumB L h' hu d0 hb0 d1 hb1 d2 hb2 (ix2 r j) = ∑ d : Fin 2, expAt L r d := by
  show broadcastInDim ⟨2, ![R, 2]⟩ d2 hb2
    (broadcastInDim ⟨2, ![R, 1]⟩ d1 hb1
      (Host.reduceAdd (hExp L h' hu d0 hb0 d1 hb1 d2 hb2) (constant (F := Ideal) ⟨0, ![]⟩ .f32 0x00000000#32) h' hu))
    (ix2 r j) = _
  rw [Cert.LibHostRows.bcast_a1_ab_at d2 hd20 hd21 hb2 _ r j, Cert.LibHostRows.bcast_a_a1_at d1 hd1 hb1 _ r 0,
    Cert.LibHostRows.hostReduceAdd_rows _ _ h' h hu r]
  show Ideal.ofBits .f32 0x00000000#32 + _ = _
  rw [Ideal.ofBits_zero_f32, zero_add]
  exact Finset.sum_congr rfl fun d _ => hExp_at L h' h hu d0 hb0 d1 hd1 hb1 d2 hd20 hd21 hb2 r d

/-- The host's softmax of the two logits, read at an entry, is the gate weight. -/
theorem hGate_at (L : FVec Ideal ⟨2, ![R, 2]⟩ .f32) (h' : (⟨2, ![R, 2]⟩ : Shape).ReducesTo [1] ⟨1, ![R]⟩)
    (h : (⟨2, ![R, 2]⟩ : Shape).Reduces [1] ⟨1, ![R]⟩) (hu : 0 < (⟨0, ![]⟩ : Shape).numel)
    (d0 : Fin (⟨0, ![]⟩ : Shape).rank → Fin (⟨1, ![R]⟩ : Shape).rank) (hb0 : (⟨0, ![]⟩ : Shape).BroadcastsInDim ⟨1, ![R]⟩ d0)
    (d1 : Fin (⟨1, ![R]⟩ : Shape).rank → Fin (⟨2, ![R, 1]⟩ : Shape).rank) (hd1 : d1 0 = 0)
    (hb1 : (⟨1, ![R]⟩ : Shape).BroadcastsInDim ⟨2, ![R, 1]⟩ d1)
    (d2 : Fin (⟨2, ![R, 1]⟩ : Shape).rank → Fin (⟨2, ![R, 2]⟩ : Shape).rank) (hd20 : d2 0 = 0) (hd21 : d2 1 = 1)
    (hb2 : (⟨2, ![R, 1]⟩ : Shape).BroadcastsInDim ⟨2, ![R, 2]⟩ d2) (r : Fin R) (j : Fin 2) :
    hGate L h' hu d0 hb0 d1 hb1 d2 hb2 (ix2 r j) = gateAt L r j := by
  show Ideal.div (hExp L h' hu d0 hb0 d1 hb1 d2 hb2 (ix2 r j)) (hSumB L h' hu d0 hb0 d1 hb1 d2 hb2 (ix2 r j)) = _
  rw [hExp_at L h' h hu d0 hb0 d1 hd1 hb1 d2 hd20 hd21 hb2 r j, hSumB_at L h' h hu d0 hb0 d1 hd1 hb1 d2 hd20 hd21 hb2 r j]
  rfl

/-! ## The halves scaled and joined -/

/-- bf scaled by the first column of a two-column matrix D, bc by the second, each column sliced out and repeated along
    64 columns, the two products joined along the columns: entry (r, k) is cat (r, k) · D (r, [k ≥ 64]). -/
theorem hostCols_at (bf bc : FVec Ideal ⟨2, ![R, 64]⟩ .f32) (D : FVec Ideal ⟨2, ![R, 2]⟩ .f32)
    (off0 off1 : Fin (⟨2, ![R, 2]⟩ : Shape).rank → ℕ) (h00 : off0 0 = 0) (h01 : off0 1 = 0) (h10 : off1 0 = 0)
    (h11 : off1 1 = 1)
    (hs0 : (⟨2, ![R, 2]⟩ : Shape).Slices off0 ⟨2, ![R, 1]⟩) (hs1 : (⟨2, ![R, 2]⟩ : Shape).Slices off1 ⟨2, ![R, 1]⟩)
    (d64 : Fin (⟨2, ![R, 1]⟩ : Shape).rank → Fin (⟨2, ![R, 64]⟩ : Shape).rank) (hd0 : d64 0 = 0) (hd1 : d64 1 = 1)
    (hb64 : (⟨2, ![R, 1]⟩ : Shape).BroadcastsInDim ⟨2, ![R, 64]⟩ d64)
    (hcat : Shape.Concatenates [(⟨2, ![R, 64]⟩ : Shape), ⟨2, ![R, 64]⟩] ⟨2, ![R, 128]⟩ 1) (r : Fin R) (k : Fin 128) :
    concatenate ⟨2, ![R, 128]⟩ 1
        [⟨⟨2, ![R, 64]⟩,
            mulf bf (broadcastInDim ⟨2, ![R, 64]⟩ d64 hb64 (extractStridedSlice ⟨2, ![R, 1]⟩ off0 D hs0))⟩,
          ⟨⟨2, ![R, 64]⟩,
            mulf bc (broadcastInDim ⟨2, ![R, 64]⟩ d64 hb64 (extractStridedSlice ⟨2, ![R, 1]⟩ off1 D hs1))⟩]
        hcat (ix2 r k)
      = catAt bf bc r k * D (ix2 r (half k)) := by
  rw [concat_cols_at]
  unfold catAt half
  by_cases hk : k.val < 64
  · simp only [dif_pos hk, if_pos hk]
    rw [mulf_apply, Cert.LibHostRows.bcast_a1_ab_at d64 hd0 hd1 hb64 _ r _, sliceCol_at D 0 off0 h00 h01 hs0 r 0]
  · simp only [dif_neg hk, if_neg hk]
    rw [mulf_apply, Cert.LibHostRows.bcast_a1_ab_at d64 hd0 hd1 hb64 _ r _, sliceCol_at D 1 off1 h10 h11 hs1 r 0]

/-! ## The whole gate in the host's spelling -/

/-- The logits: the joined matrix times the weights plus the bias vector made a row and repeated down the rows. -/
abbrev hLogits (bf bc : FVec Ideal ⟨2, ![R, 64]⟩ .f32) (W : FVec Ideal ⟨2, ![128, 2]⟩ .f32) (b : FVec Ideal ⟨1, ![2]⟩ .f32)
    (hcat : Shape.Concatenates [(⟨2, ![R, 64]⟩ : Shape), ⟨2, ![R, 64]⟩] ⟨2, ![R, 128]⟩ 1)
    (e1 : Fin (⟨1, ![2]⟩ : Shape).rank → Fin (⟨2, ![1, 2]⟩ : Shape).rank)
    (he1 : (⟨1, ![2]⟩ : Shape).BroadcastsInDim ⟨2, ![1, 2]⟩ e1)
    (e2 : Fin (⟨2, ![1, 2]⟩ : Shape).rank → Fin (⟨2, ![R, 2]⟩ : Shape).rank)
    (he2 : (⟨2, ![1, 2]⟩ : Shape).BroadcastsInDim ⟨2, ![R, 2]⟩ e2) : FVec Ideal ⟨2, ![R, 2]⟩ .f32 :=
  addf
    (Host.dotGeneral (DotDims.plain R 128 2) none
      (concatenate ⟨2, ![R, 128]⟩ 1 [⟨⟨2, ![R, 64]⟩, bf⟩, ⟨⟨2, ![R, 64]⟩, bc⟩] hcat) W)
    (broadcastInDim ⟨2, ![R, 2]⟩ e2 he2 (broadcastInDim ⟨2, ![1, 2]⟩ e1 he1 b))

/-- The host's logits are the dense layer cat · W + b of the joined matrix, b the row the first broadcast makes. -/
theorem hLogits_eq (bf bc : FVec Ideal ⟨2, ![R, 64]⟩ .f32) (W : FVec Ideal ⟨2, ![128, 2]⟩ .f32) (b : FVec Ideal ⟨1, ![2]⟩ .f32)
    (hcat : Shape.Concatenates [(⟨2, ![R, 64]⟩ : Shape), ⟨2, ![R, 64]⟩] ⟨2, ![R, 128]⟩ 1)
    (e1 : Fin (⟨1, ![2]⟩ : Shape).rank → Fin (⟨2, ![1, 2]⟩ : Shape).rank) (he10 : e1 0 = 1)
    (he1 : (⟨1, ![2]⟩ : Shape).BroadcastsInDim ⟨2, ![1, 2]⟩ e1)
    (e2 : Fin (⟨2, ![1, 2]⟩ : Shape).rank → Fin (⟨2, ![R, 2]⟩ : Shape).rank) (he20 : e2 0 = 0) (he21 : e2 1 = 1)
    (he2 : (⟨2, ![1, 2]⟩ : Shape).BroadcastsInDim ⟨2, ![R, 2]⟩ e2) :
    hLogits bf bc W b hcat e1 he1 e2 he2 = affLayer (catMat bf bc) W (broadcastInDim ⟨2, ![1, 2]⟩ e1 he1 b) := by
  funext i
  obtain ⟨r, g, rfl⟩ : ∃ (r : Fin R) (g : Fin 2), i = ix2 r g := ⟨i 0, i 1, eq_ix2 i⟩
  show addf
    (Host.dotGeneral (DotDims.plain R 128 2) none
      (concatenate ⟨2, ![R, 128]⟩ 1 [⟨⟨2, ![R, 64]⟩, bf⟩, ⟨⟨2, ![R, 64]⟩, bc⟩] hcat) W)
    (broadcastInDim ⟨2, ![R, 2]⟩ e2 he2 (broadcastInDim ⟨2, ![1, 2]⟩ e1 he1 b)) (ix2 r g) = _
  rw [concat_cols_eq]
  exact host_affine_at (catMat bf bc) W b e1 he10 he1 e2 he20 he21 he2 r g

/-- The whole gate in the host's spelling is the attention gate, the bias the row the first broadcast makes of the
    bias vector. -/
theorem host_attn_eq_gen (bf bc : FVec Ideal ⟨2, ![R, 64]⟩ .f32) (W : FVec Ideal ⟨2, ![128, 2]⟩ .f32)
    (b : FVec Ideal ⟨1, ![2]⟩ .f32)
    (hcat : Shape.Concatenates [(⟨2, ![R, 64]⟩ : Shape), ⟨2, ![R, 64]⟩] ⟨2, ![R, 128]⟩ 1)
    (e1 : Fin (⟨1, ![2]⟩ : Shape).rank → Fin (⟨2, ![1, 2]⟩ : Shape).rank) (he10 : e1 0 = 1)
    (he1 : (⟨1, ![2]⟩ : Shape).BroadcastsInDim ⟨2, ![1, 2]⟩ e1)
    (e2 : Fin (⟨2, ![1, 2]⟩ : Shape).rank → Fin (⟨2, ![R, 2]⟩ : Shape).rank) (he20 : e2 0 = 0) (he21 : e2 1 = 1)
    (he2 : (⟨2, ![1, 2]⟩ : Shape).BroadcastsInDim ⟨2, ![R, 2]⟩ e2)
    (h' : (⟨2, ![R, 2]⟩ : Shape).ReducesTo [1] ⟨1, ![R]⟩)
    (h : (⟨2, ![R, 2]⟩ : Shape).Reduces [1] ⟨1, ![R]⟩) (hu : 0 < (⟨0, ![]⟩ : Shape).numel)
    (d0 : Fin (⟨0, ![]⟩ : Shape).rank → Fin (⟨1, ![R]⟩ : Shape).rank) (hb0 : (⟨0, ![]⟩ : Shape).BroadcastsInDim ⟨1, ![R]⟩ d0)
    (d1 : Fin (⟨1, ![R]⟩ : Shape).rank → Fin (⟨2, ![R, 1]⟩ : Shape).rank) (hd1 : d1 0 = 0)
    (hb1 : (⟨1, ![R]⟩ : Shape).BroadcastsInDim ⟨2, ![R, 1]⟩ d1)
    (d2 : Fin (⟨2, ![R, 1]⟩ : Shape).rank → Fin (⟨2, ![R, 2]⟩ : Shape).rank) (hd20 : d2 0 = 0) (hd21 : d2 1 = 1)
    (hb2 : (⟨2, ![R, 1]⟩ : Shape).BroadcastsInDim ⟨2, ![R, 2]⟩ d2)
    (off0 off1 : Fin (⟨2, ![R, 2]⟩ : Shape).rank → ℕ) (h00 : off0 0 = 0) (h01 : off0 1 = 0) (h10 : off1 0 = 0)
    (h11 : off1 1 = 1)
    (hs0 : (⟨2, ![R, 2]⟩ : Shape).Slices off0 ⟨2, ![R, 1]⟩) (hs1 : (⟨2, ![R, 2]⟩ : Shape).Slices off1 ⟨2, ![R, 1]⟩)
    (d64 : Fin (⟨2, ![R, 1]⟩ : Shape).rank → Fin (⟨2, ![R, 64]⟩ : Shape).rank) (hd640 : d64 0 = 0) (hd641 : d64 1 = 1)
    (hb64 : (⟨2, ![R, 1]⟩ : Shape).BroadcastsInDim ⟨2, ![R, 64]⟩ d64) :
    concatenate ⟨2, ![R, 128]⟩ 1
        [⟨⟨2, ![R, 64]⟩,
            mulf bf
              (broadcastInDim ⟨2, ![R, 64]⟩ d64 hb64
                (extractStridedSlice ⟨2, ![R, 1]⟩ off0
                  (hGate (hLogits bf bc W b hcat e1 he1 e2 he2) h' hu d0 hb0 d1 hb1 d2 hb2) hs0))⟩,
          ⟨⟨2, ![R, 64]⟩,
            mulf bc
              (broadcastInDim ⟨2, ![R, 64]⟩ d64 hb64
                (extractStridedSlice ⟨2, ![R, 1]⟩ off1
                  (hGate (hLogits bf bc W b hcat e1 he1 e2 he2) h' hu d0 hb0 d1 hb1 d2 hb2) hs1))⟩]
        hcat
      = attnLayer bf bc W (broadcastInDim ⟨2, ![1, 2]⟩ e1 he1 b) := by
  funext i
  obtain ⟨r, k, rfl⟩ : ∃ (r : Fin R) (k : Fin 128), i = ix2 r k := ⟨i 0, i 1, eq_ix2 i⟩
  rw [hostCols_at bf bc (hGate (hLogits bf bc W b hcat e1 he1 e2 he2) h' hu d0 hb0 d1 hb1 d2 hb2) off0 off1 h00 h01 h10 h11
      hs0 hs1 d64 hd640 hd641 hb64 hcat r k,
    hGate_at _ h' h hu d0 hb0 d1 hd1 hb1 d2 hd20 hd21 hb2 r (half k),
    hLogits_eq bf bc W b hcat e1 he10 he1 e2 he20 he21 he2]
  rfl

end Cert.Attn

end
-- ==== Proof.RefAttn.lean ====
/-
  The attention gate as the reference program spells it, over the 200000 edge rows: the join of bf and bc, the
  dot_general with the [128, 2] weights, the bias vector made a [1, 2] row and repeated down the rows, the reduction by
  maximum over axis 1 from −∞ and the maximum of that with −∞ repeated, the subtraction, the exponential, the sum over
  axis 1 from zero, the quotient, the two columns of the quotient sliced out and repeated along 64 columns, bf scaled by
  the first and bc by the second, and the join of the two products.  Written with the program's own dimension maps and
  side conditions, in the program's nesting; it is the attention gate `Cert.Attn.attnLayer` of bf, bc, the weights and
  the row the first broadcast makes of the bias vector.  The proof is the general one for any number of rows.
-/
import proofs.«114758_j41918880809423_1_alg».proof.ReferenceIdeal
import proofs.«114758_j41918880809423_1_alg».proof.Proof.Gen.ReferenceIdeal
import proofs.«114758_j41918880809423_1_alg».proof.Proof.SpecAttnHost

noncomputable section

open Idealize.ShloMosaic Idealize.ShloMosaic.ValueIdx

namespace Cert.ReferenceIdeal.Dense

open Cert.ReferenceIdeal Cert.ReferenceIdeal.Gen

/-- The reference's gate — every operation written out in the program's nesting: the logits (join, dot_general, bias row),
    the row maxima, the exponentials, the row sums, the quotient, the two sliced columns repeated, the two products and
    their join — is the attention gate of bf, bc, the weights and the bias row. -/
theorem host_attn_eq (bf bc : FVec Ideal S200000x64 .f32) (W : FVec Ideal S128x2 .f32) (b : FVec Ideal S2 .f32) :
    concatenate S200000x128 1 [⟨S200000x64, mulf bf (broadcastInDim S200000x64 ![0, 1]
    bcast_S200000x1_S200000x64_0_1 (extractStridedSlice S200000x1 ![0, 0] (Host.divf (Host.exp (subf (addf
    (Host.dotGeneral dot_S200000x128_S128x2_S200000x2_1_0_0_1_n_n none (concatenate S200000x128 1 [⟨S200000x64, bf⟩,
    ⟨S200000x64, bc⟩] concatenates_S200000x64_S200000x64_S200000x128_d1) W) (broadcastInDim S200000x2 ![0, 1]
    bcast_S1x2_S200000x2_0_1 (broadcastInDim S1x2 ![1] bcast_S2_S1x2_1 b))) (broadcastInDim S200000x2 ![0, 1]
    bcast_S200000x1_S200000x2_0_1 (broadcastInDim S200000x1 ![0] bcast_S200000_S200000x1_0 (maximumf (broadcastInDim
    S200000 ![] bcast_S_S200000 (constant (F := Ideal) S_ .f32 0xFF800000#32)) (Host.reduce FloatOps.maximumf (addf
    (Host.dotGeneral dot_S200000x128_S128x2_S200000x2_1_0_0_1_n_n none (concatenate S200000x128 1 [⟨S200000x64, bf⟩,
    ⟨S200000x64, bc⟩] concatenates_S200000x64_S200000x64_S200000x128_d1) W) (broadcastInDim S200000x2 ![0, 1]
    bcast_S1x2_S200000x2_0_1 (broadcastInDim S1x2 ![1] bcast_S2_S1x2_1 b))) (constant (F := Ideal) S_ .f32
    0xFF800000#32) reducesTo_S200000x2_S200000_d1 h_S_)))))) (broadcastInDim S200000x2 ![0, 1]
    bcast_S200000x1_S200000x2_0_1 (broadcastInDim S200000x1 ![0] bcast_S200000_S200000x1_0 (Host.reduceAdd (Host.exp
    (subf (addf (Host.dotGeneral dot_S200000x128_S128x2_S200000x2_1_0_0_1_n_n none (concatenate S200000x128 1
    [⟨S200000x64, bf⟩, ⟨S200000x64, bc⟩] concatenates_S200000x64_S200000x64_S200000x128_d1) W) (broadcastInDim
    S200000x2 ![0, 1] bcast_S1x2_S200000x2_0_1 (broadcastInDim S1x2 ![1] bcast_S2_S1x2_1 b))) (broadcastInDim
    S200000x2 ![0, 1] bcast_S200000x1_S200000x2_0_1 (broadcastInDim S200000x1 ![0] bcast_S200000_S200000x1_0
    (maximumf (broadcastInDim S200000 ![] bcast_S_S200000 (constant (F := Ideal) S_ .f32 0xFF800000#32))
    (Host.reduce FloatOps.maximumf (addf (Host.dotGeneral dot_S200000x128_S128x2_S200000x2_1_0_0_1_n_n none
    (concatenate S200000x128 1 [⟨S200000x64, bf⟩, ⟨S200000x64, bc⟩]
    concatenates_S200000x64_S200000x64_S200000x128_d1) W) (broadcastInDim S200000x2 ![0, 1] bcast_S1x2_S200000x2_0_1
    (broadcastInDim S1x2 ![1] bcast_S2_S1x2_1 b))) (constant (F := Ideal) S_ .f32 0xFF800000#32)
    reducesTo_S200000x2_S200000_d1 h_S_)))))) (constant (F := Ideal) S_ .f32 0x00000000#32)
    reducesTo_S200000x2_S200000_d1 h_S_)))) slices_S200000x2_S200000x1_0_0))⟩, ⟨S200000x64, mulf bc (broadcastInDim
    S200000x64 ![0, 1] bcast_S200000x1_S200000x64_0_1 (extractStridedSlice S200000x1 ![0, 1] (Host.divf (Host.exp
    (subf (addf (Host.dotGeneral dot_S200000x128_S128x2_S200000x2_1_0_0_1_n_n none (concatenate S200000x128 1
    [⟨S200000x64, bf⟩, ⟨S200000x64, bc⟩] concatenates_S200000x64_S200000x64_S200000x128_d1) W) (broadcastInDim
    S200000x2 ![0, 1] bcast_S1x2_S200000x2_0_1 (broadcastInDim S1x2 ![1] bcast_S2_S1x2_1 b))) (broadcastInDim
    S200000x2 ![0, 1] bcast_S200000x1_S200000x2_0_1 (broadcastInDim S200000x1 ![0] bcast_S200000_S200000x1_0
    (maximumf (broadcastInDim S200000 ![] bcast_S_S200000 (constant (F := Ideal) S_ .f32 0xFF800000#32))
    (Host.reduce FloatOps.maximumf (addf (Host.dotGeneral dot_S200000x128_S128x2_S200000x2_1_0_0_1_n_n none
    (concatenate S200000x128 1 [⟨S200000x64, bf⟩, ⟨S200000x64, bc⟩]
    concatenates_S200000x64_S200000x64_S200000x128_d1) W) (broadcastInDim S200000x2 ![0, 1] bcast_S1x2_S200000x2_0_1
    (broadcastInDim S1x2 ![1] bcast_S2_S1x2_1 b))) (constant (F := Ideal) S_ .f32 0xFF800000#32)
    reducesTo_S200000x2_S200000_d1 h_S_)))))) (broadcastInDim S200000x2 ![0, 1] bcast_S200000x1_S200000x2_0_1
    (broadcastInDim S200000x1 ![0] bcast_S200000_S200000x1_0 (Host.reduceAdd (Host.exp (subf (addf (Host.dotGeneral
    dot_S200000x128_S128x2_S200000x2_1_0_0_1_n_n none (concatenate S200000x128 1 [⟨S200000x64, bf⟩, ⟨S200000x64,
    bc⟩] concatenates_S200000x64_S200000x64_S200000x128_d1) W) (broadcastInDim S200000x2 ![0, 1]
    bcast_S1x2_S200000x2_0_1 (broadcastInDim S1x2 ![1] bcast_S2_S1x2_1 b))) (broadcastInDim S200000x2 ![0, 1]
    bcast_S200000x1_S200000x2_0_1 (broadcastInDim S200000x1 ![0] bcast_S200000_S200000x1_0 (maximumf (broadcastInDim
    S200000 ![] bcast_S_S200000 (constant (F := Ideal) S_ .f32 0xFF800000#32)) (Host.reduce FloatOps.maximumf (addf
    (Host.dotGeneral dot_S200000x128_S128x2_S200000x2_1_0_0_1_n_n none (concatenate S200000x128 1 [⟨S200000x64, bf⟩,
    ⟨S200000x64, bc⟩] concatenates_S200000x64_S200000x64_S200000x128_d1) W) (broadcastInDim S200000x2 ![0, 1]
    bcast_S1x2_S200000x2_0_1 (broadcastInDim S1x2 ![1] bcast_S2_S1x2_1 b))) (constant (F := Ideal) S_ .f32
    0xFF800000#32) reducesTo_S200000x2_S200000_d1 h_S_)))))) (constant (F := Ideal) S_ .f32 0x00000000#32)
    reducesTo_S200000x2_S200000_d1 h_S_)))) slices_S200000x2_S200000x1_0_1))⟩]
    concatenates_S200000x64_S200000x64_S200000x128_d1
      = Cert.Attn.attnLayer (R := 200000) bf bc W (broadcastInDim S1x2 ![1] bcast_S2_S1x2_1 b) :=
  Cert.Attn.host_attn_eq_gen (R := 200000) bf bc W b _ ![1] rfl _ ![0, 1] rfl rfl _ _ (by decide) _ ![] _ ![0] rfl _
    ![0, 1] rfl rfl _ ![0, 0] ![0, 1] rfl rfl rfl rfl _ _ ![0, 1] rfl rfl _

end Cert.ReferenceIdeal.Dense

end
-- ==== Proof.BridgeAttn.lean ====
/-
  The attention stage, on both sides.

  Kernel: on the host, the node index of every edge (wrapped by the node count where negative) gathers the rows of the
  node feature matrix into bc, and the bias vector is reshaped to a [1, 2] row; a pipelined region then computes the
  attention gate of (bf, bc, W, bias row); on the host again, the batch order (wrapped by the edge count) gathers the rows
  of the gate.  Reference: the same wrap and row gather, the gate written out operation by operation on the host with
  the bias made a row by a broadcast, and the same wrap and row gather of the result.

  The two gathers are one operation applied to equal arrays.  The region's output is `Cert.Attn.attnLayer` of its four
  input arrays (RegionAttn), the reference's operations compose to the same function of the same arrays (RefAttn), and
  the reshaped bias vector is the row the broadcast makes of it.  The reference's last operation joins the two scaled
  halves, each of which is read off the operations before it.
-/
import proofs.«114758_j41918880809423_1_alg».proof.Proof.Gen.KernelIdeal.Frame
import proofs.«114758_j41918880809423_1_alg».proof.Proof.RefRun
import proofs.«114758_j41918880809423_1_alg».proof.Proof.RChain
import proofs.«114758_j41918880809423_1_alg».proof.Proof.KChain
import proofs.«114758_j41918880809423_1_alg».proof.Proof.LibDenseLayers
import proofs.«114758_j41918880809423_1_alg».proof.Proof.RegionAttn
import proofs.«114758_j41918880809423_1_alg».proof.Proof.RefAttn

set_option maxRecDepth 16384

noncomputable section

namespace Cert.Bridge

open Cert.KernelIdeal Cert.KernelIdeal.Gen
open Idealize.ShloMosaic Idealize.ShloMosaic.TcCoe Idealize.SL.Sem Idealize.ShloMosaic.ValueIdx Idealize.ShloMosaic.StableHlo
open Cert.ReferenceIdeal.RefRun (U0 U1 U2 U3 U4 U5 U6 U7 U8 U9 U10 U11 U12 U13 U14 U15)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

/-! ## The gathered rows (the second block of the gate) -/

/-- The node rows gathered per edge: both programs wrap the same index array by the node count, make it a column and
    gather the rows of the same node matrix. -/
theorem attn_rows (e18 : m' ((c.tc : Thread Cert.ReferenceIdeal.nD Cert.ReferenceIdeal.τ).loc Cert.ReferenceIdeal.main_arg18) = m ((c : Thread nD τ).loc main_arg18))
    (hx : W6 m ρ c (Proc.devRef .tc main_v81) = U4 m' c (Proc.devRef .tc Cert.ReferenceIdeal.main_v97)) :
    W7 m ρ c (Proc.devRef .tc main_v88) = U5 m' c (Proc.devRef .tc Cert.ReferenceIdeal.main_v104) := by
  show StableHlo.after hostOps4 (W6 m ρ c) (Proc.devRef .tc main_v88) = _
  unfold Cert.ReferenceIdeal.RefRun.U5
  after_results_simp
  rw [Cert.KernelIdeal.Chain.at6 m ρ c main_arg18 (by simp [Cert.KernelIdeal.Chain.argL]),
    Cert.ReferenceIdeal.RefRun.at4 m' c Cert.ReferenceIdeal.main_arg18 (by simp [Cert.ReferenceIdeal.RefRun.argL]), e18, hx]
  rfl

/-! ## The bias row -/

/-- The kernel's bias row: the bias vector reshaped to [1, 2]. -/
theorem attn_biasK :
    (W7 m ρ c (Proc.devRef .tc main_v89) : S1x2.Idx → EReal)
      = shapeCast S1x2 (m ((c : Thread nD τ).loc main_arg7) : S2.Idx → EReal) shapeCasts_S2_S1x2 := by
  show StableHlo.after hostOps4 (W6 m ρ c) (Proc.devRef .tc main_v89) = _
  after_results_simp
  rw [Cert.KernelIdeal.Chain.at6 m ρ c main_arg7 (by simp [Cert.KernelIdeal.Chain.argL])]
  rfl

/-! ## The gate -/

/-- Two joins of equal pieces are equal. -/
theorem attn_join_congr {α : Type} {t s : Shape} (a : Fin t.rank) {x x' y y' : s.Idx → α} (h : Shape.Concatenates [s, s] t a)
    (hx : x = x') (hy : y = y') :
    concatenate t a [⟨s, x⟩, ⟨s, y⟩] h = concatenate t a [⟨s, x'⟩, ⟨s, y'⟩] h := by
  subst hx; subst hy; rfl

/-- The last operation of the reference's gate joins the two scaled halves. -/
theorem attn_join :
    after (Cert.ReferenceIdeal.RefRun.Seg6 (F := Ideal)) (U5 m' c) (Proc.devRef .tc Cert.ReferenceIdeal.main_v127)
      = concatenate Cert.ReferenceIdeal.S200000x128 1
          [⟨Cert.ReferenceIdeal.S200000x64, after (Cert.ReferenceIdeal.RefRun.Seg6 (F := Ideal)) (U5 m' c) (Proc.devRef .tc Cert.ReferenceIdeal.main_v123)⟩,
            ⟨Cert.ReferenceIdeal.S200000x64, after (Cert.ReferenceIdeal.RefRun.Seg6 (F := Ideal)) (U5 m' c) (Proc.devRef .tc Cert.ReferenceIdeal.main_v126)⟩]
          Cert.ReferenceIdeal.Gen.concatenates_S200000x64_S200000x64_S200000x128_d1 := by
  simp only [after_cons, after_nil]
  rw [binary_result]
  rw [binary_result_ne (y := Cert.ReferenceIdeal.main_v127) (r := Cert.ReferenceIdeal.main_v123)]; rotate_left; decide
  rw [binary_result_ne (y := Cert.ReferenceIdeal.main_v127) (r := Cert.ReferenceIdeal.main_v126)]; rotate_left; decide

/-- The attention gate across: the kernel's region on (bf, the gathered rows, the weights, the reshaped bias) leaves the
    gate the reference computes on the host from the same four arrays. -/
theorem attn_eq (e0 : m' ((c.tc : Thread Cert.ReferenceIdeal.nD Cert.ReferenceIdeal.τ).loc Cert.ReferenceIdeal.main_arg0) = m ((c : Thread nD τ).loc main_arg0)) (e6 : m' ((c.tc : Thread Cert.ReferenceIdeal.nD Cert.ReferenceIdeal.τ).loc Cert.ReferenceIdeal.main_arg6) = m ((c : Thread nD τ).loc main_arg6))
    (e7 : m' ((c.tc : Thread Cert.ReferenceIdeal.nD Cert.ReferenceIdeal.τ).loc Cert.ReferenceIdeal.main_arg7) = m ((c : Thread nD τ).loc main_arg7)) (e18 : m' ((c.tc : Thread Cert.ReferenceIdeal.nD Cert.ReferenceIdeal.τ).loc Cert.ReferenceIdeal.main_arg18) = m ((c : Thread nD τ).loc main_arg18))
    (hx : W6 m ρ c (Proc.devRef .tc main_v81) = U4 m' c (Proc.devRef .tc Cert.ReferenceIdeal.main_v97)) :
    W8 m ρ c (Proc.devRef .tc main_v90) = U6 m' c (Proc.devRef .tc Cert.ReferenceIdeal.main_v127) := by
  have k0 : (V7 m ρ c (Pipeline.arrRef spec4 0) : S200000x64.Idx → EReal) = m' ((c.tc : Thread Cert.ReferenceIdeal.nD Cert.ReferenceIdeal.τ).loc Cert.ReferenceIdeal.main_arg0) :=
    (Cert.KernelIdeal.Chain.at7 m ρ c main_arg0 (by simp [Cert.KernelIdeal.Chain.argL])).trans e0.symm
  have k1 : (V7 m ρ c (Pipeline.arrRef spec4 1) : S200000x64.Idx → EReal)
      = U5 m' c (Proc.devRef .tc Cert.ReferenceIdeal.main_v104) := attn_rows m ρ m' c e18 hx
  have k2 : (V7 m ρ c (Pipeline.arrRef spec4 2) : S128x2.Idx → EReal) = m' ((c.tc : Thread Cert.ReferenceIdeal.nD Cert.ReferenceIdeal.τ).loc Cert.ReferenceIdeal.main_arg6) :=
    (Cert.KernelIdeal.Chain.at7 m ρ c main_arg6 (by simp [Cert.KernelIdeal.Chain.argL])).trans e6.symm
  have k3 : (V7 m ρ c (Pipeline.arrRef spec4 3) : S1x2.Idx → EReal)
      = broadcastInDim Cert.ReferenceIdeal.S1x2 ![1] Cert.ReferenceIdeal.Gen.bcast_S2_S1x2_1 (m' ((c.tc : Thread Cert.ReferenceIdeal.nD Cert.ReferenceIdeal.τ).loc Cert.ReferenceIdeal.main_arg7) : S2.Idx → EReal) := by
    refine (attn_biasK m ρ c).trans ?_
    rw [← e7]
    exact (Cert.SageLayers.row_of_vector _ ![1] rfl _ _).symm
  refine ((W8_arr m ρ c 4).trans (Cert.KernelIdeal.Dense.attn4 (V7 m ρ) c)).trans ?_
  rw [k0, k1, k2, k3]
  unfold Cert.ReferenceIdeal.RefRun.U6
  rw [attn_join m' c]
  refine (Cert.ReferenceIdeal.Dense.host_attn_eq _ _ _ _).symm.trans (attn_join_congr 1 _ ?_ ?_)
  · symm
    after_results_simp
    rw [Cert.ReferenceIdeal.RefRun.at5 m' c Cert.ReferenceIdeal.main_arg0 (by simp [Cert.ReferenceIdeal.RefRun.argL]),
      Cert.ReferenceIdeal.RefRun.at5 m' c Cert.ReferenceIdeal.main_arg6 (by simp [Cert.ReferenceIdeal.RefRun.argL]),
      Cert.ReferenceIdeal.RefRun.at5 m' c Cert.ReferenceIdeal.main_arg7 (by simp [Cert.ReferenceIdeal.RefRun.argL])]
  · symm
    after_results_simp
    rw [Cert.ReferenceIdeal.RefRun.at5 m' c Cert.ReferenceIdeal.main_arg0 (by simp [Cert.ReferenceIdeal.RefRun.argL]),
      Cert.ReferenceIdeal.RefRun.at5 m' c Cert.ReferenceIdeal.main_arg6 (by simp [Cert.ReferenceIdeal.RefRun.argL]),
      Cert.ReferenceIdeal.RefRun.at5 m' c Cert.ReferenceIdeal.main_arg7 (by simp [Cert.ReferenceIdeal.RefRun.argL])]

/-! ## The batch-order gather of the gate's rows -/

/-- Both programs wrap the same index array by the edge count, make it a column and gather the rows of the gate. -/
theorem lx_eq (e19 : m' ((c.tc : Thread Cert.ReferenceIdeal.nD Cert.ReferenceIdeal.τ).loc Cert.ReferenceIdeal.main_arg19) = m ((c : Thread nD τ).loc main_arg19))
    (hf : W8 m ρ c (Proc.devRef .tc main_v90) = U6 m' c (Proc.devRef .tc Cert.ReferenceIdeal.main_v127)) :
    W9 m ρ c (Proc.devRef .tc main_v97) = U7 m' c (Proc.devRef .tc Cert.ReferenceIdeal.main_v134) := by
  show StableHlo.after hostOps5 (W8 m ρ c) (Proc.devRef .tc main_v97) = _
  unfold Cert.ReferenceIdeal.RefRun.U7
  after_results_simp
  rw [Cert.KernelIdeal.Chain.at8 m ρ c main_arg19 (by simp [Cert.KernelIdeal.Chain.argL]),
    Cert.ReferenceIdeal.RefRun.at6 m' c Cert.ReferenceIdeal.main_arg19 (by simp [Cert.ReferenceIdeal.RefRun.argL]), e19, hf]
  rfl

end Cert.Bridge

end
-- ==== Proof.BridgeB1.lean ====
/-
  The first building layer, on both sides.  The kernel computes the product H = X · W of the previous layer's output in a
  pipelined region, then on the host, from the edge lists: the in-degree of every node plus one (counted into zeros, the
  ones added after), its inverse square root, the edge weights norm[src] · norm[dst], the messages H[src] scaled by
  them, their sum per destination node and the self-loop weights 1 / degree; a second region makes the node update
  max ((agg + H · (1/deg)) + b, 0).  The reference does all of it on the host, counting the degree into an array of ones
  through the wrapped destination index.  Given that the previous layer's outputs agree: where no destination index is
  negative the wrap changes nothing and the two degrees are one array (commutativity of +); every other step is the
  same operation applied to equal arrays; and the two spellings of the node update are one function of the aggregated
  messages, the product, the self-loop column and the bias row.
-/
import proofs.«114758_j41918880809423_1_alg».proof.Proof.Gen.KernelIdeal.Frame
import proofs.«114758_j41918880809423_1_alg».proof.Proof.RefRun
import proofs.«114758_j41918880809423_1_alg».proof.Proof.RChain
import proofs.«114758_j41918880809423_1_alg».proof.Proof.KChain
import proofs.«114758_j41918880809423_1_alg».proof.Proof.Basics
import proofs.«114758_j41918880809423_1_alg».proof.Proof.LibGcnUpdate
import proofs.«114758_j41918880809423_1_alg».proof.Proof.BridgeBase
import proofs.«114758_j41918880809423_1_alg».proof.Proof.RefPlain
import proofs.«114758_j41918880809423_1_alg».proof.Proof.RegionLin
import proofs.«114758_j41918880809423_1_alg».proof.Proof.RegionUpd
set_option maxRecDepth 16384
-- reading a stretch of fifty host operations at a buffer is one long simp pass
set_option maxHeartbeats 4000000

noncomputable section

namespace Cert.Bridge

open Cert.KernelIdeal Cert.KernelIdeal.Gen
open Idealize.ShloMosaic Idealize.ShloMosaic.TcCoe Idealize.SL.Sem Idealize.ShloMosaic.ValueIdx Idealize.ShloMosaic.StableHlo
open Cert.Basics Cert.GcnLayers
open Cert.ReferenceIdeal.RefRun (U0 U1 U2 U3 U4 U5 U6 U7 U8 U9 U10 U11 U12 U13 U14 U15)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

set_option quotPrecheck false
/-- The kernel's argument array `b` at launch. -/
local notation "arg(" b ")" => m ((c : Thread nD τ).loc b)
/-- The reference's argument array `b` at launch. -/
local notation "rarg(" b ")" => m' ((c.tc : Thread Cert.ReferenceIdeal.nD Cert.ReferenceIdeal.τ).loc b)

/-- The product, on the kernel's side: region 5 leaves the matrix product of its two input arrays. -/
theorem b1_hK : W10 m ρ c (Proc.devRef .tc main_v98)
    = linLayer (R := 200000) (K := 128) (N := 128) (V9 m ρ c (Pipeline.arrRef spec5 0)) (V9 m ρ c (Pipeline.arrRef spec5 1)) :=
  (W10_arr m ρ c 2).trans (Cert.KernelIdeal.Dense.lin5 (V9 m ρ) c)

/-- The reference's dot_general of this layer is the matrix product. -/
theorem b1_dot (H : FVec Ideal Cert.ReferenceIdeal.S200000x128 .f32) (W : FVec Ideal Cert.ReferenceIdeal.S128x128 .f32) :
    Host.dotGeneral Cert.ReferenceIdeal.dot_S200000x128_S128x128_S200000x128_1_0_0_1_n_n none H W
      = linLayer (R := 200000) (K := 128) (N := 128) H W :=
  host_lin_eq H W

/-- The product's two operands on the kernel's side: the previous layer's output and the weight argument. -/
theorem b1_hK' (hx : W9 m ρ c (Proc.devRef .tc main_v97) = U7 m' c (Proc.devRef .tc Cert.ReferenceIdeal.main_v134)) :
    W10 m ρ c (Proc.devRef .tc main_v98)
      = linLayer (R := 200000) (K := 128) (N := 128) (U7 m' c (Proc.devRef .tc Cert.ReferenceIdeal.main_v134)) arg(main_arg8) := by
  rw [b1_hK]
  have h0 : V9 m ρ c (Pipeline.arrRef spec5 0) = U7 m' c (Proc.devRef .tc Cert.ReferenceIdeal.main_v134) := hx
  have h1 : V9 m ρ c (Pipeline.arrRef spec5 1) = arg(main_arg8) := Cert.KernelIdeal.Chain.at9 m ρ c main_arg8 (by simp [Cert.KernelIdeal.Chain.argL])
  rw [h0, h1]

/-- The product, across. -/
theorem b1_h (e8 : rarg(Cert.ReferenceIdeal.main_arg8) = arg(main_arg8)) (hx : W9 m ρ c (Proc.devRef .tc main_v97) = U7 m' c (Proc.devRef .tc Cert.ReferenceIdeal.main_v134)) :
    W10 m ρ c (Proc.devRef .tc main_v98) = U8 m' c (Proc.devRef .tc Cert.ReferenceIdeal.main_v135) := by
  rw [b1_hK' m ρ m' c hx]
  unfold Cert.ReferenceIdeal.RefRun.U8
  after_results_simp
  rw [Cert.ReferenceIdeal.RefRun.at7 m' c Cert.ReferenceIdeal.main_arg8 (by simp [Cert.ReferenceIdeal.RefRun.argL]), e8, b1_dot]

/-- The degree array. -/
theorem b1_deg (e15 : rarg(Cert.ReferenceIdeal.main_arg15) = arg(main_arg15)) (h15 : ∀ e, IntOp.cmpi .sge (arg(main_arg15) e) 0#32 = 1#1) :
    W11 m ρ c (Proc.devRef .tc main_v104) = U8 m' c (Proc.devRef .tc Cert.ReferenceIdeal.main_v144) := by
  show StableHlo.after hostOps6 (W10 m ρ c) (Proc.devRef .tc main_v104) = _
  unfold Cert.ReferenceIdeal.RefRun.U8
  after_results_simp
  rw [Cert.KernelIdeal.Chain.at10 m ρ c main_arg15 (by simp [Cert.KernelIdeal.Chain.argL]), Cert.ReferenceIdeal.RefRun.at7 m' c Cert.ReferenceIdeal.main_arg15 (by simp [Cert.ReferenceIdeal.RefRun.argL]), e15]
  simp only [wrap_zero (s := Cert.ReferenceIdeal.S1200000) _ _ _ _ h15, count_zero]
  rfl

/-- The aggregated messages. -/
theorem b1_agg (e8 : rarg(Cert.ReferenceIdeal.main_arg8) = arg(main_arg8)) (e14 : rarg(Cert.ReferenceIdeal.main_arg14) = arg(main_arg14)) (e15 : rarg(Cert.ReferenceIdeal.main_arg15) = arg(main_arg15)) (h15 : ∀ e, IntOp.cmpi .sge (arg(main_arg15) e) 0#32 = 1#1) (hx : W9 m ρ c (Proc.devRef .tc main_v97) = U7 m' c (Proc.devRef .tc Cert.ReferenceIdeal.main_v134)) :
    W11 m ρ c (Proc.devRef .tc main_v133) = U8 m' c (Proc.devRef .tc Cert.ReferenceIdeal.main_v173) := by
  show StableHlo.after hostOps6 (W10 m ρ c) (Proc.devRef .tc main_v133) = _
  unfold Cert.ReferenceIdeal.RefRun.U8
  after_results_simp
  rw [Cert.KernelIdeal.Chain.at10 m ρ c main_arg15 (by simp [Cert.KernelIdeal.Chain.argL]), Cert.KernelIdeal.Chain.at10 m ρ c main_arg14 (by simp [Cert.KernelIdeal.Chain.argL]), b1_hK' m ρ m' c hx]
  simp only [Cert.ReferenceIdeal.RefRun.at7 m' c Cert.ReferenceIdeal.main_arg8 (by simp [Cert.ReferenceIdeal.RefRun.argL]), Cert.ReferenceIdeal.RefRun.at7 m' c Cert.ReferenceIdeal.main_arg14 (by simp [Cert.ReferenceIdeal.RefRun.argL]), Cert.ReferenceIdeal.RefRun.at7 m' c Cert.ReferenceIdeal.main_arg15 (by simp [Cert.ReferenceIdeal.RefRun.argL]), e8, e14, e15]
  simp only [wrap_zero (s := Cert.ReferenceIdeal.S1200000) _ _ _ _ h15, count_zero, b1_dot]
  rfl

/-- The node update.  The kernel's region 6 is the update function of four arrays: the aggregated messages, the product,
    the self-loop column (the reshaped 1 / degree) and the bias row (the reshaped bias vector); the reference's host
    spelling is the same function of the same four (a reshaped vector is the column, or the row, a broadcast makes of it). -/
theorem b1_x (e8 : rarg(Cert.ReferenceIdeal.main_arg8) = arg(main_arg8)) (e9 : rarg(Cert.ReferenceIdeal.main_arg9) = arg(main_arg9)) (e14 : rarg(Cert.ReferenceIdeal.main_arg14) = arg(main_arg14)) (e15 : rarg(Cert.ReferenceIdeal.main_arg15) = arg(main_arg15)) (h15 : ∀ e, IntOp.cmpi .sge (arg(main_arg15) e) 0#32 = 1#1) (hx : W9 m ρ c (Proc.devRef .tc main_v97) = U7 m' c (Proc.devRef .tc Cert.ReferenceIdeal.main_v134)) :
    W12 m ρ c (Proc.devRef .tc main_v138) = U9 m' c (Proc.devRef .tc Cert.ReferenceIdeal.main_v183) := by
  refine (W12_arr m ρ c 4).trans ?_
  rw [Cert.KernelIdeal.Dense.upd6 (V11 m ρ) c]
  have hagg : V11 m ρ c (Pipeline.arrRef spec6 0) = U8 m' c (Proc.devRef .tc Cert.ReferenceIdeal.main_v173) :=
    b1_agg m ρ m' c e8 e14 e15 h15 hx
  have hh : V11 m ρ c (Pipeline.arrRef spec6 1) = U8 m' c (Proc.devRef .tc Cert.ReferenceIdeal.main_v135) := by
    show StableHlo.after hostOps6 (W10 m ρ c) (Proc.devRef .tc main_v98) = _
    after_results_simp
    exact b1_h m ρ m' c e8 hx
  have hs : V11 m ρ c (Pipeline.arrRef spec6 2)
      = broadcastInDim (⟨2, ![200000, 1]⟩ : Shape) ![0] Cert.ReferenceIdeal.Gen.bcast_S200000_S200000x1_0
          (Host.divf (broadcastInDim Cert.ReferenceIdeal.S200000 ![] Cert.ReferenceIdeal.Gen.bcast_S_S200000 (constant (F := Ideal) Cert.ReferenceIdeal.S_ .f32 0x3F800000#32))
            (U8 m' c (Proc.devRef .tc Cert.ReferenceIdeal.main_v144))) := by
    rw [← b1_deg m ρ m' c e15 h15]
    show StableHlo.after hostOps6 (W10 m ρ c) (Proc.devRef .tc main_v136) = _
    after_results_simp
    exact (col_of_vector _ _ rfl _ _).symm
  have hb : V11 m ρ c (Pipeline.arrRef spec6 3)
      = broadcastInDim (⟨2, ![1, 128]⟩ : Shape) ![1] Cert.ReferenceIdeal.Gen.bcast_S128_S1x128_1 arg(main_arg9) := by
    show StableHlo.after hostOps6 (W10 m ρ c) (Proc.devRef .tc main_v137) = _
    after_results_simp
    rw [Cert.KernelIdeal.Chain.at10 m ρ c main_arg9 (by simp [Cert.KernelIdeal.Chain.argL])]
    exact (Cert.SageLayers.row_of_vector _ _ rfl _ _).symm
  rw [hagg, hh, hs, hb]
  unfold Cert.ReferenceIdeal.RefRun.U9
  rw [Cert.ReferenceIdeal.RefRun.seg9_plain]
  after_results_simp
  rw [Cert.ReferenceIdeal.RefRun.at8 m' c Cert.ReferenceIdeal.main_arg9 (by simp [Cert.ReferenceIdeal.RefRun.argL]), e9]
  symm
  exact host_upd_eq _ _ _ _ _ rfl _ _ rfl rfl _ _ rfl _ _ rfl rfl _ ![] Cert.ReferenceIdeal.Gen.bcast_S_S200000x128

end Cert.Bridge

end
-- ==== Proof.BridgeB2.lean ====
/-
  The second building layer, on both sides.  The kernel computes the product H = X · W of the previous layer's output in a
  pipelined region, then on the host, from the edge lists: the in-degree of every node plus one (counted into zeros, the
  ones added after), its inverse square root, the edge weights norm[src] · norm[dst], the messages H[src] scaled by
  them, their sum per destination node and the self-loop weights 1 / degree; a second region makes the node update
  max ((agg + H · (1/deg)) + b, 0).  The reference does all of it on the host, counting the degree into an array of ones
  through the wrapped destination index.  Given that the previous layer's outputs agree: where no destination index is
  negative the wrap changes nothing and the two degrees are one array (commutativity of +); every other step is the
  same operation applied to equal arrays; and the two spellings of the node update are one function of the aggregated
  messages, the product, the self-loop column and the bias row.
-/
import proofs.«114758_j41918880809423_1_alg».proof.Proof.Gen.KernelIdeal.Frame
import proofs.«114758_j41918880809423_1_alg».proof.Proof.RefRun
import proofs.«114758_j41918880809423_1_alg».proof.Proof.RChain
import proofs.«114758_j41918880809423_1_alg».proof.Proof.KChain
import proofs.«114758_j41918880809423_1_alg».proof.Proof.Basics
import proofs.«114758_j41918880809423_1_alg».proof.Proof.LibGcnUpdate
import proofs.«114758_j41918880809423_1_alg».proof.Proof.BridgeBase
import proofs.«114758_j41918880809423_1_alg».proof.Proof.RefPlain
import proofs.«114758_j41918880809423_1_alg».proof.Proof.RegionLin
import proofs.«114758_j41918880809423_1_alg».proof.Proof.RegionUpd
set_option maxRecDepth 16384
-- reading a stretch of fifty host operations at a buffer is one long simp pass
set_option maxHeartbeats 4000000

noncomputable section

namespace Cert.Bridge

open Cert.KernelIdeal Cert.KernelIdeal.Gen
open Idealize.ShloMosaic Idealize.ShloMosaic.TcCoe Idealize.SL.Sem Idealize.ShloMosaic.ValueIdx Idealize.ShloMosaic.StableHlo
open Cert.Basics Cert.GcnLayers
open Cert.ReferenceIdeal.RefRun (U0 U1 U2 U3 U4 U5 U6 U7 U8 U9 U10 U11 U12 U13 U14 U15)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

set_option quotPrecheck false
/-- The kernel's argument array `b` at launch. -/
local notation "arg(" b ")" => m ((c : Thread nD τ).loc b)
/-- The reference's argument array `b` at launch. -/
local notation "rarg(" b ")" => m' ((c.tc : Thread Cert.ReferenceIdeal.nD Cert.ReferenceIdeal.τ).loc b)

/-- The product, on the kernel's side: region 7 leaves the matrix product of its two input arrays. -/
theorem b2_hK : W13 m ρ c (Proc.devRef .tc main_v139)
    = linLayer (R := 200000) (K := 128) (N := 64) (V12 m ρ c (Pipeline.arrRef spec7 0)) (V12 m ρ c (Pipeline.arrRef spec7 1)) :=
  (W13_arr m ρ c 2).trans (Cert.KernelIdeal.Dense.lin7 (V12 m ρ) c)

/-- The reference's dot_general of this layer is the matrix product. -/
theorem b2_dot (H : FVec Ideal Cert.ReferenceIdeal.S200000x128 .f32) (W : FVec Ideal Cert.ReferenceIdeal.S128x64 .f32) :
    Host.dotGeneral Cert.ReferenceIdeal.dot_S200000x128_S128x64_S200000x64_1_0_0_1_n_n none H W
      = linLayer (R := 200000) (K := 128) (N := 64) H W :=
  host_lin_eq H W

/-- The product's two operands on the kernel's side: the previous layer's output and the weight argument. -/
theorem b2_hK' (hx : W12 m ρ c (Proc.devRef .tc main_v138) = U9 m' c (Proc.devRef .tc Cert.ReferenceIdeal.main_v183)) :
    W13 m ρ c (Proc.devRef .tc main_v139)
      = linLayer (R := 200000) (K := 128) (N := 64) (U9 m' c (Proc.devRef .tc Cert.ReferenceIdeal.main_v183)) arg(main_arg10) := by
  rw [b2_hK]
  have h0 : V12 m ρ c (Pipeline.arrRef spec7 0) = U9 m' c (Proc.devRef .tc Cert.ReferenceIdeal.main_v183) := hx
  have h1 : V12 m ρ c (Pipeline.arrRef spec7 1) = arg(main_arg10) := Cert.KernelIdeal.Chain.at12 m ρ c main_arg10 (by simp [Cert.KernelIdeal.Chain.argL])
  rw [h0, h1]

/-- The product, across. -/
theorem b2_h (e10 : rarg(Cert.ReferenceIdeal.main_arg10) = arg(main_arg10)) (hx : W12 m ρ c (Proc.devRef .tc main_v138) = U9 m' c (Proc.devRef .tc Cert.ReferenceIdeal.main_v183)) :
    W13 m ρ c (Proc.devRef .tc main_v139) = U10 m' c (Proc.devRef .tc Cert.ReferenceIdeal.main_v184) := by
  rw [b2_hK' m ρ m' c hx]
  unfold Cert.ReferenceIdeal.RefRun.U10
  after_results_simp
  rw [Cert.ReferenceIdeal.RefRun.at9 m' c Cert.ReferenceIdeal.main_arg10 (by simp [Cert.ReferenceIdeal.RefRun.argL]), e10, b2_dot]

/-- The degree array. -/
theorem b2_deg (e15 : rarg(Cert.ReferenceIdeal.main_arg15) = arg(main_arg15)) (h15 : ∀ e, IntOp.cmpi .sge (arg(main_arg15) e) 0#32 = 1#1) :
    W14 m ρ c (Proc.devRef .tc main_v145) = U10 m' c (Proc.devRef .tc Cert.ReferenceIdeal.main_v193) := by
  show StableHlo.after hostOps8 (W13 m ρ c) (Proc.devRef .tc main_v145) = _
  unfold Cert.ReferenceIdeal.RefRun.U10
  after_results_simp
  rw [Cert.KernelIdeal.Chain.at13 m ρ c main_arg15 (by simp [Cert.KernelIdeal.Chain.argL]), Cert.ReferenceIdeal.RefRun.at9 m' c Cert.ReferenceIdeal.main_arg15 (by simp [Cert.ReferenceIdeal.RefRun.argL]), e15]
  simp only [wrap_zero (s := Cert.ReferenceIdeal.S1200000) _ _ _ _ h15, count_zero]
  rfl

/-- The aggregated messages. -/
theorem b2_agg (e10 : rarg(Cert.ReferenceIdeal.main_arg10) = arg(main_arg10)) (e14 : rarg(Cert.ReferenceIdeal.main_arg14) = arg(main_arg14)) (e15 : rarg(Cert.ReferenceIdeal.main_arg15) = arg(main_arg15)) (h15 : ∀ e, IntOp.cmpi .sge (arg(main_arg15) e) 0#32 = 1#1) (hx : W12 m ρ c (Proc.devRef .tc main_v138) = U9 m' c (Proc.devRef .tc Cert.ReferenceIdeal.main_v183)) :
    W14 m ρ c (Proc.devRef .tc main_v174) = U10 m' c (Proc.devRef .tc Cert.ReferenceIdeal.main_v222) := by
  show StableHlo.after hostOps8 (W13 m ρ c) (Proc.devRef .tc main_v174) = _
  unfold Cert.ReferenceIdeal.RefRun.U10
  after_results_simp
  rw [Cert.KernelIdeal.Chain.at13 m ρ c main_arg15 (by simp [Cert.KernelIdeal.Chain.argL]), Cert.KernelIdeal.Chain.at13 m ρ c main_arg14 (by simp [Cert.KernelIdeal.Chain.argL]), b2_hK' m ρ m' c hx]
  simp only [Cert.ReferenceIdeal.RefRun.at9 m' c Cert.ReferenceIdeal.main_arg10 (by simp [Cert.ReferenceIdeal.RefRun.argL]), Cert.ReferenceIdeal.RefRun.at9 m' c Cert.ReferenceIdeal.main_arg14 (by simp [Cert.ReferenceIdeal.RefRun.argL]), Cert.ReferenceIdeal.RefRun.at9 m' c Cert.ReferenceIdeal.main_arg15 (by simp [Cert.ReferenceIdeal.RefRun.argL]), e10, e14, e15]
  simp only [wrap_zero (s := Cert.ReferenceIdeal.S1200000) _ _ _ _ h15, count_zero, b2_dot]
  rfl

/-- The node update.  The kernel's region 8 is the update function of four arrays: the aggregated messages, the product,
    the self-loop column (the reshaped 1 / degree) and the bias row (the reshaped bias vector); the reference's host
    spelling is the same function of the same four (a reshaped vector is the column, or the row, a broadcast makes of it). -/
theorem b2_x (e10 : rarg(Cert.ReferenceIdeal.main_arg10) = arg(main_arg10)) (e11 : rarg(Cert.ReferenceIdeal.main_arg11) = arg(main_arg11)) (e14 : rarg(Cert.ReferenceIdeal.main_arg14) = arg(main_arg14)) (e15 : rarg(Cert.ReferenceIdeal.main_arg15) = arg(main_arg15)) (h15 : ∀ e, IntOp.cmpi .sge (arg(main_arg15) e) 0#32 = 1#1) (hx : W12 m ρ c (Proc.devRef .tc main_v138) = U9 m' c (Proc.devRef .tc Cert.ReferenceIdeal.main_v183)) :
    W15 m ρ c (Proc.devRef .tc main_v179) = U11 m' c (Proc.devRef .tc Cert.ReferenceIdeal.main_v232) := by
  refine (W15_arr m ρ c 4).trans ?_
  rw [Cert.KernelIdeal.Dense.upd8 (V14 m ρ) c]
  have hagg : V14 m ρ c (Pipeline.arrRef spec8 0) = U10 m' c (Proc.devRef .tc Cert.ReferenceIdeal.main_v222) :=
    b2_agg m ρ m' c e10 e14 e15 h15 hx
  have hh : V14 m ρ c (Pipeline.arrRef spec8 1) = U10 m' c (Proc.devRef .tc Cert.ReferenceIdeal.main_v184) := by
    show StableHlo.after hostOps8 (W13 m ρ c) (Proc.devRef .tc main_v139) = _
    after_results_simp
    exact b2_h m ρ m' c e10 hx
  have hs : V14 m ρ c (Pipeline.arrRef spec8 2)
      = broadcastInDim (⟨2, ![200000, 1]⟩ : Shape) ![0] Cert.ReferenceIdeal.Gen.bcast_S200000_S200000x1_0
          (Host.divf (broadcastInDim Cert.ReferenceIdeal.S200000 ![] Cert.ReferenceIdeal.Gen.bcast_S_S200000 (constant (F := Ideal) Cert.ReferenceIdeal.S_ .f32 0x3F800000#32))
            (U10 m' c (Proc.devRef .tc Cert.ReferenceIdeal.main_v193))) := by
    rw [← b2_deg m ρ m' c e15 h15]
    show StableHlo.after hostOps8 (W13 m ρ c) (Proc.devRef .tc main_v177) = _
    after_results_simp
    exact (col_of_vector _ _ rfl _ _).symm
  have hb : V14 m ρ c (Pipeline.arrRef spec8 3)
      = broadcastInDim (⟨2, ![1, 64]⟩ : Shape) ![1] Cert.ReferenceIdeal.Gen.bcast_S64_S1x64_1 arg(main_arg11) := by
    show StableHlo.after hostOps8 (W13 m ρ c) (Proc.devRef .tc main_v178) = _
    after_results_simp
    rw [Cert.KernelIdeal.Chain.at13 m ρ c main_arg11 (by simp [Cert.KernelIdeal.Chain.argL])]
    exact (Cert.SageLayers.row_of_vector _ _ rfl _ _).symm
  rw [hagg, hh, hs, hb]
  unfold Cert.ReferenceIdeal.RefRun.U11
  rw [Cert.ReferenceIdeal.RefRun.seg11_plain]
  after_results_simp
  rw [Cert.ReferenceIdeal.RefRun.at10 m' c Cert.ReferenceIdeal.main_arg11 (by simp [Cert.ReferenceIdeal.RefRun.argL]), e11]
  symm
  exact host_upd_eq _ _ _ _ _ rfl _ _ rfl rfl _ _ rfl _ _ rfl rfl _ ![] Cert.ReferenceIdeal.Gen.bcast_S_S200000x64

end Cert.Bridge

end
-- ==== Proof.SpecPlain.lean ====
/-
  The un-rectified node update (agg + hw ∘ s) + b of a graph convolution's last layer, as a whole matrix on the extended
  reals and read at an entry in its two spellings, for any extents R, N.

  Entry (r, g) adds to the aggregated messages agg (r, g) the node's own transformed feature hw (r, g) scaled by its
  self-loop weight s (r, 0), then the bias b (0, g):

      (agg (r, g) + hw (r, g) · s (r, 0)) + b (0, g).

  It is the rectified update of LibGcnLayers without the final maximum with zero.  A pipelined kernel body holds a row
  block of agg and of hw, the matching [R, 1] column block of s and the whole [1, N] bias row; it repeats the column along
  the N columns and the row down the R rows, multiplies and adds twice.  The host program has s and b as vectors, makes the
  column and the row by a broadcast_in_dim each and repeats them by a second one.  A repeated column reads, at (r, g), the
  column at (r, 0); a repeated row reads the row at (0, g).  The association ((agg + hw·s) + b) is the one both programs
  compute in, so no law of addition is needed to join them.
-/
import proofs.«114758_j41918880809423_1_alg».proof.Proof.LibGcnUpdate

noncomputable section

open scoped BigOperators

namespace Cert.GcnLayers

open Idealize.ShloMosaic Idealize.ShloMosaic.ValueIdx Cert.SageLayers

variable {R N : ℕ}

/-- Entry (r, g) of the un-rectified node update (agg + hw · s) + b. -/
def updPlainAt (agg hw : (⟨2, ![R, N]⟩ : Shape).Idx → EReal) (s : (⟨2, ![R, 1]⟩ : Shape).Idx → EReal)
    (b : (⟨2, ![1, N]⟩ : Shape).Idx → EReal) (r : Fin R) (g : Fin N) : EReal :=
  (agg (ix2 r g) + hw (ix2 r g) * s (ix2 r (0 : Fin 1))) + b (ix2 (0 : Fin 1) g)

/-- The un-rectified node update as a whole matrix. -/
def updPlainLayer (agg hw : (⟨2, ![R, N]⟩ : Shape).Idx → EReal) (s : (⟨2, ![R, 1]⟩ : Shape).Idx → EReal)
    (b : (⟨2, ![1, N]⟩ : Shape).Idx → EReal) : (⟨2, ![R, N]⟩ : Shape).Idx → EReal :=
  fun i => updPlainAt agg hw s b (i 0) (i 1)

/-- An entry of the update depends only on the four entries it reads: two updates whose operands agree there agree. -/
theorem updPlainAt_congr {R' N' : ℕ}
    (agg hw : (⟨2, ![R, N]⟩ : Shape).Idx → EReal) (s : (⟨2, ![R, 1]⟩ : Shape).Idx → EReal)
    (b : (⟨2, ![1, N]⟩ : Shape).Idx → EReal)
    (agg' hw' : (⟨2, ![R', N']⟩ : Shape).Idx → EReal) (s' : (⟨2, ![R', 1]⟩ : Shape).Idx → EReal)
    (b' : (⟨2, ![1, N']⟩ : Shape).Idx → EReal) (r : Fin R) (g : Fin N) (r' : Fin R') (g' : Fin N')
    (h0 : agg (ix2 r g) = agg' (ix2 r' g')) (h1 : hw (ix2 r g) = hw' (ix2 r' g'))
    (h2 : s (ix2 r (0 : Fin 1)) = s' (ix2 r' (0 : Fin 1))) (h3 : b (ix2 (0 : Fin 1) g) = b' (ix2 (0 : Fin 1) g')) :
    updPlainAt agg hw s b r g = updPlainAt agg' hw' s' b' r' g' := by
  unfold updPlainAt
  rw [h0, h1, h2, h3]

/-- The kernel body's spelling of the un-rectified update, read at an entry: the identity casts drop, the repeated column
    is read at (r, 0), the repeated row at (0, g). -/
theorem kernel_updPlain_at (agg hw : FVec Ideal ⟨2, ![R, N]⟩ .f32) (s : FVec Ideal ⟨2, ![R, 1]⟩ .f32)
    (b : FVec Ideal ⟨2, ![1, N]⟩ .f32)
    (h1 : (⟨2, ![R, N]⟩ : Shape).ShapeCasts ⟨2, ![R, N]⟩) (h2 : (⟨2, ![R, N]⟩ : Shape).ShapeCasts ⟨2, ![R, N]⟩)
    (h3 : (⟨2, ![R, 1]⟩ : Shape).ShapeCasts ⟨2, ![R, 1]⟩) (hb3 : (⟨2, ![R, 1]⟩ : Shape).Broadcasts ⟨2, ![R, N]⟩)
    (h4 : (⟨2, ![1, N]⟩ : Shape).ShapeCasts ⟨2, ![1, N]⟩) (hb4 : (⟨2, ![1, N]⟩ : Shape).Broadcasts ⟨2, ![R, N]⟩)
    (r : Fin R) (g : Fin N) :
    addf
        (addf (shapeCast ⟨2, ![R, N]⟩ agg h1)
          (mulf (shapeCast ⟨2, ![R, N]⟩ hw h2) (broadcastTo ⟨2, ![R, N]⟩ (shapeCast ⟨2, ![R, 1]⟩ s h3) hb3)))
        (broadcastTo ⟨2, ![R, N]⟩ (shapeCast ⟨2, ![1, N]⟩ b h4) hb4) (ix2 r g)
      = updPlainAt agg hw s b r g := by
  rw [addf_apply, addf_apply, mulf_apply, colBroadcast_at,
    Cert.LibBlockLayout.rowBroadcast_at, shapeCast_self, shapeCast_self, shapeCast_self, shapeCast_self]
  rfl

/-- The host's spelling of the un-rectified update, the self-loop weights and the bias given as vectors: as a whole
    matrix it is the un-rectified update of the column and the row the first broadcasts make of them. -/
theorem host_updPlain_eq (agg hw : FVec Ideal ⟨2, ![R, N]⟩ .f32) (s : FVec Ideal ⟨1, ![R]⟩ .f32)
    (b : FVec Ideal ⟨1, ![N]⟩ .f32)
    (d3 : Fin (⟨1, ![R]⟩ : Shape).rank → Fin (⟨2, ![R, 1]⟩ : Shape).rank) (hd3 : d3 0 = 0)
    (h3 : (⟨1, ![R]⟩ : Shape).BroadcastsInDim ⟨2, ![R, 1]⟩ d3)
    (d4 : Fin (⟨2, ![R, 1]⟩ : Shape).rank → Fin (⟨2, ![R, N]⟩ : Shape).rank) (hd40 : d4 0 = 0) (hd41 : d4 1 = 1)
    (h4 : (⟨2, ![R, 1]⟩ : Shape).BroadcastsInDim ⟨2, ![R, N]⟩ d4)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf
        (addf agg (mulf hw (broadcastInDim ⟨2, ![R, N]⟩ d4 h4 (broadcastInDim ⟨2, ![R, 1]⟩ d3 h3 s))))
        (broadcastInDim ⟨2, ![R, N]⟩ d2 hb2 (broadcastInDim ⟨2, ![1, N]⟩ d1 hb1 b))
      = updPlainLayer agg hw (broadcastInDim ⟨2, ![R, 1]⟩ d3 h3 s) (broadcastInDim ⟨2, ![1, N]⟩ d1 hb1 b) := by
  funext i
  obtain ⟨r, g, rfl⟩ : ∃ (r : Fin R) (g : Fin N), i = ix2 r g := ⟨i 0, i 1, eq_ix2 i⟩
  rw [addf_apply, addf_apply, mulf_apply,
    Cert.LibHostRows.bcast_a1_ab_at d4 hd40 hd41 h4 _ r g, Cert.LibHostRows.bcast_1b_ab_at d2 hd20 hd21 hb2 _ r g]
  rfl

end Cert.GcnLayers

end
-- ==== Proof.RegionPlain.lean ====
/-
  The last graph-convolution layer's un-rectified node update, as one whole-array function of the region's arrays.

  The region runs over 40 points; point t holds rows 5000·t … 5000·t + 4999 of the aggregated messages, of the
  transformed features and of the column of self-loop weights, together with the whole bias row, and stores one block:
  the update (agg + hw ∘ s) + b of what it holds.  An entry of the update reads only its own row of the row operands, and
  the row a block's entry sits at in the array is 5000·t plus its row in the block for every row window alike, so what
  point t writes back is rows 5000·t … of the update of the whole arrays.  Row r of the array lies in the block of point
  r / 5000, so the blocks cover the array and it ends holding the update of the whole arrays.
-/
import proofs.«114758_j41918880809423_1_alg».proof.Proof.Gen.KernelIdeal.Frame
import proofs.«114758_j41918880809423_1_alg».proof.Proof.SpecPlain
import Idealize.ShloMosaic.Lib.Pipeline.Value

noncomputable section

namespace Cert.KernelIdeal.Dense

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The body's accesses start at the block's origin. -/
theorem plain_origin : (![0, 0] : Fin 2 → Nat) = fun _ => 0 := funext fun a => by fin_cases a <;> rfl

/-- The body's stored value at an entry of the block is the update of the loaded blocks there. -/
theorem plain_pay_at (x0 x1 : Vec Ideal S5000x2 .f32) (x2 : Vec Ideal S5000x1 .f32) (x3 : Vec Ideal S1x2 .f32)
    (r : Fin 5000) (g : Fin 2) :
    Gen.k10_pay1 x0 x1 x2 x3 (ix2 r g) = Cert.GcnLayers.updPlainAt x0 x1 x2 x3 r g := by
  unfold Gen.k10_pay1
  exact Cert.GcnLayers.kernel_updPlain_at x0 x1 x2 x3 _ _ _ _ _ _ r g

/-- The block indices over the grid: every row window is at block row t, the bias row at its one block. -/
theorem plain_idx : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

/-- The block of the aggregated messages at point t is rows 5000·t … of their array. -/
theorem plain_blk0 (c : Dev nD) (t : Fin cfg10.N) (p : Fin 5000) (q : Fin 2) (k : S200000x2.Idx)
    (hk0 : (k 0).val = t.val * 5000 + p.val) (hk1 : (k 1).val = q.val) :
    (Gen.iblk10 V c 0 t : Vec Ideal S5000x2 .f32) (ix2 p q)
      = (V c (Pipeline.arrRef spec10 0) : S200000x2.Idx → EReal) k := by
  obtain ⟨e0, e1, -⟩ := plain_idx t
  unfold Gen.iblk10
  rw [View.read_apply]
  show (V c (Pipeline.arrRef spec10 0) : S200000x2.Idx → EReal) (((cfg10.win 0).blk t).view.emb (ix2 p q)) = _
  refine congrArg (V c (Pipeline.arrRef spec10 0) : S200000x2.Idx → EReal) (funext fun a => Fin.ext ?_)
  match a with
  | ⟨0, _⟩ => show win10_0.index t (0 : Fin 2) * 5000 + 1 * p.val = (k 0).val; rw [e0, hk0]; omega
  | ⟨1, _⟩ => show win10_0.index t (1 : Fin 2) * 2 + 1 * q.val = (k 1).val; rw [e1, hk1]; omega

/-- The block of the transformed features at point t is rows 5000·t … of their array. -/
theorem plain_blk1 (c : Dev nD) (t : Fin cfg10.N) (p : Fin 5000) (q : Fin 2) (k : S200000x2.Idx)
    (hk0 : (k 0).val = t.val * 5000 + p.val) (hk1 : (k 1).val = q.val) :
    (Gen.iblk10 V c 1 t : Vec Ideal S5000x2 .f32) (ix2 p q)
      = (V c (Pipeline.arrRef spec10 1) : S200000x2.Idx → EReal) k := by
  obtain ⟨-, -, e0, e1, -⟩ := plain_idx t
  unfold Gen.iblk10
  rw [View.read_apply]
  show (V c (Pipeline.arrRef spec10 1) : S200000x2.Idx → EReal) (((cfg10.win 1).blk t).view.emb (ix2 p q)) = _
  refine congrArg (V c (Pipeline.arrRef spec10 1) : S200000x2.Idx → EReal) (funext fun a => Fin.ext ?_)
  match a with
  | ⟨0, _⟩ => show win10_1.index t (0 : Fin 2) * 5000 + 1 * p.val = (k 0).val; rw [e0, hk0]; omega
  | ⟨1, _⟩ => show win10_1.index t (1 : Fin 2) * 2 + 1 * q.val = (k 1).val; rw [e1, hk1]; omega

/-- The block of the self-loop weights at point t is rows 5000·t … of their column. -/
theorem plain_blk2 (c : Dev nD) (t : Fin cfg10.N) (p : Fin 5000) (u : Fin 1) (k : S200000x1.Idx)
    (hk0 : (k 0).val = t.val * 5000 + p.val) (hk1 : (k 1).val = u.val) :
    (Gen.iblk10 V c 2 t : Vec Ideal S5000x1 .f32) (ix2 p u)
      = (V c (Pipeline.arrRef spec10 2) : S200000x1.Idx → EReal) k := by
  obtain ⟨-, -, -, -, e0, e1, -⟩ := plain_idx t
  unfold Gen.iblk10
  rw [View.read_apply]
  show (V c (Pipeline.arrRef spec10 2) : S200000x1.Idx → EReal) (((cfg10.win 2).blk t).view.emb (ix2 p u)) = _
  refine congrArg (V c (Pipeline.arrRef spec10 2) : S200000x1.Idx → EReal) (funext fun a => Fin.ext ?_)
  match a with
  | ⟨0, _⟩ => show win10_2.index t (0 : Fin 2) * 5000 + 1 * p.val = (k 0).val; rw [e0, hk0]; omega
  | ⟨1, _⟩ => show win10_2.index t (1 : Fin 2) * 1 + 1 * u.val = (k 1).val; rw [e1, hk1]; omega

/-- The block of the bias at every point is the whole bias row. -/
theorem plain_blk3 (c : Dev nD) (t : Fin cfg10.N) (u : Fin 1) (q : Fin 2) (k : S1x2.Idx)
    (hk0 : (k 0).val = u.val) (hk1 : (k 1).val = q.val) :
    (Gen.iblk10 V c 3 t : Vec Ideal S1x2 .f32) (ix2 u q)
      = (V c (Pipeline.arrRef spec10 3) : S1x2.Idx → EReal) k := by
  obtain ⟨-, -, -, -, -, -, e0, e1, -⟩ := plain_idx t
  unfold Gen.iblk10
  rw [View.read_apply]
  show (V c (Pipeline.arrRef spec10 3) : S1x2.Idx → EReal) (((cfg10.win 3).blk t).view.emb (ix2 u q)) = _
  refine congrArg (V c (Pipeline.arrRef spec10 3) : S1x2.Idx → EReal) (funext fun a => Fin.ext ?_)
  match a with
  | ⟨0, _⟩ => show win10_3.index t (0 : Fin 2) * 1 + 1 * u.val = (k 0).val; rw [e0, hk0]; omega
  | ⟨1, _⟩ => show win10_3.index t (1 : Fin 2) * 2 + 1 * q.val = (k 1).val; rw [e1, hk1]; omega

/-- What point t writes back is block t of the update of the whole arrays. -/
theorem plain_flushed (c : Dev nD) (t : Fin cfg10.N) :
    (Gen.dat10 (F := Ideal) V c).flushed 4 t = ((cfg10.win 4).blk t).view.read (Elt Ideal)
      (Cert.GcnLayers.updPlainLayer (R := 200000) (N := 2)
        (V c (Pipeline.arrRef spec10 0)) (V c (Pipeline.arrRef spec10 1))
        (V c (Pipeline.arrRef spec10 2)) (V c (Pipeline.arrRef spec10 3))) := by
  show (cfg10.win 4).cut (grid10.coords t) ((Gen.dat10 V c).after 4 t) = _
  rw [Gen.after10_4]
  unfold Gen.out10_4
  rw [View.canon_unit_zero plain_origin]
  simp only [View.ld_unit_zero (S := S5000x2) plain_origin, View.ld_unit_zero (S := S5000x1) plain_origin,
    View.ld_unit_zero (S := S1x2) plain_origin]
  obtain ⟨-, -, -, -, -, -, -, -, e0, e1⟩ := plain_idx t
  funext j
  obtain ⟨p, q, rfl⟩ : ∃ (p : Fin 5000) (q : Fin 2), j = ix2 p q := ⟨j 0, j 1, eq_ix2 j⟩
  have hi0 : ((((cfg10.win 4).blk t).view.emb (ix2 p q) : S200000x2.Idx) 0).val = t.val * 5000 + p.val := by
    show win10_4.index t (0 : Fin 2) * 5000 + 1 * p.val = _
    rw [e0]; omega
  have hi1 : ((((cfg10.win 4).blk t).view.emb (ix2 p q) : S200000x2.Idx) 1).val = q.val := by
    show win10_4.index t (1 : Fin 2) * 2 + 1 * q.val = _
    rw [e1]; omega
  refine (plain_pay_at (Gen.iblk10 V c 0 t) (Gen.iblk10 V c 1 t) (Gen.iblk10 V c 2 t) (Gen.iblk10 V c 3 t) p q).trans ?_
  exact Cert.GcnLayers.updPlainAt_congr
    (Gen.iblk10 V c 0 t) (Gen.iblk10 V c 1 t) (Gen.iblk10 V c 2 t) (Gen.iblk10 V c 3 t)
    (V c (Pipeline.arrRef spec10 0)) (V c (Pipeline.arrRef spec10 1))
    (V c (Pipeline.arrRef spec10 2)) (V c (Pipeline.arrRef spec10 3))
    p q ((((cfg10.win 4).blk t).view.emb (ix2 p q) : S200000x2.Idx) 0)
    ((((cfg10.win 4).blk t).view.emb (ix2 p q) : S200000x2.Idx) 1)
    (plain_blk0 V c t p q _ hi0 hi1) (plain_blk1 V c t p q _ hi0 hi1)
    (plain_blk2 V c t p 0 _ hi0 rfl) (plain_blk3 V c t 0 q _ rfl hi1)

/-- An index of the result array is in point t's block iff its row is among the block's 5000 rows. -/
theorem plain_mem_blk (t : Fin cfg10.N) (i : S200000x2.Idx) :
    i ∈ ((cfg10.win 4).blk t).view.set ↔ ∀ a : Fin 2, win10_4.index t a * S5000x2.size a ≤ (i a).val
      ∧ (i a).val < win10_4.index t a * S5000x2.size a + S5000x2.size a := by
  show i ∈ ((View.whole main_v220).slice (win10_4.rect t)).set ↔ _
  rw [View.set_slice_whole, Rect.mem_set_unit]
  exact Iff.rfl

/-- THE REGION: the result array ends holding the un-rectified update of the region's whole input arrays. -/
theorem plain10 (c : Dev nD) :
    (Gen.dat10 (F := Ideal) V c).arrAt 4 cfg10.N
      = Cert.GcnLayers.updPlainLayer (R := 200000) (N := 2)
          (V c (Pipeline.arrRef spec10 0)) (V c (Pipeline.arrRef spec10 1))
          (V c (Pipeline.arrRef spec10 2)) (V c (Pipeline.arrRef spec10 3)) := by
  refine (Gen.dat10 (F := Ideal) V c).arrAt_eq_of_cover 4 _ (fun t _ => plain_flushed V c t) fun i => ?_
  have hi0 : (i 0).val < 200000 := (i 0).isLt
  have hi1 : (i 1).val < 2 := (i 1).isLt
  have hN : cfg10.N = 40 := N_10
  have ht : (i 0).val / 5000 < cfg10.N := by rw [hN]; omega
  obtain ⟨-, -, -, -, -, -, -, -, e0, e1⟩ := plain_idx ⟨(i 0).val / 5000, ht⟩
  refine ⟨⟨(i 0).val / 5000, ht⟩, flush10_4 _, ?_⟩
  rw [plain_mem_blk]
  intro a
  match a with
  | ⟨0, _⟩ =>
    show win10_4.index ⟨(i 0).val / 5000, ht⟩ (0 : Fin 2) * 5000 ≤ (i 0).val
      ∧ (i 0).val < win10_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win10_4.index ⟨(i 0).val / 5000, ht⟩ (1 : Fin 2) * 2 ≤ (i 1).val
      ∧ (i 1).val < win10_4.index ⟨(i 0).val / 5000, ht⟩ (1 : Fin 2) * 2 + 2
    rw [e1]; omega

end Cert.KernelIdeal.Dense

end
-- ==== Proof.BridgeB3.lean ====
/-
  The third building layer, on both sides.  The kernel computes the product H = X · W of the previous layer's output in a
  pipelined region, then on the host, from the edge lists: the in-degree of every node plus one (counted into zeros, the
  ones added after), its inverse square root, the edge weights norm[src] · norm[dst], the messages H[src] scaled by
  them, their sum per destination node and the self-loop weights 1 / degree; a second region makes the node update
  (agg + H · (1/deg)) + b (this layer is not rectified).  The reference does all of it on the host, counting the degree into an array of ones
  through the wrapped destination index.  Given that the previous layer's outputs agree: where no destination index is
  negative the wrap changes nothing and the two degrees are one array (commutativity of +); every other step is the
  same operation applied to equal arrays; and the two spellings of the node update are one function of the aggregated
  messages, the product, the self-loop column and the bias row.
-/
import proofs.«114758_j41918880809423_1_alg».proof.Proof.Gen.KernelIdeal.Frame
import proofs.«114758_j41918880809423_1_alg».proof.Proof.RefRun
import proofs.«114758_j41918880809423_1_alg».proof.Proof.RChain
import proofs.«114758_j41918880809423_1_alg».proof.Proof.KChain
import proofs.«114758_j41918880809423_1_alg».proof.Proof.Basics
import proofs.«114758_j41918880809423_1_alg».proof.Proof.LibGcnUpdate
import proofs.«114758_j41918880809423_1_alg».proof.Proof.BridgeBase
import proofs.«114758_j41918880809423_1_alg».proof.Proof.RegionLin
import proofs.«114758_j41918880809423_1_alg».proof.Proof.RegionPlain
set_option maxRecDepth 16384
-- reading a stretch of fifty host operations at a buffer is one long simp pass
set_option maxHeartbeats 4000000

noncomputable section

namespace Cert.Bridge

open Cert.KernelIdeal Cert.KernelIdeal.Gen
open Idealize.ShloMosaic Idealize.ShloMosaic.TcCoe Idealize.SL.Sem Idealize.ShloMosaic.ValueIdx Idealize.ShloMosaic.StableHlo
open Cert.Basics Cert.GcnLayers
open Cert.ReferenceIdeal.RefRun (U0 U1 U2 U3 U4 U5 U6 U7 U8 U9 U10 U11 U12 U13 U14 U15)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

set_option quotPrecheck false
/-- The kernel's argument array `b` at launch. -/
local notation "arg(" b ")" => m ((c : Thread nD τ).loc b)
/-- The reference's argument array `b` at launch. -/
local notation "rarg(" b ")" => m' ((c.tc : Thread Cert.ReferenceIdeal.nD Cert.ReferenceIdeal.τ).loc b)

/-- The product, on the kernel's side: region 9 leaves the matrix product of its two input arrays. -/
theorem b3_hK : W16 m ρ c (Proc.devRef .tc main_v180)
    = linLayer (R := 200000) (K := 64) (N := 2) (V15 m ρ c (Pipeline.arrRef spec9 0)) (V15 m ρ c (Pipeline.arrRef spec9 1)) :=
  (W16_arr m ρ c 2).trans (Cert.KernelIdeal.Dense.lin9 (V15 m ρ) c)

/-- The reference's dot_general of this layer is the matrix product. -/
theorem b3_dot (H : FVec Ideal Cert.ReferenceIdeal.S200000x64 .f32) (W : FVec Ideal Cert.ReferenceIdeal.S64x2 .f32) :
    Host.dotGeneral Cert.ReferenceIdeal.dot_S200000x64_S64x2_S200000x2_1_0_0_1_n_n none H W
      = linLayer (R := 200000) (K := 64) (N := 2) H W :=
  host_lin_eq H W

/-- The product's two operands on the kernel's side: the previous layer's output and the weight argument. -/
theorem b3_hK' (hx : W15 m ρ c (Proc.devRef .tc main_v179) = U11 m' c (Proc.devRef .tc Cert.ReferenceIdeal.main_v232)) :
    W16 m ρ c (Proc.devRef .tc main_v180)
      = linLayer (R := 200000) (K := 64) (N := 2) (U11 m' c (Proc.devRef .tc Cert.ReferenceIdeal.main_v232)) arg(main_arg12) := by
  rw [b3_hK]
  have h0 : V15 m ρ c (Pipeline.arrRef spec9 0) = U11 m' c (Proc.devRef .tc Cert.ReferenceIdeal.main_v232) := hx
  have h1 : V15 m ρ c (Pipeline.arrRef spec9 1) = arg(main_arg12) := Cert.KernelIdeal.Chain.at15 m ρ c main_arg12 (by simp [Cert.KernelIdeal.Chain.argL])
  rw [h0, h1]

/-- The product, across. -/
theorem b3_h (e12 : rarg(Cert.ReferenceIdeal.main_arg12) = arg(main_arg12)) (hx : W15 m ρ c (Proc.devRef .tc main_v179) = U11 m' c (Proc.devRef .tc Cert.ReferenceIdeal.main_v232)) :
    W16 m ρ c (Proc.devRef .tc main_v180) = U12 m' c (Proc.devRef .tc Cert.ReferenceIdeal.main_v233) := by
  rw [b3_hK' m ρ m' c hx]
  unfold Cert.ReferenceIdeal.RefRun.U12
  after_results_simp
  rw [Cert.ReferenceIdeal.RefRun.at11 m' c Cert.ReferenceIdeal.main_arg12 (by simp [Cert.ReferenceIdeal.RefRun.argL]), e12, b3_dot]

/-- The degree array. -/
theorem b3_deg (e15 : rarg(Cert.ReferenceIdeal.main_arg15) = arg(main_arg15)) (h15 : ∀ e, IntOp.cmpi .sge (arg(main_arg15) e) 0#32 = 1#1) :
    W17 m ρ c (Proc.devRef .tc main_v186) = U12 m' c (Proc.devRef .tc Cert.ReferenceIdeal.main_v242) := by
  show StableHlo.after hostOps10 (W16 m ρ c) (Proc.devRef .tc main_v186) = _
  unfold Cert.ReferenceIdeal.RefRun.U12
  after_results_simp
  rw [Cert.KernelIdeal.Chain.at16 m ρ c main_arg15 (by simp [Cert.KernelIdeal.Chain.argL]), Cert.ReferenceIdeal.RefRun.at11 m' c Cert.ReferenceIdeal.main_arg15 (by simp [Cert.ReferenceIdeal.RefRun.argL]), e15]
  simp only [wrap_zero (s := Cert.ReferenceIdeal.S1200000) _ _ _ _ h15, count_zero]
  rfl

/-- The aggregated messages. -/
theorem b3_agg (e12 : rarg(Cert.ReferenceIdeal.main_arg12) = arg(main_arg12)) (e14 : rarg(Cert.ReferenceIdeal.main_arg14) = arg(main_arg14)) (e15 : rarg(Cert.ReferenceIdeal.main_arg15) = arg(main_arg15)) (h15 : ∀ e, IntOp.cmpi .sge (arg(main_arg15) e) 0#32 = 1#1) (hx : W15 m ρ c (Proc.devRef .tc main_v179) = U11 m' c (Proc.devRef .tc Cert.ReferenceIdeal.main_v232)) :
    W17 m ρ c (Proc.devRef .tc main_v215) = U12 m' c (Proc.devRef .tc Cert.ReferenceIdeal.main_v271) := by
  show StableHlo.after hostOps10 (W16 m ρ c) (Proc.devRef .tc main_v215) = _
  unfold Cert.ReferenceIdeal.RefRun.U12
  after_results_simp
  rw [Cert.KernelIdeal.Chain.at16 m ρ c main_arg15 (by simp [Cert.KernelIdeal.Chain.argL]), Cert.KernelIdeal.Chain.at16 m ρ c main_arg14 (by simp [Cert.KernelIdeal.Chain.argL]), b3_hK' m ρ m' c hx]
  simp only [Cert.ReferenceIdeal.RefRun.at11 m' c Cert.ReferenceIdeal.main_arg12 (by simp [Cert.ReferenceIdeal.RefRun.argL]), Cert.ReferenceIdeal.RefRun.at11 m' c Cert.ReferenceIdeal.main_arg14 (by simp [Cert.ReferenceIdeal.RefRun.argL]), Cert.ReferenceIdeal.RefRun.at11 m' c Cert.ReferenceIdeal.main_arg15 (by simp [Cert.ReferenceIdeal.RefRun.argL]), e12, e14, e15]
  simp only [wrap_zero (s := Cert.ReferenceIdeal.S1200000) _ _ _ _ h15, count_zero, b3_dot]
  rfl

/-- The node update.  The kernel's region 10 is the update function of four arrays: the aggregated messages, the product,
    the self-loop column (the reshaped 1 / degree) and the bias row (the reshaped bias vector); the reference's host
    spelling is the same function of the same four (a reshaped vector is the column, or the row, a broadcast makes of it). -/
theorem b3_x (e12 : rarg(Cert.ReferenceIdeal.main_arg12) = arg(main_arg12)) (e13 : rarg(Cert.ReferenceIdeal.main_arg13) = arg(main_arg13)) (e14 : rarg(Cert.ReferenceIdeal.main_arg14) = arg(main_arg14)) (e15 : rarg(Cert.ReferenceIdeal.main_arg15) = arg(main_arg15)) (h15 : ∀ e, IntOp.cmpi .sge (arg(main_arg15) e) 0#32 = 1#1) (hx : W15 m ρ c (Proc.devRef .tc main_v179) = U11 m' c (Proc.devRef .tc Cert.ReferenceIdeal.main_v232)) :
    W18 m ρ c (Proc.devRef .tc main_v220) = U13 m' c (Proc.devRef .tc Cert.ReferenceIdeal.main_v280) := by
  refine (W18_arr m ρ c 4).trans ?_
  rw [Cert.KernelIdeal.Dense.plain10 (V17 m ρ) c]
  have hagg : V17 m ρ c (Pipeline.arrRef spec10 0) = U12 m' c (Proc.devRef .tc Cert.ReferenceIdeal.main_v271) :=
    b3_agg m ρ m' c e12 e14 e15 h15 hx
  have hh : V17 m ρ c (Pipeline.arrRef spec10 1) = U12 m' c (Proc.devRef .tc Cert.ReferenceIdeal.main_v233) := by
    show StableHlo.after hostOps10 (W16 m ρ c) (Proc.devRef .tc main_v180) = _
    after_results_simp
    exact b3_h m ρ m' c e12 hx
  have hs : V17 m ρ c (Pipeline.arrRef spec10 2)
      = broadcastInDim (⟨2, ![200000, 1]⟩ : Shape) ![0] Cert.ReferenceIdeal.Gen.bcast_S200000_S200000x1_0
          (Host.divf (broadcastInDim Cert.ReferenceIdeal.S200000 ![] Cert.ReferenceIdeal.Gen.bcast_S_S200000 (constant (F := Ideal) Cert.ReferenceIdeal.S_ .f32 0x3F800000#32))
            (U12 m' c (Proc.devRef .tc Cert.ReferenceIdeal.main_v242))) := by
    rw [← b3_deg m ρ m' c e15 h15]
    show StableHlo.after hostOps10 (W16 m ρ c) (Proc.devRef .tc main_v218) = _
    after_results_simp
    exact (col_of_vector _ _ rfl _ _).symm
  have hb : V17 m ρ c (Pipeline.arrRef spec10 3)
      = broadcastInDim (⟨2, ![1, 2]⟩ : Shape) ![1] Cert.ReferenceIdeal.Gen.bcast_S2_S1x2_1 arg(main_arg13) := by
    show StableHlo.after hostOps10 (W16 m ρ c) (Proc.devRef .tc main_v219) = _
    after_results_simp
    rw [Cert.KernelIdeal.Chain.at16 m ρ c main_arg13 (by simp [Cert.KernelIdeal.Chain.argL])]
    exact (Cert.SageLayers.row_of_vector _ _ rfl _ _).symm
  rw [hagg, hh, hs, hb]
  unfold Cert.ReferenceIdeal.RefRun.U13
  after_results_simp
  rw [Cert.ReferenceIdeal.RefRun.at12 m' c Cert.ReferenceIdeal.main_arg13 (by simp [Cert.ReferenceIdeal.RefRun.argL]), e13]
  symm
  exact host_updPlain_eq _ _ _ _ _ rfl _ _ rfl rfl _ _ rfl _ _ rfl rfl _

end Cert.Bridge

end
-- ==== Proof.SpecLsm.lean ====
/-
  The row log-softmax of a matrix on the extended reals, for any extents R, N, and a pipelined kernel body's spelling of
  it read at an entry.

  For a row r of x let m r be the greatest of the row's entries, folded from −∞ (the f32 word 0xFF800000).  The entry (r, j)
  of the log-softmax is

      (x (r, j) − m r) − log (∑ d, exp (x (r, d) − m r)) :

  the entry shifted by the row's maximum, less the logarithm of the row's sum of shifted exponentials.  Each entry reads
  only row r of x, so a row block of the result is the same function of the row block of x.

  A kernel body holding a row block computes the row maxima by a lane maximum over axis 1 and the row sums by a lane
  sum over axis 1, keeps each as an [R, 1] column (a cast of the [R] vector), repeats the column along the N columns and
  works pointwise.  A kept column read at (r, 0) is the vector at r, a repeated column read at (r, j) is the column at
  (r, 0); the lane maximum at r is the fold of max over the row from the accumulator's value and the lane sum at r is the
  sum over the row.  So the body's value at (r, j) is the entry above, with nothing to prove about the arithmetic.
-/
import proofs.«114758_j41918880809423_1_alg».proof.Proof.LibKeepdims
import proofs.«114758_j41918880809423_1_alg».proof.Proof.LibRowMax

noncomputable section

open scoped BigOperators

namespace Cert.Lsm

open Idealize.ShloMosaic Idealize.ShloMosaic.ValueIdx

variable {R N : ℕ}

/-- The greatest entry of row r, folded from −∞. -/
def rowMax (x : (⟨2, ![R, N]⟩ : Shape).Idx → EReal) (r : Fin R) : EReal :=
  (Finset.univ : Finset (Fin N)).fold max (Ideal.ofBits .f32 0xFF800000#32) (fun d => x (ix2 r d))

/-- The sum over row r of the exponentials of the entries shifted by the row's maximum. -/
def rowExpSum (x : (⟨2, ![R, N]⟩ : Shape).Idx → EReal) (r : Fin R) : EReal :=
  ∑ d : Fin N, Ideal.exp (x (ix2 r d) - rowMax x r)

/-- Entry (r, j) of the row log-softmax. -/
def lsmAt (x : (⟨2, ![R, N]⟩ : Shape).Idx → EReal) (r : Fin R) (j : Fin N) : EReal :=
  (x (ix2 r j) - rowMax x r) - Ideal.log (rowExpSum x r)

/-- The row log-softmax as a whole matrix. -/
def lsmLayer (x : (⟨2, ![R, N]⟩ : Shape).Idx → EReal) : (⟨2, ![R, N]⟩ : Shape).Idx → EReal :=
  fun i => lsmAt x (i 0) (i 1)

/-- An entry of the log-softmax depends only on its row: two matrices that agree on a row of each have the same
    log-softmax along those rows. -/
theorem lsmAt_congr {R' : ℕ} (x : (⟨2, ![R, N]⟩ : Shape).Idx → EReal) (x' : (⟨2, ![R', N]⟩ : Shape).Idx → EReal)
    (r : Fin R) (r' : Fin R') (h : ∀ d : Fin N, x (ix2 r d) = x' (ix2 r' d)) (j : Fin N) :
    lsmAt x r j = lsmAt x' r' j := by
  have hm : rowMax x r = rowMax x' r' := by
    unfold rowMax
    exact congrArg (fun f => (Finset.univ : Finset (Fin N)).fold max (Ideal.ofBits .f32 0xFF800000#32) f) (funext h)
  unfold lsmAt rowExpSum
  rw [hm, h j]
  exact congrArg (fun s => (x' (ix2 r' j) - rowMax x' r') - Ideal.log s) (Finset.sum_congr rfl fun d _ => by rw [h d])

/-- The shifted block x − m of a kernel body, read at an entry: the kept, repeated column of lane maxima read at
    (r, j) is the row's maximum. -/
theorem kernel_shift_at (x : FVec Ideal ⟨2, ![R, N]⟩ .f32)
    (hr : (⟨2, ![R, N]⟩ : Shape).Reduces [1] ⟨1, ![R]⟩) (hφ : FKind.Formats .f32)
    (hmax : (0xFF800000#32 : BitVec (FTy.bits .f32)) = FKind.maximumf.neutral .f32 hφ)
    (hc : (⟨1, ![R]⟩ : Shape).ShapeCasts ⟨2, ![R, 1]⟩) (hb : (⟨2, ![R, 1]⟩ : Shape).Broadcasts ⟨2, ![R, N]⟩)
    (r : Fin R) (j : Fin N) :
    subf x (broadcastTo ⟨2, ![R, N]⟩
        (shapeCast ⟨2, ![R, 1]⟩ (multiReduction .maximumf [1] ⟨1, ![R]⟩ x 0xFF800000#32 hr hφ hmax) hc) hb) (ix2 r j)
      = x (ix2 r j) - rowMax x r := by
  rw [subf_apply, Cert.LibKeepdims.broadcastTo_a1_ab_apply, Cert.LibKeepdims.shapeCast_a_a1_apply,
    Cert.LibRowMax.multiReduction_maximumf_rows]
  rfl

/-- A kernel body's spelling of the row log-softmax, read at an entry. -/
theorem kernel_lsm_at (x : FVec Ideal ⟨2, ![R, N]⟩ .f32)
    (h1 : (⟨2, ![R, N]⟩ : Shape).ShapeCasts ⟨2, ![R, N]⟩)
    (hr : (⟨2, ![R, N]⟩ : Shape).Reduces [1] ⟨1, ![R]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : (⟨1, ![R]⟩ : Shape).ShapeCasts ⟨2, ![R, 1]⟩) (hb : (⟨2, ![R, 1]⟩ : Shape).Broadcasts ⟨2, ![R, N]⟩)
    (r : Fin R) (j : Fin N) :
    subf
        (subf (shapeCast ⟨2, ![R, N]⟩ x h1) (broadcastTo ⟨2, ![R, N]⟩
          (shapeCast ⟨2, ![R, 1]⟩
            (multiReduction .maximumf [1] ⟨1, ![R]⟩ (shapeCast ⟨2, ![R, N]⟩ x h1) 0xFF800000#32 hr hφ hmax) hc) hb))
        (broadcastTo ⟨2, ![R, N]⟩
          (log (shapeCast ⟨2, ![R, 1]⟩
            (multiReduction .add [1] ⟨1, ![R]⟩
              (exp (subf (shapeCast ⟨2, ![R, N]⟩ x h1) (broadcastTo ⟨2, ![R, N]⟩
                (shapeCast ⟨2, ![R, 1]⟩
                  (multiReduction .maximumf [1] ⟨1, ![R]⟩ (shapeCast ⟨2, ![R, N]⟩ x h1) 0xFF800000#32 hr hφ hmax) hc) hb)))
              0x00000000#32 hr hφ hadd) hc)) hb) (ix2 r j)
      = lsmAt x r j := by
  rw [shapeCast_self]
  rw [subf_apply, kernel_shift_at x hr hφ hmax hc hb r j, Cert.LibKeepdims.broadcastTo_a1_ab_apply]
  show _ - Ideal.log (shapeCast ⟨2, ![R, 1]⟩ _ hc (ix2 r (0 : Fin 1))) = _
  rw [Cert.LibKeepdims.shapeCast_a_a1_apply, Cert.LibKeepdims.multiReduction_add_rows]
  refine congrArg (fun s => (x (ix2 r j) - rowMax x r) - Ideal.log s) (Finset.sum_congr rfl fun d _ => ?_)
  show Ideal.exp (subf x _ (ix2 r d)) = _
  rw [kernel_shift_at x hr hφ hmax hc hb r d]

end Cert.Lsm

end
-- ==== Proof.RegionLsm.lean ====
/-
  The row log-softmax region, as one whole-array function of its input array.

  The region runs over 40 points; point t holds rows 5000·t … 5000·t + 4999 of the logits and stores one block: the row
  log-softmax of what it holds.  An entry of the log-softmax reads only its own row, and the row a block's entry sits at
  in the array is 5000·t plus its row in the block for the input and the output window alike, so what point t writes
  back is rows 5000·t … of the log-softmax of the whole array.  Row r of the array lies in the block of point r / 5000,
  so the blocks cover the array and it ends holding the log-softmax of the whole input array.
-/
import proofs.«114758_j41918880809423_1_alg».proof.Proof.Gen.KernelIdeal.Frame
import proofs.«114758_j41918880809423_1_alg».proof.Proof.SpecLsm
import Idealize.ShloMosaic.Lib.Pipeline.Value

noncomputable section

namespace Cert.KernelIdeal.Dense

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The body's accesses start at the block's origin. -/
theorem lsm_origin : (![0, 0] : Fin 2 → Nat) = fun _ => 0 := funext fun a => by fin_cases a <;> rfl

/-- The body's stored value at an entry of the block is the log-softmax of the loaded block there. -/
theorem lsm_pay_at (x0 : Vec Ideal S5000x2 .f32) (r : Fin 5000) (j : Fin 2) :
    Gen.k11_pay1 x0 (ix2 r j) = Cert.Lsm.lsmAt x0 r j := by
  unfold Gen.k11_pay1
  exact Cert.Lsm.kernel_lsm_at x0 _ _ _ _ _ _ _ r j

/-- The block indices over the grid: both windows are at block row t. -/
theorem lsm_idx : ∀ t : Fin cfg11.N,
    win11_0.index t (0 : Fin 2) = t.val ∧ win11_0.index t (1 : Fin 2) = 0
    ∧ win11_1.index t (0 : Fin 2) = t.val ∧ win11_1.index t (1 : Fin 2) = 0 :=
  (by decide +kernel : ∀ t : Fin grid11.N, _)

/-- The block of the logits at point t is rows 5000·t … of their array. -/
theorem lsm_blk0 (c : Dev nD) (t : Fin cfg11.N) (p : Fin 5000) (q : Fin 2) (k : S200000x2.Idx)
    (hk0 : (k 0).val = t.val * 5000 + p.val) (hk1 : (k 1).val = q.val) :
    (Gen.iblk11 V c 0 t : Vec Ideal S5000x2 .f32) (ix2 p q)
      = (V c (Pipeline.arrRef spec11 0) : S200000x2.Idx → EReal) k := by
  obtain ⟨e0, e1, -⟩ := lsm_idx t
  unfold Gen.iblk11
  rw [View.read_apply]
  show (V c (Pipeline.arrRef spec11 0) : S200000x2.Idx → EReal) (((cfg11.win 0).blk t).view.emb (ix2 p q)) = _
  refine congrArg (V c (Pipeline.arrRef spec11 0) : S200000x2.Idx → EReal) (funext fun a => Fin.ext ?_)
  match a with
  | ⟨0, _⟩ => show win11_0.index t (0 : Fin 2) * 5000 + 1 * p.val = (k 0).val; rw [e0, hk0]; omega
  | ⟨1, _⟩ => show win11_0.index t (1 : Fin 2) * 2 + 1 * q.val = (k 1).val; rw [e1, hk1]; omega

/-- What point t writes back is block t of the log-softmax of the whole array. -/
theorem lsm_flushed (c : Dev nD) (t : Fin cfg11.N) :
    (Gen.dat11 (F := Ideal) V c).flushed 1 t = ((cfg11.win 1).blk t).view.read (Elt Ideal)
      (Cert.Lsm.lsmLayer (R := 200000) (N := 2) (V c (Pipeline.arrRef spec11 0))) := by
  show (cfg11.win 1).cut (grid11.coords t) ((Gen.dat11 V c).after 1 t) = _
  rw [Gen.after11_1]
  unfold Gen.out11_1
  rw [View.canon_unit_zero lsm_origin]
  simp only [View.ld_unit_zero (S := S5000x2) lsm_origin]
  obtain ⟨-, -, e0, e1⟩ := lsm_idx t
  funext j
  obtain ⟨p, q, rfl⟩ : ∃ (p : Fin 5000) (q : Fin 2), j = ix2 p q := ⟨j 0, j 1, eq_ix2 j⟩
  have hi0 : ((((cfg11.win 1).blk t).view.emb (ix2 p q) : S200000x2.Idx) 0).val = t.val * 5000 + p.val := by
    show win11_1.index t (0 : Fin 2) * 5000 + 1 * p.val = _
    rw [e0]; omega
  refine (lsm_pay_at (Gen.iblk11 V c 0 t) p q).trans ?_
  have hi1 : ((((cfg11.win 1).blk t).view.emb (ix2 p q) : S200000x2.Idx) 1) = q := Fin.ext (by
    show win11_1.index t (1 : Fin 2) * 2 + 1 * q.val = _
    rw [e1]; omega)
  show Cert.Lsm.lsmAt (Gen.iblk11 V c 0 t) p q = Cert.Lsm.lsmAt (R := 200000) (N := 2) (V c (Pipeline.arrRef spec11 0))
    ((((cfg11.win 1).blk t).view.emb (ix2 p q) : S200000x2.Idx) 0) ((((cfg11.win 1).blk t).view.emb (ix2 p q) : S200000x2.Idx) 1)
  rw [hi1]
  exact Cert.Lsm.lsmAt_congr (Gen.iblk11 V c 0 t) (V c (Pipeline.arrRef spec11 0)) p
    ((((cfg11.win 1).blk t).view.emb (ix2 p q) : S200000x2.Idx) 0)
    (fun d => lsm_blk0 V c t p d _ hi0 rfl) q

/-- An index of the result array is in point t's block iff its row is among the block's 5000 rows. -/
theorem lsm_mem_blk (t : Fin cfg11.N) (i : S200000x2.Idx) :
    i ∈ ((cfg11.win 1).blk t).view.set ↔ ∀ a : Fin 2, win11_1.index t a * S5000x2.size a ≤ (i a).val
      ∧ (i a).val < win11_1.index t a * S5000x2.size a + S5000x2.size a := by
  show i ∈ ((View.whole main_v229).slice (win11_1.rect t)).set ↔ _
  rw [View.set_slice_whole, Rect.mem_set_unit]
  exact Iff.rfl

/-- THE REGION: the result array ends holding the row log-softmax of the region's whole input array. -/
theorem lsm11 (c : Dev nD) :
    (Gen.dat11 (F := Ideal) V c).arrAt 1 cfg11.N
      = Cert.Lsm.lsmLayer (R := 200000) (N := 2) (V c (Pipeline.arrRef spec11 0)) := by
  refine (Gen.dat11 (F := Ideal) V c).arrAt_eq_of_cover 1 _ (fun t _ => lsm_flushed V c t) fun i => ?_
  have hi0 : (i 0).val < 200000 := (i 0).isLt
  have hi1 : (i 1).val < 2 := (i 1).isLt
  have hN : cfg11.N = 40 := N_11
  have ht : (i 0).val / 5000 < cfg11.N := by rw [hN]; omega
  obtain ⟨-, -, e0, e1⟩ := lsm_idx ⟨(i 0).val / 5000, ht⟩
  refine ⟨⟨(i 0).val / 5000, ht⟩, flush11_1 _, ?_⟩
  rw [lsm_mem_blk]
  intro a
  match a with
  | ⟨0, _⟩ =>
    show win11_1.index ⟨(i 0).val / 5000, ht⟩ (0 : Fin 2) * 5000 ≤ (i 0).val
      ∧ (i 0).val < win11_1.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win11_1.index ⟨(i 0).val / 5000, ht⟩ (1 : Fin 2) * 2 ≤ (i 1).val
      ∧ (i 1).val < win11_1.index ⟨(i 0).val / 5000, ht⟩ (1 : Fin 2) * 2 + 2
    rw [e1]; omega

end Cert.KernelIdeal.Dense

end
-- ==== Proof.RefLsm.lean ====
/-
  The host program's row log-softmax is the row log-softmax.

  The host computes it in eleven steps: the row maxima by a reduction by maximum over axis 1 from −∞; their maximum with a
  vector of −∞ (which changes nothing: −∞ is already below the fold it started); the maxima as an [R, 1] column repeated
  along the N columns; the difference x − m; its exponential; the row sums by a reduction by addition over axis 1 from 0;
  the sums as an [R, 1] column; its logarithm; that column repeated along the columns; and the final difference.  A
  reduction over axis 1 read at row r is the fold, or the sum, over the row's entries; a column made of a vector reads the
  vector at r, a repeated column reads the column at (r, 0).  So, entry by entry, the host's value is
  (x (r, j) − m r) − log (∑ d, exp (x (r, d) − m r)) with m r the fold of max over row r from −∞: the same function the
  kernel body computes block by block.
-/
import proofs.«114758_j41918880809423_1_alg».proof.Proof.SpecLsm
import proofs.«114758_j41918880809423_1_alg».proof.Proof.LibHostRows
import proofs.«114758_j41918880809423_1_alg».proof.Proof.Gen.ReferenceIdeal

noncomputable section

open scoped BigOperators

namespace Cert.Lsm

open Idealize.ShloMosaic Idealize.ShloMosaic.ValueIdx

variable {R N : ℕ}

/-- On the extended reals the host's reduction by maximum over the second axis of an [R, N] matrix is, at row r, the
    fold of max from the initial value over that row's entries. -/
theorem hostReduceMax_rows {u : Shape} (x : FVec Ideal ⟨2, ![R, N]⟩ .f32) (init : u.Idx → Ideal .f32)
    (h' : (⟨2, ![R, N]⟩ : Shape).ReducesTo [1] ⟨1, ![R]⟩) (h : (⟨2, ![R, N]⟩ : Shape).Reduces [1] ⟨1, ![R]⟩)
    (hu : 0 < u.numel) (r : Fin R) :
    Host.reduce (FloatOps.maximumf (F := Ideal) (φ := .f32)) x init h' hu (ix1 r)
      = (Finset.univ : Finset (Fin N)).fold max (init (Shape.Idx.first hu)) (fun d => x (ix2 r d)) := by
  refine (Cert.LibRowMax.hostReduce_maximumf_single x init h' h hu (ix1 r)).trans ?_
  refine congrArg (fun f => (Finset.univ : Finset (Fin N)).fold max (init (Shape.Idx.first hu)) f) (funext fun d => ?_)
  refine congrArg x (funext fun ax => Fin.ext ?_)
  match ax with
  | ⟨0, _⟩ => rfl
  | ⟨1, _⟩ => rfl

/-- The host's row maxima, after the maximum with a vector of −∞, read at row r: the row's maximum. -/
theorem host_rowMax_at (x : FVec Ideal ⟨2, ![R, N]⟩ .f32)
    (d0 : Fin (⟨0, ![]⟩ : Shape).rank → Fin (⟨1, ![R]⟩ : Shape).rank)
    (hb0 : (⟨0, ![]⟩ : Shape).BroadcastsInDim ⟨1, ![R]⟩ d0)
    (hr' : (⟨2, ![R, N]⟩ : Shape).ReducesTo [1] ⟨1, ![R]⟩) (hr : (⟨2, ![R, N]⟩ : Shape).Reduces [1] ⟨1, ![R]⟩)
    (hu : 0 < (⟨0, ![]⟩ : Shape).numel) (r : Fin R) :
    maximumf (broadcastInDim ⟨1, ![R]⟩ d0 hb0 (constant (F := Ideal) ⟨0, ![]⟩ .f32 0xFF800000#32))
        (Host.reduce (FloatOps.maximumf (F := Ideal) (φ := .f32)) x (constant (F := Ideal) ⟨0, ![]⟩ .f32 0xFF800000#32) hr' hu)
        (ix1 r)
      = rowMax x r := by
  rw [maximumf_apply, hostReduceMax_rows x _ hr' hr hu r,
    show broadcastInDim ⟨1, ![R]⟩ d0 hb0 (constant (F := Ideal) ⟨0, ![]⟩ .f32 0xFF800000#32) (ix1 r)
      = Ideal.ofBits .f32 0xFF800000#32 from broadcastInDim_apply d0 hb0 _ (ix1 r) ix0 (fun a => a.elim0)]
  show max (Ideal.ofBits .f32 0xFF800000#32)
      ((Finset.univ : Finset (Fin N)).fold max (Ideal.ofBits .f32 0xFF800000#32) (fun d => x (ix2 r d))) = _
  exact max_eq_right ((Finset.le_fold_max _).mpr (Or.inl le_rfl))

/-- The host's spelling of the row log-softmax, for any extents, the shape facts and axis maps as hypotheses: as a whole
    matrix it is the row log-softmax. -/
theorem host_lsm_gen (x : FVec Ideal ⟨2, ![R, N]⟩ .f32)
    (d0 : Fin (⟨0, ![]⟩ : Shape).rank → Fin (⟨1, ![R]⟩ : Shape).rank)
    (hb0 : (⟨0, ![]⟩ : Shape).BroadcastsInDim ⟨1, ![R]⟩ d0)
    (d3 : Fin (⟨1, ![R]⟩ : Shape).rank → Fin (⟨2, ![R, 1]⟩ : Shape).rank) (hd3 : d3 0 = 0)
    (h3 : (⟨1, ![R]⟩ : Shape).BroadcastsInDim ⟨2, ![R, 1]⟩ d3)
    (d4 : Fin (⟨2, ![R, 1]⟩ : Shape).rank → Fin (⟨2, ![R, N]⟩ : Shape).rank) (hd40 : d4 0 = 0) (hd41 : d4 1 = 1)
    (h4 : (⟨2, ![R, 1]⟩ : Shape).BroadcastsInDim ⟨2, ![R, N]⟩ d4)
    (hr' : (⟨2, ![R, N]⟩ : Shape).ReducesTo [1] ⟨1, ![R]⟩) (hr : (⟨2, ![R, N]⟩ : Shape).Reduces [1] ⟨1, ![R]⟩)
    (hu : 0 < (⟨0, ![]⟩ : Shape).numel) :
    subf
        (subf x (broadcastInDim ⟨2, ![R, N]⟩ d4 h4 (broadcastInDim ⟨2, ![R, 1]⟩ d3 h3
          (maximumf (broadcastInDim ⟨1, ![R]⟩ d0 hb0 (constant (F := Ideal) ⟨0, ![]⟩ .f32 0xFF800000#32))
            (Host.reduce (FloatOps.maximumf (F := Ideal) (φ := .f32)) x
              (constant (F := Ideal) ⟨0, ![]⟩ .f32 0xFF800000#32) hr' hu)))))
        (broadcastInDim ⟨2, ![R, N]⟩ d4 h4 (Host.log (broadcastInDim ⟨2, ![R, 1]⟩ d3 h3
          (Host.reduceAdd
            (Host.exp (subf x (broadcastInDim ⟨2, ![R, N]⟩ d4 h4 (broadcastInDim ⟨2, ![R, 1]⟩ d3 h3
              (maximumf (broadcastInDim ⟨1, ![R]⟩ d0 hb0 (constant (F := Ideal) ⟨0, ![]⟩ .f32 0xFF800000#32))
                (Host.reduce (FloatOps.maximumf (F := Ideal) (φ := .f32)) x
                  (constant (F := Ideal) ⟨0, ![]⟩ .f32 0xFF800000#32) hr' hu))))))
            (constant (F := Ideal) ⟨0, ![]⟩ .f32 0x00000000#32) hr' hu))))
      = lsmLayer x := by
  funext i
  obtain ⟨r, j, rfl⟩ : ∃ (r : Fin R) (j : Fin N), i = ix2 r j := ⟨i 0, i 1, eq_ix2 i⟩
  show _ = lsmAt x r j
  have hshift : ∀ d : Fin N,
      subf x (broadcastInDim ⟨2, ![R, N]⟩ d4 h4 (broadcastInDim ⟨2, ![R, 1]⟩ d3 h3
          (maximumf (broadcastInDim ⟨1, ![R]⟩ d0 hb0 (constant (F := Ideal) ⟨0, ![]⟩ .f32 0xFF800000#32))
            (Host.reduce (FloatOps.maximumf (F := Ideal) (φ := .f32)) x
              (constant (F := Ideal) ⟨0, ![]⟩ .f32 0xFF800000#32) hr' hu)))) (ix2 r d)
        = x (ix2 r d) - rowMax x r := fun d => by
    rw [subf_apply, Cert.LibHostRows.bcast_a1_ab_at d4 hd40 hd41 h4 _ r d,
      Cert.LibHostRows.bcast_a_a1_at d3 hd3 h3 _ r (0 : Fin 1), host_rowMax_at x d0 hb0 hr' hr hu r]
  rw [subf_apply, hshift j, Cert.LibHostRows.bcast_a1_ab_at d4 hd40 hd41 h4 _ r j]
  show _ - Ideal.log (broadcastInDim ⟨2, ![R, 1]⟩ d3 h3 _ (ix2 r (0 : Fin 1))) = _
  rw [Cert.LibHostRows.bcast_a_a1_at d3 hd3 h3 _ r (0 : Fin 1), Cert.LibHostRows.hostReduceAdd_rows _ _ hr' hr hu r]
  show _ - Ideal.log (Ideal.ofBits .f32 0x00000000#32 + _) = _
  rw [Ideal.ofBits_zero_f32, zero_add]
  refine congrArg (fun s => (x (ix2 r j) - rowMax x r) - Ideal.log s) (Finset.sum_congr rfl fun d _ => ?_)
  show Ideal.exp (subf x _ (ix2 r d)) = _
  rw [hshift d]

end Cert.Lsm

namespace Cert.ReferenceIdeal.Dense

open Cert.ReferenceIdeal Cert.ReferenceIdeal.Gen Idealize.ShloMosaic Idealize.ShloMosaic.ValueIdx

/-- The reference program's outlined log-softmax, over its argument: the row log-softmax of the argument. -/
theorem host_lsm_eq (x : FVec Ideal S200000x2 .f32) :
    subf
        (subf x (broadcastInDim S200000x2 ![0, 1] bcast_S200000x1_S200000x2_0_1
          (broadcastInDim S200000x1 ![0] bcast_S200000_S200000x1_0
            (maximumf (broadcastInDim S200000 ![] bcast_S_S200000 (constant (F := Ideal) S_ .f32 0xFF800000#32))
              (Host.reduce FloatOps.maximumf x (constant (F := Ideal) S_ .f32 0xFF800000#32)
                reducesTo_S200000x2_S200000_d1 h_S_)))))
        (broadcastInDim S200000x2 ![0, 1] bcast_S200000x1_S200000x2_0_1
          (Host.log (broadcastInDim S200000x1 ![0] bcast_S200000_S200000x1_0
            (Host.reduceAdd
              (Host.exp (subf x (broadcastInDim S200000x2 ![0, 1] bcast_S200000x1_S200000x2_0_1
                (broadcastInDim S200000x1 ![0] bcast_S200000_S200000x1_0
                  (maximumf (broadcastInDim S200000 ![] bcast_S_S200000 (constant (F := Ideal) S_ .f32 0xFF800000#32))
                    (Host.reduce FloatOps.maximumf x (constant (F := Ideal) S_ .f32 0xFF800000#32)
                      reducesTo_S200000x2_S200000_d1 h_S_))))))
              (constant (F := Ideal) S_ .f32 0x00000000#32) reducesTo_S200000x2_S200000_d1 h_S_))))
      = Cert.Lsm.lsmLayer (R := 200000) (N := 2) x :=
  Cert.Lsm.host_lsm_gen (R := 200000) (N := 2) x ![] bcast_S_S200000 ![0] rfl bcast_S200000_S200000x1_0
    ![0, 1] rfl rfl bcast_S200000x1_S200000x2_0_1 reducesTo_S200000x2_S200000_d1 (by decide) h_S_

end Cert.ReferenceIdeal.Dense

end
-- ==== Proof.RefTail.lean ====
/-
  The reference's last two segments, read.  The scatter back to global order writes the last layer's rows over a matrix of
  zeros at the wrapped index array; the outlined row log-softmax then runs on the result.  The log-softmax's fifteen
  operations are spelt here once more over the plain operation builders (the run spells them through typed references,
  which transport a value along an equation between a buffer's type and the value's type; for literal buffers that
  transport is the identity, so the two lists are the same list).  Read at its result buffer, the plain list is the host's
  composition of the log-softmax's steps over the scattered rows, which is the row log-softmax as a whole matrix.
-/
import proofs.«114758_j41918880809423_1_alg».proof.Proof.RefRun
import proofs.«114758_j41918880809423_1_alg».proof.Proof.RChain
import proofs.«114758_j41918880809423_1_alg».proof.Proof.RefLsm

set_option maxRecDepth 16384

noncomputable section

namespace Cert.ReferenceIdeal.Dense

open Cert.ReferenceIdeal Cert.ReferenceIdeal.Gen Idealize.ShloMosaic Idealize.ShloMosaic.TcCoe Idealize.SL.Sem Idealize.ShloMosaic.StableHlo
open Cert.ReferenceIdeal.RefRun (Seg14 Seg15 U13 U14 U15)

variable {F : FTy → Type} [FloatOps F]

/-- The row log-softmax's fifteen operations over the plain builders. -/
abbrev lsmOps : List (HloOp τ sig (Elt F)) :=
  [ nullary main_call4_cst (constant S_ .f32 0xFF800000#32),
    binary main_v288 main_call4_cst main_call4_v0 ((fun x v => Host.reduce FloatOps.maximumf x v reducesTo_S200000x2_S200000_d1 h_S_) : (⟨S200000x2, .f32⟩ : BufTy).Contents (Elt F) → (⟨S_, .f32⟩ : BufTy).Contents (Elt F) → (⟨S200000, .f32⟩ : BufTy).Contents (Elt F)),
    nullary main_call4_cst_0 (constant S_ .f32 0xFF800000#32),
    unary main_call4_cst_0 main_call4_v1 (broadcastInDim S200000 ![] bcast_S_S200000 : (⟨S_, .f32⟩ : BufTy).Contents (Elt F) → (⟨S200000, .f32⟩ : BufTy).Contents (Elt F)),
    binary main_call4_v1 main_call4_v0 main_call4_v2 (maximumf : (⟨S200000, .f32⟩ : BufTy).Contents (Elt F) → (⟨S200000, .f32⟩ : BufTy).Contents (Elt F) → (⟨S200000, .f32⟩ : BufTy).Contents (Elt F)),
    unary main_call4_v2 main_call4_v3 (broadcastInDim S200000x1 ![0] bcast_S200000_S200000x1_0 : (⟨S200000, .f32⟩ : BufTy).Contents (Elt F) → (⟨S200000x1, .f32⟩ : BufTy).Contents (Elt F)),
    unary main_call4_v3 main_call4_v4 (broadcastInDim S200000x2 ![0, 1] bcast_S200000x1_S200000x2_0_1 : (⟨S200000x1, .f32⟩ : BufTy).Contents (Elt F) → (⟨S200000x2, .f32⟩ : BufTy).Contents (Elt F)),
    binary main_v288 main_call4_v4 main_call4_v5 (subf : (⟨S200000x2, .f32⟩ : BufTy).Contents (Elt F) → (⟨S200000x2, .f32⟩ : BufTy).Contents (Elt F) → (⟨S200000x2, .f32⟩ : BufTy).Contents (Elt F)),
    unary main_call4_v5 main_call4_v6 (Host.exp : (⟨S200000x2, .f32⟩ : BufTy).Contents (Elt F) → (⟨S200000x2, .f32⟩ : BufTy).Contents (Elt F)),
    nullary main_call4_cst_1 (constant S_ .f32 0x00000000#32),
    binary main_call4_v6 main_call4_cst_1 main_call4_v7 ((fun x v => Host.reduceAdd x v reducesTo_S200000x2_S200000_d1 h_S_) : (⟨S200000x2, .f32⟩ : BufTy).Contents (Elt F) → (⟨S_, .f32⟩ : BufTy).Contents (Elt F) → (⟨S200000, .f32⟩ : BufTy).Contents (Elt F)),
    unary main_call4_v7 main_call4_v8 (broadcastInDim S200000x1 ![0] bcast_S200000_S200000x1_0 : (⟨S200000, .f32⟩ : BufTy).Contents (Elt F) → (⟨S200000x1, .f32⟩ : BufTy).Contents (Elt F)),
    unary main_call4_v8 main_call4_v9 (Host.log : (⟨S200000x1, .f32⟩ : BufTy).Contents (Elt F) → (⟨S200000x1, .f32⟩ : BufTy).Contents (Elt F)),
    unary main_call4_v9 main_call4_v10 (broadcastInDim S200000x2 ![0, 1] bcast_S200000x1_S200000x2_0_1 : (⟨S200000x1, .f32⟩ : BufTy).Contents (Elt F) → (⟨S200000x2, .f32⟩ : BufTy).Contents (Elt F)),
    binary main_call4_v5 main_call4_v10 main_v289 (subf : (⟨S200000x2, .f32⟩ : BufTy).Contents (Elt F) → (⟨S200000x2, .f32⟩ : BufTy).Contents (Elt F) → (⟨S200000x2, .f32⟩ : BufTy).Contents (Elt F)) ]

attribute [local irreducible] Host.reduce Host.reduceAdd Host.exp Host.log broadcastInDim subf maximumf constant in
set_option maxRecDepth 65536 in
/-- The run's last segment is that list: a typed reference to a literal buffer transports nothing. -/
theorem seg15_plain : (Seg15 : List (HloOp τ sig (Elt F))) = lsmOps := rfl

variable (m : (ℓ : Loc nD τ sig) → Buf (Elt Ideal) ℓ) (c : Dev nD)

/-- The reference's result array is the row log-softmax of its scattered rows. -/
theorem tail_lsm : U15 m c (Proc.devRef .tc main_v289)
    = Cert.Lsm.lsmLayer (R := 200000) (N := 2) (U14 m c (Proc.devRef .tc main_v288)) := by
  unfold Cert.ReferenceIdeal.RefRun.U15
  rw [seg15_plain]
  after_results_simp
  exact host_lsm_eq _

end Cert.ReferenceIdeal.Dense

end
-- ==== Proof.BridgeOut.lean ====
/-
  The program's tail, on both sides.  Both programs end alike.  The last layer's [200000, 2] rows, computed in batch order,
  are put back in global order by a scatter that writes each row over a matrix of zeros at its global index, the index
  wrapped by the extent where it is negative; then each row is replaced by its log-softmax.  The kernel does the scatter
  on the host and the log-softmax in a pipelined region, which leaves the row log-softmax of the region's whole input
  array; the reference does both on the host, and its outlined log-softmax is the same row log-softmax as a whole matrix.
  The index array is the same argument array on both sides and is still as launched when the scatter reads it.  So when the
  rows going in are equal, the results are equal: the same scatter of equal rows at the same index, then the same function.
-/
import proofs.«114758_j41918880809423_1_alg».proof.Proof.Gen.KernelIdeal.Frame
import proofs.«114758_j41918880809423_1_alg».proof.Proof.RefRun
import proofs.«114758_j41918880809423_1_alg».proof.Proof.RChain
import proofs.«114758_j41918880809423_1_alg».proof.Proof.KChain
import proofs.«114758_j41918880809423_1_alg».proof.Proof.RegionLsm
import proofs.«114758_j41918880809423_1_alg».proof.Proof.RefLsm
import proofs.«114758_j41918880809423_1_alg».proof.Proof.RefTail

set_option maxRecDepth 16384

noncomputable section

namespace Cert.Bridge

open Cert.KernelIdeal Cert.KernelIdeal.Gen
open Idealize.ShloMosaic Idealize.ShloMosaic.TcCoe Idealize.SL.Sem Idealize.ShloMosaic.ValueIdx Idealize.ShloMosaic.StableHlo
open Cert.ReferenceIdeal.RefRun (U0 U1 U2 U3 U4 U5 U6 U7 U8 U9 U10 U11 U12 U13 U14 U15)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

/-- The rows x written over a matrix of zeros at the index wrapped by the extent. -/
def scatRows (idx : IVec S200000 32) (x : FVec Ideal S200000x2 .f32) : FVec Ideal S200000x2 .f32 :=
  Host.scatter scatter_S200000x2_S200000x1_S200000x2_1_0_0_1 (fun _ b => b)
    (broadcastInDim S200000x2 ![] bcast_S_S200000x2 (constant (F := Ideal) S_ .f32 0x00000000#32))
    (broadcastInDim S200000x1 ![0] bcast_S200000_S200000x1_0
      (select (cmpi .slt idx (broadcastInDim S200000 ![] bcast_S_S200000 (constantI S_ 32 0#32)))
        (addi idx (broadcastInDim S200000 ![] bcast_S_S200000 (constantI S_ 32 200000#32))) idx))
    x

/-- The kernel's result array is the row log-softmax of the scattered rows its last region finds. -/
theorem out_lsmK : W20 m ρ c (Proc.devRef .tc main_v229)
    = Cert.Lsm.lsmLayer (R := 200000) (N := 2) (W19 m ρ c (Proc.devRef .tc main_v228)) :=
  (W20_arr m ρ c 1).trans (Cert.KernelIdeal.Dense.lsm11 (V19 m ρ) c)

/-- The kernel's scattered rows: the last layer's rows scattered at the launch index array. -/
theorem out_scatK : W19 m ρ c (Proc.devRef .tc main_v228)
    = scatRows (m ((c : Thread nD τ).loc main_arg19)) (W18 m ρ c (Proc.devRef .tc main_v220)) := by
  have h19 : W18 m ρ c (Proc.devRef .tc main_arg19) = m ((c : Thread nD τ).loc main_arg19) :=
    Cert.KernelIdeal.Chain.at18 m ρ c main_arg19 (by simp [Cert.KernelIdeal.Chain.argL])
  show StableHlo.after hostOps11 (W18 m ρ c) (Proc.devRef .tc main_v228) = _
  after_results_simp
  rw [h19]
  rfl

/-- The reference's scattered rows: the last layer's rows scattered at the launch index array. -/
theorem out_scatR : U14 m' c (Proc.devRef .tc Cert.ReferenceIdeal.main_v288)
    = scatRows (m' ((c.tc : Thread Cert.ReferenceIdeal.nD Cert.ReferenceIdeal.τ).loc Cert.ReferenceIdeal.main_arg19))
        (U13 m' c (Proc.devRef .tc Cert.ReferenceIdeal.main_v280)) := by
  have h19 : U13 m' c (Proc.devRef .tc Cert.ReferenceIdeal.main_arg19)
      = m' ((c.tc : Thread Cert.ReferenceIdeal.nD Cert.ReferenceIdeal.τ).loc Cert.ReferenceIdeal.main_arg19) :=
    Cert.ReferenceIdeal.RefRun.at13 m' c Cert.ReferenceIdeal.main_arg19 (by simp [Cert.ReferenceIdeal.RefRun.argL])
  unfold Cert.ReferenceIdeal.RefRun.U14
  after_results_simp
  rw [h19]
  rfl

/-- The reference's result array is the row log-softmax of its scattered rows. -/
theorem out_lsmR : U15 m' c (Proc.devRef .tc Cert.ReferenceIdeal.main_v289)
    = Cert.Lsm.lsmLayer (R := 200000) (N := 2) (U14 m' c (Proc.devRef .tc Cert.ReferenceIdeal.main_v288)) :=
  Cert.ReferenceIdeal.Dense.tail_lsm m' c

/-- THE TAIL: equal rows into the scatter give equal results. -/
theorem out_eq
    (e19 : m' ((c.tc : Thread Cert.ReferenceIdeal.nD Cert.ReferenceIdeal.τ).loc Cert.ReferenceIdeal.main_arg19)
      = m ((c : Thread nD τ).loc main_arg19))
    (hx : W18 m ρ c (Proc.devRef .tc main_v220) = U13 m' c (Proc.devRef .tc Cert.ReferenceIdeal.main_v280)) :
    W20 m ρ c (Proc.devRef .tc main_v229) = U15 m' c (Proc.devRef .tc Cert.ReferenceIdeal.main_v289) := by
  rw [out_lsmK, out_lsmR, out_scatK, out_scatR, e19, hx]

end Cert.Bridge

end
-- ==== Proof.BridgeAll.lean ====
/-
  The whole chain.  Stage by stage the idealized kernel's program and the reference hold equal arrays: after the first
  and the second community layer, after the attention gate over the gathered community embedding, after the batch-order
  gather, after each of the three building layers, and after the scatter back to global order and the row log-softmax —
  each step from the one before, given that the two launch memories agree on the twenty argument arrays and that no
  destination index of either graph is negative.  The last step is the equation between the two results.
-/
import proofs.«114758_j41918880809423_1_alg».proof.Proof.BridgeC1
import proofs.«114758_j41918880809423_1_alg».proof.Proof.BridgeC2
import proofs.«114758_j41918880809423_1_alg».proof.Proof.BridgeAttn
import proofs.«114758_j41918880809423_1_alg».proof.Proof.BridgeB1
import proofs.«114758_j41918880809423_1_alg».proof.Proof.BridgeB2
import proofs.«114758_j41918880809423_1_alg».proof.Proof.BridgeB3
import proofs.«114758_j41918880809423_1_alg».proof.Proof.BridgeOut

set_option maxRecDepth 16384

noncomputable section

namespace Cert.Bridge

open Idealize.ShloMosaic Idealize.ShloMosaic.TcCoe Idealize.SL.Sem

/-- The two programs' results are one array. -/
theorem final (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h15 : ∀ e, IntOp.cmpi .sge (m ((c.tc : Thread Cert.KernelIdeal.nD Cert.KernelIdeal.τ).loc Cert.KernelIdeal.main_arg15) e) 0#32 = 1#1)
    (h17 : ∀ e, IntOp.cmpi .sge (m ((c.tc : Thread Cert.KernelIdeal.nD Cert.KernelIdeal.τ).loc Cert.KernelIdeal.main_arg17) e) 0#32 = 1#1) :
    Cert.KernelIdeal.Gen.W20 m ρ c (Proc.devRef .tc Cert.KernelIdeal.main_v229) = Cert.ReferenceIdeal.RefRun.U15 m' c (Proc.devRef .tc Cert.ReferenceIdeal.main_v289) := by
  obtain ⟨e0, e1, e2, e3, e4, e5, e6, e7, e8, e9, e10, e11, e12, e13, e14, e15, e16, e17, e18, e19⟩ := hag
  have x1 := c1_x m ρ m' c e1 e2 e3 e16 e17 h17
  have x2 := c2_x m ρ m' c e4 e5 e16 e17 h17 x1
  have fz := attn_eq m ρ m' c e0 e6 e7 e18 x2
  have lx := lx_eq m ρ m' c e19 fz
  have x3 := b1_x m ρ m' c e8 e9 e14 e15 h15 lx
  have x4 := b2_x m ρ m' c e10 e11 e14 e15 h15 x3
  have x5 := b3_x m ρ m' c e12 e13 e14 e15 h15 x4
  exact out_eq m ρ m' c e19 x5

end Cert.Bridge

end
-- ==== Proof.lean ====
/-
  The certificate of the graph network kernel against its reference: the three frames, the sanctioned idealization
  (the ideal pass rewrote nothing), and the equality of the two idealized programs' results on the extended reals.

  The network is two graph-convolution layers over the community graph, a row gather of the community embedding per
  building, a softmax gate over the two modalities, a batch-order gather, three graph-convolution layers over the
  building graph, a scatter back to global order and a row log-softmax.  The kernel runs the dense parts (the products
  X · W, the node updates, the gate, the log-softmax) in twelve pipelined regions and the gathers and scatter-adds on the
  host; the reference runs everything on the host.  Stage by stage the two programs hold equal arrays (Proof/Bridge*):
  a region's output array is one whole-array function of its input arrays (Proof/Region*), which is the function the
  reference's host operations compute (Proof/Lib*, Proof/Spec*, Proof/Ref*); the host stretches between the regions are
  the reference's own operations applied to equal arrays.  The one place the two programs differ in text is the node
  degree: the kernel counts the in-edges into zeros and adds one, the reference counts them into ones through the
  destination index wrapped Python-style; where no destination index is negative — the added precondition — the wrap
  is the identity and the two degrees are one array by commutativity of addition.  The assembly of the claims from the
  two programs' runs and the last stage's equation is Proof/Assembly.
-/
import proofs.«114758_j41918880809423_1_alg».proof.Proof.Assembly
import proofs.«114758_j41918880809423_1_alg».proof.Proof.BridgeAll

noncomputable section

namespace Cert.Proof

theorem claim : Cert.Claim :=
  Cert.Assembly.claim_of (fun m ρ m' c hag h15 h17 => Cert.Bridge.final m ρ m' c hag h15 h17)

end Cert.Proof

end
